-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S_ : Shape := ⟨0, ![]⟩
abbrev S50000x512 : Shape := ⟨2, ![50000, 512]⟩
abbrev S2x160000 : Shape := ⟨2, ![2, 160000]⟩
abbrev S3x512x512 : Shape := ⟨3, ![3, 512, 512]⟩
abbrev S3x512 : Shape := ⟨2, ![3, 512]⟩
abbrev S1024x512 : Shape := ⟨2, ![1024, 512]⟩
abbrev S512 : Shape := ⟨1, ![512]⟩

class Facts : Prop where
  reducesTo_S_S_d : S_.ReducesTo [] S_
  h_S_ : 0 < S_.numel
  bcast_S_S50000x512 : S_.BroadcastsInDim S50000x512 (![] : Fin 0 → Fin S50000x512.rank)
  reducesTo_S50000x512_S_d0_1 : S50000x512.ReducesTo [0, 1] S_
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg9 : FVec F S_ .f32) (main_v32 : IVec S_ 1) (main_v33 : FVec F S512 .f32) : IVec S_ 1 :=
  let main_cst_12 : FVec F S_ .f32 := constant S_ .f32 0x7F800000#32
  let main_v34 : FVec F S512 .f32 := broadcastInDim S512 ![] bcast_S_S512 main_cst_12
  let main_v35 : IVec S512 1 := cmpf .olt main_v33 main_v34
  let main_c_13 : IVec S_ 1 := constantI S_ 1 1#1
  let main_v36 : IVec S_ 1 := (fun x v => Host.reduce IntOp.andi x v reducesTo_S512_S_d0 h_S_) main_v35 main_c_13
  let main_v37 : IVec S_ 1 := andi main_v32 main_v36
  let main_v38 : FVec F S_ .f32 := Host.absf main_arg9
  let main_cst_14 : FVec F S_ .f32 := constant S_ .f32 0x7F800000#32
  let main_v39 : IVec S_ 1 := cmpf .olt main_v38 main_cst_14
  let main_c_15 : IVec S_ 1 := constantI S_ 1 1#1
  let main_v40 : IVec S_ 1 := (fun x v => Host.reduce IntOp.andi x v reducesTo_S_S_d h_S_) main_v39 main_c_15
  let main_v41 : IVec S_ 1 := andi main_v37 main_v40
  main_v41

def fn_part1 {F : FTy → Type} [FloatOps F] (main_arg5 : FVec F S3x512 .f32) (main_arg6 : FVec F S3x512 .f32) (main_arg7 : FVec F S1024x512 .f32) (main_arg8 : FVec F S512 .f32) (main_arg9 : FVec F S_ .f32) (main_v12 : IVec S_ 1) (main_v15 : IVec S3x512 1) (main_c_5 : IVec S_ 1) : IVec S_ 1 :=
  let main_v16 : IVec S_ 1 := (fun x v => Host.reduce IntOp.andi x v reducesTo_S3x512_S_d0_1 h_S_) main_v15 main_c_5
  let main_v17 : IVec S_ 1 := andi main_v12 main_v16
  let main_v18 : FVec F S3x512 .f32 := Host.absf main_arg5
  let main_cst_6 : FVec F S_ .f32 := constant S_ .f32 0x7F800000#32
  let main_v19 : FVec F S3x512 .f32 := broadcastInDim S3x512 ![] bcast_S_S3x512 main_cst_6
  let main_v20 : IVec S3x512 1 := cmpf .olt main_v18 main_v19
  let main_c_7 : IVec S_ 1 := constantI S_ 1 1#1
  let main_v21 : IVec S_ 1 := (fun x v => Host.reduce IntOp.andi x v reducesTo_S3x512_S_d0_1 h_S_) main_v20 main_c_7
  let main_v22 : IVec S_ 1 := andi main_v17 main_v21
  let main_v23 : FVec F S3x512 .f32 := Host.absf main_arg6
  let main_cst_8 : FVec F S_ .f32 := constant S_ .f32 0x7F800000#32
  let main_v24 : FVec F S3x512 .f32 := broadcastInDim S3x512 ![] bcast_S_S3x512 main_cst_8
  let main_v25 : IVec S3x512 1 := cmpf .olt main_v23 main_v24
  let main_c_9 : IVec S_ 1 := constantI S_ 1 1#1
  let main_v26 : IVec S_ 1 := (fun x v => Host.reduce IntOp.andi x v reducesTo_S3x512_S_d0_1 h_S_) main_v25 main_c_9
  let main_v27 : IVec S_ 1 := andi main_v22 main_v26
  let main_v28 : FVec F S1024x512 .f32 := Host.absf main_arg7
  let main_cst_10 : FVec F S_ .f32 := constant S_ .f32 0x7F800000#32
  let main_v29 : FVec F S1024x512 .f32 := broadcastInDim S1024x512 ![] bcast_S_S1024x512 main_cst_10
  let main_v30 : IVec S1024x512 1 := cmpf .olt main_v28 main_v29
  let main_c_11 : IVec S_ 1 := constantI S_ 1 1#1
  let main_v31 : IVec S_ 1 := (fun x v => Host.reduce IntOp.andi x v reducesTo_S1024x512_S_d0_1 h_S_) main_v30 main_c_11
  let main_v32 : IVec S_ 1 := andi main_v27 main_v31
  let main_v33 : FVec F S512 .f32 := Host.absf main_arg8
  fn_part2 (F := F) main_arg9 main_v32 main_v33

def fn {F : FTy → Type} [FloatOps F] (main_arg0 : FVec F S_ .f32) (main_arg1 : FVec F S50000x512 .f32) (main_arg2 : IVec S2x160000 32) (main_arg3 : FVec F S3x512x512 .f32) (main_arg4 : FVec F S3x512 .f32) (main_arg5 : FVec F S3x512 .f32) (main_arg6 : FVec F S3x512 .f32) (main_arg7 : FVec F S1024x512 .f32) (main_arg8 : FVec F S512 .f32) (main_arg9 : FVec F S_ .f32) : IVec S_ 1 :=
  let main_v0 : FVec F S_ .f32 := Host.absf main_arg0
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_v3 : FVec F S50000x512 .f32 := Host.absf main_arg1
  let main_cst_0 : FVec F S_ .f32 := constant S_ .f32 0x7F800000#32
  let main_v4 : FVec F S50000x512 .f32 := broadcastInDim S50000x512 ![] bcast_S_S50000x512 main_cst_0
  let main_v5 : IVec S50000x512 1 := cmpf .olt main_v3 main_v4
  let main_c_1 : IVec S_ 1 := constantI S_ 1 1#1
  let main_v6 : IVec S_ 1 := (fun x v => Host.reduce IntOp.andi x v reducesTo_S50000x512_S_d0_1 h_S_) main_v5 main_c_1
  let main_v7 : IVec S_ 1 := andi main_v2 main_v6
  let main_v8 : FVec F S3x512x512 .f32 := Host.absf main_arg3
  let main_cst_2 : FVec F S_ .f32 := constant S_ .f32 0x7F800000#32
  let main_v9 : FVec F S3x512x512 .f32 := broadcastInDim S3x512x512 ![] bcast_S_S3x512x512 main_cst_2
  let main_v10 : IVec S3x512x512 1 := cmpf .olt main_v8 main_v9
  let main_c_3 : IVec S_ 1 := constantI S_ 1 1#1
  let main_v11 : IVec S_ 1 := (fun x v => Host.reduce IntOp.andi x v reducesTo_S3x512x512_S_d0_1_2 h_S_) main_v10 main_c_3
  let main_v12 : IVec S_ 1 := andi main_v7 main_v11
  let main_v13 : FVec F S3x512 .f32 := Host.absf main_arg4
  let main_cst_4 : FVec F S_ .f32 := constant S_ .f32 0x7F800000#32
  let main_v14 : FVec F S3x512 .f32 := broadcastInDim S3x512 ![] bcast_S_S3x512 main_cst_4
  let main_v15 : IVec S3x512 1 := cmpf .olt main_v13 main_v14
  let main_c_5 : IVec S_ 1 := constantI S_ 1 1#1
  fn_part1 (F := F) main_arg5 main_arg6 main_arg7 main_arg8 main_arg9 main_v12 main_v15 main_c_5
-- ==== Kernel.lean ====
abbrev S_ : Shape := ⟨0, ![]⟩
abbrev S50000x512 : Shape := ⟨2, ![50000, 512]⟩
abbrev S2x160000 : Shape := ⟨2, ![2, 160000]⟩
abbrev S3x512x512 : Shape := ⟨3, ![3, 512, 512]⟩
abbrev S3x512 : Shape := ⟨2, ![3, 512]⟩
abbrev S1024x512 : Shape := ⟨2, ![1024, 512]⟩
abbrev S512 : Shape := ⟨1, ![512]⟩
abbrev S1x160000 : Shape := ⟨2, ![1, 160000]⟩
abbrev S160000 : Shape := ⟨1, ![160000]⟩
abbrev S50000 : Shape := ⟨1, ![50000]⟩
abbrev S160000x1 : Shape := ⟨2, ![160000, 1]⟩
abbrev S1x512x512 : Shape := ⟨3, ![1, 512, 512]⟩
abbrev S512x512 : Shape := ⟨2, ![512, 512]⟩
abbrev S2000x512 : Shape := ⟨2, ![2000, 512]⟩
abbrev S160000x512 : Shape := ⟨2, ![160000, 512]⟩
abbrev S1x512 : Shape := ⟨2, ![1, 512]⟩
abbrev S2000 : Shape := ⟨1, ![2000]⟩
abbrev S2000x1 : Shape := ⟨2, ![2000, 1]⟩
abbrev S1x1 : Shape := ⟨2, ![1, 1]⟩

abbrev nBuf : Space → Nat
  | .hbm => 144
  | .vmem => 49
  | .smem => 0
  | _ => 0

abbrev hbmTy0_0 (i : Nat) : BufTy := match i % 128 with
  | 0 => ⟨S_, .f32⟩
  | 1 => ⟨S50000x512, .f32⟩
  | 2 => ⟨S2x160000, .i32⟩
  | 3 => ⟨S3x512x512, .f32⟩
  | 4 => ⟨S3x512, .f32⟩
  | 5 => ⟨S3x512, .f32⟩
  | 6 => ⟨S3x512, .f32⟩
  | 7 => ⟨S1024x512, .f32⟩
  | 8 => ⟨S512, .f32⟩
  | 9 => ⟨S_, .f32⟩
  | 10 => ⟨S1x160000, .i32⟩
  | 11 => ⟨S160000, .i32⟩
  | 12 => ⟨S1x160000, .i32⟩
  | 13 => ⟨S160000, .i32⟩
  | 14 => ⟨S_, .f32⟩
  | 15 => ⟨S160000, .f32⟩
  | 16 => ⟨S_, .f32⟩
  | 17 => ⟨S50000, .f32⟩
  | 18 => ⟨S160000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S160000, .i32⟩
  | 33 => ⟨S160000, .i1⟩
  | 34 => ⟨S_, .i32⟩
  | 35 => ⟨S160000, .i32⟩
  | 36 => ⟨S160000, .i32⟩
  | 37 => ⟨S160000, .i32⟩
  | 38 => ⟨S160000x1, .i32⟩
  | 39 => ⟨S160000, .f32⟩
  | 40 => ⟨S_, .i32⟩
  | 41 => ⟨S160000, .i32⟩
  | 42 => ⟨S160000, .i1⟩
  | 43 => ⟨S_, .i32⟩
  | 44 => ⟨S160000, .i32⟩
  | 45 => ⟨S160000, .i32⟩
  | 46 => ⟨S160000, .i32⟩
  | 47 => ⟨S160000x1, .i32⟩
  | 48 => ⟨S160000, .f32⟩
  | 49 => ⟨S160000, .f32⟩
  | 50 => ⟨S1x512x512, .f32⟩
  | 51 => ⟨S512x512, .f32⟩
  | 52 => ⟨S50000x512, .f32⟩
  | 53 => ⟨S_, .i32⟩
  | 54 => ⟨S160000, .i32⟩
  | 55 => ⟨S160000, .i1⟩
  | 56 => ⟨S_, .i32⟩
  | 57 => ⟨S160000, .i32⟩
  | 58 => ⟨S160000, .i32⟩
  | 59 => ⟨S160000, .i32⟩
  | 60 => ⟨S160000x1, .i32⟩
  | 61 => ⟨S160000x512, .f32⟩
  | 62 => ⟨S160000x1, .f32⟩
  | 63 => ⟨S160000x512, .f32⟩
  | 64 => ⟨S160000x512, .f32⟩
  | 65 => ⟨S_, .f32⟩
  | 66 => ⟨S50000x512, .f32⟩
  | 67 => ⟨S160000x1, .i32⟩
  | 68 => ⟨S50000x512, .f32⟩
  | 69 => ⟨S1x512, .f32⟩
  | 70 => ⟨S512, .f32⟩
  | 71 => ⟨S1x512, .f32⟩
  | 72 => ⟨S512, .f32⟩
  | 73 => ⟨S1x512, .f32⟩
  | 74 => ⟨S512, .f32⟩
  | 75 => ⟨S1x512, .f32⟩
  | 76 => ⟨S1x512, .f32⟩
  | 77 => ⟨S1x512, .f32⟩
  | 78 => ⟨S50000x512, .f32⟩
  | 79 => ⟨S1x512x512, .f32⟩
  | 80 => ⟨S512x512, .f32⟩
  | 81 => ⟨S50000x512, .f32⟩
  | 82 => ⟨S_, .i32⟩
  | 83 => ⟨S160000, .i32⟩
  | 84 => ⟨S160000, .i1⟩
  | 85 => ⟨S_, .i32⟩
  | 86 => ⟨S160000, .i32⟩
  | 87 => ⟨S160000, .i32⟩
  | 88 => ⟨S160000, .i32⟩
  | 89 => ⟨S160000x1, .i32⟩
  | 90 => ⟨S160000x512, .f32⟩
  | 91 => ⟨S160000x1, .f32⟩
  | 92 => ⟨S160000x512, .f32⟩
  | 93 => ⟨S160000x512, .f32⟩
  | 94 => ⟨S_, .f32⟩
  | 95 => ⟨S50000x512, .f32⟩
  | 96 => ⟨S160000x1, .i32⟩
  | 97 => ⟨S50000x512, .f32⟩
  | 98 => ⟨S1x512, .f32⟩
  | 99 => ⟨S512, .f32⟩
  | 100 => ⟨S1x512, .f32⟩
  | 101 => ⟨S512, .f32⟩
  | 102 => ⟨S1x512, .f32⟩
  | 103 => ⟨S512, .f32⟩
  | 104 => ⟨S1x512, .f32⟩
  | 105 => ⟨S1x512, .f32⟩
  | 106 => ⟨S1x512, .f32⟩
  | 107 => ⟨S512x512, .f32⟩
  | 108 => ⟨S512x512, .f32⟩
  | 109 => ⟨S1x512, .f32⟩
  | 110 => ⟨S50000x512, .f32⟩
  | 111 => ⟨S1x512x512, .f32⟩
  | 112 => ⟨S512x512, .f32⟩
  | 113 => ⟨S50000x512, .f32⟩
  | 114 => ⟨S_, .i32⟩
  | 115 => ⟨S160000, .i32⟩
  | 116 => ⟨S160000, .i1⟩
  | 117 => ⟨S_, .i32⟩
  | 118 => ⟨S160000, .i32⟩
  | 119 => ⟨S160000, .i32⟩
  | 120 => ⟨S160000, .i32⟩
  | 121 => ⟨S160000x1, .i32⟩
  | 122 => ⟨S160000x512, .f32⟩
  | 123 => ⟨S160000x1, .f32⟩
  | 124 => ⟨S160000x512, .f32⟩
  | 125 => ⟨S160000x512, .f32⟩
  | 126 => ⟨S_, .f32⟩
  | 127 => ⟨S50000x512, .f32⟩
  | _ => ⟨S_, .f32⟩

abbrev hbmTy0_1 (i : Nat) : BufTy := match i % 128 with
  | 0 => ⟨S160000x1, .i32⟩
  | 1 => ⟨S50000x512, .f32⟩
  | 2 => ⟨S1x512, .f32⟩
  | 3 => ⟨S512, .f32⟩
  | 4 => ⟨S1x512, .f32⟩
  | 5 => ⟨S512, .f32⟩
  | 6 => ⟨S1x512, .f32⟩
  | 7 => ⟨S512, .f32⟩
  | 8 => ⟨S1x512, .f32⟩
  | 9 => ⟨S1x512, .f32⟩
  | 10 => ⟨S1x512, .f32⟩
  | 11 => ⟨S512x512, .f32⟩
  | 12 => ⟨S512x512, .f32⟩
  | 13 => ⟨S1x512, .f32⟩
  | 14 => ⟨S1x1, .f32⟩
  | 15 => ⟨S50000x512, .f32⟩
  | _ => ⟨S_, .f32⟩

abbrev hbmTy (i : Nat) : BufTy := match i / 128 with
  | 0 => hbmTy0_0 i
  | 1 => hbmTy0_1 i
  | _ => ⟨S_, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S2000x512, .f32⟩
  | .local _ .vmem, ⟨11, _⟩ => ⟨S2000x512, .f32⟩
  | .local _ .vmem, ⟨12, _⟩ => ⟨S2000x512, .f32⟩
  | .local _ .vmem, ⟨13, _⟩ => ⟨S2000x512, .f32⟩
  | .local _ .vmem, ⟨14, _⟩ => ⟨S512x512, .f32⟩
  | .local _ .vmem, ⟨15, _⟩ => ⟨S2000x512, .f32⟩
  | .local _ .vmem, ⟨16, _⟩ => ⟨S2000x512, .f32⟩
  | .local _ .vmem, ⟨17, _⟩ => ⟨S2000x512, .f32⟩
  | .local _ .vmem, ⟨18, _⟩ => ⟨S2000x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S2000x512, .f32⟩
  | .local _ .vmem, ⟨23, _⟩ => ⟨S2000x512, .f32⟩
  | .local _ .vmem, ⟨24, _⟩ => ⟨S512x512, .f32⟩
  | .local _ .vmem, ⟨25, _⟩ => ⟨S512x512, .f32⟩
  | .local _ .vmem, ⟨26, _⟩ => ⟨S1x512, .f32⟩
  | .local _ .vmem, ⟨27, _⟩ => ⟨S2000x512, .f32⟩
  | .local _ .vmem, ⟨28, _⟩ => ⟨S2000x512, .f32⟩
  | .local _ .vmem, ⟨29, _⟩ => ⟨S2000x512, .f32⟩
  | .local _ .vmem, ⟨30, _⟩ => ⟨S2000x512, .f32⟩
  | .local _ .vmem, ⟨31, _⟩ => ⟨S512x512, .f32⟩
  | .local _ .vmem, ⟨32, _⟩ => ⟨S2000x512, .f32⟩
  | .local _ .vmem, ⟨33, _⟩ => ⟨S2000x512, .f32⟩
  | .local _ .vmem, ⟨34, _⟩ => ⟨S2000x512, .f32⟩
  | .local _ .vmem, ⟨35, _⟩ => ⟨S2000x512, .f32⟩
  | .local _ .vmem, ⟨36, _⟩ => ⟨S1x512, .f32⟩
  | .local _ .vmem, ⟨37, _⟩ => ⟨S1x512, .f32⟩
  | .local _ .vmem, ⟨38, _⟩ => ⟨S1x512, .f32⟩
  | .local _ .vmem, ⟨39, _⟩ => ⟨S2000x512, .f32⟩
  | .local _ .vmem, ⟨40, _⟩ => ⟨S2000x512, .f32⟩
  | .local _ .vmem, ⟨41, _⟩ => ⟨S512x512, .f32⟩
  | .local _ .vmem, ⟨42, _⟩ => ⟨S512x512, .f32⟩
  | .local _ .vmem, ⟨43, _⟩ => ⟨S1x512, .f32⟩
  | .local _ .vmem, ⟨44, _⟩ => ⟨S2000x512, .f32⟩
  | .local _ .vmem, ⟨45, _⟩ => ⟨S2000x512, .f32⟩
  | .local _ .vmem, ⟨46, _⟩ => ⟨S1x1, .f32⟩
  | .local _ .vmem, ⟨47, _⟩ => ⟨S2000x512, .f32⟩
  | .local _ .vmem, ⟨48, _⟩ => ⟨S2000x512, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_10 : Ref sig .tc := ⟨.hbm, 82, rfl⟩
abbrev main_v58 : Ref sig .tc := ⟨.hbm, 83, rfl⟩
abbrev main_v59 : Ref sig .tc := ⟨.hbm, 84, rfl⟩
abbrev main_c_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_12 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_13 : Ref sig .tc := ⟨.hbm, 114, rfl⟩
abbrev main_v87 : Ref sig .tc := ⟨.hbm, 115, rfl⟩
abbrev main_v88 : Ref sig .tc := ⟨.hbm, 116, rfl⟩
abbrev main_c_14 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_15 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc3_stg5_0 : Ref sig .tc := ⟨.vmem, 24, rfl⟩
abbrev cc3_stg6_0 : Ref sig .tc := ⟨.vmem, 25, rfl⟩
abbrev cc3_stg7_0 : Ref sig .tc := ⟨.vmem, 26, rfl⟩
abbrev cc3_stg8_0 : Ref sig .tc := ⟨.vmem, 27, rfl⟩
abbrev cc3_stg8_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg4_1 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg7_0 : Ref sig .tc := ⟨.vmem, 43, rfl⟩
abbrev cc5_stg8_0 : Ref sig .tc := ⟨.vmem, 44, rfl⟩
abbrev cc5_stg8_1 : Ref sig .tc := ⟨.vmem, 45, rfl⟩
abbrev cc5_stg9_0 : Ref sig .tc := ⟨.vmem, 46, rfl⟩
abbrev cc5_stg10_0 : Ref sig .tc := ⟨.vmem, 47, rfl⟩
abbrev cc5_stg10_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc3_sem5_0 : DmaSem sig := 24
abbrev cc3_sem6_0 : DmaSem sig := 25
abbrev cc3_sem7_0 : DmaSem sig := 26
abbrev cc3_sem8_0 : DmaSem sig := 27
abbrev cc3_sem8_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem4_1 : DmaSem sig := 40
abbrev cc5_sem5_0 : DmaSem sig := 41
abbrev cc5_sem6_0 : DmaSem sig := 42
abbrev cc5_sem7_0 : DmaSem sig := 43
abbrev cc5_sem8_0 : DmaSem sig := 44
abbrev cc5_sem8_1 : DmaSem sig := 45
abbrev cc5_sem9_0 : DmaSem sig := 46
abbrev cc5_sem10_0 : DmaSem sig := 47
abbrev cc5_sem10_1 : DmaSem sig := 48

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S512x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S512x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x512 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x512 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S512x512 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S512x512 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x512 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S2000x512 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 1 → Memref sig .tc .vmem S1x1 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S2000x512 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S50000 : S_.BroadcastsInDim S50000 (![] : Fin 0 → Fin S50000.rank)
  bcast_S160000_S160000x1_0 : S160000.BroadcastsInDim S160000x1 (![0] : Fin 1 → Fin S160000x1.rank)
  slices_S3x512x512_S1x512x512_0_0_0 : S3x512x512.Slices ![0, 0, 0] S1x512x512
  shapeCasts_S1x512x512_S512x512 : S1x512x512.ShapeCasts S512x512
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bcast_S160000x1_S160000x512_0_1 : S160000x1.BroadcastsInDim S160000x512 (![0, 1] : Fin 2 → Fin S160000x512.rank)
  bcast_S_S50000x512 : S_.BroadcastsInDim S50000x512 (![] : Fin 0 → Fin S50000x512.rank)
  slices_S3x512_S1x512_0_0 : S3x512.Slices ![0, 0] S1x512
  shapeCasts_S1x512_S512 : S1x512.ShapeCasts S512
  shapeCasts_S512_S1x512 : S512.ShapeCasts S1x512
  shapeCasts_S2000x512_S2000x512 : S2000x512.ShapeCasts S2000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  reduces_S2000x512_S2000 : S2000x512.Reduces [1] S2000
  shapeCasts_S2000_S2000x1 : S2000.ShapeCasts S2000x1
  broadcasts_S2000x1_S2000x512 : S2000x1.Broadcasts S2000x512
  slices_S3x512x512_S1x512x512_1_0_0 : S3x512x512.Slices ![1, 0, 0] S1x512x512
  slices_S3x512_S1x512_1_0 : S3x512.Slices ![1, 0] S1x512
  slices_S1024x512_S512x512_0_0 : S1024x512.Slices ![0, 0] S512x512
  slices_S1024x512_S512x512_512_0 : S1024x512.Slices ![512, 0] S512x512
  slices_S3x512x512_S1x512x512_2_0_0 : S3x512x512.Slices ![2, 0, 0] S1x512x512
  slices_S3x512_S1x512_2_0 : S3x512.Slices ![2, 0] S1x512
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  scatter_S50000_S160000x1_S160000_n_0_0_1_wf : ScatterDims.WF S50000 S160000x1 S160000 [] [0] [0] 1
  gather_S50000_S160000x1_S160000_n_0_n_n_0_1_1_wf : GatherDims.WF S50000 S160000x1 S160000 [] [0] [] [0] [] 1 ![1]
  dot_S2000x512_S512x512_S2000x512_1_0_0_1_n_n_wf : DotDims.WF S2000x512 S512x512 S2000x512 [1] [0] [0] [1] [] []
  gather_S50000x512_S160000x1_S160000x512_1_0_n_n_0_1_1512_wf : GatherDims.WF S50000x512 S160000x1 S160000x512 [1] [0] [] [0] [] 1 ![1, 512]
  scatter_S50000x512_S160000x1_S160000x512_1_0_0_1_wf : ScatterDims.WF S50000x512 S160000x1 S160000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S50000x512.size a
  hwx0_2 : ∀ i : grid0.Coords, EltTy.bits .f32 = 32 ∨ (Rect.block (s := S50000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x512.size a ≤ S50000x512.size a
  hwx1_4 : ∀ i : grid1.Coords, EltTy.bits .f32 = 32 ∨ (Rect.block (s := S50000x512) S2000x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x512.size a
  hwx2_0 : ∀ i : grid2.Coords, EltTy.bits .f32 = 32 ∨ (Rect.block (s := S50000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x512.size a ≤ S50000x512.size a
  hwx2_2 : ∀ i : grid2.Coords, EltTy.bits .f32 = 32 ∨ (Rect.block (s := S50000x512) S2000x512.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S50000x512.size a
  hwx3_0 : ∀ i : grid3.Coords, EltTy.bits .f32 = 32 ∨ (Rect.block (s := S50000x512) S2000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x512.size a ≤ S1x512.size a
  hwx3_1 : ∀ i : grid3.Coords, EltTy.bits .f32 = 32 ∨ (Rect.block (s := S1x512) S1x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x512.size a ≤ S50000x512.size a
  hwx3_4 : ∀ i : grid3.Coords, EltTy.bits .f32 = 32 ∨ (Rect.block (s := S50000x512) S2000x512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x512.size a ≤ S512x512.size a
  hwx3_5 : ∀ i : grid3.Coords, EltTy.bits .f32 = 32 ∨ (Rect.block (s := S512x512) S512x512.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S512x512.size a ≤ S512x512.size a
  hwx3_6 : ∀ i : grid3.Coords, EltTy.bits .f32 = 32 ∨ (Rect.block (s := S512x512) S512x512.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x512.size a ≤ S1x512.size a
  hwx3_7 : ∀ i : grid3.Coords, EltTy.bits .f32 = 32 ∨ (Rect.block (s := S1x512) S1x512.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x512.size a ≤ S50000x512.size a
  hwx3_8 : ∀ i : grid3.Coords, EltTy.bits .f32 = 32 ∨ (Rect.block (s := S50000x512) S2000x512.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x512.size a ≤ S50000x512.size a
  hwx4_0 : ∀ i : grid4.Coords, EltTy.bits .f32 = 32 ∨ (Rect.block (s := S50000x512) S2000x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .f32 = 32 ∨ (Rect.block (s := S512x512) S512x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x512.size a ≤ S50000x512.size a
  hwx4_2 : ∀ i : grid4.Coords, EltTy.bits .f32 = 32 ∨ (Rect.block (s := S50000x512) S2000x512.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x512.size a ≤ S50000x512.size a
  hwx5_0 : ∀ i : grid5.Coords, EltTy.bits .f32 = 32 ∨ (Rect.block (s := S50000x512) S2000x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x512.size a ≤ S1x512.size a
  hwx5_1 : ∀ i : grid5.Coords, EltTy.bits .f32 = 32 ∨ (Rect.block (s := S1x512) S1x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x512.size a ≤ S1x512.size a
  hwx5_3 : ∀ i : grid5.Coords, EltTy.bits .f32 = 32 ∨ (Rect.block (s := S1x512) S1x512.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x512.size a ≤ S50000x512.size a
  hwx5_4 : ∀ i : grid5.Coords, EltTy.bits .f32 = 32 ∨ (Rect.block (s := S50000x512) S2000x512.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S512x512.size a ≤ S512x512.size a
  hwx5_5 : ∀ i : grid5.Coords, EltTy.bits .f32 = 32 ∨ (Rect.block (s := S512x512) S512x512.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S512x512.size a ≤ S512x512.size a
  hwx5_6 : ∀ i : grid5.Coords, EltTy.bits .f32 = 32 ∨ (Rect.block (s := S512x512) S512x512.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x512.size a ≤ S1x512.size a
  hwx5_7 : ∀ i : grid5.Coords, EltTy.bits .f32 = 32 ∨ (Rect.block (s := S1x512) S1x512.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S2000x512.size a ≤ S50000x512.size a
  hwx5_8 : ∀ i : grid5.Coords, EltTy.bits .f32 = 32 ∨ (Rect.block (s := S50000x512) S2000x512.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x1.size a ≤ S1x1.size a
  hwx5_9 : ∀ i : grid5.Coords, EltTy.bits .f32 = 32 ∨ (Rect.block (s := S1x1) S1x1.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S2000x512.size a ≤ S50000x512.size a
  hwx5_10 : ∀ i : grid5.Coords, EltTy.bits .f32 = 32 ∨ (Rect.block (s := S50000x512) S2000x512.size (cc5_transform_10 i) (hinb5_10 i)).WholeWords (EltTy.packing .f32)

variable [Facts₀]

def scatter_S50000_S160000x1_S160000_n_0_0_1 : ScatterDims S50000 S160000x1 S160000 where
  updateWindowDims := []
  insertedWindowDims := [0]
  scatterDimsToOperandDims := [0]
  indexVectorDim := 1
  wf := scatter_S50000_S160000x1_S160000_n_0_0_1_wf
def gather_S50000_S160000x1_S160000_n_0_n_n_0_1_1 : GatherDims S50000 S160000x1 S160000 where
  offsetDims := []
  collapsedSliceDims := [0]
  operandBatchingDims := []
  startIndicesBatchingDims := []
  startIndexMap := [0]
  indexVectorDim := 1
  sliceSizes := ![1]
  wf := gather_S50000_S160000x1_S160000_n_0_n_n_0_1_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S50000x512_S160000x1_S160000x512_1_0_n_n_0_1_1512 : GatherDims S50000x512 S160000x1 S160000x512 where
  offsetDims := [1]
  collapsedSliceDims := [0]
  operandBatchingDims := []
  startIndicesBatchingDims := []
  startIndexMap := [0]
  indexVectorDim := 1
  sliceSizes := ![1, 512]
  wf := gather_S50000x512_S160000x1_S160000x512_1_0_n_n_0_1_1512_wf
def scatter_S50000x512_S160000x1_S160000x512_1_0_0_1 : ScatterDims S50000x512 S160000x1 S160000x512 where
  updateWindowDims := [1]
  insertedWindowDims := [0]
  scatterDimsToOperandDims := [0]
  indexVectorDim := 1
  wf := scatter_S50000x512_S160000x1_S160000x512_1_0_0_1_wf

abbrev win0_0 : Pipeline.Window sig grid0 :=
  Pipeline.Window.ofSpec (Memref.whole main_arg1) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S2000x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v54) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S2000x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v70) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S1x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S2000x512.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v80) S512x512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v81) S512x512.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v82) S1x512.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v83) S2000x512.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v83) S2000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v85) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v86) S2000x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v99) S2000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v106) S1x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v107) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v108) S1x512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v83) S2000x512.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v109) S512x512.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v110) S512x512.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v111) S1x512.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_arg1) S2000x512.size cc5_transform_8 reads5_8 false false 2 stage5_8 sem5_8
    hrank5 hreads5_8 hinb5_8 nbuf5_8 (Memref.isWhole_whole _) hwx5_8 hstage5_8

abbrev win5_9 : Pipeline.Window sig grid5 :=
  Pipeline.Window.ofSpec (Memref.whole main_v112) S1x1.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v113) S2000x512.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

class Facts : Prop extends Facts₀ where

variable [Facts]
-- ==== ReferenceIdeal.lean ====
abbrev S_ : Shape := ⟨0, ![]⟩
abbrev S50000x512 : Shape := ⟨2, ![50000, 512]⟩
abbrev S2x160000 : Shape := ⟨2, ![2, 160000]⟩
abbrev S3x512x512 : Shape := ⟨3, ![3, 512, 512]⟩
abbrev S3x512 : Shape := ⟨2, ![3, 512]⟩
abbrev S1024x512 : Shape := ⟨2, ![1024, 512]⟩
abbrev S512 : Shape := ⟨1, ![512]⟩
abbrev S1x160000 : Shape := ⟨2, ![1, 160000]⟩
abbrev S160000 : Shape := ⟨1, ![160000]⟩
abbrev S50000 : Shape := ⟨1, ![50000]⟩
abbrev S160000x1 : Shape := ⟨2, ![160000, 1]⟩
abbrev S1x512x512 : Shape := ⟨3, ![1, 512, 512]⟩
abbrev S512x512 : Shape := ⟨2, ![512, 512]⟩
abbrev S1x512 : Shape := ⟨2, ![1, 512]⟩
abbrev S160000x512 : Shape := ⟨2, ![160000, 512]⟩
abbrev S50000x1 : Shape := ⟨2, ![50000, 1]⟩
abbrev S50000x1024 : Shape := ⟨2, ![50000, 1024]⟩

abbrev nBuf : Space → Nat
  | .hbm => 263
  | .vmem => 0
  | .smem => 0
  | _ => 0

abbrev hbmTy0_0 (i : Nat) : BufTy := match i % 128 with
  | 0 => ⟨S_, .f32⟩
  | 1 => ⟨S50000x512, .f32⟩
  | 2 => ⟨S2x160000, .i32⟩
  | 3 => ⟨S3x512x512, .f32⟩
  | 4 => ⟨S3x512, .f32⟩
  | 5 => ⟨S3x512, .f32⟩
  | 6 => ⟨S3x512, .f32⟩
  | 7 => ⟨S1024x512, .f32⟩
  | 8 => ⟨S512, .f32⟩
  | 9 => ⟨S_, .f32⟩
  | 10 => ⟨S1x160000, .i32⟩
  | 11 => ⟨S160000, .i32⟩
  | 12 => ⟨S1x160000, .i32⟩
  | 13 => ⟨S160000, .i32⟩
  | 14 => ⟨S_, .f32⟩
  | 15 => ⟨S160000, .f32⟩
  | 16 => ⟨S_, .f32⟩
  | 17 => ⟨S50000, .f32⟩
  | 18 => ⟨S160000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S160000, .i32⟩
  | 33 => ⟨S160000, .i1⟩
  | 34 => ⟨S_, .i32⟩
  | 35 => ⟨S160000, .i32⟩
  | 36 => ⟨S160000, .i32⟩
  | 37 => ⟨S160000, .i32⟩
  | 38 => ⟨S160000x1, .i32⟩
  | 39 => ⟨S160000, .f32⟩
  | 40 => ⟨S_, .i32⟩
  | 41 => ⟨S160000, .i32⟩
  | 42 => ⟨S160000, .i1⟩
  | 43 => ⟨S_, .i32⟩
  | 44 => ⟨S160000, .i32⟩
  | 45 => ⟨S160000, .i32⟩
  | 46 => ⟨S160000, .i32⟩
  | 47 => ⟨S160000x1, .i32⟩
  | 48 => ⟨S160000, .f32⟩
  | 49 => ⟨S160000, .f32⟩
  | 50 => ⟨S1x512x512, .f32⟩
  | 51 => ⟨S512x512, .f32⟩
  | 52 => ⟨S1x512, .f32⟩
  | 53 => ⟨S512, .f32⟩
  | 54 => ⟨S50000x512, .f32⟩
  | 55 => ⟨S_, .i32⟩
  | 56 => ⟨S160000, .i32⟩
  | 57 => ⟨S160000, .i1⟩
  | 58 => ⟨S_, .i32⟩
  | 59 => ⟨S160000, .i32⟩
  | 60 => ⟨S160000, .i32⟩
  | 61 => ⟨S160000, .i32⟩
  | 62 => ⟨S160000x1, .i32⟩
  | 63 => ⟨S160000x512, .f32⟩
  | 64 => ⟨S160000x1, .f32⟩
  | 65 => ⟨S160000x512, .f32⟩
  | 66 => ⟨S160000x512, .f32⟩
  | 67 => ⟨S_, .f32⟩
  | 68 => ⟨S50000x512, .f32⟩
  | 69 => ⟨S160000x1, .i32⟩
  | 70 => ⟨S50000x512, .f32⟩
  | 71 => ⟨S1x512, .f32⟩
  | 72 => ⟨S50000x512, .f32⟩
  | 73 => ⟨S50000x512, .f32⟩
  | 74 => ⟨S1x512, .f32⟩
  | 75 => ⟨S512, .f32⟩
  | 76 => ⟨S1x512, .f32⟩
  | 77 => ⟨S512, .f32⟩
  | 78 => ⟨S_, .f32⟩
  | 79 => ⟨S50000, .f32⟩
  | 80 => ⟨S50000x1, .f32⟩
  | 81 => ⟨S_, .f32⟩
  | 82 => ⟨S50000x1, .f32⟩
  | 83 => ⟨S50000x1, .f32⟩
  | 84 => ⟨S50000x512, .f32⟩
  | 85 => ⟨S50000x512, .f32⟩
  | 86 => ⟨S50000x512, .f32⟩
  | 87 => ⟨S_, .f32⟩
  | 88 => ⟨S50000, .f32⟩
  | 89 => ⟨S50000x1, .f32⟩
  | 90 => ⟨S_, .f32⟩
  | 91 => ⟨S50000x1, .f32⟩
  | 92 => ⟨S50000x1, .f32⟩
  | 93 => ⟨S50000x512, .f32⟩
  | 94 => ⟨S50000x512, .f32⟩
  | 95 => ⟨S_, .f32⟩
  | 96 => ⟨S50000x1, .f32⟩
  | 97 => ⟨S50000x1, .f32⟩
  | 98 => ⟨S50000x1, .f32⟩
  | 99 => ⟨S50000x512, .f32⟩
  | 100 => ⟨S50000x512, .f32⟩
  | 101 => ⟨S1x512, .f32⟩
  | 102 => ⟨S50000x512, .f32⟩
  | 103 => ⟨S50000x512, .f32⟩
  | 104 => ⟨S1x512, .f32⟩
  | 105 => ⟨S50000x512, .f32⟩
  | 106 => ⟨S50000x512, .f32⟩
  | 107 => ⟨S1x512x512, .f32⟩
  | 108 => ⟨S512x512, .f32⟩
  | 109 => ⟨S1x512, .f32⟩
  | 110 => ⟨S512, .f32⟩
  | 111 => ⟨S50000x512, .f32⟩
  | 112 => ⟨S_, .i32⟩
  | 113 => ⟨S160000, .i32⟩
  | 114 => ⟨S160000, .i1⟩
  | 115 => ⟨S_, .i32⟩
  | 116 => ⟨S160000, .i32⟩
  | 117 => ⟨S160000, .i32⟩
  | 118 => ⟨S160000, .i32⟩
  | 119 => ⟨S160000x1, .i32⟩
  | 120 => ⟨S160000x512, .f32⟩
  | 121 => ⟨S160000x1, .f32⟩
  | 122 => ⟨S160000x512, .f32⟩
  | 123 => ⟨S160000x512, .f32⟩
  | 124 => ⟨S_, .f32⟩
  | 125 => ⟨S50000x512, .f32⟩
  | 126 => ⟨S160000x1, .i32⟩
  | 127 => ⟨S50000x512, .f32⟩
  | _ => ⟨S_, .f32⟩

abbrev hbmTy0_1 (i : Nat) : BufTy := match i % 128 with
  | 0 => ⟨S1x512, .f32⟩
  | 1 => ⟨S50000x512, .f32⟩
  | 2 => ⟨S50000x512, .f32⟩
  | 3 => ⟨S1x512, .f32⟩
  | 4 => ⟨S512, .f32⟩
  | 5 => ⟨S1x512, .f32⟩
  | 6 => ⟨S512, .f32⟩
  | 7 => ⟨S_, .f32⟩
  | 8 => ⟨S50000, .f32⟩
  | 9 => ⟨S50000x1, .f32⟩
  | 10 => ⟨S_, .f32⟩
  | 11 => ⟨S50000x1, .f32⟩
  | 12 => ⟨S50000x1, .f32⟩
  | 13 => ⟨S50000x512, .f32⟩
  | 14 => ⟨S50000x512, .f32⟩
  | 15 => ⟨S50000x512, .f32⟩
  | 16 => ⟨S_, .f32⟩
  | 17 => ⟨S50000, .f32⟩
  | 18 => ⟨S50000x1, .f32⟩
  | 19 => ⟨S_, .f32⟩
  | 20 => ⟨S50000x1, .f32⟩
  | 21 => ⟨S50000x1, .f32⟩
  | 22 => ⟨S50000x512, .f32⟩
  | 23 => ⟨S50000x512, .f32⟩
  | 24 => ⟨S_, .f32⟩
  | 25 => ⟨S50000x1, .f32⟩
  | 26 => ⟨S50000x1, .f32⟩
  | 27 => ⟨S50000x1, .f32⟩
  | 28 => ⟨S50000x512, .f32⟩
  | 29 => ⟨S50000x512, .f32⟩
  | 30 => ⟨S1x512, .f32⟩
  | 31 => ⟨S50000x512, .f32⟩
  | 32 => ⟨S50000x512, .f32⟩
  | 33 => ⟨S1x512, .f32⟩
  | 34 => ⟨S50000x512, .f32⟩
  | 35 => ⟨S50000x512, .f32⟩
  | 36 => ⟨S50000x1024, .f32⟩
  | 37 => ⟨S50000x512, .f32⟩
  | 38 => ⟨S1x512, .f32⟩
  | 39 => ⟨S50000x512, .f32⟩
  | 40 => ⟨S50000x512, .f32⟩
  | 41 => ⟨S50000x512, .f32⟩
  | 42 => ⟨S50000x512, .f32⟩
  | 43 => ⟨S_, .f32⟩
  | 44 => ⟨S50000x512, .f32⟩
  | 45 => ⟨S50000x512, .f32⟩
  | 46 => ⟨S_, .f32⟩
  | 47 => ⟨S50000x512, .f32⟩
  | 48 => ⟨S50000x512, .f32⟩
  | 49 => ⟨S50000x512, .f32⟩
  | 50 => ⟨S_, .f32⟩
  | 51 => ⟨S50000x512, .f32⟩
  | 52 => ⟨S50000x512, .f32⟩
  | 53 => ⟨S50000x512, .f32⟩
  | 54 => ⟨S50000x512, .f32⟩
  | 55 => ⟨S1x512x512, .f32⟩
  | 56 => ⟨S512x512, .f32⟩
  | 57 => ⟨S1x512, .f32⟩
  | 58 => ⟨S512, .f32⟩
  | 59 => ⟨S50000x512, .f32⟩
  | 60 => ⟨S_, .i32⟩
  | 61 => ⟨S160000, .i32⟩
  | 62 => ⟨S160000, .i1⟩
  | 63 => ⟨S_, .i32⟩
  | 64 => ⟨S160000, .i32⟩
  | 65 => ⟨S160000, .i32⟩
  | 66 => ⟨S160000, .i32⟩
  | 67 => ⟨S160000x1, .i32⟩
  | 68 => ⟨S160000x512, .f32⟩
  | 69 => ⟨S160000x1, .f32⟩
  | 70 => ⟨S160000x512, .f32⟩
  | 71 => ⟨S160000x512, .f32⟩
  | 72 => ⟨S_, .f32⟩
  | 73 => ⟨S50000x512, .f32⟩
  | 74 => ⟨S160000x1, .i32⟩
  | 75 => ⟨S50000x512, .f32⟩
  | 76 => ⟨S1x512, .f32⟩
  | 77 => ⟨S50000x512, .f32⟩
  | 78 => ⟨S50000x512, .f32⟩
  | 79 => ⟨S1x512, .f32⟩
  | 80 => ⟨S512, .f32⟩
  | 81 => ⟨S1x512, .f32⟩
  | 82 => ⟨S512, .f32⟩
  | 83 => ⟨S_, .f32⟩
  | 84 => ⟨S50000, .f32⟩
  | 85 => ⟨S50000x1, .f32⟩
  | 86 => ⟨S_, .f32⟩
  | 87 => ⟨S50000x1, .f32⟩
  | 88 => ⟨S50000x1, .f32⟩
  | 89 => ⟨S50000x512, .f32⟩
  | 90 => ⟨S50000x512, .f32⟩
  | 91 => ⟨S50000x512, .f32⟩
  | 92 => ⟨S_, .f32⟩
  | 93 => ⟨S50000, .f32⟩
  | 94 => ⟨S50000x1, .f32⟩
  | 95 => ⟨S_, .f32⟩
  | 96 => ⟨S50000x1, .f32⟩
  | 97 => ⟨S50000x1, .f32⟩
  | 98 => ⟨S50000x512, .f32⟩
  | 99 => ⟨S50000x512, .f32⟩
  | 100 => ⟨S_, .f32⟩
  | 101 => ⟨S50000x1, .f32⟩
  | 102 => ⟨S50000x1, .f32⟩
  | 103 => ⟨S50000x1, .f32⟩
  | 104 => ⟨S50000x512, .f32⟩
  | 105 => ⟨S50000x512, .f32⟩
  | 106 => ⟨S1x512, .f32⟩
  | 107 => ⟨S50000x512, .f32⟩
  | 108 => ⟨S50000x512, .f32⟩
  | 109 => ⟨S1x512, .f32⟩
  | 110 => ⟨S50000x512, .f32⟩
  | 111 => ⟨S50000x512, .f32⟩
  | 112 => ⟨S50000x1024, .f32⟩
  | 113 => ⟨S50000x512, .f32⟩
  | 114 => ⟨S1x512, .f32⟩
  | 115 => ⟨S50000x512, .f32⟩
  | 116 => ⟨S50000x512, .f32⟩
  | 117 => ⟨S50000x512, .f32⟩
  | 118 => ⟨S50000x512, .f32⟩
  | 119 => ⟨S_, .f32⟩
  | 120 => ⟨S50000x512, .f32⟩
  | 121 => ⟨S50000x512, .f32⟩
  | 122 => ⟨S_, .f32⟩
  | 123 => ⟨S50000x512, .f32⟩
  | 124 => ⟨S50000x512, .f32⟩
  | 125 => ⟨S50000x512, .f32⟩
  | 126 => ⟨S_, .f32⟩
  | 127 => ⟨S50000x512, .f32⟩
  | _ => ⟨S_, .f32⟩

abbrev hbmTy0_2 (i : Nat) : BufTy := match i % 128 with
  | 0 => ⟨S50000x512, .f32⟩
  | 1 => ⟨S50000x512, .f32⟩
  | 2 => ⟨S50000x512, .f32⟩
  | 3 => ⟨S50000x512, .f32⟩
  | 4 => ⟨S50000x512, .f32⟩
  | 5 => ⟨S50000x512, .f32⟩
  | 6 => ⟨S50000x512, .f32⟩
  | _ => ⟨S_, .f32⟩

abbrev hbmTy (i : Nat) : BufTy := match i / 128 with
  | 0 => hbmTy0_0 i
  | 1 => hbmTy0_1 i
  | 2 => hbmTy0_2 i
  | _ => ⟨S_, .f32⟩

abbrev bufTy : (tb : Table) → Fin (tcTables nBuf tb) → BufTy
  | .hbm, ⟨i, _⟩ => hbmTy i
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_15 : Ref sig .tc := ⟨.hbm, 112, rfl⟩
abbrev main_v83 : Ref sig .tc := ⟨.hbm, 113, rfl⟩
abbrev main_v84 : Ref sig .tc := ⟨.hbm, 114, rfl⟩
abbrev main_c_16 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_17 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_18 : Ref sig .tc := ⟨.hbm, 135, rfl⟩
abbrev main_v103 : Ref sig .tc := ⟨.hbm, 136, rfl⟩
abbrev main_v104 : Ref sig .tc := ⟨.hbm, 137, rfl⟩
abbrev main_cst_19 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_20 : Ref sig .tc := ⟨.hbm, 144, rfl⟩
abbrev main_v110 : Ref sig .tc := ⟨.hbm, 145, rfl⟩
abbrev main_v111 : Ref sig .tc := ⟨.hbm, 146, rfl⟩
abbrev main_cst_21 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_22 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_23 : Ref sig .tc := ⟨.hbm, 171, rfl⟩
abbrev main_v134 : Ref sig .tc := ⟨.hbm, 172, rfl⟩
abbrev main_v135 : Ref sig .tc := ⟨.hbm, 173, rfl⟩
abbrev main_cst_24 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_25 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_c_26 : Ref sig .tc := ⟨.hbm, 188, rfl⟩
abbrev main_v148 : Ref sig .tc := ⟨.hbm, 189, rfl⟩
abbrev main_v149 : Ref sig .tc := ⟨.hbm, 190, rfl⟩
abbrev main_c_27 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_cst_28 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_cst_29 : Ref sig .tc := ⟨.hbm, 211, rfl⟩
abbrev main_v168 : Ref sig .tc := ⟨.hbm, 212, rfl⟩
abbrev main_v169 : Ref sig .tc := ⟨.hbm, 213, rfl⟩
abbrev main_cst_30 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_cst_31 : Ref sig .tc := ⟨.hbm, 220, rfl⟩
abbrev main_v175 : Ref sig .tc := ⟨.hbm, 221, rfl⟩
abbrev main_v176 : Ref sig .tc := ⟨.hbm, 222, rfl⟩
abbrev main_cst_32 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_cst_33 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_cst_34 : Ref sig .tc := ⟨.hbm, 247, rfl⟩
abbrev main_v199 : Ref sig .tc := ⟨.hbm, 248, rfl⟩
abbrev main_v200 : Ref sig .tc := ⟨.hbm, 249, rfl⟩
abbrev main_cst_35 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_cst_36 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S50000 : S_.BroadcastsInDim S50000 (![] : Fin 0 → Fin S50000.rank)
  bcast_S160000_S160000x1_0 : S160000.BroadcastsInDim S160000x1 (![0] : Fin 1 → Fin S160000x1.rank)
  slices_S3x512x512_S1x512x512_0_0_0 : S3x512x512.Slices ![0, 0, 0] S1x512x512
  shapeCasts_S1x512x512_S512x512 : S1x512x512.ShapeCasts S512x512
  slices_S3x512_S1x512_0_0 : S3x512.Slices ![0, 0] S1x512
  shapeCasts_S1x512_S512 : S1x512.ShapeCasts S512
  bcast_S160000x1_S160000x512_0_1 : S160000x1.BroadcastsInDim S160000x512 (![0, 1] : Fin 2 → Fin S160000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  reducesTo_S50000x512_S50000_d1 : S50000x512.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x512_0_1 : S50000x1.BroadcastsInDim S50000x512 (![0, 1] : Fin 2 → Fin S50000x512.rank)
  slices_S3x512x512_S1x512x512_1_0_0 : S3x512x512.Slices ![1, 0, 0] S1x512x512
  slices_S3x512_S1x512_1_0 : S3x512.Slices ![1, 0] S1x512
  concatenates_S50000x512_S50000x512_S50000x1024_d1 : Shape.Concatenates [S50000x512, S50000x512] S50000x1024 1
  slices_S3x512x512_S1x512x512_2_0_0 : S3x512x512.Slices ![2, 0, 0] S1x512x512
  slices_S3x512_S1x512_2_0 : S3x512.Slices ![2, 0] S1x512
  scatter_S50000_S160000x1_S160000_n_0_0_1_wf : ScatterDims.WF S50000 S160000x1 S160000 [] [0] [0] 1
  gather_S50000_S160000x1_S160000_n_0_n_n_0_1_1_wf : GatherDims.WF S50000 S160000x1 S160000 [] [0] [] [0] [] 1 ![1]
  dot_S50000x512_S512x512_S50000x512_1_0_0_1_n_n_wf : DotDims.WF S50000x512 S512x512 S50000x512 [1] [0] [0] [1] [] []
  gather_S50000x512_S160000x1_S160000x512_1_0_n_n_0_1_1512_wf : GatherDims.WF S50000x512 S160000x1 S160000x512 [1] [0] [] [0] [] 1 ![1, 512]
  scatter_S50000x512_S160000x1_S160000x512_1_0_0_1_wf : ScatterDims.WF S50000x512 S160000x1 S160000x512 [1] [0] [0] 1
  dot_S50000x1024_S1024x512_S50000x512_1_0_0_1_n_n_wf : DotDims.WF S50000x1024 S1024x512 S50000x512 [1] [0] [0] [1] [] []

variable [Facts₀]

def scatter_S50000_S160000x1_S160000_n_0_0_1 : ScatterDims S50000 S160000x1 S160000 where
  updateWindowDims := []
  insertedWindowDims := [0]
  scatterDimsToOperandDims := [0]
  indexVectorDim := 1
  wf := scatter_S50000_S160000x1_S160000_n_0_0_1_wf
def gather_S50000_S160000x1_S160000_n_0_n_n_0_1_1 : GatherDims S50000 S160000x1 S160000 where
  offsetDims := []
  collapsedSliceDims := [0]
  operandBatchingDims := []
  startIndicesBatchingDims := []
  startIndexMap := [0]
  indexVectorDim := 1
  sliceSizes := ![1]
  wf := gather_S50000_S160000x1_S160000_n_0_n_n_0_1_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def gather_S50000x512_S160000x1_S160000x512_1_0_n_n_0_1_1512 : GatherDims S50000x512 S160000x1 S160000x512 where
  offsetDims := [1]
  collapsedSliceDims := [0]
  operandBatchingDims := []
  startIndicesBatchingDims := []
  startIndexMap := [0]
  indexVectorDim := 1
  sliceSizes := ![1, 512]
  wf := gather_S50000x512_S160000x1_S160000x512_1_0_n_n_0_1_1512_wf
def scatter_S50000x512_S160000x1_S160000x512_1_0_0_1 : ScatterDims S50000x512 S160000x1 S160000x512 where
  updateWindowDims := [1]
  insertedWindowDims := [0]
  scatterDimsToOperandDims := [0]
  indexVectorDim := 1
  wf := scatter_S50000x512_S160000x1_S160000x512_1_0_0_1_wf
def dot_S50000x1024_S1024x512_S50000x512_1_0_0_1_n_n : DotDims S50000x1024 S1024x512 S50000x512 where
  lhsContracting := [1]
  rhsContracting := [0]
  lhsNonContracting := [0]
  rhsNonContracting := [1]
  lhsBatch := []
  rhsBatch := []
  wf := dot_S50000x1024_S1024x512_S50000x512_1_0_0_1_n_n_wf

class Facts : Prop extends Facts₀ where

variable [Facts]
-- ==== Proof.LibAfter.lean ====
/-
  The buffer contents after two lines of host operations run one after the other are the contents after the second
  line, started from the contents after the first.  Imports only the library.
-/
import Idealize.ShloMosaic.Lib.StableHlo.Run

noncomputable section

namespace Cert.LibAfter

open Idealize.ShloMosaic Idealize.ShloMosaic.StableHlo

variable {τ : Topo} {sig : RefSig} {Val : EltTy → Type}

/-- `after (l₁ ++ l₂) V = after l₂ (after l₁ V)`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.LibAfter

end
-- ==== Proof.RefRun.lean ====
/-
  The run of the reference program, read one stage at a time.

  The reference's @main is a straight line of 253 tensor operations.  Its intermediate values are shared: the edge
  normalisation, each layer's output, each normalised row and each gate are read by several later operations, so the
  result written out as ONE term over the arguments, every shared value repeated at each of its uses, is enormous.
  Here the line is cut into thirteen consecutive pieces `C0 … C12` at the shared values (the prelude up to the edge
  normalisation; per layer the weight slice and the product, the gather–scale–scatter, the bias and layer norm, the
  gate; the end), and the buffer contents are followed from piece to piece:

    * `after (l₁ ++ l₂) V = after l₂ (after l₁ V)`, so the contents after the whole line are those after `C12` started
      from those after `C11` … started from those after `C0` started from the launch contents;
    * for one piece and ANY start contents `V`, a buffer the piece writes holds the piece's operations applied to `V`
      at the buffers the piece reads (`ck_b`), and a buffer it does not write holds what `V` held (`hWk`: the buffers
      the piece writes are a literal list);
    * `Invk V x0 … x9` says of contents `V`: the ten argument buffers hold `x0 … x9`, and every buffer written up to
      piece `k` that a later piece reads holds its value `val_b` as a function of the arguments.  `stepk` carries
      `Inv(k-1)` over piece `k` to `Invk`, reading each value the piece needs from the hypothesis, never from its
      definition.

  `ref_run`: every weakly fair execution of the reference terminates with the result buffer at `val_main_v211` of the
  launch contents of the arguments and with the ten argument buffers unchanged.
-/
import proofs.«149262_j25185688224022_2_alg».proof.Proof.RefOps
import proofs.«149262_j25185688224022_2_alg».proof.Proof.ReadP
import proofs.«149262_j25185688224022_2_alg».proof.Proof.LibAfter

noncomputable section

namespace Cert.Gcn.RefRun

open Cert.ReferenceIdeal Cert.ReferenceIdeal.Gen Idealize.ShloMosaic Idealize.ShloMosaic.TcCoe Idealize.SL.Sem Idealize.ShloMosaic.StableHlo

variable {F : FTy → Type} [FloatOps F]

/-- A buffer of a list, as a one-element set of device buffers, lies in the list's set of device buffers. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- Of contents `V`: the ten argument buffers hold `x0 … x9`. -/
structure InvI (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) : Prop where
  a0 : V (Proc.devRef (τ := τ) .tc main_arg0) = x0
  a1 : V (Proc.devRef (τ := τ) .tc main_arg1) = x1
  a2 : V (Proc.devRef (τ := τ) .tc main_arg2) = x2
  a3 : V (Proc.devRef (τ := τ) .tc main_arg3) = x3
  a4 : V (Proc.devRef (τ := τ) .tc main_arg4) = x4
  a5 : V (Proc.devRef (τ := τ) .tc main_arg5) = x5
  a6 : V (Proc.devRef (τ := τ) .tc main_arg6) = x6
  a7 : V (Proc.devRef (τ := τ) .tc main_arg7) = x7
  a8 : V (Proc.devRef (τ := τ) .tc main_arg8) = x8
  a9 : V (Proc.devRef (τ := τ) .tc main_arg9) = x9

/-! ## Piece 0: operations 0 to 39 (reads %arg2; read later: %v1, %v3, %v28) -/

/-- Operations 0 to 39 of @main. -/
abbrev C0 : List (HloOp τ sig (Elt F)) :=
  [ unary main_arg2 main_v0 ((extractStridedSlice S1x160000 ![0, 0] · slices_S2x160000_S1x160000_0_0) : (⟨S2x160000, .i32⟩ : BufTy).Contents (Elt F) → (⟨S1x160000, .i32⟩ : BufTy).Contents (Elt F)),
    reshape main_v0 main_v1 rfl shapeCasts_S1x160000_S160000,
    unary main_arg2 main_v2 ((extractStridedSlice S1x160000 ![1, 0] · slices_S2x160000_S1x160000_1_0) : (⟨S2x160000, .i32⟩ : BufTy).Contents (Elt F) → (⟨S1x160000, .i32⟩ : BufTy).Contents (Elt F)),
    reshape main_v2 main_v3 rfl shapeCasts_S1x160000_S160000,
    nullary main_cst (constant S_ .f32 0x3F800000#32),
    unary main_cst main_v4 (broadcastInDim S160000 ![] bcast_S_S160000 : (⟨S_, .f32⟩ : BufTy).Contents (Elt F) → (⟨S160000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S160000x1 ![0] bcast_S160000_S160000x1_0 : (⟨S160000, .i32⟩ : BufTy).Contents (Elt F) → (⟨S160000x1, .i32⟩ : BufTy).Contents (Elt F)),
    ternary main_v5 main_v6 main_v4 main_v7 ((fun x i u => Host.scatterAdd scatter_S50000_S160000x1_S160000_n_0_0_1 x i u) : (⟨S50000, .f32⟩ : BufTy).Contents (Elt F) → (⟨S160000x1, .i32⟩ : BufTy).Contents (Elt F) → (⟨S160000, .f32⟩ : BufTy).Contents (Elt F) → (⟨S50000, .f32⟩ : BufTy).Contents (Elt F)),
    nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v7 main_v10 main_v11 (maximumf : (⟨S50000, .f32⟩ : BufTy).Contents (Elt F) → (⟨S50000, .f32⟩ : BufTy).Contents (Elt F) → (⟨S50000, .f32⟩ : BufTy).Contents (Elt F)),
    unary main_v11 main_v12 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v9) (TRef.of (T := ⟨S50000, .f32⟩) main_v12) (TRef.of (T := ⟨S50000, .f32⟩) main_call0_v1) (TRef.of (T := ⟨S50000, .f32⟩) main_v13) select,
    nullary main_c (constantI S_ 32 0#32),
    unary main_c main_v14 (broadcastInDim S160000 ![] bcast_S_S160000 : (⟨S_, .i32⟩ : BufTy).Contents (Elt F) → (⟨S160000, .i32⟩ : BufTy).Contents (Elt F)),
    binary main_v1 main_v14 main_v15 (cmpi .slt : (⟨S160000, .i32⟩ : BufTy).Contents (Elt F) → (⟨S160000, .i32⟩ : BufTy).Contents (Elt F) → (⟨S160000, .i1⟩ : BufTy).Contents (Elt F)),
    nullary main_c_4 (constantI S_ 32 50000#32),
    unary main_c_4 main_v16 (broadcastInDim S160000 ![] bcast_S_S160000 : (⟨S_, .i32⟩ : BufTy).Contents (Elt F) → (⟨S160000, .i32⟩ : BufTy).Contents (Elt F)),
    binary main_v1 main_v16 main_v17 (addi : (⟨S160000, .i32⟩ : BufTy).Contents (Elt F) → (⟨S160000, .i32⟩ : BufTy).Contents (Elt F) → (⟨S160000, .i32⟩ : BufTy).Contents (Elt F)),
    ternary main_v15 main_v17 main_v1 main_v18 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v18 main_v19 (broadcastInDim S160000x1 ![0] bcast_S160000_S160000x1_0 : (⟨S160000, .i32⟩ : BufTy).Contents (Elt F) → (⟨S160000x1, .i32⟩ : BufTy).Contents (Elt F)),
    binary main_v13 main_v19 main_v20 ((fun x i => Host.gather gather_S50000_S160000x1_S160000_n_0_n_n_0_1_1 x i) : (⟨S50000, .f32⟩ : BufTy).Contents (Elt F) → (⟨S160000x1, .i32⟩ : BufTy).Contents (Elt F) → (⟨S160000, .f32⟩ : BufTy).Contents (Elt F)),
    nullary main_c_5 (constantI S_ 32 0#32),
    unary main_c_5 main_v21 (broadcastInDim S160000 ![] bcast_S_S160000 : (⟨S_, .i32⟩ : BufTy).Contents (Elt F) → (⟨S160000, .i32⟩ : BufTy).Contents (Elt F)),
    binary main_v3 main_v21 main_v22 (cmpi .slt : (⟨S160000, .i32⟩ : BufTy).Contents (Elt F) → (⟨S160000, .i32⟩ : BufTy).Contents (Elt F) → (⟨S160000, .i1⟩ : BufTy).Contents (Elt F)),
    nullary main_c_6 (constantI S_ 32 50000#32),
    unary main_c_6 main_v23 (broadcastInDim S160000 ![] bcast_S_S160000 : (⟨S_, .i32⟩ : BufTy).Contents (Elt F) → (⟨S160000, .i32⟩ : BufTy).Contents (Elt F)),
    binary main_v3 main_v23 main_v24 (addi : (⟨S160000, .i32⟩ : BufTy).Contents (Elt F) → (⟨S160000, .i32⟩ : BufTy).Contents (Elt F) → (⟨S160000, .i32⟩ : BufTy).Contents (Elt F)),
    ternary main_v22 main_v24 main_v3 main_v25 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v25 main_v26 (broadcastInDim S160000x1 ![0] bcast_S160000_S160000x1_0 : (⟨S160000, .i32⟩ : BufTy).Contents (Elt F) → (⟨S160000x1, .i32⟩ : BufTy).Contents (Elt F)),
    binary main_v13 main_v26 main_v27 ((fun x i => Host.gather gather_S50000_S160000x1_S160000_n_0_n_n_0_1_1 x i) : (⟨S50000, .f32⟩ : BufTy).Contents (Elt F) → (⟨S160000x1, .i32⟩ : BufTy).Contents (Elt F) → (⟨S160000, .f32⟩ : BufTy).Contents (Elt F)),
    binary main_v20 main_v27 main_v28 (mulf : (⟨S160000, .f32⟩ : BufTy).Contents (Elt F) → (⟨S160000, .f32⟩ : BufTy).Contents (Elt F) → (⟨S160000, .f32⟩ : BufTy).Contents (Elt F)) ]

/-- The buffers those operations write. -/
abbrev W0 : List (Ref sig .tc) :=
  [main_v0, main_v1, main_v2, main_v3, main_cst, main_v4, main_cst_0, main_v5, main_v6, main_v7, main_cst_1, main_v8, main_v9, main_cst_2, main_v10, main_v11, main_v12, main_cst_3, main_call0_v0, main_call0_v1, main_v13, main_c, main_v14, main_v15, main_c_4, main_v16, main_v17, main_v18, main_v19, main_v20, main_c_5, main_v21, main_v22, main_c_6, main_v23, main_v24, main_v25, main_v26, main_v27, main_v28]

theorem hW0 : (C0 : List (HloOp τ sig (Elt F))).Forall fun op => op.writes ⊆ (W0.map (Proc.devRef (τ := τ) .tc)).toFinset := by
  simp only [List.Forall, nullary_writes, unary_writes, binary_writes, ternary_writes, reshape_writes]
  repeat' apply And.intro
  all_goals exact sub_of_mem (by decide)

/-- After piece 0 from any contents, `%v1`'s buffer holds its value, given the values of what the piece reads. -/
theorem c0_v1 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F))
    (h0 : V (Proc.devRef (τ := τ) .tc main_arg2) = x2) :
    after C0 V (Proc.devRef (τ := τ) .tc main_v1) = ReadP.val_main_v1 (F := F) x2 := by
  after_results_simp
  rw [h0]
  rfl

/-- After piece 0 from any contents, `%v3`'s buffer holds its value, given the values of what the piece reads. -/
theorem c0_v3 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F))
    (h0 : V (Proc.devRef (τ := τ) .tc main_arg2) = x2) :
    after C0 V (Proc.devRef (τ := τ) .tc main_v3) = ReadP.val_main_v3 (F := F) x2 := by
  after_results_simp
  rw [h0]
  rfl

/-- After piece 0 from any contents, `%v28`'s buffer holds its value, given the values of what the piece reads. -/
theorem c0_v28 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F))
    (h0 : V (Proc.devRef (τ := τ) .tc main_arg2) = x2) :
    after C0 V (Proc.devRef (τ := τ) .tc main_v28) = ReadP.val_main_v28 (F := F) x2 := by
  after_results_simp
  rw [h0]
  rfl

/-- Of contents `V`: the arguments hold `x0 … x9` and each buffer written by pieces 0 to 0 that a later piece reads holds its value as a function of the arguments. -/
structure Inv0 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) : Prop where
  a0 : V (Proc.devRef (τ := τ) .tc main_arg0) = x0
  a1 : V (Proc.devRef (τ := τ) .tc main_arg1) = x1
  a2 : V (Proc.devRef (τ := τ) .tc main_arg2) = x2
  a3 : V (Proc.devRef (τ := τ) .tc main_arg3) = x3
  a4 : V (Proc.devRef (τ := τ) .tc main_arg4) = x4
  a5 : V (Proc.devRef (τ := τ) .tc main_arg5) = x5
  a6 : V (Proc.devRef (τ := τ) .tc main_arg6) = x6
  a7 : V (Proc.devRef (τ := τ) .tc main_arg7) = x7
  a8 : V (Proc.devRef (τ := τ) .tc main_arg8) = x8
  a9 : V (Proc.devRef (τ := τ) .tc main_arg9) = x9
  v1 : V (Proc.devRef (τ := τ) .tc main_v1) = ReadP.val_main_v1 (F := F) x2
  v3 : V (Proc.devRef (τ := τ) .tc main_v3) = ReadP.val_main_v3 (F := F) x2
  v28 : V (Proc.devRef (τ := τ) .tc main_v28) = ReadP.val_main_v28 (F := F) x2

/-- Piece 0 carries the invariant on. -/
theorem step0 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) (h : InvI V x0 x1 x2 x3 x4 x5 x6 x7 x8 x9) :
    Inv0 (after C0 V) x0 x1 x2 x3 x4 x5 x6 x7 x8 x9 :=
  { a0 := (after_of_writes_sub C0 V hW0 (by decide)).trans h.a0,
    a1 := (after_of_writes_sub C0 V hW0 (by decide)).trans h.a1,
    a2 := (after_of_writes_sub C0 V hW0 (by decide)).trans h.a2,
    a3 := (after_of_writes_sub C0 V hW0 (by decide)).trans h.a3,
    a4 := (after_of_writes_sub C0 V hW0 (by decide)).trans h.a4,
    a5 := (after_of_writes_sub C0 V hW0 (by decide)).trans h.a5,
    a6 := (after_of_writes_sub C0 V hW0 (by decide)).trans h.a6,
    a7 := (after_of_writes_sub C0 V hW0 (by decide)).trans h.a7,
    a8 := (after_of_writes_sub C0 V hW0 (by decide)).trans h.a8,
    a9 := (after_of_writes_sub C0 V hW0 (by decide)).trans h.a9,
    v1 := c0_v1 V x0 x1 x2 x3 x4 x5 x6 x7 x8 x9 h.a2,
    v3 := c0_v3 V x0 x1 x2 x3 x4 x5 x6 x7 x8 x9 h.a2,
    v28 := c0_v28 V x0 x1 x2 x3 x4 x5 x6 x7 x8 x9 h.a2 }

/-! ## Piece 1: operations 40 to 44 (reads %arg3, %arg4, %arg1; read later: %v32, %v33) -/

/-- Operations 40 to 44 of @main. -/
abbrev C1 : List (HloOp τ sig (Elt F)) :=
  [ unary main_arg3 main_v29 ((extractStridedSlice S1x512x512 ![0, 0, 0] · slices_S3x512x512_S1x512x512_0_0_0) : (⟨S3x512x512, .f32⟩ : BufTy).Contents (Elt F) → (⟨S1x512x512, .f32⟩ : BufTy).Contents (Elt F)),
    reshape main_v29 main_v30 rfl shapeCasts_S1x512x512_S512x512,
    unary main_arg4 main_v31 ((extractStridedSlice S1x512 ![0, 0] · slices_S3x512_S1x512_0_0) : (⟨S3x512, .f32⟩ : BufTy).Contents (Elt F) → (⟨S1x512, .f32⟩ : BufTy).Contents (Elt F)),
    reshape main_v31 main_v32 rfl shapeCasts_S1x512_S512,
    binary main_arg1 main_v30 main_v33 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)) ]

/-- The buffers those operations write. -/
abbrev W1 : List (Ref sig .tc) :=
  [main_v29, main_v30, main_v31, main_v32, main_v33]

theorem hW1 : (C1 : List (HloOp τ sig (Elt F))).Forall fun op => op.writes ⊆ (W1.map (Proc.devRef (τ := τ) .tc)).toFinset := by
  simp only [List.Forall, nullary_writes, unary_writes, binary_writes, ternary_writes, reshape_writes]
  repeat' apply And.intro
  all_goals exact sub_of_mem (by decide)

/-- After piece 1 from any contents, `%v32`'s buffer holds its value, given the values of what the piece reads. -/
theorem c1_v32 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F))
    (h0 : V (Proc.devRef (τ := τ) .tc main_arg4) = x4) :
    after C1 V (Proc.devRef (τ := τ) .tc main_v32) = ReadP.val_main_v32 (F := F) x4 := by
  after_results_simp
  rw [h0]
  rfl

/-- After piece 1 from any contents, `%v33`'s buffer holds its value, given the values of what the piece reads. -/
theorem c1_v33 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F))
    (h0 : V (Proc.devRef (τ := τ) .tc main_arg1) = x1)
    (h1 : V (Proc.devRef (τ := τ) .tc main_arg3) = x3) :
    after C1 V (Proc.devRef (τ := τ) .tc main_v33) = ReadP.val_main_v33 (F := F) x1 x3 := by
  after_results_simp
  rw [h0, h1]
  rfl

/-- Of contents `V`: the arguments hold `x0 … x9` and each buffer written by pieces 0 to 1 that a later piece reads holds its value as a function of the arguments. -/
structure Inv1 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) : Prop where
  a0 : V (Proc.devRef (τ := τ) .tc main_arg0) = x0
  a1 : V (Proc.devRef (τ := τ) .tc main_arg1) = x1
  a2 : V (Proc.devRef (τ := τ) .tc main_arg2) = x2
  a3 : V (Proc.devRef (τ := τ) .tc main_arg3) = x3
  a4 : V (Proc.devRef (τ := τ) .tc main_arg4) = x4
  a5 : V (Proc.devRef (τ := τ) .tc main_arg5) = x5
  a6 : V (Proc.devRef (τ := τ) .tc main_arg6) = x6
  a7 : V (Proc.devRef (τ := τ) .tc main_arg7) = x7
  a8 : V (Proc.devRef (τ := τ) .tc main_arg8) = x8
  a9 : V (Proc.devRef (τ := τ) .tc main_arg9) = x9
  v1 : V (Proc.devRef (τ := τ) .tc main_v1) = ReadP.val_main_v1 (F := F) x2
  v3 : V (Proc.devRef (τ := τ) .tc main_v3) = ReadP.val_main_v3 (F := F) x2
  v28 : V (Proc.devRef (τ := τ) .tc main_v28) = ReadP.val_main_v28 (F := F) x2
  v32 : V (Proc.devRef (τ := τ) .tc main_v32) = ReadP.val_main_v32 (F := F) x4
  v33 : V (Proc.devRef (τ := τ) .tc main_v33) = ReadP.val_main_v33 (F := F) x1 x3

/-- Piece 1 carries the invariant on. -/
theorem step1 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) (h : Inv0 V x0 x1 x2 x3 x4 x5 x6 x7 x8 x9) :
    Inv1 (after C1 V) x0 x1 x2 x3 x4 x5 x6 x7 x8 x9 :=
  { a0 := (after_of_writes_sub C1 V hW1 (by decide)).trans h.a0,
    a1 := (after_of_writes_sub C1 V hW1 (by decide)).trans h.a1,
    a2 := (after_of_writes_sub C1 V hW1 (by decide)).trans h.a2,
    a3 := (after_of_writes_sub C1 V hW1 (by decide)).trans h.a3,
    a4 := (after_of_writes_sub C1 V hW1 (by decide)).trans h.a4,
    a5 := (after_of_writes_sub C1 V hW1 (by decide)).trans h.a5,
    a6 := (after_of_writes_sub C1 V hW1 (by decide)).trans h.a6,
    a7 := (after_of_writes_sub C1 V hW1 (by decide)).trans h.a7,
    a8 := (after_of_writes_sub C1 V hW1 (by decide)).trans h.a8,
    a9 := (after_of_writes_sub C1 V hW1 (by decide)).trans h.a9,
    v1 := (after_of_writes_sub C1 V hW1 (by decide)).trans h.v1,
    v3 := (after_of_writes_sub C1 V hW1 (by decide)).trans h.v3,
    v28 := (after_of_writes_sub C1 V hW1 (by decide)).trans h.v28,
    v32 := c1_v32 V x0 x1 x2 x3 x4 x5 x6 x7 x8 x9 h.a4,
    v33 := c1_v33 V x0 x1 x2 x3 x4 x5 x6 x7 x8 x9 h.a1 h.a3 }

/-! ## Piece 2: operations 45 to 60 (reads %v1, %v33, %v28, %v3; read later: %v46) -/

/-- Operations 45 to 60 of @main. -/
abbrev C2 : List (HloOp τ sig (Elt F)) :=
  [ nullary main_c_7 (constantI S_ 32 0#32),
    unary main_c_7 main_v34 (broadcastInDim S160000 ![] bcast_S_S160000 : (⟨S_, .i32⟩ : BufTy).Contents (Elt F) → (⟨S160000, .i32⟩ : BufTy).Contents (Elt F)),
    binary main_v1 main_v34 main_v35 (cmpi .slt : (⟨S160000, .i32⟩ : BufTy).Contents (Elt F) → (⟨S160000, .i32⟩ : BufTy).Contents (Elt F) → (⟨S160000, .i1⟩ : BufTy).Contents (Elt F)),
    nullary main_c_8 (constantI S_ 32 50000#32),
    unary main_c_8 main_v36 (broadcastInDim S160000 ![] bcast_S_S160000 : (⟨S_, .i32⟩ : BufTy).Contents (Elt F) → (⟨S160000, .i32⟩ : BufTy).Contents (Elt F)),
    binary main_v1 main_v36 main_v37 (addi : (⟨S160000, .i32⟩ : BufTy).Contents (Elt F) → (⟨S160000, .i32⟩ : BufTy).Contents (Elt F) → (⟨S160000, .i32⟩ : BufTy).Contents (Elt F)),
    ternary main_v35 main_v37 main_v1 main_v38 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v38 main_v39 (broadcastInDim S160000x1 ![0] bcast_S160000_S160000x1_0 : (⟨S160000, .i32⟩ : BufTy).Contents (Elt F) → (⟨S160000x1, .i32⟩ : BufTy).Contents (Elt F)),
    binary main_v33 main_v39 main_v40 ((fun x i => Host.gather gather_S50000x512_S160000x1_S160000x512_1_0_n_n_0_1_1512 x i) : (⟨S50000x512, .f32⟩ : BufTy).Contents (Elt F) → (⟨S160000x1, .i32⟩ : BufTy).Contents (Elt F) → (⟨S160000x512, .f32⟩ : BufTy).Contents (Elt F)),
    unary main_v28 main_v41 (broadcastInDim S160000x1 ![0] bcast_S160000_S160000x1_0 : (⟨S160000, .f32⟩ : BufTy).Contents (Elt F) → (⟨S160000x1, .f32⟩ : BufTy).Contents (Elt F)),
    unary main_v41 main_v42 (broadcastInDim S160000x512 ![0, 1] bcast_S160000x1_S160000x512_0_1 : (⟨S160000x1, .f32⟩ : BufTy).Contents (Elt F) → (⟨S160000x512, .f32⟩ : BufTy).Contents (Elt F)),
    binary main_v40 main_v42 main_v43 (mulf : (⟨S160000x512, .f32⟩ : BufTy).Contents (Elt F) → (⟨S160000x512, .f32⟩ : BufTy).Contents (Elt F) → (⟨S160000x512, .f32⟩ : BufTy).Contents (Elt F)),
    nullary main_cst_9 (constant S_ .f32 0x00000000#32),
    unary main_cst_9 main_v44 (broadcastInDim S50000x512 ![] bcast_S_S50000x512 : (⟨S_, .f32⟩ : BufTy).Contents (Elt F) → (⟨S50000x512, .f32⟩ : BufTy).Contents (Elt F)),
    unary main_v3 main_v45 (broadcastInDim S160000x1 ![0] bcast_S160000_S160000x1_0 : (⟨S160000, .i32⟩ : BufTy).Contents (Elt F) → (⟨S160000x1, .i32⟩ : BufTy).Contents (Elt F)),
    ternary main_v44 main_v45 main_v43 main_v46 ((fun x i u => Host.scatterAdd scatter_S50000x512_S160000x1_S160000x512_1_0_0_1 x i u) : (⟨S50000x512, .f32⟩ : BufTy).Contents (Elt F) → (⟨S160000x1, .i32⟩ : BufTy).Contents (Elt F) → (⟨S160000x512, .f32⟩ : BufTy).Contents (Elt F) → (⟨S50000x512, .f32⟩ : BufTy).Contents (Elt F)) ]

/-- The buffers those operations write. -/
abbrev W2 : List (Ref sig .tc) :=
  [main_c_7, main_v34, main_v35, main_c_8, main_v36, main_v37, main_v38, main_v39, main_v40, main_v41, main_v42, main_v43, main_cst_9, main_v44, main_v45, main_v46]

theorem hW2 : (C2 : List (HloOp τ sig (Elt F))).Forall fun op => op.writes ⊆ (W2.map (Proc.devRef (τ := τ) .tc)).toFinset := by
  simp only [List.Forall, nullary_writes, unary_writes, binary_writes, ternary_writes, reshape_writes]
  repeat' apply And.intro
  all_goals exact sub_of_mem (by decide)

/-- After piece 2 from any contents, `%v46`'s buffer holds its value, given the values of what the piece reads. -/
theorem c2_v46 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F))
    (h0 : V (Proc.devRef (τ := τ) .tc main_v3) = ReadP.val_main_v3 (F := F) x2)
    (h1 : V (Proc.devRef (τ := τ) .tc main_v33) = ReadP.val_main_v33 (F := F) x1 x3)
    (h2 : V (Proc.devRef (τ := τ) .tc main_v1) = ReadP.val_main_v1 (F := F) x2)
    (h3 : V (Proc.devRef (τ := τ) .tc main_v28) = ReadP.val_main_v28 (F := F) x2) :
    after C2 V (Proc.devRef (τ := τ) .tc main_v46) = ReadP.val_main_v46 (F := F) x1 x2 x3 := by
  after_results_simp
  rw [h0, h1, h2, h3]
  rfl

/-- Of contents `V`: the arguments hold `x0 … x9` and each buffer written by pieces 0 to 2 that a later piece reads holds its value as a function of the arguments. -/
structure Inv2 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) : Prop where
  a0 : V (Proc.devRef (τ := τ) .tc main_arg0) = x0
  a1 : V (Proc.devRef (τ := τ) .tc main_arg1) = x1
  a2 : V (Proc.devRef (τ := τ) .tc main_arg2) = x2
  a3 : V (Proc.devRef (τ := τ) .tc main_arg3) = x3
  a4 : V (Proc.devRef (τ := τ) .tc main_arg4) = x4
  a5 : V (Proc.devRef (τ := τ) .tc main_arg5) = x5
  a6 : V (Proc.devRef (τ := τ) .tc main_arg6) = x6
  a7 : V (Proc.devRef (τ := τ) .tc main_arg7) = x7
  a8 : V (Proc.devRef (τ := τ) .tc main_arg8) = x8
  a9 : V (Proc.devRef (τ := τ) .tc main_arg9) = x9
  v1 : V (Proc.devRef (τ := τ) .tc main_v1) = ReadP.val_main_v1 (F := F) x2
  v3 : V (Proc.devRef (τ := τ) .tc main_v3) = ReadP.val_main_v3 (F := F) x2
  v28 : V (Proc.devRef (τ := τ) .tc main_v28) = ReadP.val_main_v28 (F := F) x2
  v32 : V (Proc.devRef (τ := τ) .tc main_v32) = ReadP.val_main_v32 (F := F) x4
  v46 : V (Proc.devRef (τ := τ) .tc main_v46) = ReadP.val_main_v46 (F := F) x1 x2 x3

/-- Piece 2 carries the invariant on. -/
theorem step2 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) (h : Inv1 V x0 x1 x2 x3 x4 x5 x6 x7 x8 x9) :
    Inv2 (after C2 V) x0 x1 x2 x3 x4 x5 x6 x7 x8 x9 :=
  { a0 := (after_of_writes_sub C2 V hW2 (by decide)).trans h.a0,
    a1 := (after_of_writes_sub C2 V hW2 (by decide)).trans h.a1,
    a2 := (after_of_writes_sub C2 V hW2 (by decide)).trans h.a2,
    a3 := (after_of_writes_sub C2 V hW2 (by decide)).trans h.a3,
    a4 := (after_of_writes_sub C2 V hW2 (by decide)).trans h.a4,
    a5 := (after_of_writes_sub C2 V hW2 (by decide)).trans h.a5,
    a6 := (after_of_writes_sub C2 V hW2 (by decide)).trans h.a6,
    a7 := (after_of_writes_sub C2 V hW2 (by decide)).trans h.a7,
    a8 := (after_of_writes_sub C2 V hW2 (by decide)).trans h.a8,
    a9 := (after_of_writes_sub C2 V hW2 (by decide)).trans h.a9,
    v1 := (after_of_writes_sub C2 V hW2 (by decide)).trans h.v1,
    v3 := (after_of_writes_sub C2 V hW2 (by decide)).trans h.v3,
    v28 := (after_of_writes_sub C2 V hW2 (by decide)).trans h.v28,
    v32 := (after_of_writes_sub C2 V hW2 (by decide)).trans h.v32,
    v46 := c2_v46 V x0 x1 x2 x3 x4 x5 x6 x7 x8 x9 h.v3 h.v33 h.v1 h.v28 }

/-! ## Piece 3: operations 61 to 96 (reads %v32, %v46, %arg5, %arg6; read later: %v77) -/

/-- Operations 61 to 96 of @main. -/
abbrev C3 : List (HloOp τ sig (Elt F)) :=
  [ unary main_v32 main_v47 (broadcastInDim S1x512 ![1] bcast_S512_S1x512_1 : (⟨S512, .f32⟩ : BufTy).Contents (Elt F) → (⟨S1x512, .f32⟩ : BufTy).Contents (Elt F)),
    unary main_v47 main_v48 (broadcastInDim S50000x512 ![0, 1] bcast_S1x512_S50000x512_0_1 : (⟨S1x512, .f32⟩ : BufTy).Contents (Elt F) → (⟨S50000x512, .f32⟩ : BufTy).Contents (Elt F)),
    binary main_v46 main_v48 main_v49 (addf : (⟨S50000x512, .f32⟩ : BufTy).Contents (Elt F) → (⟨S50000x512, .f32⟩ : BufTy).Contents (Elt F) → (⟨S50000x512, .f32⟩ : BufTy).Contents (Elt F)),
    unary main_arg5 main_v50 ((extractStridedSlice S1x512 ![0, 0] · slices_S3x512_S1x512_0_0) : (⟨S3x512, .f32⟩ : BufTy).Contents (Elt F) → (⟨S1x512, .f32⟩ : BufTy).Contents (Elt F)),
    reshape main_v50 main_v51 rfl shapeCasts_S1x512_S512,
    unary main_arg6 main_v52 ((extractStridedSlice S1x512 ![0, 0] · slices_S3x512_S1x512_0_0) : (⟨S3x512, .f32⟩ : BufTy).Contents (Elt F) → (⟨S1x512, .f32⟩ : BufTy).Contents (Elt F)),
    reshape main_v52 main_v53 rfl shapeCasts_S1x512_S512,
    nullary main_cst_10 (constant S_ .f32 0x00000000#32),
    binary main_v49 main_cst_10 main_v54 ((fun x v => Host.reduceAdd x v reducesTo_S50000x512_S50000_d1 h_S_) : (⟨S50000x512, .f32⟩ : BufTy).Contents (Elt F) → (⟨S_, .f32⟩ : BufTy).Contents (Elt F) → (⟨S50000, .f32⟩ : BufTy).Contents (Elt F)),
    unary main_v54 main_v55 (broadcastInDim S50000x1 ![0] bcast_S50000_S50000x1_0 : (⟨S50000, .f32⟩ : BufTy).Contents (Elt F) → (⟨S50000x1, .f32⟩ : BufTy).Contents (Elt F)),
    nullary main_cst_11 (constant S_ .f32 0x44000000#32),
    unary main_cst_11 main_v56 (broadcastInDim S50000x1 ![] bcast_S_S50000x1 : (⟨S_, .f32⟩ : BufTy).Contents (Elt F) → (⟨S50000x1, .f32⟩ : BufTy).Contents (Elt F)),
    binary main_v55 main_v56 main_v57 (Host.divf : (⟨S50000x1, .f32⟩ : BufTy).Contents (Elt F) → (⟨S50000x1, .f32⟩ : BufTy).Contents (Elt F) → (⟨S50000x1, .f32⟩ : BufTy).Contents (Elt F)),
    unary main_v57 main_v58 (broadcastInDim S50000x512 ![0, 1] bcast_S50000x1_S50000x512_0_1 : (⟨S50000x1, .f32⟩ : BufTy).Contents (Elt F) → (⟨S50000x512, .f32⟩ : BufTy).Contents (Elt F)),
    binary main_v49 main_v58 main_v59 (subf : (⟨S50000x512, .f32⟩ : BufTy).Contents (Elt F) → (⟨S50000x512, .f32⟩ : BufTy).Contents (Elt F) → (⟨S50000x512, .f32⟩ : BufTy).Contents (Elt F)),
    binary main_v59 main_v59 main_v60 (mulf : (⟨S50000x512, .f32⟩ : BufTy).Contents (Elt F) → (⟨S50000x512, .f32⟩ : BufTy).Contents (Elt F) → (⟨S50000x512, .f32⟩ : BufTy).Contents (Elt F)),
    nullary main_cst_12 (constant S_ .f32 0x00000000#32),
    binary main_v60 main_cst_12 main_v61 ((fun x v => Host.reduceAdd x v reducesTo_S50000x512_S50000_d1 h_S_) : (⟨S50000x512, .f32⟩ : BufTy).Contents (Elt F) → (⟨S_, .f32⟩ : BufTy).Contents (Elt F) → (⟨S50000, .f32⟩ : BufTy).Contents (Elt F)),
    unary main_v61 main_v62 (broadcastInDim S50000x1 ![0] bcast_S50000_S50000x1_0 : (⟨S50000, .f32⟩ : BufTy).Contents (Elt F) → (⟨S50000x1, .f32⟩ : BufTy).Contents (Elt F)),
    nullary main_cst_13 (constant S_ .f32 0x44000000#32),
    unary main_cst_13 main_v63 (broadcastInDim S50000x1 ![] bcast_S_S50000x1 : (⟨S_, .f32⟩ : BufTy).Contents (Elt F) → (⟨S50000x1, .f32⟩ : BufTy).Contents (Elt F)),
    binary main_v62 main_v63 main_v64 (Host.divf : (⟨S50000x1, .f32⟩ : BufTy).Contents (Elt F) → (⟨S50000x1, .f32⟩ : BufTy).Contents (Elt F) → (⟨S50000x1, .f32⟩ : BufTy).Contents (Elt F)),
    unary main_v57 main_v65 (broadcastInDim S50000x512 ![0, 1] bcast_S50000x1_S50000x512_0_1 : (⟨S50000x1, .f32⟩ : BufTy).Contents (Elt F) → (⟨S50000x512, .f32⟩ : BufTy).Contents (Elt F)),
    binary main_v49 main_v65 main_v66 (subf : (⟨S50000x512, .f32⟩ : BufTy).Contents (Elt F) → (⟨S50000x512, .f32⟩ : BufTy).Contents (Elt F) → (⟨S50000x512, .f32⟩ : BufTy).Contents (Elt F)),
    nullary main_cst_14 (constant S_ .f32 0x3727C5AC#32),
    unary main_cst_14 main_v67 (broadcastInDim S50000x1 ![] bcast_S_S50000x1 : (⟨S_, .f32⟩ : BufTy).Contents (Elt F) → (⟨S50000x1, .f32⟩ : BufTy).Contents (Elt F)),
    binary main_v64 main_v67 main_v68 (addf : (⟨S50000x1, .f32⟩ : BufTy).Contents (Elt F) → (⟨S50000x1, .f32⟩ : BufTy).Contents (Elt F) → (⟨S50000x1, .f32⟩ : BufTy).Contents (Elt F)),
    unary main_v68 main_v69 (Host.rsqrt : (⟨S50000x1, .f32⟩ : BufTy).Contents (Elt F) → (⟨S50000x1, .f32⟩ : BufTy).Contents (Elt F)),
    unary main_v69 main_v70 (broadcastInDim S50000x512 ![0, 1] bcast_S50000x1_S50000x512_0_1 : (⟨S50000x1, .f32⟩ : BufTy).Contents (Elt F) → (⟨S50000x512, .f32⟩ : BufTy).Contents (Elt F)),
    binary main_v66 main_v70 main_v71 (mulf : (⟨S50000x512, .f32⟩ : BufTy).Contents (Elt F) → (⟨S50000x512, .f32⟩ : BufTy).Contents (Elt F) → (⟨S50000x512, .f32⟩ : BufTy).Contents (Elt F)),
    unary main_v51 main_v72 (broadcastInDim S1x512 ![1] bcast_S512_S1x512_1 : (⟨S512, .f32⟩ : BufTy).Contents (Elt F) → (⟨S1x512, .f32⟩ : BufTy).Contents (Elt F)),
    unary main_v72 main_v73 (broadcastInDim S50000x512 ![0, 1] bcast_S1x512_S50000x512_0_1 : (⟨S1x512, .f32⟩ : BufTy).Contents (Elt F) → (⟨S50000x512, .f32⟩ : BufTy).Contents (Elt F)),
    binary main_v71 main_v73 main_v74 (mulf : (⟨S50000x512, .f32⟩ : BufTy).Contents (Elt F) → (⟨S50000x512, .f32⟩ : BufTy).Contents (Elt F) → (⟨S50000x512, .f32⟩ : BufTy).Contents (Elt F)),
    unary main_v53 main_v75 (broadcastInDim S1x512 ![1] bcast_S512_S1x512_1 : (⟨S512, .f32⟩ : BufTy).Contents (Elt F) → (⟨S1x512, .f32⟩ : BufTy).Contents (Elt F)),
    unary main_v75 main_v76 (broadcastInDim S50000x512 ![0, 1] bcast_S1x512_S50000x512_0_1 : (⟨S1x512, .f32⟩ : BufTy).Contents (Elt F) → (⟨S50000x512, .f32⟩ : BufTy).Contents (Elt F)),
    binary main_v74 main_v76 main_v77 (addf : (⟨S50000x512, .f32⟩ : BufTy).Contents (Elt F) → (⟨S50000x512, .f32⟩ : BufTy).Contents (Elt F) → (⟨S50000x512, .f32⟩ : BufTy).Contents (Elt F)) ]

/-- The buffers those operations write. -/
abbrev W3 : List (Ref sig .tc) :=
  [main_v47, main_v48, main_v49, main_v50, main_v51, main_v52, main_v53, main_cst_10, main_v54, main_v55, main_cst_11, main_v56, main_v57, main_v58, main_v59, main_v60, main_cst_12, main_v61, main_v62, main_cst_13, main_v63, main_v64, main_v65, main_v66, main_cst_14, main_v67, main_v68, main_v69, main_v70, main_v71, main_v72, main_v73, main_v74, main_v75, main_v76, main_v77]

theorem hW3 : (C3 : List (HloOp τ sig (Elt F))).Forall fun op => op.writes ⊆ (W3.map (Proc.devRef (τ := τ) .tc)).toFinset := by
  simp only [List.Forall, nullary_writes, unary_writes, binary_writes, ternary_writes, reshape_writes]
  repeat' apply And.intro
  all_goals exact sub_of_mem (by decide)

/-- After piece 3 from any contents, `%v77`'s buffer holds its value, given the values of what the piece reads. -/
theorem c3_v77 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F))
    (h0 : V (Proc.devRef (τ := τ) .tc main_v46) = ReadP.val_main_v46 (F := F) x1 x2 x3)
    (h1 : V (Proc.devRef (τ := τ) .tc main_v32) = ReadP.val_main_v32 (F := F) x4)
    (h2 : V (Proc.devRef (τ := τ) .tc main_arg5) = x5)
    (h3 : V (Proc.devRef (τ := τ) .tc main_arg6) = x6) :
    after C3 V (Proc.devRef (τ := τ) .tc main_v77) = ReadP.val_main_v77 (F := F) x1 x2 x3 x4 x5 x6 := by
  after_results_simp
  rw [h0, h1, h2, h3]
  rfl

/-- Of contents `V`: the arguments hold `x0 … x9` and each buffer written by pieces 0 to 3 that a later piece reads holds its value as a function of the arguments. -/
structure Inv3 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) : Prop where
  a0 : V (Proc.devRef (τ := τ) .tc main_arg0) = x0
  a1 : V (Proc.devRef (τ := τ) .tc main_arg1) = x1
  a2 : V (Proc.devRef (τ := τ) .tc main_arg2) = x2
  a3 : V (Proc.devRef (τ := τ) .tc main_arg3) = x3
  a4 : V (Proc.devRef (τ := τ) .tc main_arg4) = x4
  a5 : V (Proc.devRef (τ := τ) .tc main_arg5) = x5
  a6 : V (Proc.devRef (τ := τ) .tc main_arg6) = x6
  a7 : V (Proc.devRef (τ := τ) .tc main_arg7) = x7
  a8 : V (Proc.devRef (τ := τ) .tc main_arg8) = x8
  a9 : V (Proc.devRef (τ := τ) .tc main_arg9) = x9
  v1 : V (Proc.devRef (τ := τ) .tc main_v1) = ReadP.val_main_v1 (F := F) x2
  v3 : V (Proc.devRef (τ := τ) .tc main_v3) = ReadP.val_main_v3 (F := F) x2
  v28 : V (Proc.devRef (τ := τ) .tc main_v28) = ReadP.val_main_v28 (F := F) x2
  v77 : V (Proc.devRef (τ := τ) .tc main_v77) = ReadP.val_main_v77 (F := F) x1 x2 x3 x4 x5 x6

/-- Piece 3 carries the invariant on. -/
theorem step3 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) (h : Inv2 V x0 x1 x2 x3 x4 x5 x6 x7 x8 x9) :
    Inv3 (after C3 V) x0 x1 x2 x3 x4 x5 x6 x7 x8 x9 :=
  { a0 := (after_of_writes_sub C3 V hW3 (by decide)).trans h.a0,
    a1 := (after_of_writes_sub C3 V hW3 (by decide)).trans h.a1,
    a2 := (after_of_writes_sub C3 V hW3 (by decide)).trans h.a2,
    a3 := (after_of_writes_sub C3 V hW3 (by decide)).trans h.a3,
    a4 := (after_of_writes_sub C3 V hW3 (by decide)).trans h.a4,
    a5 := (after_of_writes_sub C3 V hW3 (by decide)).trans h.a5,
    a6 := (after_of_writes_sub C3 V hW3 (by decide)).trans h.a6,
    a7 := (after_of_writes_sub C3 V hW3 (by decide)).trans h.a7,
    a8 := (after_of_writes_sub C3 V hW3 (by decide)).trans h.a8,
    a9 := (after_of_writes_sub C3 V hW3 (by decide)).trans h.a9,
    v1 := (after_of_writes_sub C3 V hW3 (by decide)).trans h.v1,
    v3 := (after_of_writes_sub C3 V hW3 (by decide)).trans h.v3,
    v28 := (after_of_writes_sub C3 V hW3 (by decide)).trans h.v28,
    v77 := c3_v77 V x0 x1 x2 x3 x4 x5 x6 x7 x8 x9 h.v46 h.v32 h.a5 h.a6 }

/-! ## Piece 4: operations 97 to 101 (reads %arg3, %arg4, %v77; read later: %v81, %v82) -/

/-- Operations 97 to 101 of @main. -/
abbrev C4 : List (HloOp τ sig (Elt F)) :=
  [ unary main_arg3 main_v78 ((extractStridedSlice S1x512x512 ![1, 0, 0] · slices_S3x512x512_S1x512x512_1_0_0) : (⟨S3x512x512, .f32⟩ : BufTy).Contents (Elt F) → (⟨S1x512x512, .f32⟩ : BufTy).Contents (Elt F)),
    reshape main_v78 main_v79 rfl shapeCasts_S1x512x512_S512x512,
    unary main_arg4 main_v80 ((extractStridedSlice S1x512 ![1, 0] · slices_S3x512_S1x512_1_0) : (⟨S3x512, .f32⟩ : BufTy).Contents (Elt F) → (⟨S1x512, .f32⟩ : BufTy).Contents (Elt F)),
    reshape main_v80 main_v81 rfl shapeCasts_S1x512_S512,
    binary main_v77 main_v79 main_v82 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)) ]

/-- The buffers those operations write. -/
abbrev W4 : List (Ref sig .tc) :=
  [main_v78, main_v79, main_v80, main_v81, main_v82]

theorem hW4 : (C4 : List (HloOp τ sig (Elt F))).Forall fun op => op.writes ⊆ (W4.map (Proc.devRef (τ := τ) .tc)).toFinset := by
  simp only [List.Forall, nullary_writes, unary_writes, binary_writes, ternary_writes, reshape_writes]
  repeat' apply And.intro
  all_goals exact sub_of_mem (by decide)

/-- After piece 4 from any contents, `%v81`'s buffer holds its value, given the values of what the piece reads. -/
theorem c4_v81 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F))
    (h0 : V (Proc.devRef (τ := τ) .tc main_arg4) = x4) :
    after C4 V (Proc.devRef (τ := τ) .tc main_v81) = ReadP.val_main_v81 (F := F) x4 := by
  after_results_simp
  rw [h0]
  rfl

/-- After piece 4 from any contents, `%v82`'s buffer holds its value, given the values of what the piece reads. -/
theorem c4_v82 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F))
    (h0 : V (Proc.devRef (τ := τ) .tc main_v77) = ReadP.val_main_v77 (F := F) x1 x2 x3 x4 x5 x6)
    (h1 : V (Proc.devRef (τ := τ) .tc main_arg3) = x3) :
    after C4 V (Proc.devRef (τ := τ) .tc main_v82) = ReadP.val_main_v82 (F := F) x1 x2 x3 x4 x5 x6 := by
  after_results_simp
  rw [h0, h1]
  rfl

/-- Of contents `V`: the arguments hold `x0 … x9` and each buffer written by pieces 0 to 4 that a later piece reads holds its value as a function of the arguments. -/
structure Inv4 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) : Prop where
  a0 : V (Proc.devRef (τ := τ) .tc main_arg0) = x0
  a1 : V (Proc.devRef (τ := τ) .tc main_arg1) = x1
  a2 : V (Proc.devRef (τ := τ) .tc main_arg2) = x2
  a3 : V (Proc.devRef (τ := τ) .tc main_arg3) = x3
  a4 : V (Proc.devRef (τ := τ) .tc main_arg4) = x4
  a5 : V (Proc.devRef (τ := τ) .tc main_arg5) = x5
  a6 : V (Proc.devRef (τ := τ) .tc main_arg6) = x6
  a7 : V (Proc.devRef (τ := τ) .tc main_arg7) = x7
  a8 : V (Proc.devRef (τ := τ) .tc main_arg8) = x8
  a9 : V (Proc.devRef (τ := τ) .tc main_arg9) = x9
  v1 : V (Proc.devRef (τ := τ) .tc main_v1) = ReadP.val_main_v1 (F := F) x2
  v3 : V (Proc.devRef (τ := τ) .tc main_v3) = ReadP.val_main_v3 (F := F) x2
  v28 : V (Proc.devRef (τ := τ) .tc main_v28) = ReadP.val_main_v28 (F := F) x2
  v77 : V (Proc.devRef (τ := τ) .tc main_v77) = ReadP.val_main_v77 (F := F) x1 x2 x3 x4 x5 x6
  v81 : V (Proc.devRef (τ := τ) .tc main_v81) = ReadP.val_main_v81 (F := F) x4
  v82 : V (Proc.devRef (τ := τ) .tc main_v82) = ReadP.val_main_v82 (F := F) x1 x2 x3 x4 x5 x6

/-- Piece 4 carries the invariant on. -/
theorem step4 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) (h : Inv3 V x0 x1 x2 x3 x4 x5 x6 x7 x8 x9) :
    Inv4 (after C4 V) x0 x1 x2 x3 x4 x5 x6 x7 x8 x9 :=
  { a0 := (after_of_writes_sub C4 V hW4 (by decide)).trans h.a0,
    a1 := (after_of_writes_sub C4 V hW4 (by decide)).trans h.a1,
    a2 := (after_of_writes_sub C4 V hW4 (by decide)).trans h.a2,
    a3 := (after_of_writes_sub C4 V hW4 (by decide)).trans h.a3,
    a4 := (after_of_writes_sub C4 V hW4 (by decide)).trans h.a4,
    a5 := (after_of_writes_sub C4 V hW4 (by decide)).trans h.a5,
    a6 := (after_of_writes_sub C4 V hW4 (by decide)).trans h.a6,
    a7 := (after_of_writes_sub C4 V hW4 (by decide)).trans h.a7,
    a8 := (after_of_writes_sub C4 V hW4 (by decide)).trans h.a8,
    a9 := (after_of_writes_sub C4 V hW4 (by decide)).trans h.a9,
    v1 := (after_of_writes_sub C4 V hW4 (by decide)).trans h.v1,
    v3 := (after_of_writes_sub C4 V hW4 (by decide)).trans h.v3,
    v28 := (after_of_writes_sub C4 V hW4 (by decide)).trans h.v28,
    v77 := (after_of_writes_sub C4 V hW4 (by decide)).trans h.v77,
    v81 := c4_v81 V x0 x1 x2 x3 x4 x5 x6 x7 x8 x9 h.a4,
    v82 := c4_v82 V x0 x1 x2 x3 x4 x5 x6 x7 x8 x9 h.v77 h.a3 }

/-! ## Piece 5: operations 102 to 117 (reads %v1, %v82, %v28, %v3; read later: %v95) -/

/-- Operations 102 to 117 of @main. -/
abbrev C5 : List (HloOp τ sig (Elt F)) :=
  [ nullary main_c_15 (constantI S_ 32 0#32),
    unary main_c_15 main_v83 (broadcastInDim S160000 ![] bcast_S_S160000 : (⟨S_, .i32⟩ : BufTy).Contents (Elt F) → (⟨S160000, .i32⟩ : BufTy).Contents (Elt F)),
    binary main_v1 main_v83 main_v84 (cmpi .slt : (⟨S160000, .i32⟩ : BufTy).Contents (Elt F) → (⟨S160000, .i32⟩ : BufTy).Contents (Elt F) → (⟨S160000, .i1⟩ : BufTy).Contents (Elt F)),
    nullary main_c_16 (constantI S_ 32 50000#32),
    unary main_c_16 main_v85 (broadcastInDim S160000 ![] bcast_S_S160000 : (⟨S_, .i32⟩ : BufTy).Contents (Elt F) → (⟨S160000, .i32⟩ : BufTy).Contents (Elt F)),
    binary main_v1 main_v85 main_v86 (addi : (⟨S160000, .i32⟩ : BufTy).Contents (Elt F) → (⟨S160000, .i32⟩ : BufTy).Contents (Elt F) → (⟨S160000, .i32⟩ : BufTy).Contents (Elt F)),
    ternary main_v84 main_v86 main_v1 main_v87 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v87 main_v88 (broadcastInDim S160000x1 ![0] bcast_S160000_S160000x1_0 : (⟨S160000, .i32⟩ : BufTy).Contents (Elt F) → (⟨S160000x1, .i32⟩ : BufTy).Contents (Elt F)),
    binary main_v82 main_v88 main_v89 ((fun x i => Host.gather gather_S50000x512_S160000x1_S160000x512_1_0_n_n_0_1_1512 x i) : (⟨S50000x512, .f32⟩ : BufTy).Contents (Elt F) → (⟨S160000x1, .i32⟩ : BufTy).Contents (Elt F) → (⟨S160000x512, .f32⟩ : BufTy).Contents (Elt F)),
    unary main_v28 main_v90 (broadcastInDim S160000x1 ![0] bcast_S160000_S160000x1_0 : (⟨S160000, .f32⟩ : BufTy).Contents (Elt F) → (⟨S160000x1, .f32⟩ : BufTy).Contents (Elt F)),
    unary main_v90 main_v91 (broadcastInDim S160000x512 ![0, 1] bcast_S160000x1_S160000x512_0_1 : (⟨S160000x1, .f32⟩ : BufTy).Contents (Elt F) → (⟨S160000x512, .f32⟩ : BufTy).Contents (Elt F)),
    binary main_v89 main_v91 main_v92 (mulf : (⟨S160000x512, .f32⟩ : BufTy).Contents (Elt F) → (⟨S160000x512, .f32⟩ : BufTy).Contents (Elt F) → (⟨S160000x512, .f32⟩ : BufTy).Contents (Elt F)),
    nullary main_cst_17 (constant S_ .f32 0x00000000#32),
    unary main_cst_17 main_v93 (broadcastInDim S50000x512 ![] bcast_S_S50000x512 : (⟨S_, .f32⟩ : BufTy).Contents (Elt F) → (⟨S50000x512, .f32⟩ : BufTy).Contents (Elt F)),
    unary main_v3 main_v94 (broadcastInDim S160000x1 ![0] bcast_S160000_S160000x1_0 : (⟨S160000, .i32⟩ : BufTy).Contents (Elt F) → (⟨S160000x1, .i32⟩ : BufTy).Contents (Elt F)),
    ternary main_v93 main_v94 main_v92 main_v95 ((fun x i u => Host.scatterAdd scatter_S50000x512_S160000x1_S160000x512_1_0_0_1 x i u) : (⟨S50000x512, .f32⟩ : BufTy).Contents (Elt F) → (⟨S160000x1, .i32⟩ : BufTy).Contents (Elt F) → (⟨S160000x512, .f32⟩ : BufTy).Contents (Elt F) → (⟨S50000x512, .f32⟩ : BufTy).Contents (Elt F)) ]

/-- The buffers those operations write. -/
abbrev W5 : List (Ref sig .tc) :=
  [main_c_15, main_v83, main_v84, main_c_16, main_v85, main_v86, main_v87, main_v88, main_v89, main_v90, main_v91, main_v92, main_cst_17, main_v93, main_v94, main_v95]

theorem hW5 : (C5 : List (HloOp τ sig (Elt F))).Forall fun op => op.writes ⊆ (W5.map (Proc.devRef (τ := τ) .tc)).toFinset := by
  simp only [List.Forall, nullary_writes, unary_writes, binary_writes, ternary_writes, reshape_writes]
  repeat' apply And.intro
  all_goals exact sub_of_mem (by decide)

/-- After piece 5 from any contents, `%v95`'s buffer holds its value, given the values of what the piece reads. -/
theorem c5_v95 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F))
    (h0 : V (Proc.devRef (τ := τ) .tc main_v3) = ReadP.val_main_v3 (F := F) x2)
    (h1 : V (Proc.devRef (τ := τ) .tc main_v82) = ReadP.val_main_v82 (F := F) x1 x2 x3 x4 x5 x6)
    (h2 : V (Proc.devRef (τ := τ) .tc main_v1) = ReadP.val_main_v1 (F := F) x2)
    (h3 : V (Proc.devRef (τ := τ) .tc main_v28) = ReadP.val_main_v28 (F := F) x2) :
    after C5 V (Proc.devRef (τ := τ) .tc main_v95) = ReadP.val_main_v95 (F := F) x1 x2 x3 x4 x5 x6 := by
  after_results_simp
  rw [h0, h1, h2, h3]
  rfl

/-- Of contents `V`: the arguments hold `x0 … x9` and each buffer written by pieces 0 to 5 that a later piece reads holds its value as a function of the arguments. -/
structure Inv5 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) : Prop where
  a0 : V (Proc.devRef (τ := τ) .tc main_arg0) = x0
  a1 : V (Proc.devRef (τ := τ) .tc main_arg1) = x1
  a2 : V (Proc.devRef (τ := τ) .tc main_arg2) = x2
  a3 : V (Proc.devRef (τ := τ) .tc main_arg3) = x3
  a4 : V (Proc.devRef (τ := τ) .tc main_arg4) = x4
  a5 : V (Proc.devRef (τ := τ) .tc main_arg5) = x5
  a6 : V (Proc.devRef (τ := τ) .tc main_arg6) = x6
  a7 : V (Proc.devRef (τ := τ) .tc main_arg7) = x7
  a8 : V (Proc.devRef (τ := τ) .tc main_arg8) = x8
  a9 : V (Proc.devRef (τ := τ) .tc main_arg9) = x9
  v1 : V (Proc.devRef (τ := τ) .tc main_v1) = ReadP.val_main_v1 (F := F) x2
  v3 : V (Proc.devRef (τ := τ) .tc main_v3) = ReadP.val_main_v3 (F := F) x2
  v28 : V (Proc.devRef (τ := τ) .tc main_v28) = ReadP.val_main_v28 (F := F) x2
  v77 : V (Proc.devRef (τ := τ) .tc main_v77) = ReadP.val_main_v77 (F := F) x1 x2 x3 x4 x5 x6
  v81 : V (Proc.devRef (τ := τ) .tc main_v81) = ReadP.val_main_v81 (F := F) x4
  v95 : V (Proc.devRef (τ := τ) .tc main_v95) = ReadP.val_main_v95 (F := F) x1 x2 x3 x4 x5 x6

/-- Piece 5 carries the invariant on. -/
theorem step5 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) (h : Inv4 V x0 x1 x2 x3 x4 x5 x6 x7 x8 x9) :
    Inv5 (after C5 V) x0 x1 x2 x3 x4 x5 x6 x7 x8 x9 :=
  { a0 := (after_of_writes_sub C5 V hW5 (by decide)).trans h.a0,
    a1 := (after_of_writes_sub C5 V hW5 (by decide)).trans h.a1,
    a2 := (after_of_writes_sub C5 V hW5 (by decide)).trans h.a2,
    a3 := (after_of_writes_sub C5 V hW5 (by decide)).trans h.a3,
    a4 := (after_of_writes_sub C5 V hW5 (by decide)).trans h.a4,
    a5 := (after_of_writes_sub C5 V hW5 (by decide)).trans h.a5,
    a6 := (after_of_writes_sub C5 V hW5 (by decide)).trans h.a6,
    a7 := (after_of_writes_sub C5 V hW5 (by decide)).trans h.a7,
    a8 := (after_of_writes_sub C5 V hW5 (by decide)).trans h.a8,
    a9 := (after_of_writes_sub C5 V hW5 (by decide)).trans h.a9,
    v1 := (after_of_writes_sub C5 V hW5 (by decide)).trans h.v1,
    v3 := (after_of_writes_sub C5 V hW5 (by decide)).trans h.v3,
    v28 := (after_of_writes_sub C5 V hW5 (by decide)).trans h.v28,
    v77 := (after_of_writes_sub C5 V hW5 (by decide)).trans h.v77,
    v81 := (after_of_writes_sub C5 V hW5 (by decide)).trans h.v81,
    v95 := c5_v95 V x0 x1 x2 x3 x4 x5 x6 x7 x8 x9 h.v3 h.v82 h.v1 h.v28 }

/-! ## Piece 6: operations 118 to 153 (reads %v81, %v95, %arg5, %arg6; read later: %v126) -/

/-- Operations 118 to 153 of @main. -/
abbrev C6 : List (HloOp τ sig (Elt F)) :=
  [ unary main_v81 main_v96 (broadcastInDim S1x512 ![1] bcast_S512_S1x512_1 : (⟨S512, .f32⟩ : BufTy).Contents (Elt F) → (⟨S1x512, .f32⟩ : BufTy).Contents (Elt F)),
    unary main_v96 main_v97 (broadcastInDim S50000x512 ![0, 1] bcast_S1x512_S50000x512_0_1 : (⟨S1x512, .f32⟩ : BufTy).Contents (Elt F) → (⟨S50000x512, .f32⟩ : BufTy).Contents (Elt F)),
    binary main_v95 main_v97 main_v98 (addf : (⟨S50000x512, .f32⟩ : BufTy).Contents (Elt F) → (⟨S50000x512, .f32⟩ : BufTy).Contents (Elt F) → (⟨S50000x512, .f32⟩ : BufTy).Contents (Elt F)),
    unary main_arg5 main_v99 ((extractStridedSlice S1x512 ![1, 0] · slices_S3x512_S1x512_1_0) : (⟨S3x512, .f32⟩ : BufTy).Contents (Elt F) → (⟨S1x512, .f32⟩ : BufTy).Contents (Elt F)),
    reshape main_v99 main_v100 rfl shapeCasts_S1x512_S512,
    unary main_arg6 main_v101 ((extractStridedSlice S1x512 ![1, 0] · slices_S3x512_S1x512_1_0) : (⟨S3x512, .f32⟩ : BufTy).Contents (Elt F) → (⟨S1x512, .f32⟩ : BufTy).Contents (Elt F)),
    reshape main_v101 main_v102 rfl shapeCasts_S1x512_S512,
    nullary main_cst_18 (constant S_ .f32 0x00000000#32),
    binary main_v98 main_cst_18 main_v103 ((fun x v => Host.reduceAdd x v reducesTo_S50000x512_S50000_d1 h_S_) : (⟨S50000x512, .f32⟩ : BufTy).Contents (Elt F) → (⟨S_, .f32⟩ : BufTy).Contents (Elt F) → (⟨S50000, .f32⟩ : BufTy).Contents (Elt F)),
    unary main_v103 main_v104 (broadcastInDim S50000x1 ![0] bcast_S50000_S50000x1_0 : (⟨S50000, .f32⟩ : BufTy).Contents (Elt F) → (⟨S50000x1, .f32⟩ : BufTy).Contents (Elt F)),
    nullary main_cst_19 (constant S_ .f32 0x44000000#32),
    unary main_cst_19 main_v105 (broadcastInDim S50000x1 ![] bcast_S_S50000x1 : (⟨S_, .f32⟩ : BufTy).Contents (Elt F) → (⟨S50000x1, .f32⟩ : BufTy).Contents (Elt F)),
    binary main_v104 main_v105 main_v106 (Host.divf : (⟨S50000x1, .f32⟩ : BufTy).Contents (Elt F) → (⟨S50000x1, .f32⟩ : BufTy).Contents (Elt F) → (⟨S50000x1, .f32⟩ : BufTy).Contents (Elt F)),
    unary main_v106 main_v107 (broadcastInDim S50000x512 ![0, 1] bcast_S50000x1_S50000x512_0_1 : (⟨S50000x1, .f32⟩ : BufTy).Contents (Elt F) → (⟨S50000x512, .f32⟩ : BufTy).Contents (Elt F)),
    binary main_v98 main_v107 main_v108 (subf : (⟨S50000x512, .f32⟩ : BufTy).Contents (Elt F) → (⟨S50000x512, .f32⟩ : BufTy).Contents (Elt F) → (⟨S50000x512, .f32⟩ : BufTy).Contents (Elt F)),
    binary main_v108 main_v108 main_v109 (mulf : (⟨S50000x512, .f32⟩ : BufTy).Contents (Elt F) → (⟨S50000x512, .f32⟩ : BufTy).Contents (Elt F) → (⟨S50000x512, .f32⟩ : BufTy).Contents (Elt F)),
    nullary main_cst_20 (constant S_ .f32 0x00000000#32),
    binary main_v109 main_cst_20 main_v110 ((fun x v => Host.reduceAdd x v reducesTo_S50000x512_S50000_d1 h_S_) : (⟨S50000x512, .f32⟩ : BufTy).Contents (Elt F) → (⟨S_, .f32⟩ : BufTy).Contents (Elt F) → (⟨S50000, .f32⟩ : BufTy).Contents (Elt F)),
    unary main_v110 main_v111 (broadcastInDim S50000x1 ![0] bcast_S50000_S50000x1_0 : (⟨S50000, .f32⟩ : BufTy).Contents (Elt F) → (⟨S50000x1, .f32⟩ : BufTy).Contents (Elt F)),
    nullary main_cst_21 (constant S_ .f32 0x44000000#32),
    unary main_cst_21 main_v112 (broadcastInDim S50000x1 ![] bcast_S_S50000x1 : (⟨S_, .f32⟩ : BufTy).Contents (Elt F) → (⟨S50000x1, .f32⟩ : BufTy).Contents (Elt F)),
    binary main_v111 main_v112 main_v113 (Host.divf : (⟨S50000x1, .f32⟩ : BufTy).Contents (Elt F) → (⟨S50000x1, .f32⟩ : BufTy).Contents (Elt F) → (⟨S50000x1, .f32⟩ : BufTy).Contents (Elt F)),
    unary main_v106 main_v114 (broadcastInDim S50000x512 ![0, 1] bcast_S50000x1_S50000x512_0_1 : (⟨S50000x1, .f32⟩ : BufTy).Contents (Elt F) → (⟨S50000x512, .f32⟩ : BufTy).Contents (Elt F)),
    binary main_v98 main_v114 main_v115 (subf : (⟨S50000x512, .f32⟩ : BufTy).Contents (Elt F) → (⟨S50000x512, .f32⟩ : BufTy).Contents (Elt F) → (⟨S50000x512, .f32⟩ : BufTy).Contents (Elt F)),
    nullary main_cst_22 (constant S_ .f32 0x3727C5AC#32),
    unary main_cst_22 main_v116 (broadcastInDim S50000x1 ![] bcast_S_S50000x1 : (⟨S_, .f32⟩ : BufTy).Contents (Elt F) → (⟨S50000x1, .f32⟩ : BufTy).Contents (Elt F)),
    binary main_v113 main_v116 main_v117 (addf : (⟨S50000x1, .f32⟩ : BufTy).Contents (Elt F) → (⟨S50000x1, .f32⟩ : BufTy).Contents (Elt F) → (⟨S50000x1, .f32⟩ : BufTy).Contents (Elt F)),
    unary main_v117 main_v118 (Host.rsqrt : (⟨S50000x1, .f32⟩ : BufTy).Contents (Elt F) → (⟨S50000x1, .f32⟩ : BufTy).Contents (Elt F)),
    unary main_v118 main_v119 (broadcastInDim S50000x512 ![0, 1] bcast_S50000x1_S50000x512_0_1 : (⟨S50000x1, .f32⟩ : BufTy).Contents (Elt F) → (⟨S50000x512, .f32⟩ : BufTy).Contents (Elt F)),
    binary main_v115 main_v119 main_v120 (mulf : (⟨S50000x512, .f32⟩ : BufTy).Contents (Elt F) → (⟨S50000x512, .f32⟩ : BufTy).Contents (Elt F) → (⟨S50000x512, .f32⟩ : BufTy).Contents (Elt F)),
    unary main_v100 main_v121 (broadcastInDim S1x512 ![1] bcast_S512_S1x512_1 : (⟨S512, .f32⟩ : BufTy).Contents (Elt F) → (⟨S1x512, .f32⟩ : BufTy).Contents (Elt F)),
    unary main_v121 main_v122 (broadcastInDim S50000x512 ![0, 1] bcast_S1x512_S50000x512_0_1 : (⟨S1x512, .f32⟩ : BufTy).Contents (Elt F) → (⟨S50000x512, .f32⟩ : BufTy).Contents (Elt F)),
    binary main_v120 main_v122 main_v123 (mulf : (⟨S50000x512, .f32⟩ : BufTy).Contents (Elt F) → (⟨S50000x512, .f32⟩ : BufTy).Contents (Elt F) → (⟨S50000x512, .f32⟩ : BufTy).Contents (Elt F)),
    unary main_v102 main_v124 (broadcastInDim S1x512 ![1] bcast_S512_S1x512_1 : (⟨S512, .f32⟩ : BufTy).Contents (Elt F) → (⟨S1x512, .f32⟩ : BufTy).Contents (Elt F)),
    unary main_v124 main_v125 (broadcastInDim S50000x512 ![0, 1] bcast_S1x512_S50000x512_0_1 : (⟨S1x512, .f32⟩ : BufTy).Contents (Elt F) → (⟨S50000x512, .f32⟩ : BufTy).Contents (Elt F)),
    binary main_v123 main_v125 main_v126 (addf : (⟨S50000x512, .f32⟩ : BufTy).Contents (Elt F) → (⟨S50000x512, .f32⟩ : BufTy).Contents (Elt F) → (⟨S50000x512, .f32⟩ : BufTy).Contents (Elt F)) ]

/-- The buffers those operations write. -/
abbrev W6 : List (Ref sig .tc) :=
  [main_v96, main_v97, main_v98, main_v99, main_v100, main_v101, main_v102, main_cst_18, main_v103, main_v104, main_cst_19, main_v105, main_v106, main_v107, main_v108, main_v109, main_cst_20, main_v110, main_v111, main_cst_21, main_v112, main_v113, main_v114, main_v115, main_cst_22, main_v116, main_v117, main_v118, main_v119, main_v120, main_v121, main_v122, main_v123, main_v124, main_v125, main_v126]

theorem hW6 : (C6 : List (HloOp τ sig (Elt F))).Forall fun op => op.writes ⊆ (W6.map (Proc.devRef (τ := τ) .tc)).toFinset := by
  simp only [List.Forall, nullary_writes, unary_writes, binary_writes, ternary_writes, reshape_writes]
  repeat' apply And.intro
  all_goals exact sub_of_mem (by decide)

/-- After piece 6 from any contents, `%v126`'s buffer holds its value, given the values of what the piece reads. -/
theorem c6_v126 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F))
    (h0 : V (Proc.devRef (τ := τ) .tc main_v95) = ReadP.val_main_v95 (F := F) x1 x2 x3 x4 x5 x6)
    (h1 : V (Proc.devRef (τ := τ) .tc main_v81) = ReadP.val_main_v81 (F := F) x4)
    (h2 : V (Proc.devRef (τ := τ) .tc main_arg5) = x5)
    (h3 : V (Proc.devRef (τ := τ) .tc main_arg6) = x6) :
    after C6 V (Proc.devRef (τ := τ) .tc main_v126) = ReadP.val_main_v126 (F := F) x1 x2 x3 x4 x5 x6 := by
  after_results_simp
  rw [h0, h1, h2, h3]
  rfl

/-- Of contents `V`: the arguments hold `x0 … x9` and each buffer written by pieces 0 to 6 that a later piece reads holds its value as a function of the arguments. -/
structure Inv6 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) : Prop where
  a0 : V (Proc.devRef (τ := τ) .tc main_arg0) = x0
  a1 : V (Proc.devRef (τ := τ) .tc main_arg1) = x1
  a2 : V (Proc.devRef (τ := τ) .tc main_arg2) = x2
  a3 : V (Proc.devRef (τ := τ) .tc main_arg3) = x3
  a4 : V (Proc.devRef (τ := τ) .tc main_arg4) = x4
  a5 : V (Proc.devRef (τ := τ) .tc main_arg5) = x5
  a6 : V (Proc.devRef (τ := τ) .tc main_arg6) = x6
  a7 : V (Proc.devRef (τ := τ) .tc main_arg7) = x7
  a8 : V (Proc.devRef (τ := τ) .tc main_arg8) = x8
  a9 : V (Proc.devRef (τ := τ) .tc main_arg9) = x9
  v1 : V (Proc.devRef (τ := τ) .tc main_v1) = ReadP.val_main_v1 (F := F) x2
  v3 : V (Proc.devRef (τ := τ) .tc main_v3) = ReadP.val_main_v3 (F := F) x2
  v28 : V (Proc.devRef (τ := τ) .tc main_v28) = ReadP.val_main_v28 (F := F) x2
  v77 : V (Proc.devRef (τ := τ) .tc main_v77) = ReadP.val_main_v77 (F := F) x1 x2 x3 x4 x5 x6
  v126 : V (Proc.devRef (τ := τ) .tc main_v126) = ReadP.val_main_v126 (F := F) x1 x2 x3 x4 x5 x6

/-- Piece 6 carries the invariant on. -/
theorem step6 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) (h : Inv5 V x0 x1 x2 x3 x4 x5 x6 x7 x8 x9) :
    Inv6 (after C6 V) x0 x1 x2 x3 x4 x5 x6 x7 x8 x9 :=
  { a0 := (after_of_writes_sub C6 V hW6 (by decide)).trans h.a0,
    a1 := (after_of_writes_sub C6 V hW6 (by decide)).trans h.a1,
    a2 := (after_of_writes_sub C6 V hW6 (by decide)).trans h.a2,
    a3 := (after_of_writes_sub C6 V hW6 (by decide)).trans h.a3,
    a4 := (after_of_writes_sub C6 V hW6 (by decide)).trans h.a4,
    a5 := (after_of_writes_sub C6 V hW6 (by decide)).trans h.a5,
    a6 := (after_of_writes_sub C6 V hW6 (by decide)).trans h.a6,
    a7 := (after_of_writes_sub C6 V hW6 (by decide)).trans h.a7,
    a8 := (after_of_writes_sub C6 V hW6 (by decide)).trans h.a8,
    a9 := (after_of_writes_sub C6 V hW6 (by decide)).trans h.a9,
    v1 := (after_of_writes_sub C6 V hW6 (by decide)).trans h.v1,
    v3 := (after_of_writes_sub C6 V hW6 (by decide)).trans h.v3,
    v28 := (after_of_writes_sub C6 V hW6 (by decide)).trans h.v28,
    v77 := (after_of_writes_sub C6 V hW6 (by decide)).trans h.v77,
    v126 := c6_v126 V x0 x1 x2 x3 x4 x5 x6 x7 x8 x9 h.v95 h.v81 h.a5 h.a6 }

/-! ## Piece 7: operations 154 to 172 (reads %v77, %v126, %arg7, %arg8; read later: %v142) -/

/-- Operations 154 to 172 of @main. -/
abbrev C7 : List (HloOp τ sig (Elt F)) :=
  [ binary main_v77 main_v126 main_v127 ((fun a b => concatenate S50000x1024 1 [⟨S50000x512, a⟩, ⟨S50000x512, b⟩] concatenates_S50000x512_S50000x512_S50000x1024_d1) : (⟨S50000x512, .f32⟩ : BufTy).Contents (Elt F) → (⟨S50000x512, .f32⟩ : BufTy).Contents (Elt F) → (⟨S50000x1024, .f32⟩ : BufTy).Contents (Elt F)),
    binary main_v127 main_arg7 main_v128 ((fun l r => Host.dotGeneral dot_S50000x1024_S1024x512_S50000x512_1_0_0_1_n_n none l r) : (⟨S50000x1024, .f32⟩ : BufTy).Contents (Elt F) → (⟨S1024x512, .f32⟩ : BufTy).Contents (Elt F) → (⟨S50000x512, .f32⟩ : BufTy).Contents (Elt F)),
    unary main_arg8 main_v129 (broadcastInDim S1x512 ![1] bcast_S512_S1x512_1 : (⟨S512, .f32⟩ : BufTy).Contents (Elt F) → (⟨S1x512, .f32⟩ : BufTy).Contents (Elt F)),
    unary main_v129 main_v130 (broadcastInDim S50000x512 ![0, 1] bcast_S1x512_S50000x512_0_1 : (⟨S1x512, .f32⟩ : BufTy).Contents (Elt F) → (⟨S50000x512, .f32⟩ : BufTy).Contents (Elt F)),
    binary main_v128 main_v130 main_v131 (addf : (⟨S50000x512, .f32⟩ : BufTy).Contents (Elt F) → (⟨S50000x512, .f32⟩ : BufTy).Contents (Elt F) → (⟨S50000x512, .f32⟩ : BufTy).Contents (Elt F)),
    unary main_v131 main_v132 (Host.negf : (⟨S50000x512, .f32⟩ : BufTy).Contents (Elt F) → (⟨S50000x512, .f32⟩ : BufTy).Contents (Elt F)),
    unary main_v132 main_v133 (Host.exp : (⟨S50000x512, .f32⟩ : BufTy).Contents (Elt F) → (⟨S50000x512, .f32⟩ : BufTy).Contents (Elt F)),
    nullary main_cst_23 (constant S_ .f32 0x3F800000#32),
    unary main_cst_23 main_v134 (broadcastInDim S50000x512 ![] bcast_S_S50000x512 : (⟨S_, .f32⟩ : BufTy).Contents (Elt F) → (⟨S50000x512, .f32⟩ : BufTy).Contents (Elt F)),
    binary main_v134 main_v133 main_v135 (addf : (⟨S50000x512, .f32⟩ : BufTy).Contents (Elt F) → (⟨S50000x512, .f32⟩ : BufTy).Contents (Elt F) → (⟨S50000x512, .f32⟩ : BufTy).Contents (Elt F)),
    nullary main_cst_24 (constant S_ .f32 0x3F800000#32),
    unary main_cst_24 main_v136 (broadcastInDim S50000x512 ![] bcast_S_S50000x512 : (⟨S_, .f32⟩ : BufTy).Contents (Elt F) → (⟨S50000x512, .f32⟩ : BufTy).Contents (Elt F)),
    binary main_v136 main_v135 main_v137 (Host.divf : (⟨S50000x512, .f32⟩ : BufTy).Contents (Elt F) → (⟨S50000x512, .f32⟩ : BufTy).Contents (Elt F) → (⟨S50000x512, .f32⟩ : BufTy).Contents (Elt F)),
    binary main_v137 main_v126 main_v138 (mulf : (⟨S50000x512, .f32⟩ : BufTy).Contents (Elt F) → (⟨S50000x512, .f32⟩ : BufTy).Contents (Elt F) → (⟨S50000x512, .f32⟩ : BufTy).Contents (Elt F)),
    nullary main_cst_25 (constant S_ .f32 0x3F800000#32),
    unary main_cst_25 main_v139 (broadcastInDim S50000x512 ![] bcast_S_S50000x512 : (⟨S_, .f32⟩ : BufTy).Contents (Elt F) → (⟨S50000x512, .f32⟩ : BufTy).Contents (Elt F)),
    binary main_v139 main_v137 main_v140 (subf : (⟨S50000x512, .f32⟩ : BufTy).Contents (Elt F) → (⟨S50000x512, .f32⟩ : BufTy).Contents (Elt F) → (⟨S50000x512, .f32⟩ : BufTy).Contents (Elt F)),
    binary main_v140 main_v77 main_v141 (mulf : (⟨S50000x512, .f32⟩ : BufTy).Contents (Elt F) → (⟨S50000x512, .f32⟩ : BufTy).Contents (Elt F) → (⟨S50000x512, .f32⟩ : BufTy).Contents (Elt F)),
    binary main_v138 main_v141 main_v142 (addf : (⟨S50000x512, .f32⟩ : BufTy).Contents (Elt F) → (⟨S50000x512, .f32⟩ : BufTy).Contents (Elt F) → (⟨S50000x512, .f32⟩ : BufTy).Contents (Elt F)) ]

/-- The buffers those operations write. -/
abbrev W7 : List (Ref sig .tc) :=
  [main_v127, main_v128, main_v129, main_v130, main_v131, main_v132, main_v133, main_cst_23, main_v134, main_v135, main_cst_24, main_v136, main_v137, main_v138, main_cst_25, main_v139, main_v140, main_v141, main_v142]

theorem hW7 : (C7 : List (HloOp τ sig (Elt F))).Forall fun op => op.writes ⊆ (W7.map (Proc.devRef (τ := τ) .tc)).toFinset := by
  simp only [List.Forall, nullary_writes, unary_writes, binary_writes, ternary_writes, reshape_writes]
  repeat' apply And.intro
  all_goals exact sub_of_mem (by decide)

/-- After piece 7 from any contents, `%v142`'s buffer holds its value, given the values of what the piece reads. -/
theorem c7_v142 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F))
    (h0 : V (Proc.devRef (τ := τ) .tc main_v77) = ReadP.val_main_v77 (F := F) x1 x2 x3 x4 x5 x6)
    (h1 : V (Proc.devRef (τ := τ) .tc main_v126) = ReadP.val_main_v126 (F := F) x1 x2 x3 x4 x5 x6)
    (h2 : V (Proc.devRef (τ := τ) .tc main_arg7) = x7)
    (h3 : V (Proc.devRef (τ := τ) .tc main_arg8) = x8) :
    after C7 V (Proc.devRef (τ := τ) .tc main_v142) = ReadP.val_main_v142 (F := F) x1 x2 x3 x4 x5 x6 x7 x8 := by
  after_results_simp
  rw [h0, h1, h2, h3]
  rfl

/-- Of contents `V`: the arguments hold `x0 … x9` and each buffer written by pieces 0 to 7 that a later piece reads holds its value as a function of the arguments. -/
structure Inv7 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) : Prop where
  a0 : V (Proc.devRef (τ := τ) .tc main_arg0) = x0
  a1 : V (Proc.devRef (τ := τ) .tc main_arg1) = x1
  a2 : V (Proc.devRef (τ := τ) .tc main_arg2) = x2
  a3 : V (Proc.devRef (τ := τ) .tc main_arg3) = x3
  a4 : V (Proc.devRef (τ := τ) .tc main_arg4) = x4
  a5 : V (Proc.devRef (τ := τ) .tc main_arg5) = x5
  a6 : V (Proc.devRef (τ := τ) .tc main_arg6) = x6
  a7 : V (Proc.devRef (τ := τ) .tc main_arg7) = x7
  a8 : V (Proc.devRef (τ := τ) .tc main_arg8) = x8
  a9 : V (Proc.devRef (τ := τ) .tc main_arg9) = x9
  v1 : V (Proc.devRef (τ := τ) .tc main_v1) = ReadP.val_main_v1 (F := F) x2
  v3 : V (Proc.devRef (τ := τ) .tc main_v3) = ReadP.val_main_v3 (F := F) x2
  v28 : V (Proc.devRef (τ := τ) .tc main_v28) = ReadP.val_main_v28 (F := F) x2
  v142 : V (Proc.devRef (τ := τ) .tc main_v142) = ReadP.val_main_v142 (F := F) x1 x2 x3 x4 x5 x6 x7 x8

/-- Piece 7 carries the invariant on. -/
theorem step7 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) (h : Inv6 V x0 x1 x2 x3 x4 x5 x6 x7 x8 x9) :
    Inv7 (after C7 V) x0 x1 x2 x3 x4 x5 x6 x7 x8 x9 :=
  { a0 := (after_of_writes_sub C7 V hW7 (by decide)).trans h.a0,
    a1 := (after_of_writes_sub C7 V hW7 (by decide)).trans h.a1,
    a2 := (after_of_writes_sub C7 V hW7 (by decide)).trans h.a2,
    a3 := (after_of_writes_sub C7 V hW7 (by decide)).trans h.a3,
    a4 := (after_of_writes_sub C7 V hW7 (by decide)).trans h.a4,
    a5 := (after_of_writes_sub C7 V hW7 (by decide)).trans h.a5,
    a6 := (after_of_writes_sub C7 V hW7 (by decide)).trans h.a6,
    a7 := (after_of_writes_sub C7 V hW7 (by decide)).trans h.a7,
    a8 := (after_of_writes_sub C7 V hW7 (by decide)).trans h.a8,
    a9 := (after_of_writes_sub C7 V hW7 (by decide)).trans h.a9,
    v1 := (after_of_writes_sub C7 V hW7 (by decide)).trans h.v1,
    v3 := (after_of_writes_sub C7 V hW7 (by decide)).trans h.v3,
    v28 := (after_of_writes_sub C7 V hW7 (by decide)).trans h.v28,
    v142 := c7_v142 V x0 x1 x2 x3 x4 x5 x6 x7 x8 x9 h.v77 h.v126 h.a7 h.a8 }

/-! ## Piece 8: operations 173 to 177 (reads %arg3, %arg4, %v142; read later: %v146, %v147) -/

/-- Operations 173 to 177 of @main. -/
abbrev C8 : List (HloOp τ sig (Elt F)) :=
  [ unary main_arg3 main_v143 ((extractStridedSlice S1x512x512 ![2, 0, 0] · slices_S3x512x512_S1x512x512_2_0_0) : (⟨S3x512x512, .f32⟩ : BufTy).Contents (Elt F) → (⟨S1x512x512, .f32⟩ : BufTy).Contents (Elt F)),
    reshape main_v143 main_v144 rfl shapeCasts_S1x512x512_S512x512,
    unary main_arg4 main_v145 ((extractStridedSlice S1x512 ![2, 0] · slices_S3x512_S1x512_2_0) : (⟨S3x512, .f32⟩ : BufTy).Contents (Elt F) → (⟨S1x512, .f32⟩ : BufTy).Contents (Elt F)),
    reshape main_v145 main_v146 rfl shapeCasts_S1x512_S512,
    binary main_v142 main_v144 main_v147 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)) ]

/-- The buffers those operations write. -/
abbrev W8 : List (Ref sig .tc) :=
  [main_v143, main_v144, main_v145, main_v146, main_v147]

theorem hW8 : (C8 : List (HloOp τ sig (Elt F))).Forall fun op => op.writes ⊆ (W8.map (Proc.devRef (τ := τ) .tc)).toFinset := by
  simp only [List.Forall, nullary_writes, unary_writes, binary_writes, ternary_writes, reshape_writes]
  repeat' apply And.intro
  all_goals exact sub_of_mem (by decide)

/-- After piece 8 from any contents, `%v146`'s buffer holds its value, given the values of what the piece reads. -/
theorem c8_v146 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F))
    (h0 : V (Proc.devRef (τ := τ) .tc main_arg4) = x4) :
    after C8 V (Proc.devRef (τ := τ) .tc main_v146) = ReadP.val_main_v146 (F := F) x4 := by
  after_results_simp
  rw [h0]
  rfl

/-- After piece 8 from any contents, `%v147`'s buffer holds its value, given the values of what the piece reads. -/
theorem c8_v147 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F))
    (h0 : V (Proc.devRef (τ := τ) .tc main_v142) = ReadP.val_main_v142 (F := F) x1 x2 x3 x4 x5 x6 x7 x8)
    (h1 : V (Proc.devRef (τ := τ) .tc main_arg3) = x3) :
    after C8 V (Proc.devRef (τ := τ) .tc main_v147) = ReadP.val_main_v147 (F := F) x1 x2 x3 x4 x5 x6 x7 x8 := by
  after_results_simp
  rw [h0, h1]
  rfl

/-- Of contents `V`: the arguments hold `x0 … x9` and each buffer written by pieces 0 to 8 that a later piece reads holds its value as a function of the arguments. -/
structure Inv8 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) : Prop where
  a0 : V (Proc.devRef (τ := τ) .tc main_arg0) = x0
  a1 : V (Proc.devRef (τ := τ) .tc main_arg1) = x1
  a2 : V (Proc.devRef (τ := τ) .tc main_arg2) = x2
  a3 : V (Proc.devRef (τ := τ) .tc main_arg3) = x3
  a4 : V (Proc.devRef (τ := τ) .tc main_arg4) = x4
  a5 : V (Proc.devRef (τ := τ) .tc main_arg5) = x5
  a6 : V (Proc.devRef (τ := τ) .tc main_arg6) = x6
  a7 : V (Proc.devRef (τ := τ) .tc main_arg7) = x7
  a8 : V (Proc.devRef (τ := τ) .tc main_arg8) = x8
  a9 : V (Proc.devRef (τ := τ) .tc main_arg9) = x9
  v1 : V (Proc.devRef (τ := τ) .tc main_v1) = ReadP.val_main_v1 (F := F) x2
  v3 : V (Proc.devRef (τ := τ) .tc main_v3) = ReadP.val_main_v3 (F := F) x2
  v28 : V (Proc.devRef (τ := τ) .tc main_v28) = ReadP.val_main_v28 (F := F) x2
  v142 : V (Proc.devRef (τ := τ) .tc main_v142) = ReadP.val_main_v142 (F := F) x1 x2 x3 x4 x5 x6 x7 x8
  v146 : V (Proc.devRef (τ := τ) .tc main_v146) = ReadP.val_main_v146 (F := F) x4
  v147 : V (Proc.devRef (τ := τ) .tc main_v147) = ReadP.val_main_v147 (F := F) x1 x2 x3 x4 x5 x6 x7 x8

/-- Piece 8 carries the invariant on. -/
theorem step8 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) (h : Inv7 V x0 x1 x2 x3 x4 x5 x6 x7 x8 x9) :
    Inv8 (after C8 V) x0 x1 x2 x3 x4 x5 x6 x7 x8 x9 :=
  { a0 := (after_of_writes_sub C8 V hW8 (by decide)).trans h.a0,
    a1 := (after_of_writes_sub C8 V hW8 (by decide)).trans h.a1,
    a2 := (after_of_writes_sub C8 V hW8 (by decide)).trans h.a2,
    a3 := (after_of_writes_sub C8 V hW8 (by decide)).trans h.a3,
    a4 := (after_of_writes_sub C8 V hW8 (by decide)).trans h.a4,
    a5 := (after_of_writes_sub C8 V hW8 (by decide)).trans h.a5,
    a6 := (after_of_writes_sub C8 V hW8 (by decide)).trans h.a6,
    a7 := (after_of_writes_sub C8 V hW8 (by decide)).trans h.a7,
    a8 := (after_of_writes_sub C8 V hW8 (by decide)).trans h.a8,
    a9 := (after_of_writes_sub C8 V hW8 (by decide)).trans h.a9,
    v1 := (after_of_writes_sub C8 V hW8 (by decide)).trans h.v1,
    v3 := (after_of_writes_sub C8 V hW8 (by decide)).trans h.v3,
    v28 := (after_of_writes_sub C8 V hW8 (by decide)).trans h.v28,
    v142 := (after_of_writes_sub C8 V hW8 (by decide)).trans h.v142,
    v146 := c8_v146 V x0 x1 x2 x3 x4 x5 x6 x7 x8 x9 h.a4,
    v147 := c8_v147 V x0 x1 x2 x3 x4 x5 x6 x7 x8 x9 h.v142 h.a3 }

/-! ## Piece 9: operations 178 to 193 (reads %v1, %v147, %v28, %v3; read later: %v160) -/

/-- Operations 178 to 193 of @main. -/
abbrev C9 : List (HloOp τ sig (Elt F)) :=
  [ nullary main_c_26 (constantI S_ 32 0#32),
    unary main_c_26 main_v148 (broadcastInDim S160000 ![] bcast_S_S160000 : (⟨S_, .i32⟩ : BufTy).Contents (Elt F) → (⟨S160000, .i32⟩ : BufTy).Contents (Elt F)),
    binary main_v1 main_v148 main_v149 (cmpi .slt : (⟨S160000, .i32⟩ : BufTy).Contents (Elt F) → (⟨S160000, .i32⟩ : BufTy).Contents (Elt F) → (⟨S160000, .i1⟩ : BufTy).Contents (Elt F)),
    nullary main_c_27 (constantI S_ 32 50000#32),
    unary main_c_27 main_v150 (broadcastInDim S160000 ![] bcast_S_S160000 : (⟨S_, .i32⟩ : BufTy).Contents (Elt F) → (⟨S160000, .i32⟩ : BufTy).Contents (Elt F)),
    binary main_v1 main_v150 main_v151 (addi : (⟨S160000, .i32⟩ : BufTy).Contents (Elt F) → (⟨S160000, .i32⟩ : BufTy).Contents (Elt F) → (⟨S160000, .i32⟩ : BufTy).Contents (Elt F)),
    ternary main_v149 main_v151 main_v1 main_v152 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v152 main_v153 (broadcastInDim S160000x1 ![0] bcast_S160000_S160000x1_0 : (⟨S160000, .i32⟩ : BufTy).Contents (Elt F) → (⟨S160000x1, .i32⟩ : BufTy).Contents (Elt F)),
    binary main_v147 main_v153 main_v154 ((fun x i => Host.gather gather_S50000x512_S160000x1_S160000x512_1_0_n_n_0_1_1512 x i) : (⟨S50000x512, .f32⟩ : BufTy).Contents (Elt F) → (⟨S160000x1, .i32⟩ : BufTy).Contents (Elt F) → (⟨S160000x512, .f32⟩ : BufTy).Contents (Elt F)),
    unary main_v28 main_v155 (broadcastInDim S160000x1 ![0] bcast_S160000_S160000x1_0 : (⟨S160000, .f32⟩ : BufTy).Contents (Elt F) → (⟨S160000x1, .f32⟩ : BufTy).Contents (Elt F)),
    unary main_v155 main_v156 (broadcastInDim S160000x512 ![0, 1] bcast_S160000x1_S160000x512_0_1 : (⟨S160000x1, .f32⟩ : BufTy).Contents (Elt F) → (⟨S160000x512, .f32⟩ : BufTy).Contents (Elt F)),
    binary main_v154 main_v156 main_v157 (mulf : (⟨S160000x512, .f32⟩ : BufTy).Contents (Elt F) → (⟨S160000x512, .f32⟩ : BufTy).Contents (Elt F) → (⟨S160000x512, .f32⟩ : BufTy).Contents (Elt F)),
    nullary main_cst_28 (constant S_ .f32 0x00000000#32),
    unary main_cst_28 main_v158 (broadcastInDim S50000x512 ![] bcast_S_S50000x512 : (⟨S_, .f32⟩ : BufTy).Contents (Elt F) → (⟨S50000x512, .f32⟩ : BufTy).Contents (Elt F)),
    unary main_v3 main_v159 (broadcastInDim S160000x1 ![0] bcast_S160000_S160000x1_0 : (⟨S160000, .i32⟩ : BufTy).Contents (Elt F) → (⟨S160000x1, .i32⟩ : BufTy).Contents (Elt F)),
    ternary main_v158 main_v159 main_v157 main_v160 ((fun x i u => Host.scatterAdd scatter_S50000x512_S160000x1_S160000x512_1_0_0_1 x i u) : (⟨S50000x512, .f32⟩ : BufTy).Contents (Elt F) → (⟨S160000x1, .i32⟩ : BufTy).Contents (Elt F) → (⟨S160000x512, .f32⟩ : BufTy).Contents (Elt F) → (⟨S50000x512, .f32⟩ : BufTy).Contents (Elt F)) ]

/-- The buffers those operations write. -/
abbrev W9 : List (Ref sig .tc) :=
  [main_c_26, main_v148, main_v149, main_c_27, main_v150, main_v151, main_v152, main_v153, main_v154, main_v155, main_v156, main_v157, main_cst_28, main_v158, main_v159, main_v160]

theorem hW9 : (C9 : List (HloOp τ sig (Elt F))).Forall fun op => op.writes ⊆ (W9.map (Proc.devRef (τ := τ) .tc)).toFinset := by
  simp only [List.Forall, nullary_writes, unary_writes, binary_writes, ternary_writes, reshape_writes]
  repeat' apply And.intro
  all_goals exact sub_of_mem (by decide)

/-- After piece 9 from any contents, `%v160`'s buffer holds its value, given the values of what the piece reads. -/
theorem c9_v160 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F))
    (h0 : V (Proc.devRef (τ := τ) .tc main_v3) = ReadP.val_main_v3 (F := F) x2)
    (h1 : V (Proc.devRef (τ := τ) .tc main_v147) = ReadP.val_main_v147 (F := F) x1 x2 x3 x4 x5 x6 x7 x8)
    (h2 : V (Proc.devRef (τ := τ) .tc main_v1) = ReadP.val_main_v1 (F := F) x2)
    (h3 : V (Proc.devRef (τ := τ) .tc main_v28) = ReadP.val_main_v28 (F := F) x2) :
    after C9 V (Proc.devRef (τ := τ) .tc main_v160) = ReadP.val_main_v160 (F := F) x1 x2 x3 x4 x5 x6 x7 x8 := by
  after_results_simp
  rw [h0, h1, h2, h3]
  rfl

/-- Of contents `V`: the arguments hold `x0 … x9` and each buffer written by pieces 0 to 9 that a later piece reads holds its value as a function of the arguments. -/
structure Inv9 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) : Prop where
  a0 : V (Proc.devRef (τ := τ) .tc main_arg0) = x0
  a1 : V (Proc.devRef (τ := τ) .tc main_arg1) = x1
  a2 : V (Proc.devRef (τ := τ) .tc main_arg2) = x2
  a3 : V (Proc.devRef (τ := τ) .tc main_arg3) = x3
  a4 : V (Proc.devRef (τ := τ) .tc main_arg4) = x4
  a5 : V (Proc.devRef (τ := τ) .tc main_arg5) = x5
  a6 : V (Proc.devRef (τ := τ) .tc main_arg6) = x6
  a7 : V (Proc.devRef (τ := τ) .tc main_arg7) = x7
  a8 : V (Proc.devRef (τ := τ) .tc main_arg8) = x8
  a9 : V (Proc.devRef (τ := τ) .tc main_arg9) = x9
  v142 : V (Proc.devRef (τ := τ) .tc main_v142) = ReadP.val_main_v142 (F := F) x1 x2 x3 x4 x5 x6 x7 x8
  v146 : V (Proc.devRef (τ := τ) .tc main_v146) = ReadP.val_main_v146 (F := F) x4
  v160 : V (Proc.devRef (τ := τ) .tc main_v160) = ReadP.val_main_v160 (F := F) x1 x2 x3 x4 x5 x6 x7 x8

/-- Piece 9 carries the invariant on. -/
theorem step9 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) (h : Inv8 V x0 x1 x2 x3 x4 x5 x6 x7 x8 x9) :
    Inv9 (after C9 V) x0 x1 x2 x3 x4 x5 x6 x7 x8 x9 :=
  { a0 := (after_of_writes_sub C9 V hW9 (by decide)).trans h.a0,
    a1 := (after_of_writes_sub C9 V hW9 (by decide)).trans h.a1,
    a2 := (after_of_writes_sub C9 V hW9 (by decide)).trans h.a2,
    a3 := (after_of_writes_sub C9 V hW9 (by decide)).trans h.a3,
    a4 := (after_of_writes_sub C9 V hW9 (by decide)).trans h.a4,
    a5 := (after_of_writes_sub C9 V hW9 (by decide)).trans h.a5,
    a6 := (after_of_writes_sub C9 V hW9 (by decide)).trans h.a6,
    a7 := (after_of_writes_sub C9 V hW9 (by decide)).trans h.a7,
    a8 := (after_of_writes_sub C9 V hW9 (by decide)).trans h.a8,
    a9 := (after_of_writes_sub C9 V hW9 (by decide)).trans h.a9,
    v142 := (after_of_writes_sub C9 V hW9 (by decide)).trans h.v142,
    v146 := (after_of_writes_sub C9 V hW9 (by decide)).trans h.v146,
    v160 := c9_v160 V x0 x1 x2 x3 x4 x5 x6 x7 x8 x9 h.v3 h.v147 h.v1 h.v28 }

/-! ## Piece 10: operations 194 to 229 (reads %v146, %v160, %arg5, %arg6; read later: %v191) -/

/-- Operations 194 to 229 of @main. -/
abbrev C10 : List (HloOp τ sig (Elt F)) :=
  [ unary main_v146 main_v161 (broadcastInDim S1x512 ![1] bcast_S512_S1x512_1 : (⟨S512, .f32⟩ : BufTy).Contents (Elt F) → (⟨S1x512, .f32⟩ : BufTy).Contents (Elt F)),
    unary main_v161 main_v162 (broadcastInDim S50000x512 ![0, 1] bcast_S1x512_S50000x512_0_1 : (⟨S1x512, .f32⟩ : BufTy).Contents (Elt F) → (⟨S50000x512, .f32⟩ : BufTy).Contents (Elt F)),
    binary main_v160 main_v162 main_v163 (addf : (⟨S50000x512, .f32⟩ : BufTy).Contents (Elt F) → (⟨S50000x512, .f32⟩ : BufTy).Contents (Elt F) → (⟨S50000x512, .f32⟩ : BufTy).Contents (Elt F)),
    unary main_arg5 main_v164 ((extractStridedSlice S1x512 ![2, 0] · slices_S3x512_S1x512_2_0) : (⟨S3x512, .f32⟩ : BufTy).Contents (Elt F) → (⟨S1x512, .f32⟩ : BufTy).Contents (Elt F)),
    reshape main_v164 main_v165 rfl shapeCasts_S1x512_S512,
    unary main_arg6 main_v166 ((extractStridedSlice S1x512 ![2, 0] · slices_S3x512_S1x512_2_0) : (⟨S3x512, .f32⟩ : BufTy).Contents (Elt F) → (⟨S1x512, .f32⟩ : BufTy).Contents (Elt F)),
    reshape main_v166 main_v167 rfl shapeCasts_S1x512_S512,
    nullary main_cst_29 (constant S_ .f32 0x00000000#32),
    binary main_v163 main_cst_29 main_v168 ((fun x v => Host.reduceAdd x v reducesTo_S50000x512_S50000_d1 h_S_) : (⟨S50000x512, .f32⟩ : BufTy).Contents (Elt F) → (⟨S_, .f32⟩ : BufTy).Contents (Elt F) → (⟨S50000, .f32⟩ : BufTy).Contents (Elt F)),
    unary main_v168 main_v169 (broadcastInDim S50000x1 ![0] bcast_S50000_S50000x1_0 : (⟨S50000, .f32⟩ : BufTy).Contents (Elt F) → (⟨S50000x1, .f32⟩ : BufTy).Contents (Elt F)),
    nullary main_cst_30 (constant S_ .f32 0x44000000#32),
    unary main_cst_30 main_v170 (broadcastInDim S50000x1 ![] bcast_S_S50000x1 : (⟨S_, .f32⟩ : BufTy).Contents (Elt F) → (⟨S50000x1, .f32⟩ : BufTy).Contents (Elt F)),
    binary main_v169 main_v170 main_v171 (Host.divf : (⟨S50000x1, .f32⟩ : BufTy).Contents (Elt F) → (⟨S50000x1, .f32⟩ : BufTy).Contents (Elt F) → (⟨S50000x1, .f32⟩ : BufTy).Contents (Elt F)),
    unary main_v171 main_v172 (broadcastInDim S50000x512 ![0, 1] bcast_S50000x1_S50000x512_0_1 : (⟨S50000x1, .f32⟩ : BufTy).Contents (Elt F) → (⟨S50000x512, .f32⟩ : BufTy).Contents (Elt F)),
    binary main_v163 main_v172 main_v173 (subf : (⟨S50000x512, .f32⟩ : BufTy).Contents (Elt F) → (⟨S50000x512, .f32⟩ : BufTy).Contents (Elt F) → (⟨S50000x512, .f32⟩ : BufTy).Contents (Elt F)),
    binary main_v173 main_v173 main_v174 (mulf : (⟨S50000x512, .f32⟩ : BufTy).Contents (Elt F) → (⟨S50000x512, .f32⟩ : BufTy).Contents (Elt F) → (⟨S50000x512, .f32⟩ : BufTy).Contents (Elt F)),
    nullary main_cst_31 (constant S_ .f32 0x00000000#32),
    binary main_v174 main_cst_31 main_v175 ((fun x v => Host.reduceAdd x v reducesTo_S50000x512_S50000_d1 h_S_) : (⟨S50000x512, .f32⟩ : BufTy).Contents (Elt F) → (⟨S_, .f32⟩ : BufTy).Contents (Elt F) → (⟨S50000, .f32⟩ : BufTy).Contents (Elt F)),
    unary main_v175 main_v176 (broadcastInDim S50000x1 ![0] bcast_S50000_S50000x1_0 : (⟨S50000, .f32⟩ : BufTy).Contents (Elt F) → (⟨S50000x1, .f32⟩ : BufTy).Contents (Elt F)),
    nullary main_cst_32 (constant S_ .f32 0x44000000#32),
    unary main_cst_32 main_v177 (broadcastInDim S50000x1 ![] bcast_S_S50000x1 : (⟨S_, .f32⟩ : BufTy).Contents (Elt F) → (⟨S50000x1, .f32⟩ : BufTy).Contents (Elt F)),
    binary main_v176 main_v177 main_v178 (Host.divf : (⟨S50000x1, .f32⟩ : BufTy).Contents (Elt F) → (⟨S50000x1, .f32⟩ : BufTy).Contents (Elt F) → (⟨S50000x1, .f32⟩ : BufTy).Contents (Elt F)),
    unary main_v171 main_v179 (broadcastInDim S50000x512 ![0, 1] bcast_S50000x1_S50000x512_0_1 : (⟨S50000x1, .f32⟩ : BufTy).Contents (Elt F) → (⟨S50000x512, .f32⟩ : BufTy).Contents (Elt F)),
    binary main_v163 main_v179 main_v180 (subf : (⟨S50000x512, .f32⟩ : BufTy).Contents (Elt F) → (⟨S50000x512, .f32⟩ : BufTy).Contents (Elt F) → (⟨S50000x512, .f32⟩ : BufTy).Contents (Elt F)),
    nullary main_cst_33 (constant S_ .f32 0x3727C5AC#32),
    unary main_cst_33 main_v181 (broadcastInDim S50000x1 ![] bcast_S_S50000x1 : (⟨S_, .f32⟩ : BufTy).Contents (Elt F) → (⟨S50000x1, .f32⟩ : BufTy).Contents (Elt F)),
    binary main_v178 main_v181 main_v182 (addf : (⟨S50000x1, .f32⟩ : BufTy).Contents (Elt F) → (⟨S50000x1, .f32⟩ : BufTy).Contents (Elt F) → (⟨S50000x1, .f32⟩ : BufTy).Contents (Elt F)),
    unary main_v182 main_v183 (Host.rsqrt : (⟨S50000x1, .f32⟩ : BufTy).Contents (Elt F) → (⟨S50000x1, .f32⟩ : BufTy).Contents (Elt F)),
    unary main_v183 main_v184 (broadcastInDim S50000x512 ![0, 1] bcast_S50000x1_S50000x512_0_1 : (⟨S50000x1, .f32⟩ : BufTy).Contents (Elt F) → (⟨S50000x512, .f32⟩ : BufTy).Contents (Elt F)),
    binary main_v180 main_v184 main_v185 (mulf : (⟨S50000x512, .f32⟩ : BufTy).Contents (Elt F) → (⟨S50000x512, .f32⟩ : BufTy).Contents (Elt F) → (⟨S50000x512, .f32⟩ : BufTy).Contents (Elt F)),
    unary main_v165 main_v186 (broadcastInDim S1x512 ![1] bcast_S512_S1x512_1 : (⟨S512, .f32⟩ : BufTy).Contents (Elt F) → (⟨S1x512, .f32⟩ : BufTy).Contents (Elt F)),
    unary main_v186 main_v187 (broadcastInDim S50000x512 ![0, 1] bcast_S1x512_S50000x512_0_1 : (⟨S1x512, .f32⟩ : BufTy).Contents (Elt F) → (⟨S50000x512, .f32⟩ : BufTy).Contents (Elt F)),
    binary main_v185 main_v187 main_v188 (mulf : (⟨S50000x512, .f32⟩ : BufTy).Contents (Elt F) → (⟨S50000x512, .f32⟩ : BufTy).Contents (Elt F) → (⟨S50000x512, .f32⟩ : BufTy).Contents (Elt F)),
    unary main_v167 main_v189 (broadcastInDim S1x512 ![1] bcast_S512_S1x512_1 : (⟨S512, .f32⟩ : BufTy).Contents (Elt F) → (⟨S1x512, .f32⟩ : BufTy).Contents (Elt F)),
    unary main_v189 main_v190 (broadcastInDim S50000x512 ![0, 1] bcast_S1x512_S50000x512_0_1 : (⟨S1x512, .f32⟩ : BufTy).Contents (Elt F) → (⟨S50000x512, .f32⟩ : BufTy).Contents (Elt F)),
    binary main_v188 main_v190 main_v191 (addf : (⟨S50000x512, .f32⟩ : BufTy).Contents (Elt F) → (⟨S50000x512, .f32⟩ : BufTy).Contents (Elt F) → (⟨S50000x512, .f32⟩ : BufTy).Contents (Elt F)) ]

/-- The buffers those operations write. -/
abbrev W10 : List (Ref sig .tc) :=
  [main_v161, main_v162, main_v163, main_v164, main_v165, main_v166, main_v167, main_cst_29, main_v168, main_v169, main_cst_30, main_v170, main_v171, main_v172, main_v173, main_v174, main_cst_31, main_v175, main_v176, main_cst_32, main_v177, main_v178, main_v179, main_v180, main_cst_33, main_v181, main_v182, main_v183, main_v184, main_v185, main_v186, main_v187, main_v188, main_v189, main_v190, main_v191]

theorem hW10 : (C10 : List (HloOp τ sig (Elt F))).Forall fun op => op.writes ⊆ (W10.map (Proc.devRef (τ := τ) .tc)).toFinset := by
  simp only [List.Forall, nullary_writes, unary_writes, binary_writes, ternary_writes, reshape_writes]
  repeat' apply And.intro
  all_goals exact sub_of_mem (by decide)

/-- After piece 10 from any contents, `%v191`'s buffer holds its value, given the values of what the piece reads. -/
theorem c10_v191 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F))
    (h0 : V (Proc.devRef (τ := τ) .tc main_v160) = ReadP.val_main_v160 (F := F) x1 x2 x3 x4 x5 x6 x7 x8)
    (h1 : V (Proc.devRef (τ := τ) .tc main_v146) = ReadP.val_main_v146 (F := F) x4)
    (h2 : V (Proc.devRef (τ := τ) .tc main_arg5) = x5)
    (h3 : V (Proc.devRef (τ := τ) .tc main_arg6) = x6) :
    after C10 V (Proc.devRef (τ := τ) .tc main_v191) = ReadP.val_main_v191 (F := F) x1 x2 x3 x4 x5 x6 x7 x8 := by
  after_results_simp
  rw [h0, h1, h2, h3]
  rfl

/-- Of contents `V`: the arguments hold `x0 … x9` and each buffer written by pieces 0 to 10 that a later piece reads holds its value as a function of the arguments. -/
structure Inv10 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) : Prop where
  a0 : V (Proc.devRef (τ := τ) .tc main_arg0) = x0
  a1 : V (Proc.devRef (τ := τ) .tc main_arg1) = x1
  a2 : V (Proc.devRef (τ := τ) .tc main_arg2) = x2
  a3 : V (Proc.devRef (τ := τ) .tc main_arg3) = x3
  a4 : V (Proc.devRef (τ := τ) .tc main_arg4) = x4
  a5 : V (Proc.devRef (τ := τ) .tc main_arg5) = x5
  a6 : V (Proc.devRef (τ := τ) .tc main_arg6) = x6
  a7 : V (Proc.devRef (τ := τ) .tc main_arg7) = x7
  a8 : V (Proc.devRef (τ := τ) .tc main_arg8) = x8
  a9 : V (Proc.devRef (τ := τ) .tc main_arg9) = x9
  v142 : V (Proc.devRef (τ := τ) .tc main_v142) = ReadP.val_main_v142 (F := F) x1 x2 x3 x4 x5 x6 x7 x8
  v191 : V (Proc.devRef (τ := τ) .tc main_v191) = ReadP.val_main_v191 (F := F) x1 x2 x3 x4 x5 x6 x7 x8

/-- Piece 10 carries the invariant on. -/
theorem step10 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) (h : Inv9 V x0 x1 x2 x3 x4 x5 x6 x7 x8 x9) :
    Inv10 (after C10 V) x0 x1 x2 x3 x4 x5 x6 x7 x8 x9 :=
  { a0 := (after_of_writes_sub C10 V hW10 (by decide)).trans h.a0,
    a1 := (after_of_writes_sub C10 V hW10 (by decide)).trans h.a1,
    a2 := (after_of_writes_sub C10 V hW10 (by decide)).trans h.a2,
    a3 := (after_of_writes_sub C10 V hW10 (by decide)).trans h.a3,
    a4 := (after_of_writes_sub C10 V hW10 (by decide)).trans h.a4,
    a5 := (after_of_writes_sub C10 V hW10 (by decide)).trans h.a5,
    a6 := (after_of_writes_sub C10 V hW10 (by decide)).trans h.a6,
    a7 := (after_of_writes_sub C10 V hW10 (by decide)).trans h.a7,
    a8 := (after_of_writes_sub C10 V hW10 (by decide)).trans h.a8,
    a9 := (after_of_writes_sub C10 V hW10 (by decide)).trans h.a9,
    v142 := (after_of_writes_sub C10 V hW10 (by decide)).trans h.v142,
    v191 := c10_v191 V x0 x1 x2 x3 x4 x5 x6 x7 x8 x9 h.v160 h.v146 h.a5 h.a6 }

/-! ## Piece 11: operations 230 to 248 (reads %v142, %v191, %arg7, %arg8; read later: %v207) -/

/-- Operations 230 to 248 of @main. -/
abbrev C11 : List (HloOp τ sig (Elt F)) :=
  [ binary main_v142 main_v191 main_v192 ((fun a b => concatenate S50000x1024 1 [⟨S50000x512, a⟩, ⟨S50000x512, b⟩] concatenates_S50000x512_S50000x512_S50000x1024_d1) : (⟨S50000x512, .f32⟩ : BufTy).Contents (Elt F) → (⟨S50000x512, .f32⟩ : BufTy).Contents (Elt F) → (⟨S50000x1024, .f32⟩ : BufTy).Contents (Elt F)),
    binary main_v192 main_arg7 main_v193 ((fun l r => Host.dotGeneral dot_S50000x1024_S1024x512_S50000x512_1_0_0_1_n_n none l r) : (⟨S50000x1024, .f32⟩ : BufTy).Contents (Elt F) → (⟨S1024x512, .f32⟩ : BufTy).Contents (Elt F) → (⟨S50000x512, .f32⟩ : BufTy).Contents (Elt F)),
    unary main_arg8 main_v194 (broadcastInDim S1x512 ![1] bcast_S512_S1x512_1 : (⟨S512, .f32⟩ : BufTy).Contents (Elt F) → (⟨S1x512, .f32⟩ : BufTy).Contents (Elt F)),
    unary main_v194 main_v195 (broadcastInDim S50000x512 ![0, 1] bcast_S1x512_S50000x512_0_1 : (⟨S1x512, .f32⟩ : BufTy).Contents (Elt F) → (⟨S50000x512, .f32⟩ : BufTy).Contents (Elt F)),
    binary main_v193 main_v195 main_v196 (addf : (⟨S50000x512, .f32⟩ : BufTy).Contents (Elt F) → (⟨S50000x512, .f32⟩ : BufTy).Contents (Elt F) → (⟨S50000x512, .f32⟩ : BufTy).Contents (Elt F)),
    unary main_v196 main_v197 (Host.negf : (⟨S50000x512, .f32⟩ : BufTy).Contents (Elt F) → (⟨S50000x512, .f32⟩ : BufTy).Contents (Elt F)),
    unary main_v197 main_v198 (Host.exp : (⟨S50000x512, .f32⟩ : BufTy).Contents (Elt F) → (⟨S50000x512, .f32⟩ : BufTy).Contents (Elt F)),
    nullary main_cst_34 (constant S_ .f32 0x3F800000#32),
    unary main_cst_34 main_v199 (broadcastInDim S50000x512 ![] bcast_S_S50000x512 : (⟨S_, .f32⟩ : BufTy).Contents (Elt F) → (⟨S50000x512, .f32⟩ : BufTy).Contents (Elt F)),
    binary main_v199 main_v198 main_v200 (addf : (⟨S50000x512, .f32⟩ : BufTy).Contents (Elt F) → (⟨S50000x512, .f32⟩ : BufTy).Contents (Elt F) → (⟨S50000x512, .f32⟩ : BufTy).Contents (Elt F)),
    nullary main_cst_35 (constant S_ .f32 0x3F800000#32),
    unary main_cst_35 main_v201 (broadcastInDim S50000x512 ![] bcast_S_S50000x512 : (⟨S_, .f32⟩ : BufTy).Contents (Elt F) → (⟨S50000x512, .f32⟩ : BufTy).Contents (Elt F)),
    binary main_v201 main_v200 main_v202 (Host.divf : (⟨S50000x512, .f32⟩ : BufTy).Contents (Elt F) → (⟨S50000x512, .f32⟩ : BufTy).Contents (Elt F) → (⟨S50000x512, .f32⟩ : BufTy).Contents (Elt F)),
    binary main_v202 main_v191 main_v203 (mulf : (⟨S50000x512, .f32⟩ : BufTy).Contents (Elt F) → (⟨S50000x512, .f32⟩ : BufTy).Contents (Elt F) → (⟨S50000x512, .f32⟩ : BufTy).Contents (Elt F)),
    nullary main_cst_36 (constant S_ .f32 0x3F800000#32),
    unary main_cst_36 main_v204 (broadcastInDim S50000x512 ![] bcast_S_S50000x512 : (⟨S_, .f32⟩ : BufTy).Contents (Elt F) → (⟨S50000x512, .f32⟩ : BufTy).Contents (Elt F)),
    binary main_v204 main_v202 main_v205 (subf : (⟨S50000x512, .f32⟩ : BufTy).Contents (Elt F) → (⟨S50000x512, .f32⟩ : BufTy).Contents (Elt F) → (⟨S50000x512, .f32⟩ : BufTy).Contents (Elt F)),
    binary main_v205 main_v142 main_v206 (mulf : (⟨S50000x512, .f32⟩ : BufTy).Contents (Elt F) → (⟨S50000x512, .f32⟩ : BufTy).Contents (Elt F) → (⟨S50000x512, .f32⟩ : BufTy).Contents (Elt F)),
    binary main_v203 main_v206 main_v207 (addf : (⟨S50000x512, .f32⟩ : BufTy).Contents (Elt F) → (⟨S50000x512, .f32⟩ : BufTy).Contents (Elt F) → (⟨S50000x512, .f32⟩ : BufTy).Contents (Elt F)) ]

/-- The buffers those operations write. -/
abbrev W11 : List (Ref sig .tc) :=
  [main_v192, main_v193, main_v194, main_v195, main_v196, main_v197, main_v198, main_cst_34, main_v199, main_v200, main_cst_35, main_v201, main_v202, main_v203, main_cst_36, main_v204, main_v205, main_v206, main_v207]

theorem hW11 : (C11 : List (HloOp τ sig (Elt F))).Forall fun op => op.writes ⊆ (W11.map (Proc.devRef (τ := τ) .tc)).toFinset := by
  simp only [List.Forall, nullary_writes, unary_writes, binary_writes, ternary_writes, reshape_writes]
  repeat' apply And.intro
  all_goals exact sub_of_mem (by decide)

/-- After piece 11 from any contents, `%v207`'s buffer holds its value, given the values of what the piece reads. -/
theorem c11_v207 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F))
    (h0 : V (Proc.devRef (τ := τ) .tc main_v142) = ReadP.val_main_v142 (F := F) x1 x2 x3 x4 x5 x6 x7 x8)
    (h1 : V (Proc.devRef (τ := τ) .tc main_v191) = ReadP.val_main_v191 (F := F) x1 x2 x3 x4 x5 x6 x7 x8)
    (h2 : V (Proc.devRef (τ := τ) .tc main_arg7) = x7)
    (h3 : V (Proc.devRef (τ := τ) .tc main_arg8) = x8) :
    after C11 V (Proc.devRef (τ := τ) .tc main_v207) = ReadP.val_main_v207 (F := F) x1 x2 x3 x4 x5 x6 x7 x8 := by
  after_results_simp
  rw [h0, h1, h2, h3]
  rfl

/-- Of contents `V`: the arguments hold `x0 … x9` and each buffer written by pieces 0 to 11 that a later piece reads holds its value as a function of the arguments. -/
structure Inv11 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) : Prop where
  a0 : V (Proc.devRef (τ := τ) .tc main_arg0) = x0
  a1 : V (Proc.devRef (τ := τ) .tc main_arg1) = x1
  a2 : V (Proc.devRef (τ := τ) .tc main_arg2) = x2
  a3 : V (Proc.devRef (τ := τ) .tc main_arg3) = x3
  a4 : V (Proc.devRef (τ := τ) .tc main_arg4) = x4
  a5 : V (Proc.devRef (τ := τ) .tc main_arg5) = x5
  a6 : V (Proc.devRef (τ := τ) .tc main_arg6) = x6
  a7 : V (Proc.devRef (τ := τ) .tc main_arg7) = x7
  a8 : V (Proc.devRef (τ := τ) .tc main_arg8) = x8
  a9 : V (Proc.devRef (τ := τ) .tc main_arg9) = x9
  v207 : V (Proc.devRef (τ := τ) .tc main_v207) = ReadP.val_main_v207 (F := F) x1 x2 x3 x4 x5 x6 x7 x8

/-- Piece 11 carries the invariant on. -/
theorem step11 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) (h : Inv10 V x0 x1 x2 x3 x4 x5 x6 x7 x8 x9) :
    Inv11 (after C11 V) x0 x1 x2 x3 x4 x5 x6 x7 x8 x9 :=
  { a0 := (after_of_writes_sub C11 V hW11 (by decide)).trans h.a0,
    a1 := (after_of_writes_sub C11 V hW11 (by decide)).trans h.a1,
    a2 := (after_of_writes_sub C11 V hW11 (by decide)).trans h.a2,
    a3 := (after_of_writes_sub C11 V hW11 (by decide)).trans h.a3,
    a4 := (after_of_writes_sub C11 V hW11 (by decide)).trans h.a4,
    a5 := (after_of_writes_sub C11 V hW11 (by decide)).trans h.a5,
    a6 := (after_of_writes_sub C11 V hW11 (by decide)).trans h.a6,
    a7 := (after_of_writes_sub C11 V hW11 (by decide)).trans h.a7,
    a8 := (after_of_writes_sub C11 V hW11 (by decide)).trans h.a8,
    a9 := (after_of_writes_sub C11 V hW11 (by decide)).trans h.a9,
    v207 := c11_v207 V x0 x1 x2 x3 x4 x5 x6 x7 x8 x9 h.v142 h.v191 h.a7 h.a8 }

/-! ## Piece 12: operations 249 to 252 (reads %v207, %arg9, %arg1; read later: %v211) -/

/-- Operations 249 to 252 of @main. -/
abbrev C12 : List (HloOp τ sig (Elt F)) :=
  [ unary main_v207 main_v208 (Host.tanh : (⟨S50000x512, .f32⟩ : BufTy).Contents (Elt F) → (⟨S50000x512, .f32⟩ : BufTy).Contents (Elt F)),
    unary main_arg9 main_v209 (broadcastInDim S50000x512 ![] bcast_S_S50000x512 : (⟨S_, .f32⟩ : BufTy).Contents (Elt F) → (⟨S50000x512, .f32⟩ : BufTy).Contents (Elt F)),
    binary main_v209 main_arg1 main_v210 (mulf : (⟨S50000x512, .f32⟩ : BufTy).Contents (Elt F) → (⟨S50000x512, .f32⟩ : BufTy).Contents (Elt F) → (⟨S50000x512, .f32⟩ : BufTy).Contents (Elt F)),
    binary main_v208 main_v210 main_v211 (addf : (⟨S50000x512, .f32⟩ : BufTy).Contents (Elt F) → (⟨S50000x512, .f32⟩ : BufTy).Contents (Elt F) → (⟨S50000x512, .f32⟩ : BufTy).Contents (Elt F)) ]

/-- The buffers those operations write. -/
abbrev W12 : List (Ref sig .tc) :=
  [main_v208, main_v209, main_v210, main_v211]

theorem hW12 : (C12 : List (HloOp τ sig (Elt F))).Forall fun op => op.writes ⊆ (W12.map (Proc.devRef (τ := τ) .tc)).toFinset := by
  simp only [List.Forall, nullary_writes, unary_writes, binary_writes, ternary_writes, reshape_writes]
  repeat' apply And.intro
  all_goals exact sub_of_mem (by decide)

/-- After piece 12 from any contents, `%v211`'s buffer holds its value, given the values of what the piece reads. -/
theorem c12_v211 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F))
    (h0 : V (Proc.devRef (τ := τ) .tc main_v207) = ReadP.val_main_v207 (F := F) x1 x2 x3 x4 x5 x6 x7 x8)
    (h1 : V (Proc.devRef (τ := τ) .tc main_arg9) = x9)
    (h2 : V (Proc.devRef (τ := τ) .tc main_arg1) = x1) :
    after C12 V (Proc.devRef (τ := τ) .tc main_v211) = ReadP.val_main_v211 (F := F) x1 x2 x3 x4 x5 x6 x7 x8 x9 := by
  after_results_simp
  rw [h0, h1, h2]
  rfl

/-- Of contents `V`: the arguments hold `x0 … x9` and each buffer written by pieces 0 to 12 that a later piece reads holds its value as a function of the arguments. -/
structure Inv12 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) : Prop where
  a0 : V (Proc.devRef (τ := τ) .tc main_arg0) = x0
  a1 : V (Proc.devRef (τ := τ) .tc main_arg1) = x1
  a2 : V (Proc.devRef (τ := τ) .tc main_arg2) = x2
  a3 : V (Proc.devRef (τ := τ) .tc main_arg3) = x3
  a4 : V (Proc.devRef (τ := τ) .tc main_arg4) = x4
  a5 : V (Proc.devRef (τ := τ) .tc main_arg5) = x5
  a6 : V (Proc.devRef (τ := τ) .tc main_arg6) = x6
  a7 : V (Proc.devRef (τ := τ) .tc main_arg7) = x7
  a8 : V (Proc.devRef (τ := τ) .tc main_arg8) = x8
  a9 : V (Proc.devRef (τ := τ) .tc main_arg9) = x9
  v211 : V (Proc.devRef (τ := τ) .tc main_v211) = ReadP.val_main_v211 (F := F) x1 x2 x3 x4 x5 x6 x7 x8 x9

/-- Piece 12 carries the invariant on. -/
theorem step12 (V : Valuation τ sig (Elt F)) (x0 : (⟨S_, .f32⟩ : BufTy).Contents (Elt F)) (x1 : (⟨S50000x512, .f32⟩ : BufTy).Contents (Elt F)) (x2 : (⟨S2x160000, .i32⟩ : BufTy).Contents (Elt F)) (x3 : (⟨S3x512x512, .f32⟩ : BufTy).Contents (Elt F)) (x4 : (⟨S3x512, .f32⟩ : BufTy).Contents (Elt F)) (x5 : (⟨S3x512, .f32⟩ : BufTy).Contents (Elt F)) (x6 : (⟨S3x512, .f32⟩ : BufTy).Contents (Elt F)) (x7 : (⟨S1024x512, .f32⟩ : BufTy).Contents (Elt F)) (x8 : (⟨S512, .f32⟩ : BufTy).Contents (Elt F)) (x9 : (⟨S_, .f32⟩ : BufTy).Contents (Elt F)) (h : Inv11 V x0 x1 x2 x3 x4 x5 x6 x7 x8 x9) :
    Inv12 (after C12 V) x0 x1 x2 x3 x4 x5 x6 x7 x8 x9 :=
  { a0 := (after_of_writes_sub C12 V hW12 (by decide)).trans h.a0,
    a1 := (after_of_writes_sub C12 V hW12 (by decide)).trans h.a1,
    a2 := (after_of_writes_sub C12 V hW12 (by decide)).trans h.a2,
    a3 := (after_of_writes_sub C12 V hW12 (by decide)).trans h.a3,
    a4 := (after_of_writes_sub C12 V hW12 (by decide)).trans h.a4,
    a5 := (after_of_writes_sub C12 V hW12 (by decide)).trans h.a5,
    a6 := (after_of_writes_sub C12 V hW12 (by decide)).trans h.a6,
    a7 := (after_of_writes_sub C12 V hW12 (by decide)).trans h.a7,
    a8 := (after_of_writes_sub C12 V hW12 (by decide)).trans h.a8,
    a9 := (after_of_writes_sub C12 V hW12 (by decide)).trans h.a9,
    v211 := c12_v211 V x0 x1 x2 x3 x4 x5 x6 x7 x8 x9 h.v207 h.a9 h.a1 }

/-! ## The whole line -/

set_option maxRecDepth 8192 in
/-- The 253 operations are the thirteen pieces in order. -/
theorem ops_split : (ValueP.ops : List (HloOp τ sig (Elt F))) = C0 ++ (C1 ++ (C2 ++ (C3 ++ (C4 ++ (C5 ++ (C6 ++ (C7 ++ (C8 ++ (C9 ++ (C10 ++ (C11 ++ (C12)))))))))))) := rfl

/-- The contents after the whole line are those after each piece in turn. -/
theorem after_ops (V : Valuation τ sig (Elt F)) :
    after ValueP.ops V = after C12 (after C11 (after C10 (after C9 (after C8 (after C7 (after C6 (after C5 (after C4 (after C3 (after C2 (after C1 (after C0 (V))))))))))))) := by
  rw [ops_split]
  simp only [Cert.LibAfter.after_append]

/-- After the whole line from contents `V`: the arguments hold what `V` held and the result buffer holds `val_main_v211` of them. -/
theorem inv_final (V : Valuation τ sig (Elt F)) :
    Inv12 (after ValueP.ops V) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := by
  rw [after_ops]
  exact step12 _ _ _ _ _ _ _ _ _ _ _ (step11 _ _ _ _ _ _ _ _ _ _ _ (step10 _ _ _ _ _ _ _ _ _ _ _ (step9 _ _ _ _ _ _ _ _ _ _ _ (step8 _ _ _ _ _ _ _ _ _ _ _ (step7 _ _ _ _ _ _ _ _ _ _ _ (step6 _ _ _ _ _ _ _ _ _ _ _ (step5 _ _ _ _ _ _ _ _ _ _ _ (step4 _ _ _ _ _ _ _ _ _ _ _ (step3 _ _ _ _ _ _ _ _ _ _ _ (step2 _ _ _ _ _ _ _ _ _ _ _ (step1 _ _ _ _ _ _ _ _ _ _ _ (step0 _ _ _ _ _ _ _ _ _ _ _ ((⟨rfl, rfl, rfl, rfl, rfl, rfl, rfl, rfl, rfl, rfl⟩ : InvI V (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9))))))))))))))))

/-- On every device, from any memory with zero counters: every weakly fair execution of the reference's @main terminates
    with the result buffer at `val_main_v211` of the arguments' launch contents, and with the ten argument buffers as launched. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v211) = ReadP.val_main_v211 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    have I := inv_final (F := Ideal) (launchContents m c)
    ⟨(h c main_v211).trans I.v211, (h c main_arg0).trans I.a0, (h c main_arg1).trans I.a1, (h c main_arg2).trans I.a2, (h c main_arg3).trans I.a3, (h c main_arg4).trans I.a4, (h c main_arg5).trans I.a5, (h c main_arg6).trans I.a6, (h c main_arg7).trans I.a7, (h c main_arg8).trans I.a8, (h c main_arg9).trans I.a9⟩)
    (ValueP.run_after m ρ)

end Cert.Gcn.RefRun

end
-- ==== Proof.Spec.lean ====
/-
  The mathematics both programs compute, row by row, on the extended reals.

  A node's feature row has 512 entries.  One layer of the network takes the node matrix h, multiplies every row by a
  512 x 512 weight matrix (`mmRow`), sends the product rows along the graph's edges and adds them up at their targets
  (an operation on whole matrices that both programs spell identically: it enters here as a parameter `SC`), adds a
  bias row and normalises every row to mean 0 and variance 1 before an affine map (`lnRow`).  From the second layer
  on the new row hn is mixed with the old row h by a gate, the logistic function of
  h . W1 + hn . W2 + bias (`gateRow`); the last layer's mix goes through tanh and is added to rw times the
  original row (`finRow`).
-/
import Idealize.ShloMosaic.PureOps.Ideal
import Idealize.ShloMosaic.Lib.ValueIdx

noncomputable section

open scoped BigOperators

namespace Cert.Gcn

open Idealize.ShloMosaic Idealize.ShloMosaic.ValueIdx

/-- One node's 512 features. -/
abbrev Row := Fin 512 → EReal
/-- A 512 x 512 weight matrix, `w k j`: input feature k, output feature j. -/
abbrev Wt := Fin 512 → Fin 512 → EReal
/-- A matrix of R rows of 512 features, indexed as the programs index it. -/
abbrev Mat (R : Nat) := (⟨2, ![R, 512]⟩ : Shape).Idx → EReal

/-- The literals of the two programs (the same words on both sides; never evaluated). -/
def c512 : EReal := Ideal.ofBits .f32 0x44000000#32
def eps : EReal := Ideal.ofBits .f32 0x3727C5AC#32
def one : EReal := Ideal.ofBits .f32 0x3F800000#32

/-- A row times a weight matrix. -/
def mmRow (x : Row) (w : Wt) : Row := fun j => ∑ k : Fin 512, x k * w k j

/-- The mean of the row a + b. -/
def muRow (a b : Row) : EReal := Ideal.div (∑ k : Fin 512, (a k + b k)) c512

/-- Bias, then normalisation of the row to mean 0 and variance 1 (plus eps under the root), then scale and shift. -/
def lnRow (a b g be : Row) : Row := fun j =>
  ((a j + b j) - muRow a b)
    * Ideal.rsqrt (Ideal.div (∑ k : Fin 512, ((a k + b k) - muRow a b) * ((a k + b k) - muRow a b)) c512 + eps)
    * g j + be j

/-- The gate's mix of the new row hn and the old row h. -/
def gateRow (hn h : Row) (w1 w2 : Wt) (bg : Row) : Row := fun j =>
  Ideal.logistic ((mmRow h w1 j + mmRow hn w2 j) + bg j) * hn j
    + (one - Ideal.logistic ((mmRow h w1 j + mmRow hn w2 j) + bg j)) * h j

/-- The last step: tanh of the mixed row plus rw times the original row. -/
def finRow (x ho : Row) (rw : EReal) : Row := fun j => Ideal.tanh (x j) + rw * ho j

/-- Row n of a matrix. -/
def rowOf {R : Nat} (A : Mat R) (n : Fin R) : Row := fun k => A (ix2 n k)
/-- A 512 x 512 array as a weight matrix. -/
def wtOf (W : (⟨2, ![512, 512]⟩ : Shape).Idx → EReal) : Wt := fun k j => W (ix2 k j)
/-- A vector of 512 entries as a row. -/
def vecOf (v : (⟨1, ![512]⟩ : Shape).Idx → EReal) : Row := fun j => v (ix1 j)
/-- The one row of a 1 x 512 array. -/
def row1Of (v : (⟨2, ![1, 512]⟩ : Shape).Idx → EReal) : Row := fun j => v (ix2 0 j)

/-- The gate's 1024 x 512 weight array: rows 0..511 multiply the old row (`gateW1`), rows 512..1023 the new row (`gateW2`). -/
def gateW1 (W : (⟨2, ![1024, 512]⟩ : Shape).Idx → EReal) : Wt := fun k j => W (ix2 (⟨k.val, by omega⟩ : Fin 1024) j)
def gateW2 (W : (⟨2, ![1024, 512]⟩ : Shape).Idx → EReal) : Wt := fun k j => W (ix2 (⟨512 + k.val, by omega⟩ : Fin 1024) j)

/-- The four steps on whole matrices: row n of the result is the step on row n of the operands. -/
def mmMat {R : Nat} (A : Mat R) (w : Wt) : Mat R := fun i => mmRow (rowOf A (i 0)) w (i 1)
def lnMat {R : Nat} (A : Mat R) (b g be : Row) : Mat R := fun i => lnRow (rowOf A (i 0)) b g be (i 1)
def gateMat {R : Nat} (HN H : Mat R) (w1 w2 : Wt) (bg : Row) : Mat R :=
  fun i => gateRow (rowOf HN (i 0)) (rowOf H (i 0)) w1 w2 bg (i 1)
def finMat {R : Nat} (X HO : Mat R) (rw : EReal) : Mat R := fun i => finRow (rowOf X (i 0)) (rowOf HO (i 0)) rw (i 1)

theorem mmMat_apply {R : Nat} (A : Mat R) (w : Wt) (n : Fin R) (j : Fin 512) :
    mmMat A w (ix2 n j) = mmRow (rowOf A n) w j := rfl
theorem lnMat_apply {R : Nat} (A : Mat R) (b g be : Row) (n : Fin R) (j : Fin 512) :
    lnMat A b g be (ix2 n j) = lnRow (rowOf A n) b g be j := rfl
theorem gateMat_apply {R : Nat} (HN H : Mat R) (w1 w2 : Wt) (bg : Row) (n : Fin R) (j : Fin 512) :
    gateMat HN H w1 w2 bg (ix2 n j) = gateRow (rowOf HN n) (rowOf H n) w1 w2 bg j := rfl
theorem finMat_apply {R : Nat} (X HO : Mat R) (rw : EReal) (n : Fin R) (j : Fin 512) :
    finMat X HO rw (ix2 n j) = finRow (rowOf X n) (rowOf HO n) rw j := rfl

/-- The whole network on the 50000 nodes.  `SC` is the edge step (gather along the sources, scale, add up at the
    targets); W0 W1 W2 the layers' weights, (b, g, be) their bias, scale and shift rows, (w1, w2, bg) the gate. -/
def net (SC : Mat 50000 → Mat 50000) (h : Mat 50000) (W0 W1 W2 : Wt) (b0 g0 be0 b1 g1 be1 b2 g2 be2 : Row)
    (w1 w2 : Wt) (bg : Row) (rw : EReal) : Mat 50000 :=
  let h1 := lnMat (SC (mmMat h W0)) b0 g0 be0
  let h2 := gateMat (lnMat (SC (mmMat h1 W1)) b1 g1 be1) h1 w1 w2 bg
  let h3 := gateMat (lnMat (SC (mmMat h2 W2)) b2 g2 be2) h2 w1 w2 bg
  finMat h3 h rw

end Cert.Gcn

end
-- ==== Proof.LibRowOps.lean ====
/-
  Row-wise operations of two-dimensional arrays read at one entry, on the extended reals, at ANY extents.

  * A sum along the columns of an [R, C] matrix (a reduction over axis 1) read at row p is Σ_{k < C} src(p, k): for the
    vector unit's reduction from the zero word (`rowAdd_apply`) and for the host's reduction from an initial value,
    which is added in front (`hostRowAdd_apply`).
  * A vector [a] viewed as a column [a, 1] reads, at (i, u), the vector at i (`shapeCast_a_a1_apply`); a column
    [a, 1] repeated along b columns reads, at (p, c), the column at (p, 0) (`broadcastTo_a1_ab_apply`).
  * The host's general matrix product of [R, K] by [K, C], contracting the left operand's axis 1 with the right
    operand's axis 0, read at (p, q), is Σ_{k < K} l(p, k) · r(k, q) (`dotGeneral_ix2`): the contraction's one-axis
    index is re-indexed over `Fin K`, and the operand indices at result entry (p, q) and position k are (p, k), (k, q).
  * Three matrices of a, b and c columns laid side by side read, at a column, the matrix whose span of columns holds it,
    at the column less the widths before it (`concat3_apply_0`, `_1`, `_2`; for two matrices `concat2_apply_0`, `_1`).
  Imports only the library.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

/-- A sum along the columns of an [R, C] matrix, at row p, is the sum over the columns of that row's entries. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) :=
  (Ideal.multiReduction_add_single src _ h hφ hacc (ix1 p)).trans
    (Finset.sum_congr rfl fun k _ => congrArg src (funext fun d => Fin.ext (by
      match d with
      | ⟨0, _⟩ => rfl
      | ⟨1, _⟩ => rfl)))

/-- The host's sum along the columns, at row p: the initial value plus the sum over the columns of that row's entries. -/
theorem hostRowAdd_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) :=
  (Ideal.hostReduceAdd_single h' h x (init (Shape.Idx.first hu)) (ix1 p)).trans
    (congrArg (init (Shape.Idx.first hu) + ·) (Finset.sum_congr rfl fun k _ => congrArg x (funext fun d => Fin.ext (by
      match d with
      | ⟨0, _⟩ => rfl
      | ⟨1, _⟩ => rfl))))

/-- A vector [a] viewed as a column [a, 1] reads, at (i, u), the vector at i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `dot_general D l r (p, q) = Σ_k l(p, k) · r(k, q)` at the ideal values, for two-dimensional operands with one
    contracted axis (the left operand's axis 1 with the right operand's axis 0). -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral (F := Ideal) D prec l r (ix2 p q) = ∑ k : Fin K, l (ix2 p k) * r (ix2 k q) := by
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

/-! ## Three matrices side by side -/

section Concat3
variable {α : Type} {R a b c n : Nat}
  (x1 : (⟨2, ![R, a]⟩ : Shape).Idx → α) (x2 : (⟨2, ![R, b]⟩ : Shape).Idx → α) (x3 : (⟨2, ![R, c]⟩ : Shape).Idx → α)
  (h : Shape.Concatenates [(⟨2, ![R, a]⟩ : Shape), ⟨2, ![R, b]⟩, ⟨2, ![R, c]⟩] ⟨2, ![R, n]⟩ 1)

/-- Three matrices of a, b and c columns side by side read, at a column q below a, the first at column q. -/
theorem concat3_apply_0 (p : Fin R) (q : Fin n) (q' : Fin a) (hq : q'.val = q.val) :
    concatenate ⟨2, ![R, n]⟩ 1 [⟨⟨2, ![R, a]⟩, x1⟩, ⟨⟨2, ![R, b]⟩, x2⟩, ⟨⟨2, ![R, c]⟩, x3⟩] h (ix2 p q) = x1 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat3_apply_1 (p : Fin R) (q : Fin n) (q' : Fin b) (hq : a + q'.val = q.val) :
    concatenate ⟨2, ![R, n]⟩ 1 [⟨⟨2, ![R, a]⟩, x1⟩, ⟨⟨2, ![R, b]⟩, x2⟩, ⟨⟨2, ![R, c]⟩, x3⟩] h (ix2 p q) = x2 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

/-- At a column a + b + q', the third at column q'. -/
theorem concat3_apply_2 (p : Fin R) (q : Fin n) (q' : Fin c) (hq : a + b + q'.val = q.val) :
    concatenate ⟨2, ![R, n]⟩ 1 [⟨⟨2, ![R, a]⟩, x1⟩, ⟨⟨2, ![R, b]⟩, x2⟩, ⟨⟨2, ![R, c]⟩, x3⟩] h (ix2 p q) = x3 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 2 (by simp)
    ⟨2, ![R, c]⟩ x3 rfl rfl (a + b) (by simp) (ix2 p q')
    (fun d hd => by
      match d with
      | ⟨0, _⟩ => rfl
      | ⟨1, _⟩ => exact absurd rfl hd)
    (by show a + b + q'.val = q.val; omega)

end Concat3

/-! ## Two matrices side by side -/

section Concat2
variable {α : Type} {R a b n : Nat}
  (x1 : (⟨2, ![R, a]⟩ : Shape).Idx → α) (x2 : (⟨2, ![R, b]⟩ : Shape).Idx → α)
  (h : Shape.Concatenates [(⟨2, ![R, a]⟩ : Shape), ⟨2, ![R, b]⟩] ⟨2, ![R, n]⟩ 1)

/-- Two matrices of a and b columns side by side read, at a column q below a, the first at column q. -/
theorem concat2_apply_0 (p : Fin R) (q : Fin n) (q' : Fin a) (hq : q'.val = q.val) :
    concatenate ⟨2, ![R, n]⟩ 1 [⟨⟨2, ![R, a]⟩, x1⟩, ⟨⟨2, ![R, b]⟩, x2⟩] h (ix2 p q) = x1 (ix2 p q') :=
  concatenate_apply_piece (t := ⟨2, ![R, n]⟩) (1 : Fin 2) [⟨⟨2, ![R, a]⟩, x1⟩, ⟨⟨2, ![R, b]⟩, x2⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat2_apply_1 (p : Fin R) (q : Fin n) (q' : Fin b) (hq : a + q'.val = q.val) :
    concatenate ⟨2, ![R, n]⟩ 1 [⟨⟨2, ![R, a]⟩, x1⟩, ⟨⟨2, ![R, b]⟩, x2⟩] h (ix2 p q) = x2 (ix2 p q') :=
  concatenate_apply_piece (t := ⟨2, ![R, n]⟩) (1 : Fin 2) [⟨⟨2, ![R, a]⟩, x1⟩, ⟨⟨2, ![R, b]⟩, x2⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

end Concat2

end Cert.LibRowOps

end
-- ==== Proof.LibBcast.lean ====
/-
  `broadcast_in_dim` of small shapes read at one entry, at ANY extents and any element type.

  * A column [N, 1] repeated along C columns (operand axes to result axes 0, 1) reads, at (n, c), the column at (n, 0)
    (`bcastCol_apply`); a row [1, C] repeated along N rows reads, at (n, c), the row at (0, c) (`bcastRow_apply`).
  * A vector [C] laid as a row [1, C] (operand axis to result axis 1) reads, at (u, c), the vector at c
    (`bcastVecRow_apply`); a vector [N] laid as a column [N, 1] (operand axis to result axis 0) reads, at (n, u), the
    vector at n (`bcastVecCol_apply`).
  * A scalar broadcast to any shape reads, at any index, the scalar (`bcastScalar_apply`).
  Imports only the library.
-/
import Idealize.ShloMosaic.Lib.ValueIdx
import Idealize.ShloMosaic.Lib.Pipeline.Value

noncomputable section

namespace Cert.LibBcast

open Idealize.ShloMosaic Idealize.ShloMosaic.ValueIdx

variable {α : Type}

/-- A column [N, 1] repeated along C columns reads, at (n, c), the column at (n, 0). -/
theorem bcastCol_apply {N C : Nat} (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) := by
  refine broadcastInDim_apply ![0, 1] h x (ix2 n c) (ix2 n (0 : Fin 1)) fun a => ?_
  match a with
  | ⟨0, _⟩ =>
    show n.val = if N = 1 then 0 else n.val
    split
    · have := n.isLt; omega
    · rfl
  | ⟨1, _⟩ => rfl

/-- A row [1, C] repeated along N rows reads, at (n, c), the row at (0, c). -/
theorem bcastRow_apply {N C : Nat} (x : (⟨2, ![1, C]⟩ : Shape).Idx → α)
    (h : (⟨2, ![1, C]⟩ : Shape).BroadcastsInDim ⟨2, ![N, C]⟩ ![0, 1]) (n : Fin N) (c : Fin C) :
    broadcastInDim ⟨2, ![N, C]⟩ ![0, 1] h x (ix2 n c) = x (ix2 (0 : Fin 1) c) := by
  refine broadcastInDim_apply ![0, 1] h x (ix2 n c) (ix2 (0 : Fin 1) c) fun a => ?_
  match a with
  | ⟨0, _⟩ => rfl
  | ⟨1, _⟩ =>
    show c.val = if C = 1 then 0 else c.val
    split
    · have := c.isLt; omega
    · rfl

/-- A vector [C] laid as a row [1, C] reads, at (u, c), the vector at c. -/
theorem bcastVecRow_apply {C : Nat} (x : (⟨1, ![C]⟩ : Shape).Idx → α)
    (h : (⟨1, ![C]⟩ : Shape).BroadcastsInDim ⟨2, ![1, C]⟩ ![1]) (u : Fin 1) (c : Fin C) :
    broadcastInDim ⟨2, ![1, C]⟩ ![1] h x (ix2 u c) = x (ix1 c) := by
  refine broadcastInDim_apply ![1] h x (ix2 u c) (ix1 c) fun a => ?_
  match a with
  | ⟨0, _⟩ =>
    show c.val = if C = 1 then 0 else c.val
    split
    · have := c.isLt; omega
    · rfl

/-- A vector [N] laid as a column [N, 1] reads, at (n, u), the vector at n. -/
theorem bcastVecCol_apply {N : Nat} (x : (⟨1, ![N]⟩ : Shape).Idx → α)
    (h : (⟨1, ![N]⟩ : Shape).BroadcastsInDim ⟨2, ![N, 1]⟩ ![0]) (n : Fin N) (u : Fin 1) :
    broadcastInDim ⟨2, ![N, 1]⟩ ![0] h x (ix2 n u) = x (ix1 n) := by
  refine broadcastInDim_apply ![0] h x (ix2 n u) (ix1 n) fun a => ?_
  match a with
  | ⟨0, _⟩ =>
    show n.val = if N = 1 then 0 else n.val
    split
    · have := n.isLt; omega
    · rfl

/-- A scalar broadcast to any shape reads, at any index, the scalar. -/
theorem bcastScalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun a => a.elim0

end Cert.LibBcast

end
-- ==== Proof.RefSemMM.lean ====
/-
  The reference's matrix product is the product of the network (`mmMat`), the literal 1.0 is the extended real 1, and
  the edge step (gather the product's rows along the edge sources, scale them, add them up at the edge targets) as ONE
  function `sc` of the product.
-/
import proofs.«149262_j25185688224022_2_alg».proof.Proof.Spec
import proofs.«149262_j25185688224022_2_alg».proof.Proof.LibRowOps
import proofs.«149262_j25185688224022_2_alg».proof.Proof.LibBcast
import proofs.«149262_j25185688224022_2_alg».proof.Proof.ReadP

noncomputable section

open scoped BigOperators

namespace Cert.Gcn.Ref

open Cert.ReferenceIdeal Cert.ReferenceIdeal.Gen Cert.ReferenceIdeal.ReadP Cert.Gcn Idealize.ShloMosaic Idealize.ShloMosaic.ValueIdx
  Idealize.ShloMosaic.StableHlo

/-- The f32 word of 1.0 is the extended real 1. -/
theorem ofBits_one_f32 : Ideal.ofBits .f32 0x3F800000#32 = 1 := by
  simp [Ideal.ofBits, Ideal.ieee]
  rw [← EReal.coe_mul]
  norm_num

/-- The host's product of a 50000 x 512 matrix by a 512 x 512 matrix: every row times the weight matrix. -/
theorem mm_eq (A : Mat 50000) (W : (⟨S512x512, .f32⟩ : BufTy).Contents (Elt Ideal)) :
    Host.dotGeneral (F := Ideal) (φ₁ := .f32) (φ₂ := .f32) dot_S50000x512_S512x512_S50000x512_1_0_0_1_n_n none A W = mmMat A (wtOf W) := by
  funext i
  obtain ⟨n, j, rfl⟩ : ∃ (n : Fin 50000) (j : Fin 512), i = ix2 n j := ⟨i 0, i 1, eq_ix2 i⟩
  exact Cert.LibRowOps.dotGeneral_ix2 dot_S50000x512_S512x512_S50000x512_1_0_0_1_n_n rfl rfl rfl rfl
    lhs_main_v33_0 rhs_main_v33_1 none A W n j

/-- The edge step: gather the rows of xw along the edge sources, scale each by its edge's weight, add them up at the
    edge targets (into zeros). -/
def sc (x2 : (⟨S2x160000, .i32⟩ : BufTy).Contents (Elt Ideal)) (xw : Mat 50000) : Mat 50000 :=
  Host.scatterAdd (F := Ideal) (φ := .f32) scatter_S50000x512_S160000x1_S160000x512_1_0_0_1 (val_main_v44 (F := Ideal)) (val_main_v45 (F := Ideal) x2)
    (mulf (F := Ideal) (φ := .f32) (Host.gather (α := Ideal .f32) gather_S50000x512_S160000x1_S160000x512_1_0_n_n_0_1_1512 xw (val_main_v39 (F := Ideal) x2)) (val_main_v42 (F := Ideal) x2))

end Cert.Gcn.Ref

end
-- ==== Proof.RefSemLN.lean ====
/-
  Bias and layer normalisation as the reference spells them on whole arrays — add the bias row to every row, the row
  means (a row sum from 0, divided by the literal 512), the centred rows, their squares' row means plus eps, the
  reciprocal root, scale and shift — is, row by row, `lnRow` of the network.
-/
import proofs.«149262_j25185688224022_2_alg».proof.Proof.Spec
import proofs.«149262_j25185688224022_2_alg».proof.Proof.LibRowOps
import proofs.«149262_j25185688224022_2_alg».proof.Proof.LibBcast
import proofs.«149262_j25185688224022_2_alg».proof.Proof.ReadP

noncomputable section

open scoped BigOperators

namespace Cert.Gcn.Ref

open Cert.ReferenceIdeal Cert.ReferenceIdeal.Gen Cert.ReferenceIdeal.ReadP Cert.Gcn Idealize.ShloMosaic Idealize.ShloMosaic.ValueIdx
  Idealize.ShloMosaic.StableHlo

/-- The arrays of the reference at the extended reals: 50000 x 512 matrices, columns of 50000 entries, vectors of 512. -/
abbrev M50 := (⟨S50000x512, .f32⟩ : BufTy).Contents (Elt Ideal)
abbrev C50 := (⟨S50000x1, .f32⟩ : BufTy).Contents (Elt Ideal)
abbrev V512 := (⟨S512, .f32⟩ : BufTy).Contents (Elt Ideal)

/-- A vector of 512 entries laid as a row and repeated along the 50000 rows. -/
def rowBc (v : V512) : M50 :=
  broadcastInDim S50000x512 ![0, 1] bcast_S1x512_S50000x512_0_1 (broadcastInDim S1x512 ![1] bcast_S512_S1x512_1 v)

/-- A column of 50000 entries repeated along the 512 columns. -/
def colBc (c : C50) : M50 := broadcastInDim S50000x512 ![0, 1] bcast_S50000x1_S50000x512_0_1 c

/-- The row means, as a column: the host's row sums from the zero word, laid as a column, divided by the literal 512. -/
def rowMean (X : M50) : C50 :=
  Host.divf (F := Ideal) (φ := .f32)
    (broadcastInDim S50000x1 ![0] bcast_S50000_S50000x1_0
      (Host.reduceAdd (F := Ideal) X (constant (F := Ideal) S_ .f32 0x00000000#32) reducesTo_S50000x512_S50000_d1 h_S_))
    (broadcastInDim S50000x1 ![] bcast_S_S50000x1 (constant (F := Ideal) S_ .f32 0x44000000#32))

/-- Normalisation of every row of X, then scale by g and shift by be. -/
def lnOf (X : M50) (g be : V512) : M50 :=
  addf (F := Ideal) (φ := .f32)
    (mulf (F := Ideal) (φ := .f32)
      (mulf (F := Ideal) (φ := .f32) (subf (F := Ideal) (φ := .f32) X (colBc (rowMean X)))
        (colBc (Host.rsqrt (F := Ideal) (φ := .f32)
          (addf (F := Ideal) (φ := .f32)
            (rowMean (mulf (F := Ideal) (φ := .f32) (subf (F := Ideal) (φ := .f32) X (colBc (rowMean X)))
              (subf (F := Ideal) (φ := .f32) X (colBc (rowMean X)))))
            (broadcastInDim S50000x1 ![] bcast_S_S50000x1 (constant (F := Ideal) S_ .f32 0x3727C5AC#32))))))
      (rowBc g))
    (rowBc be)

/-- Bias, then normalisation, scale and shift. -/
def lnChain (A : M50) (b g be : V512) : M50 := lnOf (addf (F := Ideal) (φ := .f32) A (rowBc b)) g be

theorem rowBc_apply (v : V512) (n : Fin 50000) (j : Fin 512) : rowBc v (ix2 n j) = v (ix1 j) :=
  (Cert.LibBcast.bcastRow_apply _ bcast_S1x512_S50000x512_0_1 n j).trans
    (Cert.LibBcast.bcastVecRow_apply v bcast_S512_S1x512_1 0 j)

theorem colBc_apply (c : C50) (n : Fin 50000) (j : Fin 512) : colBc c (ix2 n j) = c (ix2 n (0 : Fin 1)) :=
  Cert.LibBcast.bcastCol_apply c bcast_S50000x1_S50000x512_0_1 n j

/-- The row mean at row n: the sum of the row's entries over the literal 512. -/
theorem rowMean_apply (X : M50) (n : Fin 50000) (u : Fin 1) :
    rowMean X (ix2 n u) = Ideal.div (∑ k : Fin 512, X (ix2 n k)) c512 := by
  show Ideal.div
      (broadcastInDim S50000x1 ![0] bcast_S50000_S50000x1_0
        (Host.reduceAdd (F := Ideal) X (constant (F := Ideal) S_ .f32 0x00000000#32) reducesTo_S50000x512_S50000_d1 h_S_) (ix2 n u))
      (broadcastInDim S50000x1 ![] bcast_S_S50000x1 (constant (F := Ideal) S_ .f32 0x44000000#32) (ix2 n u)) = _
  rw [Cert.LibBcast.bcastVecCol_apply _ bcast_S50000_S50000x1_0 n u, Cert.LibBcast.bcastScalar_apply,
    Cert.LibRowOps.hostRowAdd_apply X _ reducesTo_S50000x512_S50000_d1 (by decide) h_S_ n]
  show Ideal.div (Ideal.ofBits .f32 0x00000000#32 + ∑ k : Fin 512, X (ix2 n k)) (Ideal.ofBits .f32 0x44000000#32) = _
  rw [Ideal.ofBits_zero_f32, zero_add]
  rfl

/-- The normalised, scaled and shifted matrix at (n, j). -/
theorem lnOf_apply (X : M50) (g be : V512) (n : Fin 50000) (j : Fin 512) :
    lnOf X g be (ix2 n j)
      = (X (ix2 n j) - Ideal.div (∑ k : Fin 512, X (ix2 n k)) c512)
          * Ideal.rsqrt (Ideal.div (∑ k : Fin 512, (X (ix2 n k) - Ideal.div (∑ k : Fin 512, X (ix2 n k)) c512)
              * (X (ix2 n k) - Ideal.div (∑ k : Fin 512, X (ix2 n k)) c512)) c512 + eps)
          * g (ix1 j) + be (ix1 j) := by
  have hc : ∀ k : Fin 512, subf (F := Ideal) (φ := .f32) X (colBc (rowMean X)) (ix2 n k) = X (ix2 n k) - Ideal.div (∑ k : Fin 512, X (ix2 n k)) c512 := fun k => by
    rw [subf_apply, colBc_apply, rowMean_apply]
  show (subf (F := Ideal) (φ := .f32) X (colBc (rowMean X)) (ix2 n j)
        * colBc (Host.rsqrt (F := Ideal) (φ := .f32)
          (addf (F := Ideal) (φ := .f32)
            (rowMean (mulf (F := Ideal) (φ := .f32) (subf (F := Ideal) (φ := .f32) X (colBc (rowMean X)))
              (subf (F := Ideal) (φ := .f32) X (colBc (rowMean X)))))
            (broadcastInDim S50000x1 ![] bcast_S_S50000x1 (constant (F := Ideal) S_ .f32 0x3727C5AC#32)))) (ix2 n j))
      * rowBc g (ix2 n j) + rowBc be (ix2 n j) = _
  rw [rowBc_apply, rowBc_apply, colBc_apply, hc]
  show _ * Ideal.rsqrt (rowMean (mulf (F := Ideal) (φ := .f32) (subf (F := Ideal) (φ := .f32) X (colBc (rowMean X)))
            (subf (F := Ideal) (φ := .f32) X (colBc (rowMean X)))) (ix2 n (0 : Fin 1))
        + broadcastInDim S50000x1 ![] bcast_S_S50000x1 (constant (F := Ideal) S_ .f32 0x3727C5AC#32) (ix2 n (0 : Fin 1))) * _ + _ = _
  rw [rowMean_apply, Cert.LibBcast.bcastScalar_apply]
  have hs : (∑ k : Fin 512, mulf (F := Ideal) (φ := .f32) (subf (F := Ideal) (φ := .f32) X (colBc (rowMean X)))
        (subf (F := Ideal) (φ := .f32) X (colBc (rowMean X))) (ix2 n k))
      = ∑ k : Fin 512, (X (ix2 n k) - Ideal.div (∑ k : Fin 512, X (ix2 n k)) c512)
          * (X (ix2 n k) - Ideal.div (∑ k : Fin 512, X (ix2 n k)) c512) :=
    Finset.sum_congr rfl fun k _ => by rw [mulf_apply, hc]
  rw [hs]
  rfl

/-- Bias, normalisation, scale and shift on whole arrays is `lnRow` on every row. -/
theorem lnChain_eq (A : Mat 50000) (b g be : V512) : lnChain A b g be = lnMat A (vecOf b) (vecOf g) (vecOf be) := by
  funext i
  obtain ⟨n, j, rfl⟩ : ∃ (n : Fin 50000) (j : Fin 512), i = ix2 n j := ⟨i 0, i 1, eq_ix2 i⟩
  have hb : ∀ k : Fin 512, addf (F := Ideal) (φ := .f32) A (rowBc b) (ix2 n k) = A (ix2 n k) + b (ix1 k) := fun k => by
    rw [addf_apply, rowBc_apply]
  unfold lnChain
  rw [lnOf_apply, lnMat_apply]
  simp only [hb]
  rfl

end Cert.Gcn.Ref

end
-- ==== Proof.RefSemGate.lean ====
/-
  The gate as the reference spells it on whole arrays — the old and the new matrix side by side times the 1024 x 512
  gate weights, plus the bias row, through 1 / (1 + exp(-z)), then gate * new + (1 - gate) * old — is, row by row,
  `gateRow` of the network: the product over the 1024 columns splits into the old row times the upper half of the weights
  plus the new row times the lower half.
-/
import proofs.«149262_j25185688224022_2_alg».proof.Proof.RefSemMM
import proofs.«149262_j25185688224022_2_alg».proof.Proof.RefSemLN

noncomputable section

open scoped BigOperators

namespace Cert.Gcn.Ref

open Cert.ReferenceIdeal Cert.ReferenceIdeal.Gen Cert.ReferenceIdeal.ReadP Cert.Gcn Idealize.ShloMosaic Idealize.ShloMosaic.ValueIdx
  Idealize.ShloMosaic.StableHlo

abbrev W1024 := (⟨S1024x512, .f32⟩ : BufTy).Contents (Elt Ideal)

/-- The literal 1.0 at every entry. -/
def oneM : M50 := broadcastInDim S50000x512 ![] bcast_S_S50000x512 (constant (F := Ideal) S_ .f32 0x3F800000#32)

/-- The gate's argument: [H | HN] times the gate weights, plus the bias row. -/
def gatePre (H HN : M50) (x7 : W1024) (x8 : V512) : M50 :=
  addf (F := Ideal) (φ := .f32)
    (Host.dotGeneral (F := Ideal) (φ₁ := .f32) (φ₂ := .f32) dot_S50000x1024_S1024x512_S50000x512_1_0_0_1_n_n none
      (concatenate S50000x1024 1 [⟨S50000x512, H⟩, ⟨S50000x512, HN⟩] concatenates_S50000x512_S50000x512_S50000x1024_d1) x7)
    (rowBc x8)

/-- 1 / (1 + exp(-z)) at every entry. -/
def gateSig (Z : M50) : M50 :=
  Host.divf (F := Ideal) (φ := .f32) oneM
    (addf (F := Ideal) (φ := .f32) oneM (Host.exp (F := Ideal) (φ := .f32) (Host.negf (F := Ideal) (φ := .f32) Z)))

/-- gate * new + (1 - gate) * old. -/
def gateChain (H HN : M50) (x7 : W1024) (x8 : V512) : M50 :=
  addf (F := Ideal) (φ := .f32)
    (mulf (F := Ideal) (φ := .f32) (gateSig (gatePre H HN x7 x8)) HN)
    (mulf (F := Ideal) (φ := .f32) (subf (F := Ideal) (φ := .f32) oneM (gateSig (gatePre H HN x7 x8))) H)

theorem oneM_apply (i : S50000x512.Idx) : oneM i = Ideal.ofBits .f32 0x3F800000#32 :=
  Cert.LibBcast.bcastScalar_apply _ bcast_S_S50000x512 i

/-- The gate function at an entry is the logistic function of the argument there. -/
theorem gateSig_apply (Z : M50) (i : S50000x512.Idx) : gateSig Z i = Ideal.logistic (Z i) := by
  show Ideal.div (oneM i) (oneM i + Ideal.exp (-(Z i))) = Ideal.div 1 (1 + Ideal.exp (-(Z i)))
  rw [oneM_apply, ofBits_one_f32]

/-- The gate's argument at (n, j): the old row times the upper half of the weights plus the new row times the lower
    half, plus the bias. -/
theorem gatePre_apply (H HN : M50) (x7 : W1024) (x8 : V512) (n : Fin 50000) (j : Fin 512) :
    gatePre H HN x7 x8 (ix2 n j)
      = (mmRow (rowOf H n) (gateW1 x7) j + mmRow (rowOf HN n) (gateW2 x7) j) + vecOf x8 j := by
  unfold gatePre
  rw [addf_apply, rowBc_apply,
    Cert.LibRowOps.dotGeneral_ix2 dot_S50000x1024_S1024x512_S50000x512_1_0_0_1_n_n rfl rfl rfl rfl lhs_main_v128_0 rhs_main_v128_1]
  refine congrArg (· + x8 (ix1 j)) ?_
  refine (Fin.sum_univ_add (a := 512) (b := 512) fun k : Fin (512 + 512) =>
    concatenate S50000x1024 1 [⟨S50000x512, H⟩, ⟨S50000x512, HN⟩] concatenates_S50000x512_S50000x512_S50000x1024_d1 (ix2 n k)
      * x7 (ix2 k j)).trans ?_
  refine congrArg₂ (· + ·) (Finset.sum_congr rfl fun k _ => ?_) (Finset.sum_congr rfl fun k _ => ?_)
  · rw [Cert.LibRowOps.concat2_apply_0 H HN concatenates_S50000x512_S50000x512_S50000x1024_d1 n (Fin.castAdd 512 k) k rfl]
    rfl
  · rw [Cert.LibRowOps.concat2_apply_1 H HN concatenates_S50000x512_S50000x512_S50000x1024_d1 n (Fin.natAdd 512 k) k rfl]
    rfl

/-- The gate's mix on whole arrays is `gateRow` on every row. -/
theorem gateChain_eq (H HN : Mat 50000) (x7 : W1024) (x8 : V512) :
    gateChain H HN x7 x8 = gateMat HN H (gateW1 x7) (gateW2 x7) (vecOf x8) := by
  funext i
  obtain ⟨n, j, rfl⟩ : ∃ (n : Fin 50000) (j : Fin 512), i = ix2 n j := ⟨i 0, i 1, eq_ix2 i⟩
  unfold gateChain
  rw [addf_apply, mulf_apply, mulf_apply, subf_apply, gateSig_apply, oneM_apply, gatePre_apply, gateMat_apply]
  rfl

end Cert.Gcn.Ref

end
-- ==== Proof.RefSemFin.lean ====
/-
  The last step as the reference spells it on whole arrays — tanh of the mixed matrix plus the residual weight (a
  scalar, repeated at every entry) times the original matrix — is, row by row, `finRow` of the network.
-/
import proofs.«149262_j25185688224022_2_alg».proof.Proof.RefSemLN

noncomputable section

open scoped BigOperators

namespace Cert.Gcn.Ref

open Cert.ReferenceIdeal Cert.ReferenceIdeal.Gen Cert.ReferenceIdeal.ReadP Cert.Gcn Idealize.ShloMosaic Idealize.ShloMosaic.ValueIdx
  Idealize.ShloMosaic.StableHlo

/-- tanh of X plus rw times the original matrix. -/
def finChain (X H0 : M50) (x9 : (⟨S_, .f32⟩ : BufTy).Contents (Elt Ideal)) : M50 :=
  addf (F := Ideal) (φ := .f32) (Host.tanh (F := Ideal) (φ := .f32) X)
    (mulf (F := Ideal) (φ := .f32) (broadcastInDim S50000x512 ![] bcast_S_S50000x512 x9) H0)

theorem finChain_eq (X H0 : Mat 50000) (x9 : (⟨S_, .f32⟩ : BufTy).Contents (Elt Ideal)) :
    finChain X H0 x9 = finMat X H0 (x9 ix0) := by
  funext i
  obtain ⟨n, j, rfl⟩ : ∃ (n : Fin 50000) (j : Fin 512), i = ix2 n j := ⟨i 0, i 1, eq_ix2 i⟩
  unfold finChain
  rw [addf_apply, mulf_apply, Cert.LibBcast.bcastScalar_apply, finMat_apply]
  rfl

end Cert.Gcn.Ref

end
-- ==== Proof.RefSem.lean ====
/-
  The reference, one operation at a time, IS the network of the specification: its three matrix products are `mmMat`,
  its edge steps the one function `sc` of the product, its bias-and-normalisation chains `lnMat`, its two gate chains
  `gateMat`, its last step `finMat`.  Each stage is first identified with the stage's composition of array operations over
  the previous stage's value (the same operations, by unfolding that stage's definitions only), then read row by row by
  the stage lemmas.
-/
import proofs.«149262_j25185688224022_2_alg».proof.Proof.RefSemMM
import proofs.«149262_j25185688224022_2_alg».proof.Proof.RefSemLN
import proofs.«149262_j25185688224022_2_alg».proof.Proof.RefSemGate
import proofs.«149262_j25185688224022_2_alg».proof.Proof.RefSemFin

noncomputable section

open scoped BigOperators

namespace Cert.Gcn.Ref

open Cert.ReferenceIdeal Cert.ReferenceIdeal.Gen Cert.ReferenceIdeal.ReadP Cert.Gcn Idealize.ShloMosaic Idealize.ShloMosaic.ValueIdx
  Idealize.ShloMosaic.StableHlo

/-! ## The edge step's index and scale arrays are the same arrays in every layer -/

theorem v88_eq (x2 : (⟨S2x160000, .i32⟩ : BufTy).Contents (Elt Ideal)) : val_main_v88 (F := Ideal) x2 = val_main_v39 (F := Ideal) x2 := rfl
theorem v91_eq (x2 : (⟨S2x160000, .i32⟩ : BufTy).Contents (Elt Ideal)) : val_main_v91 (F := Ideal) x2 = val_main_v42 (F := Ideal) x2 := rfl
theorem v93_eq : val_main_v93 (F := Ideal) = val_main_v44 (F := Ideal) := rfl
theorem v94_eq (x2 : (⟨S2x160000, .i32⟩ : BufTy).Contents (Elt Ideal)) : val_main_v94 (F := Ideal) x2 = val_main_v45 (F := Ideal) x2 := rfl
theorem v153_eq (x2 : (⟨S2x160000, .i32⟩ : BufTy).Contents (Elt Ideal)) : val_main_v153 (F := Ideal) x2 = val_main_v39 (F := Ideal) x2 := rfl
theorem v156_eq (x2 : (⟨S2x160000, .i32⟩ : BufTy).Contents (Elt Ideal)) : val_main_v156 (F := Ideal) x2 = val_main_v42 (F := Ideal) x2 := rfl
theorem v158_eq : val_main_v158 (F := Ideal) = val_main_v44 (F := Ideal) := rfl
theorem v159_eq (x2 : (⟨S2x160000, .i32⟩ : BufTy).Contents (Elt Ideal)) : val_main_v159 (F := Ideal) x2 = val_main_v45 (F := Ideal) x2 := rfl

/-! ## Layer 0 -/

theorem v33_eq (x1 : (⟨S50000x512, .f32⟩ : BufTy).Contents (Elt Ideal)) (x3 : (⟨S3x512x512, .f32⟩ : BufTy).Contents (Elt Ideal)) :
    val_main_v33 (F := Ideal) x1 x3 = mmMat x1 (wtOf (val_main_v30 (F := Ideal) x3)) := by
  unfold val_main_v33
  exact mm_eq _ _

theorem v46_eq (x1 : (⟨S50000x512, .f32⟩ : BufTy).Contents (Elt Ideal)) (x2 : (⟨S2x160000, .i32⟩ : BufTy).Contents (Elt Ideal)) (x3 : (⟨S3x512x512, .f32⟩ : BufTy).Contents (Elt Ideal)) :
    val_main_v46 (F := Ideal) x1 x2 x3 = sc x2 (val_main_v33 (F := Ideal) x1 x3) := by
  unfold val_main_v46 val_main_v43 val_main_v40 sc
  rfl

theorem v77_eq (x1 : (⟨S50000x512, .f32⟩ : BufTy).Contents (Elt Ideal)) (x2 : (⟨S2x160000, .i32⟩ : BufTy).Contents (Elt Ideal)) (x3 : (⟨S3x512x512, .f32⟩ : BufTy).Contents (Elt Ideal)) (x4 x5 x6 : (⟨S3x512, .f32⟩ : BufTy).Contents (Elt Ideal)) :
    val_main_v77 (F := Ideal) x1 x2 x3 x4 x5 x6 = lnChain (val_main_v46 (F := Ideal) x1 x2 x3) (val_main_v32 (F := Ideal) x4) (val_main_v51 (F := Ideal) x5) (val_main_v53 (F := Ideal) x6) := by
  unfold val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v49 val_main_v48 val_main_v47 val_main_cst_10 val_main_cst_11 val_main_cst_12 val_main_cst_13 val_main_cst_14
  rfl

/-! ## Layer 1 -/

theorem v82_eq (x1 : (⟨S50000x512, .f32⟩ : BufTy).Contents (Elt Ideal)) (x2 : (⟨S2x160000, .i32⟩ : BufTy).Contents (Elt Ideal)) (x3 : (⟨S3x512x512, .f32⟩ : BufTy).Contents (Elt Ideal)) (x4 x5 x6 : (⟨S3x512, .f32⟩ : BufTy).Contents (Elt Ideal)) :
    val_main_v82 (F := Ideal) x1 x2 x3 x4 x5 x6 = mmMat (val_main_v77 (F := Ideal) x1 x2 x3 x4 x5 x6) (wtOf (val_main_v79 (F := Ideal) x3)) := by
  unfold val_main_v82
  exact mm_eq _ _

theorem v95_eq (x1 : (⟨S50000x512, .f32⟩ : BufTy).Contents (Elt Ideal)) (x2 : (⟨S2x160000, .i32⟩ : BufTy).Contents (Elt Ideal)) (x3 : (⟨S3x512x512, .f32⟩ : BufTy).Contents (Elt Ideal)) (x4 x5 x6 : (⟨S3x512, .f32⟩ : BufTy).Contents (Elt Ideal)) :
    val_main_v95 (F := Ideal) x1 x2 x3 x4 x5 x6 = sc x2 (val_main_v82 (F := Ideal) x1 x2 x3 x4 x5 x6) := by
  unfold val_main_v95 val_main_v92 val_main_v89 sc
  rw [v88_eq, v91_eq, v93_eq, v94_eq]

theorem v126_eq (x1 : (⟨S50000x512, .f32⟩ : BufTy).Contents (Elt Ideal)) (x2 : (⟨S2x160000, .i32⟩ : BufTy).Contents (Elt Ideal)) (x3 : (⟨S3x512x512, .f32⟩ : BufTy).Contents (Elt Ideal)) (x4 x5 x6 : (⟨S3x512, .f32⟩ : BufTy).Contents (Elt Ideal)) :
    val_main_v126 (F := Ideal) x1 x2 x3 x4 x5 x6 = lnChain (val_main_v95 (F := Ideal) x1 x2 x3 x4 x5 x6) (val_main_v81 (F := Ideal) x4) (val_main_v100 (F := Ideal) x5) (val_main_v102 (F := Ideal) x6) := by
  unfold val_main_v126 val_main_v125 val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v98 val_main_v97 val_main_v96 val_main_cst_18 val_main_cst_19 val_main_cst_20 val_main_cst_21 val_main_cst_22
  rfl

theorem v142_eq (x1 : (⟨S50000x512, .f32⟩ : BufTy).Contents (Elt Ideal)) (x2 : (⟨S2x160000, .i32⟩ : BufTy).Contents (Elt Ideal)) (x3 : (⟨S3x512x512, .f32⟩ : BufTy).Contents (Elt Ideal)) (x4 x5 x6 : (⟨S3x512, .f32⟩ : BufTy).Contents (Elt Ideal)) (x7 : (⟨S1024x512, .f32⟩ : BufTy).Contents (Elt Ideal)) (x8 : (⟨S512, .f32⟩ : BufTy).Contents (Elt Ideal)) :
    val_main_v142 (F := Ideal) x1 x2 x3 x4 x5 x6 x7 x8 = gateChain (val_main_v77 (F := Ideal) x1 x2 x3 x4 x5 x6) (val_main_v126 (F := Ideal) x1 x2 x3 x4 x5 x6) x7 x8 := by
  unfold val_main_v142 val_main_v141 val_main_v140 val_main_v139 val_main_v138 val_main_v137 val_main_v136 val_main_v135 val_main_v134 val_main_v133 val_main_v132 val_main_v131 val_main_v130 val_main_v129 val_main_v128 val_main_v127 val_main_cst_23 val_main_cst_24 val_main_cst_25
  rfl

/-! ## Layer 2 -/

theorem v147_eq (x1 : (⟨S50000x512, .f32⟩ : BufTy).Contents (Elt Ideal)) (x2 : (⟨S2x160000, .i32⟩ : BufTy).Contents (Elt Ideal)) (x3 : (⟨S3x512x512, .f32⟩ : BufTy).Contents (Elt Ideal)) (x4 x5 x6 : (⟨S3x512, .f32⟩ : BufTy).Contents (Elt Ideal)) (x7 : (⟨S1024x512, .f32⟩ : BufTy).Contents (Elt Ideal)) (x8 : (⟨S512, .f32⟩ : BufTy).Contents (Elt Ideal)) :
    val_main_v147 (F := Ideal) x1 x2 x3 x4 x5 x6 x7 x8 = mmMat (val_main_v142 (F := Ideal) x1 x2 x3 x4 x5 x6 x7 x8) (wtOf (val_main_v144 (F := Ideal) x3)) := by
  unfold val_main_v147
  exact mm_eq _ _

theorem v160_eq (x1 : (⟨S50000x512, .f32⟩ : BufTy).Contents (Elt Ideal)) (x2 : (⟨S2x160000, .i32⟩ : BufTy).Contents (Elt Ideal)) (x3 : (⟨S3x512x512, .f32⟩ : BufTy).Contents (Elt Ideal)) (x4 x5 x6 : (⟨S3x512, .f32⟩ : BufTy).Contents (Elt Ideal)) (x7 : (⟨S1024x512, .f32⟩ : BufTy).Contents (Elt Ideal)) (x8 : (⟨S512, .f32⟩ : BufTy).Contents (Elt Ideal)) :
    val_main_v160 (F := Ideal) x1 x2 x3 x4 x5 x6 x7 x8 = sc x2 (val_main_v147 (F := Ideal) x1 x2 x3 x4 x5 x6 x7 x8) := by
  unfold val_main_v160 val_main_v157 val_main_v154 sc
  rw [v153_eq, v156_eq, v158_eq, v159_eq]

theorem v191_eq (x1 : (⟨S50000x512, .f32⟩ : BufTy).Contents (Elt Ideal)) (x2 : (⟨S2x160000, .i32⟩ : BufTy).Contents (Elt Ideal)) (x3 : (⟨S3x512x512, .f32⟩ : BufTy).Contents (Elt Ideal)) (x4 x5 x6 : (⟨S3x512, .f32⟩ : BufTy).Contents (Elt Ideal)) (x7 : (⟨S1024x512, .f32⟩ : BufTy).Contents (Elt Ideal)) (x8 : (⟨S512, .f32⟩ : BufTy).Contents (Elt Ideal)) :
    val_main_v191 (F := Ideal) x1 x2 x3 x4 x5 x6 x7 x8 = lnChain (val_main_v160 (F := Ideal) x1 x2 x3 x4 x5 x6 x7 x8) (val_main_v146 (F := Ideal) x4) (val_main_v165 (F := Ideal) x5) (val_main_v167 (F := Ideal) x6) := by
  unfold val_main_v191 val_main_v190 val_main_v189 val_main_v188 val_main_v187 val_main_v186 val_main_v185 val_main_v184 val_main_v183 val_main_v182 val_main_v181 val_main_v180 val_main_v179 val_main_v178 val_main_v177 val_main_v176 val_main_v175 val_main_v174 val_main_v173 val_main_v172 val_main_v171 val_main_v170 val_main_v169 val_main_v168 val_main_v163 val_main_v162 val_main_v161 val_main_cst_29 val_main_cst_30 val_main_cst_31 val_main_cst_32 val_main_cst_33
  rfl

theorem v207_eq (x1 : (⟨S50000x512, .f32⟩ : BufTy).Contents (Elt Ideal)) (x2 : (⟨S2x160000, .i32⟩ : BufTy).Contents (Elt Ideal)) (x3 : (⟨S3x512x512, .f32⟩ : BufTy).Contents (Elt Ideal)) (x4 x5 x6 : (⟨S3x512, .f32⟩ : BufTy).Contents (Elt Ideal)) (x7 : (⟨S1024x512, .f32⟩ : BufTy).Contents (Elt Ideal)) (x8 : (⟨S512, .f32⟩ : BufTy).Contents (Elt Ideal)) :
    val_main_v207 (F := Ideal) x1 x2 x3 x4 x5 x6 x7 x8 = gateChain (val_main_v142 (F := Ideal) x1 x2 x3 x4 x5 x6 x7 x8) (val_main_v191 (F := Ideal) x1 x2 x3 x4 x5 x6 x7 x8) x7 x8 := by
  unfold val_main_v207 val_main_v206 val_main_v205 val_main_v204 val_main_v203 val_main_v202 val_main_v201 val_main_v200 val_main_v199 val_main_v198 val_main_v197 val_main_v196 val_main_v195 val_main_v194 val_main_v193 val_main_v192 val_main_cst_34 val_main_cst_35 val_main_cst_36
  rfl

theorem v211_eq (x1 : (⟨S50000x512, .f32⟩ : BufTy).Contents (Elt Ideal)) (x2 : (⟨S2x160000, .i32⟩ : BufTy).Contents (Elt Ideal)) (x3 : (⟨S3x512x512, .f32⟩ : BufTy).Contents (Elt Ideal)) (x4 x5 x6 : (⟨S3x512, .f32⟩ : BufTy).Contents (Elt Ideal)) (x7 : (⟨S1024x512, .f32⟩ : BufTy).Contents (Elt Ideal)) (x8 : (⟨S512, .f32⟩ : BufTy).Contents (Elt Ideal)) (x9 : (⟨S_, .f32⟩ : BufTy).Contents (Elt Ideal)) :
    val_main_v211 (F := Ideal) x1 x2 x3 x4 x5 x6 x7 x8 x9 = finChain (val_main_v207 (F := Ideal) x1 x2 x3 x4 x5 x6 x7 x8) x1 x9 := by
  unfold val_main_v211 val_main_v210 val_main_v209 val_main_v208
  rfl

/-! ## The whole reference -/

/-- The reference's result is the network of the specification on @main's arguments. -/
theorem ref_net (x1 : (⟨S50000x512, .f32⟩ : BufTy).Contents (Elt Ideal)) (x2 : (⟨S2x160000, .i32⟩ : BufTy).Contents (Elt Ideal)) (x3 : (⟨S3x512x512, .f32⟩ : BufTy).Contents (Elt Ideal)) (x4 x5 x6 : (⟨S3x512, .f32⟩ : BufTy).Contents (Elt Ideal)) (x7 : (⟨S1024x512, .f32⟩ : BufTy).Contents (Elt Ideal)) (x8 : (⟨S512, .f32⟩ : BufTy).Contents (Elt Ideal)) (x9 : (⟨S_, .f32⟩ : BufTy).Contents (Elt Ideal)) :
    val_main_v211 (F := Ideal) x1 x2 x3 x4 x5 x6 x7 x8 x9
      = net (sc x2) x1 (wtOf (val_main_v30 (F := Ideal) x3)) (wtOf (val_main_v79 (F := Ideal) x3)) (wtOf (val_main_v144 (F := Ideal) x3))
          (vecOf (val_main_v32 (F := Ideal) x4)) (vecOf (val_main_v51 (F := Ideal) x5)) (vecOf (val_main_v53 (F := Ideal) x6))
          (vecOf (val_main_v81 (F := Ideal) x4)) (vecOf (val_main_v100 (F := Ideal) x5)) (vecOf (val_main_v102 (F := Ideal) x6))
          (vecOf (val_main_v146 (F := Ideal) x4)) (vecOf (val_main_v165 (F := Ideal) x5)) (vecOf (val_main_v167 (F := Ideal) x6))
          (gateW1 x7) (gateW2 x7) (vecOf x8) (x9 ix0) := by
  have h1 : val_main_v77 (F := Ideal) x1 x2 x3 x4 x5 x6
      = lnMat (sc x2 (mmMat x1 (wtOf (val_main_v30 (F := Ideal) x3)))) (vecOf (val_main_v32 (F := Ideal) x4)) (vecOf (val_main_v51 (F := Ideal) x5)) (vecOf (val_main_v53 (F := Ideal) x6)) := by
    rw [v77_eq, lnChain_eq, v46_eq, v33_eq]
  have h2 : val_main_v142 (F := Ideal) x1 x2 x3 x4 x5 x6 x7 x8
      = gateMat (lnMat (sc x2 (mmMat (val_main_v77 (F := Ideal) x1 x2 x3 x4 x5 x6) (wtOf (val_main_v79 (F := Ideal) x3)))) (vecOf (val_main_v81 (F := Ideal) x4)) (vecOf (val_main_v100 (F := Ideal) x5)) (vecOf (val_main_v102 (F := Ideal) x6)))
          (val_main_v77 (F := Ideal) x1 x2 x3 x4 x5 x6) (gateW1 x7) (gateW2 x7) (vecOf x8) := by
    rw [v142_eq, gateChain_eq, v126_eq, lnChain_eq, v95_eq, v82_eq]
  have h3 : val_main_v207 (F := Ideal) x1 x2 x3 x4 x5 x6 x7 x8
      = gateMat (lnMat (sc x2 (mmMat (val_main_v142 (F := Ideal) x1 x2 x3 x4 x5 x6 x7 x8) (wtOf (val_main_v144 (F := Ideal) x3)))) (vecOf (val_main_v146 (F := Ideal) x4)) (vecOf (val_main_v165 (F := Ideal) x5)) (vecOf (val_main_v167 (F := Ideal) x6)))
          (val_main_v142 (F := Ideal) x1 x2 x3 x4 x5 x6 x7 x8) (gateW1 x7) (gateW2 x7) (vecOf x8) := by
    rw [v207_eq, gateChain_eq, v191_eq, lnChain_eq, v160_eq, v147_eq]
  rw [v211_eq, finChain_eq, h3, h2, h1]
  rfl

end Cert.Gcn.Ref

end
-- ==== Proof.Assemble.lean ====
/-
  The certificate's claims.  The kernel program as printed and its idealization run to the end and leave their
  arguments as they were (the generated frames).  The idealized reference runs to the end with its result array at the
  value its operations give, one after the other, of the argument arrays; that value is the network `Cert.Gcn.net` of
  the argument arrays (`Ref.ref_net`).  The idealized kernel runs to the end with its result array at the value its
  regions leave there; given that this value is the same network of ITS argument arrays (the hypothesis `hk`), from
  memories that agree on the arguments both programs end with equal result arrays.
-/
import proofs.«149262_j25185688224022_2_alg».proof.Defs
import proofs.«149262_j25185688224022_2_alg».proof.Proof.Gen.Kernel.Frame
import proofs.«149262_j25185688224022_2_alg».proof.Proof.Gen.KernelIdeal.Frame
import proofs.«149262_j25185688224022_2_alg».proof.Proof.Gen.ReferenceIdeal
import proofs.«149262_j25185688224022_2_alg».proof.Proof.Gen.Pre_finite_inputs
import proofs.«149262_j25185688224022_2_alg».proof.Proof.KRun
import proofs.«149262_j25185688224022_2_alg».proof.Proof.RefRun
import proofs.«149262_j25185688224022_2_alg».proof.Proof.RefSem

noncomputable section

namespace Cert.Gcn.Assemble

open Idealize.ShloMosaic Idealize.ShloMosaic.ValueIdx Idealize.SL.Sem Cert.Gcn

/-- The network on nine argument arrays: the three weight slices, the bias, scale and shift rows of each layer, the two
    halves of the gate weights, the gate bias and the residual weight are read off the arrays. -/
def netOf (x1 : (⟨Cert.ReferenceIdeal.S50000x512, .f32⟩ : BufTy).Contents (Elt Ideal)) (x2 : (⟨Cert.ReferenceIdeal.S2x160000, .i32⟩ : BufTy).Contents (Elt Ideal)) (x3 : (⟨Cert.ReferenceIdeal.S3x512x512, .f32⟩ : BufTy).Contents (Elt Ideal)) (x4 x5 x6 : (⟨Cert.ReferenceIdeal.S3x512, .f32⟩ : BufTy).Contents (Elt Ideal)) (x7 : (⟨Cert.ReferenceIdeal.S1024x512, .f32⟩ : BufTy).Contents (Elt Ideal)) (x8 : (⟨Cert.ReferenceIdeal.S512, .f32⟩ : BufTy).Contents (Elt Ideal)) (x9 : (⟨Cert.ReferenceIdeal.S_, .f32⟩ : BufTy).Contents (Elt Ideal)) : Mat 50000 :=
  net (Ref.sc x2) x1 (wtOf (Cert.ReferenceIdeal.ReadP.val_main_v30 (F := Ideal) x3)) (wtOf (Cert.ReferenceIdeal.ReadP.val_main_v79 (F := Ideal) x3)) (wtOf (Cert.ReferenceIdeal.ReadP.val_main_v144 (F := Ideal) x3))
        (vecOf (Cert.ReferenceIdeal.ReadP.val_main_v32 (F := Ideal) x4)) (vecOf (Cert.ReferenceIdeal.ReadP.val_main_v51 (F := Ideal) x5)) (vecOf (Cert.ReferenceIdeal.ReadP.val_main_v53 (F := Ideal) x6))
        (vecOf (Cert.ReferenceIdeal.ReadP.val_main_v81 (F := Ideal) x4)) (vecOf (Cert.ReferenceIdeal.ReadP.val_main_v100 (F := Ideal) x5)) (vecOf (Cert.ReferenceIdeal.ReadP.val_main_v102 (F := Ideal) x6))
        (vecOf (Cert.ReferenceIdeal.ReadP.val_main_v146 (F := Ideal) x4)) (vecOf (Cert.ReferenceIdeal.ReadP.val_main_v165 (F := Ideal) x5)) (vecOf (Cert.ReferenceIdeal.ReadP.val_main_v167 (F := Ideal) x6))
        (gateW1 x7) (gateW2 x7) (vecOf x8) (x9 ix0)

/-- The reference's result is the network on its arguments. -/
theorem ref_netOf (x1 : (⟨Cert.ReferenceIdeal.S50000x512, .f32⟩ : BufTy).Contents (Elt Ideal)) (x2 : (⟨Cert.ReferenceIdeal.S2x160000, .i32⟩ : BufTy).Contents (Elt Ideal)) (x3 : (⟨Cert.ReferenceIdeal.S3x512x512, .f32⟩ : BufTy).Contents (Elt Ideal)) (x4 x5 x6 : (⟨Cert.ReferenceIdeal.S3x512, .f32⟩ : BufTy).Contents (Elt Ideal)) (x7 : (⟨Cert.ReferenceIdeal.S1024x512, .f32⟩ : BufTy).Contents (Elt Ideal)) (x8 : (⟨Cert.ReferenceIdeal.S512, .f32⟩ : BufTy).Contents (Elt Ideal)) (x9 : (⟨Cert.ReferenceIdeal.S_, .f32⟩ : BufTy).Contents (Elt Ideal)) :
    Cert.ReferenceIdeal.ReadP.val_main_v211 (F := Ideal) x1 x2 x3 x4 x5 x6 x7 x8 x9 = netOf x1 x2 x3 x4 x5 x6 x7 x8 x9 :=
  Ref.ref_net x1 x2 x3 x4 x5 x6 x7 x8 x9

/-- Equal arguments, equal networks. -/
theorem netOf_congr (x1 : (⟨Cert.ReferenceIdeal.S50000x512, .f32⟩ : BufTy).Contents (Elt Ideal)) (x2 : (⟨Cert.ReferenceIdeal.S2x160000, .i32⟩ : BufTy).Contents (Elt Ideal)) (x3 : (⟨Cert.ReferenceIdeal.S3x512x512, .f32⟩ : BufTy).Contents (Elt Ideal)) (x4 x5 x6 : (⟨Cert.ReferenceIdeal.S3x512, .f32⟩ : BufTy).Contents (Elt Ideal)) (x7 : (⟨Cert.ReferenceIdeal.S1024x512, .f32⟩ : BufTy).Contents (Elt Ideal)) (x8 : (⟨Cert.ReferenceIdeal.S512, .f32⟩ : BufTy).Contents (Elt Ideal)) (x9 : (⟨Cert.ReferenceIdeal.S_, .f32⟩ : BufTy).Contents (Elt Ideal)) (y1 : (⟨Cert.ReferenceIdeal.S50000x512, .f32⟩ : BufTy).Contents (Elt Ideal)) (y2 : (⟨Cert.ReferenceIdeal.S2x160000, .i32⟩ : BufTy).Contents (Elt Ideal)) (y3 : (⟨Cert.ReferenceIdeal.S3x512x512, .f32⟩ : BufTy).Contents (Elt Ideal)) (y4 y5 y6 : (⟨Cert.ReferenceIdeal.S3x512, .f32⟩ : BufTy).Contents (Elt Ideal)) (y7 : (⟨Cert.ReferenceIdeal.S1024x512, .f32⟩ : BufTy).Contents (Elt Ideal)) (y8 : (⟨Cert.ReferenceIdeal.S512, .f32⟩ : BufTy).Contents (Elt Ideal)) (y9 : (⟨Cert.ReferenceIdeal.S_, .f32⟩ : BufTy).Contents (Elt Ideal))
    (e1 : x1 = y1) (e2 : x2 = y2) (e3 : x3 = y3) (e4 : x4 = y4) (e5 : x5 = y5) (e6 : x6 = y6) (e7 : x7 = y7) (e8 : x8 = y8) (e9 : x9 = y9) :
    netOf x1 x2 x3 x4 x5 x6 x7 x8 x9 = netOf y1 y2 y3 y4 y5 y6 y7 y8 y9 := by
  rw [e1, e2, e3, e4, e5, e6, e7, e8, e9]

/-! ## The claims -/

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.Gcn.RefRun.ref_run m ρ)

theorem preserves : Cert.preserves_Kernel_KernelIdeal := trivial

/-- At the ideal values the kernel's result array ends at the network of its argument arrays (`hk`) and the reference's
    at the network of its own (`ref_netOf`); the arguments agree, so the results are equal. -/
theorem algebraic_of
    (hk : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      Cert.KernelIdeal.Gen.W14 (F := Ideal) m ρ c (Proc.devRef .tc Cert.KernelIdeal.main_v113)
        = net (Ref.sc (m ((c.tc : Thread Cert.KernelIdeal.nD Cert.KernelIdeal.τ).loc Cert.KernelIdeal.main_arg2))) (m ((c.tc : Thread Cert.KernelIdeal.nD Cert.KernelIdeal.τ).loc Cert.KernelIdeal.main_arg1)) (wtOf (Cert.ReferenceIdeal.ReadP.val_main_v30 (F := Ideal) (m ((c.tc : Thread Cert.KernelIdeal.nD Cert.KernelIdeal.τ).loc Cert.KernelIdeal.main_arg3)))) (wtOf (Cert.ReferenceIdeal.ReadP.val_main_v79 (F := Ideal) (m ((c.tc : Thread Cert.KernelIdeal.nD Cert.KernelIdeal.τ).loc Cert.KernelIdeal.main_arg3)))) (wtOf (Cert.ReferenceIdeal.ReadP.val_main_v144 (F := Ideal) (m ((c.tc : Thread Cert.KernelIdeal.nD Cert.KernelIdeal.τ).loc Cert.KernelIdeal.main_arg3))))
        (vecOf (Cert.ReferenceIdeal.ReadP.val_main_v32 (F := Ideal) (m ((c.tc : Thread Cert.KernelIdeal.nD Cert.KernelIdeal.τ).loc Cert.KernelIdeal.main_arg4)))) (vecOf (Cert.ReferenceIdeal.ReadP.val_main_v51 (F := Ideal) (m ((c.tc : Thread Cert.KernelIdeal.nD Cert.KernelIdeal.τ).loc Cert.KernelIdeal.main_arg5)))) (vecOf (Cert.ReferenceIdeal.ReadP.val_main_v53 (F := Ideal) (m ((c.tc : Thread Cert.KernelIdeal.nD Cert.KernelIdeal.τ).loc Cert.KernelIdeal.main_arg6))))
        (vecOf (Cert.ReferenceIdeal.ReadP.val_main_v81 (F := Ideal) (m ((c.tc : Thread Cert.KernelIdeal.nD Cert.KernelIdeal.τ).loc Cert.KernelIdeal.main_arg4)))) (vecOf (Cert.ReferenceIdeal.ReadP.val_main_v100 (F := Ideal) (m ((c.tc : Thread Cert.KernelIdeal.nD Cert.KernelIdeal.τ).loc Cert.KernelIdeal.main_arg5)))) (vecOf (Cert.ReferenceIdeal.ReadP.val_main_v102 (F := Ideal) (m ((c.tc : Thread Cert.KernelIdeal.nD Cert.KernelIdeal.τ).loc Cert.KernelIdeal.main_arg6))))
        (vecOf (Cert.ReferenceIdeal.ReadP.val_main_v146 (F := Ideal) (m ((c.tc : Thread Cert.KernelIdeal.nD Cert.KernelIdeal.τ).loc Cert.KernelIdeal.main_arg4)))) (vecOf (Cert.ReferenceIdeal.ReadP.val_main_v165 (F := Ideal) (m ((c.tc : Thread Cert.KernelIdeal.nD Cert.KernelIdeal.τ).loc Cert.KernelIdeal.main_arg5)))) (vecOf (Cert.ReferenceIdeal.ReadP.val_main_v167 (F := Ideal) (m ((c.tc : Thread Cert.KernelIdeal.nD Cert.KernelIdeal.τ).loc Cert.KernelIdeal.main_arg6))))
        (gateW1 (m ((c.tc : Thread Cert.KernelIdeal.nD Cert.KernelIdeal.τ).loc Cert.KernelIdeal.main_arg7))) (gateW2 (m ((c.tc : Thread Cert.KernelIdeal.nD Cert.KernelIdeal.τ).loc Cert.KernelIdeal.main_arg7))) (vecOf (m ((c.tc : Thread Cert.KernelIdeal.nD Cert.KernelIdeal.τ).loc Cert.KernelIdeal.main_arg8))) ((m ((c.tc : Thread Cert.KernelIdeal.nD Cert.KernelIdeal.τ).loc Cert.KernelIdeal.main_arg9)) ix0)) :
    Cert.algebraic_KernelIdeal_ReferenceIdeal := by
  intro m ρ m' ρ' _ hagree
  refine ⟨fun c => netOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun _ h c => ⟨(h c).1.trans (hk m ρ c), (h c).2⟩)
      (Cert.Gcn.KRun.value_run (F := Ideal) m ρ)
  · refine (θ_run Cert.ReferenceIdeal.defs _ _).mono (fun _ h c => ⟨(h c).1.trans ?_, (h c).2⟩) (Cert.Gcn.RefRun.ref_run m' ρ')
    exact (ref_netOf _ _ _ _ _ _ _ _ _).trans
      (netOf_congr _ _ _ _ _ _ _ _ _ _ _ _ _ _ _ _ _ _ (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2)

/-- Every claim of the certificate, given the kernel's value. -/
theorem claim_of
    (hk : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      Cert.KernelIdeal.Gen.W14 (F := Ideal) m ρ c (Proc.devRef .tc Cert.KernelIdeal.main_v113)
        = net (Ref.sc (m ((c.tc : Thread Cert.KernelIdeal.nD Cert.KernelIdeal.τ).loc Cert.KernelIdeal.main_arg2))) (m ((c.tc : Thread Cert.KernelIdeal.nD Cert.KernelIdeal.τ).loc Cert.KernelIdeal.main_arg1)) (wtOf (Cert.ReferenceIdeal.ReadP.val_main_v30 (F := Ideal) (m ((c.tc : Thread Cert.KernelIdeal.nD Cert.KernelIdeal.τ).loc Cert.KernelIdeal.main_arg3)))) (wtOf (Cert.ReferenceIdeal.ReadP.val_main_v79 (F := Ideal) (m ((c.tc : Thread Cert.KernelIdeal.nD Cert.KernelIdeal.τ).loc Cert.KernelIdeal.main_arg3)))) (wtOf (Cert.ReferenceIdeal.ReadP.val_main_v144 (F := Ideal) (m ((c.tc : Thread Cert.KernelIdeal.nD Cert.KernelIdeal.τ).loc Cert.KernelIdeal.main_arg3))))
        (vecOf (Cert.ReferenceIdeal.ReadP.val_main_v32 (F := Ideal) (m ((c.tc : Thread Cert.KernelIdeal.nD Cert.KernelIdeal.τ).loc Cert.KernelIdeal.main_arg4)))) (vecOf (Cert.ReferenceIdeal.ReadP.val_main_v51 (F := Ideal) (m ((c.tc : Thread Cert.KernelIdeal.nD Cert.KernelIdeal.τ).loc Cert.KernelIdeal.main_arg5)))) (vecOf (Cert.ReferenceIdeal.ReadP.val_main_v53 (F := Ideal) (m ((c.tc : Thread Cert.KernelIdeal.nD Cert.KernelIdeal.τ).loc Cert.KernelIdeal.main_arg6))))
        (vecOf (Cert.ReferenceIdeal.ReadP.val_main_v81 (F := Ideal) (m ((c.tc : Thread Cert.KernelIdeal.nD Cert.KernelIdeal.τ).loc Cert.KernelIdeal.main_arg4)))) (vecOf (Cert.ReferenceIdeal.ReadP.val_main_v100 (F := Ideal) (m ((c.tc : Thread Cert.KernelIdeal.nD Cert.KernelIdeal.τ).loc Cert.KernelIdeal.main_arg5)))) (vecOf (Cert.ReferenceIdeal.ReadP.val_main_v102 (F := Ideal) (m ((c.tc : Thread Cert.KernelIdeal.nD Cert.KernelIdeal.τ).loc Cert.KernelIdeal.main_arg6))))
        (vecOf (Cert.ReferenceIdeal.ReadP.val_main_v146 (F := Ideal) (m ((c.tc : Thread Cert.KernelIdeal.nD Cert.KernelIdeal.τ).loc Cert.KernelIdeal.main_arg4)))) (vecOf (Cert.ReferenceIdeal.ReadP.val_main_v165 (F := Ideal) (m ((c.tc : Thread Cert.KernelIdeal.nD Cert.KernelIdeal.τ).loc Cert.KernelIdeal.main_arg5)))) (vecOf (Cert.ReferenceIdeal.ReadP.val_main_v167 (F := Ideal) (m ((c.tc : Thread Cert.KernelIdeal.nD Cert.KernelIdeal.τ).loc Cert.KernelIdeal.main_arg6))))
        (gateW1 (m ((c.tc : Thread Cert.KernelIdeal.nD Cert.KernelIdeal.τ).loc Cert.KernelIdeal.main_arg7))) (gateW2 (m ((c.tc : Thread Cert.KernelIdeal.nD Cert.KernelIdeal.τ).loc Cert.KernelIdeal.main_arg7))) (vecOf (m ((c.tc : Thread Cert.KernelIdeal.nD Cert.KernelIdeal.τ).loc Cert.KernelIdeal.main_arg8))) ((m ((c.tc : Thread Cert.KernelIdeal.nD Cert.KernelIdeal.τ).loc Cert.KernelIdeal.main_arg9)) ix0)) :
    Cert.Claim :=
  ⟨Cert.Kernel.Gen.facts, Cert.KernelIdeal.Gen.facts, Cert.ReferenceIdeal.Gen.facts, Cert.Pre_finite_inputs.Gen.facts,
    frame_p, frame_pi, frame_ri, preserves, algebraic_of hk⟩

end Cert.Gcn.Assemble

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.KBodyMM.lean ====
/-
  The three matrix-product bodies read at one entry, at the ideal values.

  Each body loads its block of 2000 rows and the 512 x 512 weight block whole, multiplies them into the all-zero
  accumulator and stores the product whole.  What the body leaves in the output buffer is therefore the product, and
  its entry (r, j) is  Σ_k x(r, k) · w(k, j)  = `mmRow` of row r of the block and the weight block, at j.
  Also here, for the later bodies: the zero offsets of a whole-block rectangle (`hz2`) and the product into the zero
  accumulator at one entry for this body's dimension numbers (`mm_apply`).
-/
import proofs.«149262_j25185688224022_2_alg».proof.Proof.Gen.KernelIdeal.Frame
import proofs.«149262_j25185688224022_2_alg».proof.Proof.Spec
import proofs.«149262_j25185688224022_2_alg».proof.Proof.LibMatmulZero
import proofs.«149262_j25185688224022_2_alg».proof.Proof.LibRowOps
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.Gcn.KBody

open Cert.KernelIdeal Cert.KernelIdeal.Gen Cert.Gcn Idealize.ShloMosaic Idealize.ShloMosaic.ValueIdx
open Cert.LibMatmulZero Cert.LibRowOps

variable [Facts]
open Facts₀ Facts

/-- The zero offsets of a two-axis rectangle. -/
theorem hz2 : (![0, 0] : Fin 2 → Nat) = fun _ => 0 := funext fun a => by fin_cases a <;> rfl

/-- The result's axis 0 is the left operand's axis 0. -/
theorem mm_hl0 : ∀ (i : (⟨2, ![2000, 512]⟩ : Shape).Idx) (c : dot_S2000x512_S512x512_S2000x512_1_0_0_1_n_n.contr.Idx),
    (dot_S2000x512_S512x512_S2000x512_1_0_0_1_n_n.lhsIdx i c 0).val = (i 0).val := fun i c => by
  unfold DotDims.lhsIdx
  rw [dif_neg (show ¬(0 : Fin _) ∈ dot_S2000x512_S512x512_S2000x512_1_0_0_1_n_n.lhsBatch by decide),
    dif_pos (show (0 : Fin _) ∈ dot_S2000x512_S512x512_S2000x512_1_0_0_1_n_n.lhsNonContracting by decide)]
  rfl

/-- The result's axis 1 is the right operand's axis 1. -/
theorem mm_hr1 : ∀ (i : (⟨2, ![2000, 512]⟩ : Shape).Idx) (c : dot_S2000x512_S512x512_S2000x512_1_0_0_1_n_n.contr.Idx),
    (dot_S2000x512_S512x512_S2000x512_1_0_0_1_n_n.rhsIdx i c 1).val = (i 1).val := fun i c => by
  unfold DotDims.rhsIdx
  rw [dif_neg (show ¬(1 : Fin _) ∈ dot_S2000x512_S512x512_S2000x512_1_0_0_1_n_n.rhsBatch by decide),
    dif_pos (show (1 : Fin _) ∈ dot_S2000x512_S512x512_S2000x512_1_0_0_1_n_n.rhsNonContracting by decide)]
  rfl

/-- The product of a block of rows by a weight block, into the zero accumulator, at entry (r, j): Σ_k a(r, k) · w(k, j). -/
theorem mm_apply (prec : Option ContractPrecision) (a : FVec Ideal S2000x512 .f32) (w : FVec Ideal S512x512 .f32)
    (r : Fin 2000) (j : Fin 512) :
    matmul dot_S2000x512_S512x512_S2000x512_1_0_0_1_n_n prec a w (constant S2000x512 .f32 0x00000000#32) (ix2 r j)
      = ∑ k : Fin 512, a (ix2 r k) * w (ix2 k j) :=
  matmul_zero_ix2 dot_S2000x512_S512x512_S2000x512_1_0_0_1_n_n rfl rfl rfl rfl mm_hl0 mm_hr1 prec a w r j

/-- The first product body's stored value at (r, j). -/
theorem k0_pay1_apply (v0 : Vec Ideal S2000x512 .f32) (v1 : Vec Ideal S512x512 .f32) (r : Fin 2000) (j : Fin 512) :
    k0_pay1 (F := Ideal) v0 v1 (ix2 r j) = mmRow (rowOf v0 r) (wtOf v1) j := by
  unfold k0_pay1
  rw [shapeCast_self]
  exact mm_apply _ v0 v1 r j

/-- The second product body's stored value at (r, j). -/
theorem k2_pay1_apply (v0 : Vec Ideal S2000x512 .f32) (v2 : Vec Ideal S512x512 .f32) (r : Fin 2000) (j : Fin 512) :
    k2_pay1 (F := Ideal) v0 v2 (ix2 r j) = mmRow (rowOf v0 r) (wtOf v2) j := by
  unfold k2_pay1
  rw [shapeCast_self, shapeCast_self]
  exact mm_apply _ v0 v2 r j

/-- The third product body's stored value at (r, j). -/
theorem k4_pay1_apply (v0 : Vec Ideal S2000x512 .f32) (v2 : Vec Ideal S512x512 .f32) (r : Fin 2000) (j : Fin 512) :
    k4_pay1 (F := Ideal) v0 v2 (ix2 r j) = mmRow (rowOf v0 r) (wtOf v2) j := by
  unfold k4_pay1
  rw [shapeCast_self, shapeCast_self]
  exact mm_apply _ v0 v2 r j

/-- What the first product body leaves in its output buffer, at (r, j): row r of the block times the weight block. -/
theorem out0_2_apply (x0 : Vec Ideal S2000x512 .f32) (x1 : Vec Ideal S512x512 .f32) (r : Fin 2000) (j : Fin 512) :
    out0_2 (F := Ideal) x0 x1 (ix2 r j) = mmRow (rowOf x0 r) (wtOf x1) j := by
  unfold out0_2
  rw [View.canon_unit_zero hz2, View.ld_unit_zero (S := S2000x512) hz2, View.ld_unit_zero (S := S512x512) hz2]
  exact k0_pay1_apply x0 x1 r j

/-- The same for the second layer's product body. -/
theorem out2_2_apply (x0 : Vec Ideal S2000x512 .f32) (x1 : Vec Ideal S512x512 .f32) (r : Fin 2000) (j : Fin 512) :
    out2_2 (F := Ideal) x0 x1 (ix2 r j) = mmRow (rowOf x0 r) (wtOf x1) j := by
  unfold out2_2
  rw [View.canon_unit_zero hz2, View.ld_unit_zero (S := S2000x512) hz2, View.ld_unit_zero (S := S512x512) hz2]
  exact k2_pay1_apply x0 x1 r j

/-- The same for the third layer's product body. -/
theorem out4_2_apply (x0 : Vec Ideal S2000x512 .f32) (x1 : Vec Ideal S512x512 .f32) (r : Fin 2000) (j : Fin 512) :
    out4_2 (F := Ideal) x0 x1 (ix2 r j) = mmRow (rowOf x0 r) (wtOf x1) j := by
  unfold out4_2
  rw [View.canon_unit_zero hz2, View.ld_unit_zero (S := S2000x512) hz2, View.ld_unit_zero (S := S512x512) hz2]
  exact k4_pay1_apply x0 x1 r j

end Cert.Gcn.KBody

end
-- ==== Proof.KBodyLN.lean ====
/-
  The layer-norm bodies read at one entry, at the ideal values.

  The body loads a block x of 2000 rows and three rows b, g, be of 512 entries, and stores, at (r, j),
      ((x(r, j) + b(j)) - mu) * rsqrt (var + eps) * g(j) + be(j),
  where mu = (Σ_k (x(r, k) + b(k))) / 512 and var = (Σ_k ((x(r, k) + b(k)) - mu)^2) / 512 are row r's mean and
  variance: the row sums are reductions along the lanes kept as a column [2000, 1] and repeated along the 512 lanes.
  The arithmetic after the bias is named once (`meanCol`, `centred`, `lnTail`) and read at an entry of row r from
  what the biased block holds in row r; the three bodies that start with this arithmetic are instances.
-/
import proofs.«149262_j25185688224022_2_alg».proof.Proof.KBodyMM

noncomputable section

open scoped BigOperators

namespace Cert.Gcn.KBody

open Cert.KernelIdeal Cert.KernelIdeal.Gen Cert.Gcn Idealize.ShloMosaic Idealize.ShloMosaic.ValueIdx
open Cert.LibMatmulZero Cert.LibRowOps

variable [Facts]
open Facts₀ Facts

section Tail
variable (hr : S2000x512.Reduces [1] S2000) (hc : S2000.ShapeCasts S2000x1)
  (hb : S2000x1.Broadcasts S2000x512) (hb1 : S1x512.Broadcasts S2000x512)

/-- The row sums of a block divided by 512, as a column. -/
def meanCol (x : FVec Ideal S2000x512 .f32) : FVec Ideal S2000x1 .f32 :=
  divf (shapeCast S2000x1 (multiReduction .add [1] S2000 x 0x00000000#32 hr (.inl rfl) rfl) hc)
    (broadcast S2000x1 (Scalar.ofBits (F := Ideal) .f32 0x44000000#32))

/-- A block less its rows' means. -/
def centred (x : FVec Ideal S2000x512 .f32) : FVec Ideal S2000x512 .f32 :=
  subf x (broadcastTo S2000x512 (meanCol hr hc x) hb)

/-- The normalisation of a block's rows, then the scale row g and the shift row be. -/
def lnTail (x : FVec Ideal S2000x512 .f32) (g be : FVec Ideal S1x512 .f32) : FVec Ideal S2000x512 .f32 :=
  addf (mulf (mulf (centred hr hc hb x)
      (broadcastTo S2000x512 (rsqrt (addf (meanCol hr hc (mulf (centred hr hc hb x) (centred hr hc hb x)))
          (broadcast S2000x1 (Scalar.ofBits (F := Ideal) .f32 0x3727C5AC#32)))) hb))
    (broadcastTo S2000x512 g hb1)) (broadcastTo S2000x512 be hb1)

section AtRow
variable (x : FVec Ideal S2000x512 .f32) (r : Fin 2000) (f : Row) (hx : ∀ k : Fin 512, x (ix2 r k) = f k)
include hx

/-- The mean column at row r: the sum of the row's entries over 512. -/
theorem meanCol_apply (u : Fin 1) : meanCol hr hc x (ix2 r u) = Ideal.div (∑ k : Fin 512, f k) c512 := by
  show Ideal.div (shapeCast S2000x1 (multiReduction .add [1] S2000 x 0x00000000#32 hr (.inl rfl) rfl) hc (ix2 r u)) c512 = _
  refine congrArg (fun t => Ideal.div t c512) ?_
  refine (shapeCast_a_a1_apply _ hc r u).trans ?_
  refine (rowAdd_apply x hr (.inl rfl) rfl r).trans ?_
  exact Finset.sum_congr rfl fun k _ => hx k

/-- The centred block at an entry of row r. -/
theorem centred_apply (k : Fin 512) :
    centred hr hc hb x (ix2 r k) = f k - Ideal.div (∑ k : Fin 512, f k) c512 :=
  congrArg₂ (· - ·) (hx k) ((broadcastTo_a1_ab_apply _ hb r k).trans (meanCol_apply hr hc x r f hx 0))

end AtRow

/-- The normalised, scaled and shifted block at (r, j), when row r of the block is a + b. -/
theorem lnTail_apply (x : FVec Ideal S2000x512 .f32) (r : Fin 2000) (a b : Row) (hab : ∀ k : Fin 512, x (ix2 r k) = a k + b k) (g be : FVec Ideal S1x512 .f32) (j : Fin 512) :
    lnTail hr hc hb hb1 x g be (ix2 r j) = lnRow a b (row1Of g) (row1Of be) j := by
  have h1 := centred_apply hr hc hb x r (fun k => a k + b k) hab
  have hsq : ∀ k : Fin 512, mulf (centred hr hc hb x) (centred hr hc hb x) (ix2 r k)
      = ((a k + b k) - muRow a b) * ((a k + b k) - muRow a b) := fun k => congrArg₂ (· * ·) (h1 k) (h1 k)
  have h2 : broadcastTo S2000x512 (rsqrt (addf (meanCol hr hc (mulf (centred hr hc hb x) (centred hr hc hb x)))
          (broadcast S2000x1 (Scalar.ofBits (F := Ideal) .f32 0x3727C5AC#32)))) hb (ix2 r j)
      = Ideal.rsqrt (Ideal.div (∑ k : Fin 512, ((a k + b k) - muRow a b) * ((a k + b k) - muRow a b)) c512 + eps) :=
    (broadcastTo_a1_ab_apply _ hb r j).trans
      (congrArg (fun t => Ideal.rsqrt (t + eps)) (meanCol_apply hr hc _ r _ hsq 0))
  exact congrArg₂ (· + ·) (congrArg₂ (· * ·) (congrArg₂ (· * ·) (h1 j) h2) (broadcastTo_1b_ab_apply g hb1 r j))
    (broadcastTo_1b_ab_apply be hb1 r j)

end Tail

/-- The block plus the bias row, at (r, k). -/
theorem bias_apply (hb1 : S1x512.Broadcasts S2000x512) (v0 : FVec Ideal S2000x512 .f32) (v2 : FVec Ideal S1x512 .f32)
    (r : Fin 2000) (k : Fin 512) :
    addf v0 (broadcastTo S2000x512 v2 hb1) (ix2 r k) = rowOf v0 r k + row1Of v2 k :=
  congrArg (v0 (ix2 r k) + ·) (broadcastTo_1b_ab_apply v2 hb1 r k)

/-- The first layer's layer-norm body's stored value at (r, j). -/
theorem k1_pay1_apply (v0 : Vec Ideal S2000x512 .f32) (v2 v24 v28 : Vec Ideal S1x512 .f32) (r : Fin 2000) (j : Fin 512) :
    k1_pay1 (F := Ideal) v0 v2 v24 v28 (ix2 r j) = lnRow (rowOf v0 r) (row1Of v2) (row1Of v24) (row1Of v28) j := by
  have e : k1_pay1 (F := Ideal) v0 v2 v24 v28
      = lnTail Facts₀.reduces_S2000x512_S2000 Facts₀.shapeCasts_S2000_S2000x1 Facts₀.broadcasts_S2000x1_S2000x512
          Facts₀.broadcasts_S1x512_S2000x512 (addf v0 (broadcastTo S2000x512 v2 Facts₀.broadcasts_S1x512_S2000x512)) v24 v28 := by
    unfold k1_pay1
    rw [shapeCast_self v0, shapeCast_self v2, shapeCast_self v24, shapeCast_self v28]
    rfl
  rw [e]
  exact lnTail_apply _ _ _ _ _ r (rowOf v0 r) (row1Of v2) (bias_apply _ v0 v2 r) v24 v28 j

/-- What the first layer's layer-norm body leaves in its output buffer, at (r, j). -/
theorem out1_4_apply (x0 : Vec Ideal S2000x512 .f32) (x1 x2 x3 : Vec Ideal S1x512 .f32) (r : Fin 2000) (j : Fin 512) :
    out1_4 (F := Ideal) x0 x1 x2 x3 (ix2 r j) = lnRow (rowOf x0 r) (row1Of x1) (row1Of x2) (row1Of x3) j := by
  unfold out1_4
  rw [View.canon_unit_zero hz2, View.ld_unit_zero (S := S2000x512) hz2, View.ld_unit_zero (S := S1x512) hz2,
    View.ld_unit_zero (S := S1x512) hz2, View.ld_unit_zero (S := S1x512) hz2]
  exact k1_pay1_apply x0 x1 x2 x3 r j

/-- The second layer's body's layer-norm value (its new row) at (r, j). -/
theorem k3_pay2_apply (v0 : Vec Ideal S2000x512 .f32) (v2 v24 v28 : Vec Ideal S1x512 .f32) (r : Fin 2000) (j : Fin 512) :
    k3_pay2 (F := Ideal) v0 v2 v24 v28 (ix2 r j) = lnRow (rowOf v0 r) (row1Of v2) (row1Of v24) (row1Of v28) j := by
  have e : k3_pay2 (F := Ideal) v0 v2 v24 v28
      = lnTail Facts₀.reduces_S2000x512_S2000 Facts₀.shapeCasts_S2000_S2000x1 Facts₀.broadcasts_S2000x1_S2000x512
          Facts₀.broadcasts_S1x512_S2000x512 (addf v0 (broadcastTo S2000x512 v2 Facts₀.broadcasts_S1x512_S2000x512)) v24 v28 := by
    unfold k3_pay2
    rw [shapeCast_self v0, shapeCast_self v2, shapeCast_self v24, shapeCast_self v28]
    rfl
  rw [e]
  exact lnTail_apply _ _ _ _ _ r (rowOf v0 r) (row1Of v2) (bias_apply _ v0 v2 r) v24 v28 j

/-- The last layer's body's layer-norm value (its new row) at (r, j). -/
theorem k5_pay2_apply (v0 : Vec Ideal S2000x512 .f32) (v2 v24 v28 : Vec Ideal S1x512 .f32) (r : Fin 2000) (j : Fin 512) :
    k5_pay2 (F := Ideal) v0 v2 v24 v28 (ix2 r j) = lnRow (rowOf v0 r) (row1Of v2) (row1Of v24) (row1Of v28) j := by
  have e : k5_pay2 (F := Ideal) v0 v2 v24 v28
      = lnTail Facts₀.reduces_S2000x512_S2000 Facts₀.shapeCasts_S2000_S2000x1 Facts₀.broadcasts_S2000x1_S2000x512
          Facts₀.broadcasts_S1x512_S2000x512 (addf v0 (broadcastTo S2000x512 v2 Facts₀.broadcasts_S1x512_S2000x512)) v24 v28 := by
    unfold k5_pay2
    rw [shapeCast_self v0, shapeCast_self v2, shapeCast_self v24, shapeCast_self v28]
    rfl
  rw [e]
  exact lnTail_apply _ _ _ _ _ r (rowOf v0 r) (row1Of v2) (bias_apply _ v0 v2 r) v24 v28 j

end Cert.Gcn.KBody

end
-- ==== Proof.KBodyGate.lean ====
/-
  The second layer's body (layer norm, then the gate's mix with the old row) read at one entry, at the ideal values.

  With hn the new row (the layer-norm value of row r) and h the old row (row r of the block of the previous layer's
  result), the body stores, at (r, j),
      s * hn(j) + (1 - s) * h(j),    s = logistic ((Σ_k h(k) · w1(k, j) + Σ_k hn(k) · w2(k, j)) + bg(j)) :
  two products into zero accumulators, added in this order, plus the gate's bias row repeated along the rows.
  The arithmetic is read at (r, j) from what the operands hold in row r (`k3_pay1_apply`), then the operands are the
  body's earlier values.
-/
import proofs.«149262_j25185688224022_2_alg».proof.Proof.KBodyLN

noncomputable section

open scoped BigOperators

namespace Cert.Gcn.KBody

open Cert.KernelIdeal Cert.KernelIdeal.Gen Cert.Gcn Idealize.ShloMosaic Idealize.ShloMosaic.ValueIdx
open Cert.LibMatmulZero Cert.LibRowOps

variable [Facts]
open Facts₀ Facts

/-- The gate's arithmetic at (r, j), from row r of the new block (hn), entry (r, j) of the old block (h) and of the
    product of the old block by the first weight block. -/
theorem k3_pay1_apply (v31 v33 v36 : FVec Ideal S2000x512 .f32) (v38 : FVec Ideal S512x512 .f32) (v41 : Vec Ideal S1x512 .f32)
    (r : Fin 2000) (j : Fin 512) (hn h : Row) (w1 : Wt)
    (h31 : ∀ k : Fin 512, v31 (ix2 r k) = hn k) (h33 : v33 (ix2 r j) = h j) (h36 : v36 (ix2 r j) = mmRow h w1 j) :
    k3_pay1 (F := Ideal) v31 v33 v36 v38 v41 (ix2 r j) = gateRow hn h w1 (wtOf v38) (row1Of v41) j := by
  unfold k3_pay1
  rw [shapeCast_self v41]
  have hl : addf (addf v36 (matmul dot_S2000x512_S512x512_S2000x512_1_0_0_1_n_n (some .fp32) v31 v38 (constant S2000x512 .f32 0x00000000#32)))
        (broadcastTo S2000x512 v41 Facts₀.broadcasts_S1x512_S2000x512) (ix2 r j)
      = (mmRow h w1 j + mmRow hn (wtOf v38) j) + row1Of v41 j :=
    congrArg₂ (· + ·)
      (congrArg₂ (· + ·) h36 ((mm_apply _ v31 v38 r j).trans
        (Finset.sum_congr rfl fun k _ => congrArg (· * v38 (ix2 k j)) (h31 k))))
      (broadcastTo_1b_ab_apply v41 _ r j)
  have hg := congrArg Ideal.logistic hl
  exact congrArg₂ (· + ·) (congrArg₂ (· * ·) hg (h31 j)) (congrArg₂ (· * ·) (congrArg (one - ·) hg) h33)

/-- The old block through the body's cast onto its own shape. -/
theorem k3_pay3_eq (v32 : Vec Ideal S2000x512 .f32) : k3_pay3 (F := Ideal) v32 = v32 := by
  unfold k3_pay3
  exact shapeCast_self v32 _

/-- The second weight block through the body's cast onto its own shape. -/
theorem k3_pay5_eq (v37 : Vec Ideal S512x512 .f32) : k3_pay5 (F := Ideal) v37 = v37 := by
  unfold k3_pay5
  exact shapeCast_self v37 _

/-- The product of the old block by the first weight block at (r, j). -/
theorem k3_pay4_apply (v32 : Vec Ideal S2000x512 .f32) (v34 : Vec Ideal S512x512 .f32) (r : Fin 2000) (j : Fin 512) :
    k3_pay4 (F := Ideal) v32 v34 (ix2 r j) = mmRow (rowOf v32 r) (wtOf v34) j := by
  unfold k3_pay4
  rw [k3_pay3_eq, shapeCast_self v34]
  exact mm_apply _ v32 v34 r j

/-- What the second layer's body leaves in its output buffer, at (r, j). -/
theorem out3_8_apply (x0 : Vec Ideal S2000x512 .f32) (x1 x2 x3 : Vec Ideal S1x512 .f32) (x4 : Vec Ideal S2000x512 .f32)
    (x5 x6 : Vec Ideal S512x512 .f32) (x7 : Vec Ideal S1x512 .f32) (r : Fin 2000) (j : Fin 512) :
    out3_8 (F := Ideal) x0 x1 x2 x3 x4 x5 x6 x7 (ix2 r j)
      = gateRow (lnRow (rowOf x0 r) (row1Of x1) (row1Of x2) (row1Of x3)) (rowOf x4 r) (wtOf x5) (wtOf x6) (row1Of x7) j := by
  unfold out3_8
  rw [View.canon_unit_zero hz2]
  simp only [View.ld_unit_zero (S := S2000x512) hz2, View.ld_unit_zero (S := S1x512) hz2, View.ld_unit_zero (S := S512x512) hz2]
  rw [k3_pay5_eq]
  exact k3_pay1_apply _ _ _ x6 x7 r j _ (rowOf x4 r) (wtOf x5) (fun k => k3_pay2_apply x0 x1 x2 x3 r k)
    (congrFun (k3_pay3_eq x4) (ix2 r j)) (k3_pay4_apply x4 x5 r j)

end Cert.Gcn.KBody

end
-- ==== Proof.KBodyFin.lean ====
/-
  The last layer's body (layer norm, the gate's mix, then tanh and the residual) read at one entry, at the ideal values.

  With hn the new row, h the old row and s the gate as in the second layer's body, and ho row r of the block of the
  network's input, the body stores, at (r, j),
      tanh (s * hn(j) + (1 - s) * h(j)) + rw * ho(j),
  where rw is the one entry of the 1 x 1 block.
-/
import proofs.«149262_j25185688224022_2_alg».proof.Proof.KBodyGate

noncomputable section

open scoped BigOperators

namespace Cert.Gcn.KBody

open Cert.KernelIdeal Cert.KernelIdeal.Gen Cert.Gcn Idealize.ShloMosaic Idealize.ShloMosaic.ValueIdx
open Cert.LibMatmulZero Cert.LibRowOps

variable [Facts]
open Facts₀ Facts

/-- The one entry of a 1 x 1 block. -/
theorem extract00 (v : Vec Ideal S1x1 .f32) (h : ∀ a, (![0, 0] : Fin 2 → Nat) a < S1x1.size a) :
    extractAt ![0, 0] v h = v (ix2 0 0) :=
  congrArg v (funext fun a => Fin.ext (by
    match a with
    | ⟨0, _⟩ => rfl
    | ⟨1, _⟩ => rfl))

/-- The last body's arithmetic at (r, j), from row r of the new block (hn), entry (r, j) of the old block (h) and of
    the product of the old block by the first weight block. -/
theorem k5_pay1_apply (v31 v33 v36 : FVec Ideal S2000x512 .f32) (v38 : FVec Ideal S512x512 .f32) (v41 : Vec Ideal S1x512 .f32)
    (v51 : Vec Ideal S1x1 .f32) (v54 : Vec Ideal S2000x512 .f32)
    (r : Fin 2000) (j : Fin 512) (hn h : Row) (w1 : Wt)
    (h31 : ∀ k : Fin 512, v31 (ix2 r k) = hn k) (h33 : v33 (ix2 r j) = h j) (h36 : v36 (ix2 r j) = mmRow h w1 j) :
    k5_pay1 (F := Ideal) v31 v33 v36 v38 v41 v51 v54 (ix2 r j)
      = finRow (gateRow hn h w1 (wtOf v38) (row1Of v41)) (rowOf v54 r) (v51 (ix2 0 0)) j := by
  unfold k5_pay1
  rw [shapeCast_self v41]
  have hl : addf (addf v36 (matmul dot_S2000x512_S512x512_S2000x512_1_0_0_1_n_n (some .fp32) v31 v38 (constant S2000x512 .f32 0x00000000#32)))
        (broadcastTo S2000x512 v41 Facts₀.broadcasts_S1x512_S2000x512) (ix2 r j)
      = (mmRow h w1 j + mmRow hn (wtOf v38) j) + row1Of v41 j :=
    congrArg₂ (· + ·)
      (congrArg₂ (· + ·) h36 ((mm_apply _ v31 v38 r j).trans
        (Finset.sum_congr rfl fun k _ => congrArg (· * v38 (ix2 k j)) (h31 k))))
      (broadcastTo_1b_ab_apply v41 _ r j)
  have hg := congrArg Ideal.logistic hl
  exact congrArg₂ (· + ·)
    (congrArg Ideal.tanh (congrArg₂ (· + ·) (congrArg₂ (· * ·) hg (h31 j)) (congrArg₂ (· * ·) (congrArg (one - ·) hg) h33)))
    (congrArg (· * v54 (ix2 r j)) (extract00 v51 _))

/-- The old block through the body's cast onto its own shape. -/
theorem k5_pay3_eq (v32 : Vec Ideal S2000x512 .f32) : k5_pay3 (F := Ideal) v32 = v32 := by
  unfold k5_pay3
  exact shapeCast_self v32 _

/-- The second weight block through the body's cast onto its own shape. -/
theorem k5_pay5_eq (v37 : Vec Ideal S512x512 .f32) : k5_pay5 (F := Ideal) v37 = v37 := by
  unfold k5_pay5
  exact shapeCast_self v37 _

/-- The product of the old block by the first weight block at (r, j). -/
theorem k5_pay4_apply (v32 : Vec Ideal S2000x512 .f32) (v34 : Vec Ideal S512x512 .f32) (r : Fin 2000) (j : Fin 512) :
    k5_pay4 (F := Ideal) v32 v34 (ix2 r j) = mmRow (rowOf v32 r) (wtOf v34) j := by
  unfold k5_pay4
  rw [k5_pay3_eq, shapeCast_self v34]
  exact mm_apply _ v32 v34 r j

/-- What the last layer's body leaves in its output buffer, at (r, j). -/
theorem out5_10_apply (x0 : Vec Ideal S2000x512 .f32) (x1 x2 x3 : Vec Ideal S1x512 .f32) (x4 : Vec Ideal S2000x512 .f32)
    (x5 x6 : Vec Ideal S512x512 .f32) (x7 : Vec Ideal S1x512 .f32) (x8 : Vec Ideal S2000x512 .f32) (x9 : Vec Ideal S1x1 .f32)
    (r : Fin 2000) (j : Fin 512) :
    out5_10 (F := Ideal) x0 x1 x2 x3 x4 x5 x6 x7 x8 x9 (ix2 r j)
      = finRow (gateRow (lnRow (rowOf x0 r) (row1Of x1) (row1Of x2) (row1Of x3)) (rowOf x4 r) (wtOf x5) (wtOf x6) (row1Of x7))
          (rowOf x8 r) (x9 (ix2 0 0)) j := by
  unfold out5_10
  rw [View.canon_unit_zero hz2]
  simp only [View.ld_unit_zero (S := S2000x512) hz2, View.ld_unit_zero (S := S1x512) hz2, View.ld_unit_zero (S := S512x512) hz2,
    View.ld_unit_zero (S := S1x1) hz2]
  rw [k5_pay5_eq]
  exact k5_pay1_apply _ _ _ x6 x7 x9 x8 r j _ (rowOf x4 r) (wtOf x5) (fun k => k5_pay2_apply x0 x1 x2 x3 r k)
    (congrFun (k5_pay3_eq x4) (ix2 r j)) (k5_pay4_apply x4 x5 r j)

end Cert.Gcn.KBody

end
-- ==== Proof.KBody.lean ====
/-
  The six kernel bodies read at one entry, at the ideal values: what each body leaves in its output buffer, at (r, j),
  is the specification's row operation on row r of its operands.
    out0_2_apply, out2_2_apply, out4_2_apply : the matrix products            (mmRow)
    out1_4_apply                              : bias and layer norm             (lnRow)
    out3_8_apply                              : layer norm and the gate's mix   (gateRow of lnRow)
    out5_10_apply                             : the same, then tanh and the residual (finRow of gateRow of lnRow)
-/
import proofs.«149262_j25185688224022_2_alg».proof.Proof.KBodyMM
import proofs.«149262_j25185688224022_2_alg».proof.Proof.KBodyLN
import proofs.«149262_j25185688224022_2_alg».proof.Proof.KBodyGate
import proofs.«149262_j25185688224022_2_alg».proof.Proof.KBodyFin
-- ==== Proof.KChainSteps.lean ====
/-
  The stretches of host operations of the kernel program between its regions, each read at the buffers the next
  region (or a later stretch) uses, from ANY buffer contents W: the edge step is the reference's edge step of the
  product it finds, the weight slices and the bias, scale and shift rows are the reference's slices of the argument
  arrays, laid as 1 x 512 rows.
-/
import proofs.«149262_j25185688224022_2_alg».proof.Proof.Gen.KernelIdeal.Frame
import proofs.«149262_j25185688224022_2_alg».proof.Proof.ReadP
import proofs.«149262_j25185688224022_2_alg».proof.Proof.RefSemMM

set_option maxRecDepth 16384

noncomputable section

namespace Cert.Gcn.KChain

open Cert.KernelIdeal Cert.KernelIdeal.Gen Cert.Gcn Idealize.ShloMosaic Idealize.ShloMosaic.TcCoe Idealize.ShloMosaic.ValueIdx
open Idealize.ShloMosaic.StableHlo
open Cert.ReferenceIdeal.ReadP

local notation "ID" => Idealize.ShloMosaic.Ideal

variable (W : Valuation τ sig (Elt ID))

/-! ## The third stretch before the first region -/

/-- The third stretch, from any contents: the edge norm from the index vectors and the inverse roots, the first weight slice. -/
theorem s02_v28 (a2 : (⟨S2x160000, .i32⟩ : BufTy).Contents (Elt ID)) (h1 : W (Proc.devRef .tc main_v1) = val_main_v1 (F := ID) a2) (h3 : W (Proc.devRef .tc main_v3) = val_main_v3 (F := ID) a2)
    (h13 : W (Proc.devRef .tc main_v13) = val_main_v13 (F := ID) a2) :
    after hostOps0_2 W (Proc.devRef .tc main_v28) = val_main_v28 (F := ID) a2 := by
  after_results_simp
  rw [h1, h3, h13]
  all_goals rfl
theorem s02_v30 (a3 : (⟨S3x512x512, .f32⟩ : BufTy).Contents (Elt ID)) (h : W (Proc.devRef .tc main_arg3) = a3) :
    after hostOps0_2 W (Proc.devRef .tc main_v30) = val_main_v30 (F := ID) a3 := by
  after_results_simp
  rw [h]
  all_goals rfl

/-! ## Between the regions -/

theorem s1_v44 (a2 : (⟨S2x160000, .i32⟩ : BufTy).Contents (Elt ID)) (xw : Mat 50000)
    (h1 : W (Proc.devRef .tc main_v1) = val_main_v1 (F := ID) a2) (h3 : W (Proc.devRef .tc main_v3) = val_main_v3 (F := ID) a2) (h28 : W (Proc.devRef .tc main_v28) = val_main_v28 (F := ID) a2) (hx : W (Proc.devRef .tc main_v31) = xw) :
    after hostOps1 W (Proc.devRef .tc main_v44) = Ref.sc a2 xw := by
  after_results_simp
  rw [h1, h3, h28, hx]
  all_goals rfl
theorem s1_v51 (a4 : (⟨S3x512, .f32⟩ : BufTy).Contents (Elt ID))
    (h : W (Proc.devRef .tc main_arg4) = a4) :
    after hostOps1 W (Proc.devRef .tc main_v51) = shapeCast S1x512 (val_main_v32 (F := ID) a4) shapeCasts_S512_S1x512 := by
  after_results_simp
  rw [h]
  all_goals rfl
theorem s1_v52 (a5 : (⟨S3x512, .f32⟩ : BufTy).Contents (Elt ID))
    (h : W (Proc.devRef .tc main_arg5) = a5) :
    after hostOps1 W (Proc.devRef .tc main_v52) = shapeCast S1x512 (val_main_v51 (F := ID) a5) shapeCasts_S512_S1x512 := by
  after_results_simp
  rw [h]
  all_goals rfl
theorem s1_v53 (a6 : (⟨S3x512, .f32⟩ : BufTy).Contents (Elt ID))
    (h : W (Proc.devRef .tc main_arg6) = a6) :
    after hostOps1 W (Proc.devRef .tc main_v53) = shapeCast S1x512 (val_main_v53 (F := ID) a6) shapeCasts_S512_S1x512 := by
  after_results_simp
  rw [h]
  all_goals rfl
theorem s2_v56 (a3 : (⟨S3x512x512, .f32⟩ : BufTy).Contents (Elt ID))
    (h : W (Proc.devRef .tc main_arg3) = a3) :
    after hostOps2 W (Proc.devRef .tc main_v56) = val_main_v79 (F := ID) a3 := by
  after_results_simp
  rw [h]
  all_goals rfl
theorem s3_v70 (a2 : (⟨S2x160000, .i32⟩ : BufTy).Contents (Elt ID)) (xw : Mat 50000)
    (h1 : W (Proc.devRef .tc main_v1) = val_main_v1 (F := ID) a2) (h3 : W (Proc.devRef .tc main_v3) = val_main_v3 (F := ID) a2) (h28 : W (Proc.devRef .tc main_v28) = val_main_v28 (F := ID) a2) (hx : W (Proc.devRef .tc main_v57) = xw) :
    after hostOps3 W (Proc.devRef .tc main_v70) = Ref.sc a2 xw := by
  after_results_simp
  rw [h1, h3, h28, hx]
  all_goals rfl
theorem s3_v77 (a4 : (⟨S3x512, .f32⟩ : BufTy).Contents (Elt ID))
    (h : W (Proc.devRef .tc main_arg4) = a4) :
    after hostOps3 W (Proc.devRef .tc main_v77) = shapeCast S1x512 (val_main_v81 (F := ID) a4) shapeCasts_S512_S1x512 := by
  after_results_simp
  rw [h]
  all_goals rfl
theorem s3_v78 (a5 : (⟨S3x512, .f32⟩ : BufTy).Contents (Elt ID))
    (h : W (Proc.devRef .tc main_arg5) = a5) :
    after hostOps3 W (Proc.devRef .tc main_v78) = shapeCast S1x512 (val_main_v100 (F := ID) a5) shapeCasts_S512_S1x512 := by
  after_results_simp
  rw [h]
  all_goals rfl
theorem s3_v79 (a6 : (⟨S3x512, .f32⟩ : BufTy).Contents (Elt ID))
    (h : W (Proc.devRef .tc main_arg6) = a6) :
    after hostOps3 W (Proc.devRef .tc main_v79) = shapeCast S1x512 (val_main_v102 (F := ID) a6) shapeCasts_S512_S1x512 := by
  after_results_simp
  rw [h]
  all_goals rfl
theorem s3_v80 (a7 : (⟨S1024x512, .f32⟩ : BufTy).Contents (Elt ID))
    (h : W (Proc.devRef .tc main_arg7) = a7) :
    after hostOps3 W (Proc.devRef .tc main_v80) = extractStridedSlice S512x512 ![0, 0] a7 slices_S1024x512_S512x512_0_0 := by
  after_results_simp
  rw [h]
  all_goals rfl
theorem s3_v81 (a7 : (⟨S1024x512, .f32⟩ : BufTy).Contents (Elt ID))
    (h : W (Proc.devRef .tc main_arg7) = a7) :
    after hostOps3 W (Proc.devRef .tc main_v81) = extractStridedSlice S512x512 ![512, 0] a7 slices_S1024x512_S512x512_512_0 := by
  after_results_simp
  rw [h]
  all_goals rfl
theorem s3_v82 (a8 : (⟨S512, .f32⟩ : BufTy).Contents (Elt ID))
    (h : W (Proc.devRef .tc main_arg8) = a8) :
    after hostOps3 W (Proc.devRef .tc main_v82) = shapeCast S1x512 a8 shapeCasts_S512_S1x512 := by
  after_results_simp
  rw [h]
  all_goals rfl
theorem s4_v85 (a3 : (⟨S3x512x512, .f32⟩ : BufTy).Contents (Elt ID))
    (h : W (Proc.devRef .tc main_arg3) = a3) :
    after hostOps4 W (Proc.devRef .tc main_v85) = val_main_v144 (F := ID) a3 := by
  after_results_simp
  rw [h]
  all_goals rfl
theorem s5_v99 (a2 : (⟨S2x160000, .i32⟩ : BufTy).Contents (Elt ID)) (xw : Mat 50000)
    (h1 : W (Proc.devRef .tc main_v1) = val_main_v1 (F := ID) a2) (h3 : W (Proc.devRef .tc main_v3) = val_main_v3 (F := ID) a2) (h28 : W (Proc.devRef .tc main_v28) = val_main_v28 (F := ID) a2) (hx : W (Proc.devRef .tc main_v86) = xw) :
    after hostOps5 W (Proc.devRef .tc main_v99) = Ref.sc a2 xw := by
  after_results_simp
  rw [h1, h3, h28, hx]
  all_goals rfl
theorem s5_v106 (a4 : (⟨S3x512, .f32⟩ : BufTy).Contents (Elt ID))
    (h : W (Proc.devRef .tc main_arg4) = a4) :
    after hostOps5 W (Proc.devRef .tc main_v106) = shapeCast S1x512 (val_main_v146 (F := ID) a4) shapeCasts_S512_S1x512 := by
  after_results_simp
  rw [h]
  all_goals rfl
theorem s5_v107 (a5 : (⟨S3x512, .f32⟩ : BufTy).Contents (Elt ID))
    (h : W (Proc.devRef .tc main_arg5) = a5) :
    after hostOps5 W (Proc.devRef .tc main_v107) = shapeCast S1x512 (val_main_v165 (F := ID) a5) shapeCasts_S512_S1x512 := by
  after_results_simp
  rw [h]
  all_goals rfl
theorem s5_v108 (a6 : (⟨S3x512, .f32⟩ : BufTy).Contents (Elt ID))
    (h : W (Proc.devRef .tc main_arg6) = a6) :
    after hostOps5 W (Proc.devRef .tc main_v108) = shapeCast S1x512 (val_main_v167 (F := ID) a6) shapeCasts_S512_S1x512 := by
  after_results_simp
  rw [h]
  all_goals rfl
theorem s5_v109 (a7 : (⟨S1024x512, .f32⟩ : BufTy).Contents (Elt ID))
    (h : W (Proc.devRef .tc main_arg7) = a7) :
    after hostOps5 W (Proc.devRef .tc main_v109) = extractStridedSlice S512x512 ![0, 0] a7 slices_S1024x512_S512x512_0_0 := by
  after_results_simp
  rw [h]
  all_goals rfl
theorem s5_v110 (a7 : (⟨S1024x512, .f32⟩ : BufTy).Contents (Elt ID))
    (h : W (Proc.devRef .tc main_arg7) = a7) :
    after hostOps5 W (Proc.devRef .tc main_v110) = extractStridedSlice S512x512 ![512, 0] a7 slices_S1024x512_S512x512_512_0 := by
  after_results_simp
  rw [h]
  all_goals rfl
theorem s5_v111 (a8 : (⟨S512, .f32⟩ : BufTy).Contents (Elt ID))
    (h : W (Proc.devRef .tc main_arg8) = a8) :
    after hostOps5 W (Proc.devRef .tc main_v111) = shapeCast S1x512 a8 shapeCasts_S512_S1x512 := by
  after_results_simp
  rw [h]
  all_goals rfl
theorem s5_v112 (a9 : (⟨S_, .f32⟩ : BufTy).Contents (Elt ID))
    (h : W (Proc.devRef .tc main_arg9) = a9) :
    after hostOps5 W (Proc.devRef .tc main_v112) = shapeCast S1x1 a9 shapeCasts_S_S1x1 := by
  after_results_simp
  rw [h]
  all_goals rfl

end Cert.Gcn.KChain

end
-- ==== Proof.KLayout.lean ====
/-
  Three layout facts: a vector of 512 entries laid as a 1 x 512 row reads back as the vector; the upper and the lower
  512 rows of the gate's 1024 x 512 weight array are its two weight matrices; a scalar laid as a 1 x 1 array reads back
  as the scalar.
-/
import proofs.«149262_j25185688224022_2_alg».proof.Proof.Spec
import Idealize.ShloMosaic.Lib.Pipeline.Value
import Idealize.ShloMosaic.Lib.ValueLayout

noncomputable section

namespace Cert.Gcn

open Idealize.ShloMosaic Idealize.ShloMosaic.ValueIdx

theorem row1Of_cast (v : (⟨1, ![512]⟩ : Shape).Idx → EReal) (h : (⟨1, ![512]⟩ : Shape).ShapeCasts ⟨2, ![1, 512]⟩) :
    row1Of (shapeCast ⟨2, ![1, 512]⟩ v h) = vecOf v :=
  funext fun j => shapeCast_a_1a_apply v h 0 j

theorem wtOf_slice_lo (X : (⟨2, ![1024, 512]⟩ : Shape).Idx → EReal)
    (h : (⟨2, ![1024, 512]⟩ : Shape).Slices ![0, 0] ⟨2, ![512, 512]⟩) :
    wtOf (extractStridedSlice ⟨2, ![512, 512]⟩ ![0, 0] X h) = gateW1 X :=
  funext fun k => funext fun j => slice2_axis0_apply 0 X h k j ⟨k.val, by omega⟩ (Nat.zero_add _).symm

theorem wtOf_slice_hi (X : (⟨2, ![1024, 512]⟩ : Shape).Idx → EReal)
    (h : (⟨2, ![1024, 512]⟩ : Shape).Slices ![512, 0] ⟨2, ![512, 512]⟩) :
    wtOf (extractStridedSlice ⟨2, ![512, 512]⟩ ![512, 0] X h) = gateW2 X :=
  funext fun k => funext fun j => slice2_axis0_apply 512 X h k j ⟨512 + k.val, by omega⟩ rfl

theorem cast_scalar (x : (⟨0, ![]⟩ : Shape).Idx → EReal) (h : (⟨0, ![]⟩ : Shape).ShapeCasts ⟨2, ![1, 1]⟩) :
    shapeCast ⟨2, ![1, 1]⟩ x h (ix2 (0 : Fin 1) (0 : Fin 1)) = x ix0 :=
  shapeCast_apply x h _ _ (by
    have h1 := ((⟨0, ![]⟩ : Shape).rowMajor ix0).isLt
    rw [Shape.rowMajor_val_two]
    show ((⟨0, ![]⟩ : Shape).rowMajor ix0).val = 0 * 1 + 0
    have : (⟨0, ![]⟩ : Shape).numel = 1 := rfl
    omega)

end Cert.Gcn

end
-- ==== Proof.KFinalLib.lean ====
/-
  Row n of a matrix built row by row is the row function of row n of its operands.
-/
import proofs.«149262_j25185688224022_2_alg».proof.Proof.Spec
import Idealize.ShloMosaic.Lib.Pipeline.Value
import Idealize.ShloMosaic.Lib.ValueIdx

noncomputable section

namespace Cert.Gcn

open Idealize.ShloMosaic Idealize.ShloMosaic.ValueIdx

theorem rowOf_mmMat {R : Nat} (A : Mat R) (w : Wt) (n : Fin R) : rowOf (mmMat A w) n = mmRow (rowOf A n) w := rfl
theorem rowOf_lnMat {R : Nat} (A : Mat R) (b g be : Row) (n : Fin R) : rowOf (lnMat A b g be) n = lnRow (rowOf A n) b g be := rfl
theorem rowOf_gateMat {R : Nat} (HN H : Mat R) (w1 w2 : Wt) (bg : Row) (n : Fin R) :
    rowOf (gateMat HN H w1 w2 bg) n = gateRow (rowOf HN n) (rowOf H n) w1 w2 bg := rfl

end Cert.Gcn

end
-- ==== Proof.KFinal0.lean ====
/-
  Region 0 of the kernel program, a row-blocked matrix product, as one function of the arrays it finds:
  block t of the output holds rows 2000 t … 2000 t + 1999 of (the node matrix) x (the weight matrix).
-/
import proofs.«149262_j25185688224022_2_alg».proof.Proof.Gen.KernelIdeal.Frame
import proofs.«149262_j25185688224022_2_alg».proof.Proof.KFinalLib

noncomputable section

namespace Cert.Gcn.KFinal0

open Cert.KernelIdeal Cert.KernelIdeal.Gen Cert.Gcn Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Idealize.ShloMosaic.Ideal) ((c : Thread nD τ).loc b))

/-- The printed index maps, decided once over the 25 grid points: a row-blocked window's block t starts at row block t,
    a whole-array window's one block at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ t.val < 25 :=
  (by decide +kernel : ∀ t : Fin grid0.N, _)

/-- Row p of point t's block is row 2000 t + p of the array. -/
def grow (t : Fin cfg0.N) (p : Fin 2000) : Fin 50000 :=
  ⟨2000 * t.val + p.val, by have := (idx_facts t).2.2.2.2.2.2; omega⟩

theorem emb_0 (t : Fin cfg0.N) (p : Fin 2000) (q : Fin 512) :
    ((cfg0.win 0).blk t).view.emb (ix2 p q) = ix2 (grow t p) q := by
  obtain ⟨e0, e1, -, -, -, -, -⟩ := idx_facts t
  funext a; apply Fin.ext
  match a with
  | ⟨0, _⟩ => show win0_0.index t (0 : Fin 2) * 2000 + 1 * p.val = 2000 * t.val + p.val; omega
  | ⟨1, _⟩ => show win0_0.index t (1 : Fin 2) * 512 + 1 * q.val = q.val; omega

theorem emb_1 (t : Fin cfg0.N) (k : Fin 512) (q : Fin 512) :
    ((cfg0.win 1).blk t).view.emb (ix2 k q) = ix2 k q := by
  obtain ⟨-, -, e0, e1, -, -, -⟩ := idx_facts t
  funext a; apply Fin.ext
  match a with
  | ⟨0, _⟩ => show win0_1.index t (0 : Fin 2) * 512 + 1 * k.val = k.val; omega
  | ⟨1, _⟩ => show win0_1.index t (1 : Fin 2) * 512 + 1 * q.val = q.val; omega

theorem emb_2 (t : Fin cfg0.N) (p : Fin 2000) (q : Fin 512) :
    ((cfg0.win 2).blk t).view.emb (ix2 p q) = ix2 (grow t p) q := by
  obtain ⟨-, -, -, -, e0, e1, -⟩ := idx_facts t
  funext a; apply Fin.ext
  match a with
  | ⟨0, _⟩ => show win0_2.index t (0 : Fin 2) * 2000 + 1 * p.val = 2000 * t.val + p.val; omega
  | ⟨1, _⟩ => show win0_2.index t (1 : Fin 2) * 512 + 1 * q.val = q.val; omega

theorem read_0 (c : Dev nD) (t : Fin cfg0.N) (p : Fin 2000) :
    rowOf (iblk0 V c 0 t) p = rowOf (V c main_arg1) (grow t p) := by
  funext k
  show V c main_arg1 (((cfg0.win 0).blk t).view.emb (ix2 p k)) = V c main_arg1 (ix2 (grow t p) k)
  rw [emb_0 t p k]

theorem read_1 (c : Dev nD) (t : Fin cfg0.N) : wtOf (iblk0 V c 1 t) = wtOf (V c main_v30) := by
  funext k q
  show V c main_v30 (((cfg0.win 1).blk t).view.emb (ix2 k q)) = V c main_v30 (ix2 k q)
  rw [emb_1 t k q]

/-- An index of the output array is in point t's block iff each coordinate is in the block's range on its axis. -/
theorem mem_blk (t : Fin cfg0.N) (i : S50000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v31).slice (win0_2.rect t)).set ↔ _
  rw [View.set_slice_whole, Rect.mem_set_unit]
  exact Iff.rfl

/-- Row n of the output lies in the block of point n / 2000: the 25 blocks of 2000 rows cover the 50000 rows. -/
theorem cover (i : S50000x512.Idx) : ∃ t : Fin cfg0.N, (cfg0.win 2).flush t = true ∧ i ∈ ((cfg0.win 2).blk t).view.set := by
  have hi0 : (i 0).val < 50000 := (i 0).isLt
  have hi1 : (i 1).val < 512 := (i 1).isLt
  have hN : cfg0.N = 25 := N_0
  have ht : (i 0).val / 2000 < cfg0.N := by rw [hN]; omega
  refine ⟨⟨(i 0).val / 2000, ht⟩, flush0_2 _, ?_⟩
  rw [mem_blk]
  obtain ⟨-, -, -, -, e0, e1, -⟩ := idx_facts ⟨(i 0).val / 2000, ht⟩
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_2.index ⟨(i 0).val / 2000, ht⟩ (1 : Fin 2) * 512 ≤ (i 1).val ∧ (i 1).val < win0_2.index ⟨(i 0).val / 2000, ht⟩ (1 : Fin 2) * 512 + 512
    rw [e1]; omega

section
/- What the body leaves at one entry of its output block, as a function of its input blocks (proved where the body's
   arithmetic is read). -/
variable (hpay : ∀ (x0 : Vec Idealize.ShloMosaic.Ideal S2000x512 .f32) (x1 : Vec Idealize.ShloMosaic.Ideal S512x512 .f32) (r : Fin 2000) (j : Fin 512),
      out0_2 (F := Idealize.ShloMosaic.Ideal) x0 x1 (ix2 r j) = mmRow (rowOf x0 r) (wtOf x1) j)
include hpay

/-- What point t writes back is block t of the region's whole-array function. -/
theorem flushed_eq (c : Dev nD) (t : Fin cfg0.N) :
    (dat0 V c).flushed 2 t = ((cfg0.win 2).blk t).view.read (Elt Idealize.ShloMosaic.Ideal)
      (mmMat (V c main_arg1) (wtOf (V c main_v30))) := by
  show (cfg0.win 2).cut (grid0.coords t) ((dat0 V c).after 2 t) = _
  rw [after0_2]
  funext j
  obtain ⟨p, q, rfl⟩ : ∃ (p : Fin 2000) (q : Fin 512), j = ix2 p q := ⟨j 0, j 1, eq_ix2 j⟩
  show out0_2 (iblk0 V c 0 t) (iblk0 V c 1 t) (ix2 p q)
    = (mmMat (V c main_arg1) (wtOf (V c main_v30))) (((cfg0.win 2).blk t).view.emb (ix2 p q))
  rw [emb_2 t p q]
  refine (hpay (iblk0 V c 0 t) (iblk0 V c 1 t) p q).trans ?_
  rw [read_0 V c t p, read_1 V c t]
  rfl

/-- Region 0's output array after the region: the product of the node matrix and the weight matrix it found. -/
theorem final (c : Dev nD) : (dat0 V c).arrAt 2 cfg0.N = mmMat (V c main_arg1) (wtOf (V c main_v30)) :=
  (dat0 V c).arrAt_eq_of_cover 2 _ (fun t _ => flushed_eq V hpay c t) cover
end

end Cert.Gcn.KFinal0

end
-- ==== Proof.KFinal1.lean ====
/-
  Region 1 of the kernel program (bias and layer normalisation, row block by row block) as one function of the arrays it
  finds: every row of the output is the normalised row of the aggregated matrix.
-/
import proofs.«149262_j25185688224022_2_alg».proof.Proof.Gen.KernelIdeal.Frame
import proofs.«149262_j25185688224022_2_alg».proof.Proof.KFinalLib

noncomputable section

namespace Cert.Gcn.KFinal1

open Cert.KernelIdeal Cert.KernelIdeal.Gen Cert.Gcn Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Idealize.ShloMosaic.Ideal) ((c : Thread nD τ).loc b))

/-- The printed index maps, decided once over the 25 grid points: a row-blocked window's block t starts at row block t,
    a whole-array window's one block at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ t.val < 25 :=
  (by decide +kernel : ∀ t : Fin grid1.N, _)

/-- Row p of point t's block is row 2000 t + p of the array. -/
def grow (t : Fin cfg1.N) (p : Fin 2000) : Fin 50000 :=
  ⟨2000 * t.val + p.val, by have := (idx_facts t).2.2.2.2.2.2.2.2.2.2; omega⟩

theorem emb_0 (t : Fin cfg1.N) (p : Fin 2000) (q : Fin 512) :
    ((cfg1.win 0).blk t).view.emb (ix2 p q) = ix2 (grow t p) q := by
  obtain ⟨e0, e1, -, -, -, -, -, -, -, -, -⟩ := idx_facts t
  funext a; apply Fin.ext
  match a with
  | ⟨0, _⟩ => show win1_0.index t (0 : Fin 2) * 2000 + 1 * p.val = 2000 * t.val + p.val; omega
  | ⟨1, _⟩ => show win1_0.index t (1 : Fin 2) * 512 + 1 * q.val = q.val; omega

theorem emb_1 (t : Fin cfg1.N) (q : Fin 512) :
    ((cfg1.win 1).blk t).view.emb (ix2 (0 : Fin 1) q) = ix2 (0 : Fin 1) q := by
  obtain ⟨-, -, e0, e1, -, -, -, -, -, -, -⟩ := idx_facts t
  funext a; apply Fin.ext
  match a with
  | ⟨0, _⟩ => show win1_1.index t (0 : Fin 2) * 1 + 1 * (0 : Fin 1).val = (0 : Fin 1).val; omega
  | ⟨1, _⟩ => show win1_1.index t (1 : Fin 2) * 512 + 1 * q.val = q.val; omega

theorem emb_2 (t : Fin cfg1.N) (q : Fin 512) :
    ((cfg1.win 2).blk t).view.emb (ix2 (0 : Fin 1) q) = ix2 (0 : Fin 1) q := by
  obtain ⟨-, -, -, -, e0, e1, -, -, -, -, -⟩ := idx_facts t
  funext a; apply Fin.ext
  match a with
  | ⟨0, _⟩ => show win1_2.index t (0 : Fin 2) * 1 + 1 * (0 : Fin 1).val = (0 : Fin 1).val; omega
  | ⟨1, _⟩ => show win1_2.index t (1 : Fin 2) * 512 + 1 * q.val = q.val; omega

theorem emb_3 (t : Fin cfg1.N) (q : Fin 512) :
    ((cfg1.win 3).blk t).view.emb (ix2 (0 : Fin 1) q) = ix2 (0 : Fin 1) q := by
  obtain ⟨-, -, -, -, -, -, e0, e1, -, -, -⟩ := idx_facts t
  funext a; apply Fin.ext
  match a with
  | ⟨0, _⟩ => show win1_3.index t (0 : Fin 2) * 1 + 1 * (0 : Fin 1).val = (0 : Fin 1).val; omega
  | ⟨1, _⟩ => show win1_3.index t (1 : Fin 2) * 512 + 1 * q.val = q.val; omega

theorem emb_4 (t : Fin cfg1.N) (p : Fin 2000) (q : Fin 512) :
    ((cfg1.win 4).blk t).view.emb (ix2 p q) = ix2 (grow t p) q := by
  obtain ⟨-, -, -, -, -, -, -, -, e0, e1, -⟩ := idx_facts t
  funext a; apply Fin.ext
  match a with
  | ⟨0, _⟩ => show win1_4.index t (0 : Fin 2) * 2000 + 1 * p.val = 2000 * t.val + p.val; omega
  | ⟨1, _⟩ => show win1_4.index t (1 : Fin 2) * 512 + 1 * q.val = q.val; omega

theorem read_0 (c : Dev nD) (t : Fin cfg1.N) (p : Fin 2000) :
    rowOf (iblk1 V c 0 t) p = rowOf (V c main_v44) (grow t p) := by
  funext k
  show V c main_v44 (((cfg1.win 0).blk t).view.emb (ix2 p k)) = V c main_v44 (ix2 (grow t p) k)
  rw [emb_0 t p k]

theorem read_1 (c : Dev nD) (t : Fin cfg1.N) : row1Of (iblk1 V c 1 t) = row1Of (V c main_v51) := by
  funext q
  show V c main_v51 (((cfg1.win 1).blk t).view.emb (ix2 (0 : Fin 1) q)) = V c main_v51 (ix2 (0 : Fin 1) q)
  rw [emb_1 t q]

theorem read_2 (c : Dev nD) (t : Fin cfg1.N) : row1Of (iblk1 V c 2 t) = row1Of (V c main_v52) := by
  funext q
  show V c main_v52 (((cfg1.win 2).blk t).view.emb (ix2 (0 : Fin 1) q)) = V c main_v52 (ix2 (0 : Fin 1) q)
  rw [emb_2 t q]

theorem read_3 (c : Dev nD) (t : Fin cfg1.N) : row1Of (iblk1 V c 3 t) = row1Of (V c main_v53) := by
  funext q
  show V c main_v53 (((cfg1.win 3).blk t).view.emb (ix2 (0 : Fin 1) q)) = V c main_v53 (ix2 (0 : Fin 1) q)
  rw [emb_3 t q]

/-- An index of the output array is in point t's block iff each coordinate is in the block's range on its axis. -/
theorem mem_blk (t : Fin cfg1.N) (i : S50000x512.Idx) :
    i ∈ ((cfg1.win 4).blk t).view.set ↔ ∀ a : Fin 2, win1_4.index t a * S2000x512.size a ≤ (i a).val ∧ (i a).val < win1_4.index t a * S2000x512.size a + S2000x512.size a := by
  show i ∈ ((View.whole main_v54).slice (win1_4.rect t)).set ↔ _
  rw [View.set_slice_whole, Rect.mem_set_unit]
  exact Iff.rfl

/-- Row n of the output lies in the block of point n / 2000: the 25 blocks of 2000 rows cover the 50000 rows. -/
theorem cover (i : S50000x512.Idx) : ∃ t : Fin cfg1.N, (cfg1.win 4).flush t = true ∧ i ∈ ((cfg1.win 4).blk t).view.set := by
  have hi0 : (i 0).val < 50000 := (i 0).isLt
  have hi1 : (i 1).val < 512 := (i 1).isLt
  have hN : cfg1.N = 25 := N_1
  have ht : (i 0).val / 2000 < cfg1.N := by rw [hN]; omega
  refine ⟨⟨(i 0).val / 2000, ht⟩, flush1_4 _, ?_⟩
  rw [mem_blk]
  obtain ⟨-, -, -, -, -, -, -, -, e0, e1, -⟩ := idx_facts ⟨(i 0).val / 2000, ht⟩
  intro a
  match a with
  | ⟨0, _⟩ =>
    show win1_4.index ⟨(i 0).val / 2000, ht⟩ (0 : Fin 2) * 2000 ≤ (i 0).val ∧ (i 0).val < win1_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_4.index ⟨(i 0).val / 2000, ht⟩ (1 : Fin 2) * 512 ≤ (i 1).val ∧ (i 1).val < win1_4.index ⟨(i 0).val / 2000, ht⟩ (1 : Fin 2) * 512 + 512
    rw [e1]; omega

section
/- What the body leaves at one entry of its output block, as a function of its input blocks (proved where the body's
   arithmetic is read). -/
variable (hpay : ∀ (x0 : Vec Idealize.ShloMosaic.Ideal S2000x512 .f32) (x1 x2 x3 : Vec Idealize.ShloMosaic.Ideal S1x512 .f32) (r : Fin 2000) (j : Fin 512),
      out1_4 (F := Idealize.ShloMosaic.Ideal) x0 x1 x2 x3 (ix2 r j) = lnRow (rowOf x0 r) (row1Of x1) (row1Of x2) (row1Of x3) j)
include hpay

/-- What point t writes back is block t of the region's whole-array function. -/
theorem flushed_eq (c : Dev nD) (t : Fin cfg1.N) :
    (dat1 V c).flushed 4 t = ((cfg1.win 4).blk t).view.read (Elt Idealize.ShloMosaic.Ideal)
      (lnMat (V c main_v44) (row1Of (V c main_v51)) (row1Of (V c main_v52)) (row1Of (V c main_v53))) := by
  show (cfg1.win 4).cut (grid1.coords t) ((dat1 V c).after 4 t) = _
  rw [after1_4]
  funext j
  obtain ⟨p, q, rfl⟩ : ∃ (p : Fin 2000) (q : Fin 512), j = ix2 p q := ⟨j 0, j 1, eq_ix2 j⟩
  show out1_4 (iblk1 V c 0 t) (iblk1 V c 1 t) (iblk1 V c 2 t) (iblk1 V c 3 t) (ix2 p q)
    = (lnMat (V c main_v44) (row1Of (V c main_v51)) (row1Of (V c main_v52)) (row1Of (V c main_v53))) (((cfg1.win 4).blk t).view.emb (ix2 p q))
  rw [emb_4 t p q]
  refine (hpay (iblk1 V c 0 t) (iblk1 V c 1 t) (iblk1 V c 2 t) (iblk1 V c 3 t) p q).trans ?_
  rw [read_0 V c t p, read_1 V c t, read_2 V c t, read_3 V c t]
  rfl

/-- Region 1's output array after the region: bias, normalisation, scale and shift of every row of the array it found. -/
theorem final (c : Dev nD) : (dat1 V c).arrAt 4 cfg1.N = lnMat (V c main_v44) (row1Of (V c main_v51)) (row1Of (V c main_v52)) (row1Of (V c main_v53)) :=
  (dat1 V c).arrAt_eq_of_cover 4 _ (fun t _ => flushed_eq V hpay c t) cover
end

end Cert.Gcn.KFinal1

end
-- ==== Proof.KChainA.lean ====
/-
  The first layer of the kernel program, boundary by boundary: the host operations before the first region give the
  edges' index vectors, the edge norm and the first weight slice; region 0 the product; the next stretch the edge step
  and the bias, scale and shift rows; region 1 the normalised rows.  Every other buffer a later layer reads is carried
  along unchanged.
-/
import proofs.«149262_j25185688224022_2_alg».proof.Proof.Gen.KernelIdeal.Frame
import proofs.«149262_j25185688224022_2_alg».proof.Proof.ReadP
import proofs.«149262_j25185688224022_2_alg».proof.Proof.RefSemMM
import proofs.«149262_j25185688224022_2_alg».proof.Proof.KBody
import proofs.«149262_j25185688224022_2_alg».proof.Proof.KChainSteps
import proofs.«149262_j25185688224022_2_alg».proof.Proof.KLayout
import proofs.«149262_j25185688224022_2_alg».proof.Proof.KFinal0
import proofs.«149262_j25185688224022_2_alg».proof.Proof.KFinal1
set_option maxRecDepth 16384

noncomputable section

namespace Cert.Gcn.KChain

open Cert.KernelIdeal Cert.KernelIdeal.Gen Cert.Gcn Idealize.ShloMosaic Idealize.ShloMosaic.TcCoe Idealize.ShloMosaic.ValueIdx
open Idealize.ShloMosaic.StableHlo
open Cert.ReferenceIdeal.ReadP

local notation "ID" => Idealize.ShloMosaic.Ideal

/-- A buffer that no operation of a stretch writes keeps its contents over the stretch. -/
macro "host_carry " ops:ident : tactic => `(tactic| exact StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

variable [Cert.KernelIdeal.Facts]
variable (m : (ℓ : Loc nD τ sig) → Buf (Elt ID) ℓ) (ρ : Dev nD → PrngReg) (c : Dev nD)

/-! ## After the first two stretches (W2) -/

set_option maxRecDepth 400000 in
/-- The inverse roots of the degrees, zero where the degree is zero (the reference's select). -/
theorem pre01_v13 (W : Valuation τ sig (Elt ID)) : after hostOps0_1 (after hostOps0 W) (Proc.devRef .tc main_v13) = val_main_v13 (F := ID) (W (Proc.devRef .tc main_arg2)) := by
  after_results_simp; rfl
theorem pre01_v1 (W : Valuation τ sig (Elt ID)) : after hostOps0_1 (after hostOps0 W) (Proc.devRef .tc main_v1) = val_main_v1 (F := ID) (W (Proc.devRef .tc main_arg2)) := by
  after_results_simp; rfl
theorem pre01_v3 (W : Valuation τ sig (Elt ID)) : after hostOps0_1 (after hostOps0 W) (Proc.devRef .tc main_v3) = val_main_v3 (F := ID) (W (Proc.devRef .tc main_arg2)) := by
  after_results_simp; rfl
theorem pre01_arg1 (W : Valuation τ sig (Elt ID)) : after hostOps0_1 (after hostOps0 W) (Proc.devRef .tc main_arg1) = W (Proc.devRef .tc main_arg1) := by
  after_results_simp
theorem pre01_arg3 (W : Valuation τ sig (Elt ID)) : after hostOps0_1 (after hostOps0 W) (Proc.devRef .tc main_arg3) = W (Proc.devRef .tc main_arg3) := by
  after_results_simp
theorem pre01_arg4 (W : Valuation τ sig (Elt ID)) : after hostOps0_1 (after hostOps0 W) (Proc.devRef .tc main_arg4) = W (Proc.devRef .tc main_arg4) := by
  after_results_simp
theorem pre01_arg5 (W : Valuation τ sig (Elt ID)) : after hostOps0_1 (after hostOps0 W) (Proc.devRef .tc main_arg5) = W (Proc.devRef .tc main_arg5) := by
  after_results_simp
theorem pre01_arg6 (W : Valuation τ sig (Elt ID)) : after hostOps0_1 (after hostOps0 W) (Proc.devRef .tc main_arg6) = W (Proc.devRef .tc main_arg6) := by
  after_results_simp
theorem pre01_arg7 (W : Valuation τ sig (Elt ID)) : after hostOps0_1 (after hostOps0 W) (Proc.devRef .tc main_arg7) = W (Proc.devRef .tc main_arg7) := by
  after_results_simp
theorem pre01_arg8 (W : Valuation τ sig (Elt ID)) : after hostOps0_1 (after hostOps0 W) (Proc.devRef .tc main_arg8) = W (Proc.devRef .tc main_arg8) := by
  after_results_simp
theorem pre01_arg9 (W : Valuation τ sig (Elt ID)) : after hostOps0_1 (after hostOps0 W) (Proc.devRef .tc main_arg9) = W (Proc.devRef .tc main_arg9) := by
  after_results_simp

theorem w2_v1 : W2 m ρ c (Proc.devRef .tc main_v1) = val_main_v1 (F := ID) (m ((c : Thread nD τ).loc main_arg2)) := pre01_v1 (W0 m ρ c)
theorem w2_v3 : W2 m ρ c (Proc.devRef .tc main_v3) = val_main_v3 (F := ID) (m ((c : Thread nD τ).loc main_arg2)) := pre01_v3 (W0 m ρ c)
theorem w2_v13 : W2 m ρ c (Proc.devRef .tc main_v13) = val_main_v13 (F := ID) (m ((c : Thread nD τ).loc main_arg2)) := pre01_v13 (W0 m ρ c)
theorem w2_arg1 : W2 m ρ c (Proc.devRef .tc main_arg1) = (m ((c : Thread nD τ).loc main_arg1)) := pre01_arg1 (W0 m ρ c)
theorem w2_arg3 : W2 m ρ c (Proc.devRef .tc main_arg3) = (m ((c : Thread nD τ).loc main_arg3)) := pre01_arg3 (W0 m ρ c)
theorem w2_arg4 : W2 m ρ c (Proc.devRef .tc main_arg4) = (m ((c : Thread nD τ).loc main_arg4)) := pre01_arg4 (W0 m ρ c)
theorem w2_arg5 : W2 m ρ c (Proc.devRef .tc main_arg5) = (m ((c : Thread nD τ).loc main_arg5)) := pre01_arg5 (W0 m ρ c)
theorem w2_arg6 : W2 m ρ c (Proc.devRef .tc main_arg6) = (m ((c : Thread nD τ).loc main_arg6)) := pre01_arg6 (W0 m ρ c)
theorem w2_arg7 : W2 m ρ c (Proc.devRef .tc main_arg7) = (m ((c : Thread nD τ).loc main_arg7)) := pre01_arg7 (W0 m ρ c)
theorem w2_arg8 : W2 m ρ c (Proc.devRef .tc main_arg8) = (m ((c : Thread nD τ).loc main_arg8)) := pre01_arg8 (W0 m ρ c)
theorem w2_arg9 : W2 m ρ c (Proc.devRef .tc main_arg9) = (m ((c : Thread nD τ).loc main_arg9)) := pre01_arg9 (W0 m ρ c)

/-! ## At region 0's entry (W3) -/

theorem w3_v28 : W3 m ρ c (Proc.devRef .tc main_v28) = val_main_v28 (F := ID) (m ((c : Thread nD τ).loc main_arg2)) :=
  s02_v28 (W2 m ρ c) (m ((c : Thread nD τ).loc main_arg2)) (w2_v1 m ρ c) (w2_v3 m ρ c) (w2_v13 m ρ c)
theorem w3_v30 : W3 m ρ c (Proc.devRef .tc main_v30) = val_main_v30 (F := ID) (m ((c : Thread nD τ).loc main_arg3)) :=
  s02_v30 (W2 m ρ c) (m ((c : Thread nD τ).loc main_arg3)) (w2_arg3 m ρ c)
theorem w3_v1 : W3 m ρ c (Proc.devRef .tc main_v1) = val_main_v1 (F := ID) (m ((c : Thread nD τ).loc main_arg2)) :=
  (show W3 m ρ c (Proc.devRef .tc main_v1) = W2 m ρ c (Proc.devRef .tc main_v1) by host_carry hostOps0_2).trans (w2_v1 m ρ c)
theorem w3_v3 : W3 m ρ c (Proc.devRef .tc main_v3) = val_main_v3 (F := ID) (m ((c : Thread nD τ).loc main_arg2)) :=
  (show W3 m ρ c (Proc.devRef .tc main_v3) = W2 m ρ c (Proc.devRef .tc main_v3) by host_carry hostOps0_2).trans (w2_v3 m ρ c)
theorem w3_arg1 : W3 m ρ c (Proc.devRef .tc main_arg1) = (m ((c : Thread nD τ).loc main_arg1)) :=
  (show W3 m ρ c (Proc.devRef .tc main_arg1) = W2 m ρ c (Proc.devRef .tc main_arg1) by host_carry hostOps0_2).trans (w2_arg1 m ρ c)
theorem w3_arg3 : W3 m ρ c (Proc.devRef .tc main_arg3) = (m ((c : Thread nD τ).loc main_arg3)) :=
  (show W3 m ρ c (Proc.devRef .tc main_arg3) = W2 m ρ c (Proc.devRef .tc main_arg3) by host_carry hostOps0_2).trans (w2_arg3 m ρ c)
theorem w3_arg4 : W3 m ρ c (Proc.devRef .tc main_arg4) = (m ((c : Thread nD τ).loc main_arg4)) :=
  (show W3 m ρ c (Proc.devRef .tc main_arg4) = W2 m ρ c (Proc.devRef .tc main_arg4) by host_carry hostOps0_2).trans (w2_arg4 m ρ c)
theorem w3_arg5 : W3 m ρ c (Proc.devRef .tc main_arg5) = (m ((c : Thread nD τ).loc main_arg5)) :=
  (show W3 m ρ c (Proc.devRef .tc main_arg5) = W2 m ρ c (Proc.devRef .tc main_arg5) by host_carry hostOps0_2).trans (w2_arg5 m ρ c)
theorem w3_arg6 : W3 m ρ c (Proc.devRef .tc main_arg6) = (m ((c : Thread nD τ).loc main_arg6)) :=
  (show W3 m ρ c (Proc.devRef .tc main_arg6) = W2 m ρ c (Proc.devRef .tc main_arg6) by host_carry hostOps0_2).trans (w2_arg6 m ρ c)
theorem w3_arg7 : W3 m ρ c (Proc.devRef .tc main_arg7) = (m ((c : Thread nD τ).loc main_arg7)) :=
  (show W3 m ρ c (Proc.devRef .tc main_arg7) = W2 m ρ c (Proc.devRef .tc main_arg7) by host_carry hostOps0_2).trans (w2_arg7 m ρ c)
theorem w3_arg8 : W3 m ρ c (Proc.devRef .tc main_arg8) = (m ((c : Thread nD τ).loc main_arg8)) :=
  (show W3 m ρ c (Proc.devRef .tc main_arg8) = W2 m ρ c (Proc.devRef .tc main_arg8) by host_carry hostOps0_2).trans (w2_arg8 m ρ c)
theorem w3_arg9 : W3 m ρ c (Proc.devRef .tc main_arg9) = (m ((c : Thread nD τ).loc main_arg9)) :=
  (show W3 m ρ c (Proc.devRef .tc main_arg9) = W2 m ρ c (Proc.devRef .tc main_arg9) by host_carry hostOps0_2).trans (w2_arg9 m ρ c)

/-! ## After region 0 (W4): the product of the node matrix and the first weight matrix -/

theorem w4_v31 : W4 m ρ c (Proc.devRef .tc main_v31) = mmMat (m ((c : Thread nD τ).loc main_arg1)) (wtOf (val_main_v30 (F := ID) (m ((c : Thread nD τ).loc main_arg3)))) := by
  have h := (W4_arr m ρ c 2).trans (KFinal0.final (V3 m ρ) KBody.out0_2_apply c)
  have e1 : V3 m ρ c main_arg1 = (m ((c : Thread nD τ).loc main_arg1)) := w3_arg1 m ρ c
  have e2 : V3 m ρ c main_v30 = val_main_v30 (F := ID) (m ((c : Thread nD τ).loc main_arg3)) := w3_v30 m ρ c
  rw [e1, e2] at h
  exact h
theorem w4_v1 : W4 m ρ c (Proc.devRef .tc main_v1) = val_main_v1 (F := ID) (m ((c : Thread nD τ).loc main_arg2)) := (W4_of_ne m ρ c main_v1 (by decide)).trans (w3_v1 m ρ c)
theorem w4_v3 : W4 m ρ c (Proc.devRef .tc main_v3) = val_main_v3 (F := ID) (m ((c : Thread nD τ).loc main_arg2)) := (W4_of_ne m ρ c main_v3 (by decide)).trans (w3_v3 m ρ c)
theorem w4_v28 : W4 m ρ c (Proc.devRef .tc main_v28) = val_main_v28 (F := ID) (m ((c : Thread nD τ).loc main_arg2)) := (W4_of_ne m ρ c main_v28 (by decide)).trans (w3_v28 m ρ c)
theorem w4_arg1 : W4 m ρ c (Proc.devRef .tc main_arg1) = (m ((c : Thread nD τ).loc main_arg1)) :=
  ((W4_arr m ρ c 0).trans (((dat0 (V3 m ρ) c).arrAt_in 0 rfl _).trans (A_eq0 (V3 m ρ) c 0))).trans (w3_arg1 m ρ c)
theorem w4_arg3 : W4 m ρ c (Proc.devRef .tc main_arg3) = (m ((c : Thread nD τ).loc main_arg3)) := (W4_of_ne m ρ c main_arg3 (by decide)).trans (w3_arg3 m ρ c)
theorem w4_arg4 : W4 m ρ c (Proc.devRef .tc main_arg4) = (m ((c : Thread nD τ).loc main_arg4)) := (W4_of_ne m ρ c main_arg4 (by decide)).trans (w3_arg4 m ρ c)
theorem w4_arg5 : W4 m ρ c (Proc.devRef .tc main_arg5) = (m ((c : Thread nD τ).loc main_arg5)) := (W4_of_ne m ρ c main_arg5 (by decide)).trans (w3_arg5 m ρ c)
theorem w4_arg6 : W4 m ρ c (Proc.devRef .tc main_arg6) = (m ((c : Thread nD τ).loc main_arg6)) := (W4_of_ne m ρ c main_arg6 (by decide)).trans (w3_arg6 m ρ c)
theorem w4_arg7 : W4 m ρ c (Proc.devRef .tc main_arg7) = (m ((c : Thread nD τ).loc main_arg7)) := (W4_of_ne m ρ c main_arg7 (by decide)).trans (w3_arg7 m ρ c)
theorem w4_arg8 : W4 m ρ c (Proc.devRef .tc main_arg8) = (m ((c : Thread nD τ).loc main_arg8)) := (W4_of_ne m ρ c main_arg8 (by decide)).trans (w3_arg8 m ρ c)
theorem w4_arg9 : W4 m ρ c (Proc.devRef .tc main_arg9) = (m ((c : Thread nD τ).loc main_arg9)) := (W4_of_ne m ρ c main_arg9 (by decide)).trans (w3_arg9 m ρ c)

/-! ## At region 1's entry (W5): the edge step of the product, and the three rows -/

theorem w5_v44 : W5 m ρ c (Proc.devRef .tc main_v44) = Ref.sc (m ((c : Thread nD τ).loc main_arg2)) (mmMat (m ((c : Thread nD τ).loc main_arg1)) (wtOf (val_main_v30 (F := ID) (m ((c : Thread nD τ).loc main_arg3))))) :=
  s1_v44 (W4 m ρ c) (m ((c : Thread nD τ).loc main_arg2)) _ (w4_v1 m ρ c) (w4_v3 m ρ c) (w4_v28 m ρ c) (w4_v31 m ρ c)
theorem w5_v51 : W5 m ρ c (Proc.devRef .tc main_v51) = shapeCast S1x512 (val_main_v32 (F := ID) (m ((c : Thread nD τ).loc main_arg4))) shapeCasts_S512_S1x512 := s1_v51 (W4 m ρ c) (m ((c : Thread nD τ).loc main_arg4)) (w4_arg4 m ρ c)
theorem w5_v52 : W5 m ρ c (Proc.devRef .tc main_v52) = shapeCast S1x512 (val_main_v51 (F := ID) (m ((c : Thread nD τ).loc main_arg5))) shapeCasts_S512_S1x512 := s1_v52 (W4 m ρ c) (m ((c : Thread nD τ).loc main_arg5)) (w4_arg5 m ρ c)
theorem w5_v53 : W5 m ρ c (Proc.devRef .tc main_v53) = shapeCast S1x512 (val_main_v53 (F := ID) (m ((c : Thread nD τ).loc main_arg6))) shapeCasts_S512_S1x512 := s1_v53 (W4 m ρ c) (m ((c : Thread nD τ).loc main_arg6)) (w4_arg6 m ρ c)
theorem w5_v1 : W5 m ρ c (Proc.devRef .tc main_v1) = val_main_v1 (F := ID) (m ((c : Thread nD τ).loc main_arg2)) :=
  (show W5 m ρ c (Proc.devRef .tc main_v1) = W4 m ρ c (Proc.devRef .tc main_v1) by host_carry hostOps1).trans (w4_v1 m ρ c)
theorem w5_v3 : W5 m ρ c (Proc.devRef .tc main_v3) = val_main_v3 (F := ID) (m ((c : Thread nD τ).loc main_arg2)) :=
  (show W5 m ρ c (Proc.devRef .tc main_v3) = W4 m ρ c (Proc.devRef .tc main_v3) by host_carry hostOps1).trans (w4_v3 m ρ c)
theorem w5_v28 : W5 m ρ c (Proc.devRef .tc main_v28) = val_main_v28 (F := ID) (m ((c : Thread nD τ).loc main_arg2)) :=
  (show W5 m ρ c (Proc.devRef .tc main_v28) = W4 m ρ c (Proc.devRef .tc main_v28) by host_carry hostOps1).trans (w4_v28 m ρ c)
theorem w5_arg1 : W5 m ρ c (Proc.devRef .tc main_arg1) = (m ((c : Thread nD τ).loc main_arg1)) :=
  (show W5 m ρ c (Proc.devRef .tc main_arg1) = W4 m ρ c (Proc.devRef .tc main_arg1) by host_carry hostOps1).trans (w4_arg1 m ρ c)
theorem w5_arg3 : W5 m ρ c (Proc.devRef .tc main_arg3) = (m ((c : Thread nD τ).loc main_arg3)) :=
  (show W5 m ρ c (Proc.devRef .tc main_arg3) = W4 m ρ c (Proc.devRef .tc main_arg3) by host_carry hostOps1).trans (w4_arg3 m ρ c)
theorem w5_arg4 : W5 m ρ c (Proc.devRef .tc main_arg4) = (m ((c : Thread nD τ).loc main_arg4)) :=
  (show W5 m ρ c (Proc.devRef .tc main_arg4) = W4 m ρ c (Proc.devRef .tc main_arg4) by host_carry hostOps1).trans (w4_arg4 m ρ c)
theorem w5_arg5 : W5 m ρ c (Proc.devRef .tc main_arg5) = (m ((c : Thread nD τ).loc main_arg5)) :=
  (show W5 m ρ c (Proc.devRef .tc main_arg5) = W4 m ρ c (Proc.devRef .tc main_arg5) by host_carry hostOps1).trans (w4_arg5 m ρ c)
theorem w5_arg6 : W5 m ρ c (Proc.devRef .tc main_arg6) = (m ((c : Thread nD τ).loc main_arg6)) :=
  (show W5 m ρ c (Proc.devRef .tc main_arg6) = W4 m ρ c (Proc.devRef .tc main_arg6) by host_carry hostOps1).trans (w4_arg6 m ρ c)
theorem w5_arg7 : W5 m ρ c (Proc.devRef .tc main_arg7) = (m ((c : Thread nD τ).loc main_arg7)) :=
  (show W5 m ρ c (Proc.devRef .tc main_arg7) = W4 m ρ c (Proc.devRef .tc main_arg7) by host_carry hostOps1).trans (w4_arg7 m ρ c)
theorem w5_arg8 : W5 m ρ c (Proc.devRef .tc main_arg8) = (m ((c : Thread nD τ).loc main_arg8)) :=
  (show W5 m ρ c (Proc.devRef .tc main_arg8) = W4 m ρ c (Proc.devRef .tc main_arg8) by host_carry hostOps1).trans (w4_arg8 m ρ c)
theorem w5_arg9 : W5 m ρ c (Proc.devRef .tc main_arg9) = (m ((c : Thread nD τ).loc main_arg9)) :=
  (show W5 m ρ c (Proc.devRef .tc main_arg9) = W4 m ρ c (Proc.devRef .tc main_arg9) by host_carry hostOps1).trans (w4_arg9 m ρ c)

/-! ## After region 1 (W6): the first layer's rows -/

theorem w6_v54 : W6 m ρ c (Proc.devRef .tc main_v54) = lnMat (Ref.sc (m ((c : Thread nD τ).loc main_arg2)) (mmMat (m ((c : Thread nD τ).loc main_arg1)) (wtOf (val_main_v30 (F := ID) (m ((c : Thread nD τ).loc main_arg3))))))
      (vecOf (val_main_v32 (F := ID) (m ((c : Thread nD τ).loc main_arg4)))) (vecOf (val_main_v51 (F := ID) (m ((c : Thread nD τ).loc main_arg5)))) (vecOf (val_main_v53 (F := ID) (m ((c : Thread nD τ).loc main_arg6)))) := by
  have h := (W6_arr m ρ c 4).trans (KFinal1.final (V5 m ρ) KBody.out1_4_apply c)
  have e0 : V5 m ρ c main_v44 = _ := w5_v44 m ρ c
  have e1 : V5 m ρ c main_v51 = _ := w5_v51 m ρ c
  have e2 : V5 m ρ c main_v52 = _ := w5_v52 m ρ c
  have e3 : V5 m ρ c main_v53 = _ := w5_v53 m ρ c
  rw [e0, e1, e2, e3, row1Of_cast, row1Of_cast, row1Of_cast] at h
  exact h
theorem w6_v1 : W6 m ρ c (Proc.devRef .tc main_v1) = val_main_v1 (F := ID) (m ((c : Thread nD τ).loc main_arg2)) := (W6_of_ne m ρ c main_v1 (by decide)).trans (w5_v1 m ρ c)
theorem w6_v3 : W6 m ρ c (Proc.devRef .tc main_v3) = val_main_v3 (F := ID) (m ((c : Thread nD τ).loc main_arg2)) := (W6_of_ne m ρ c main_v3 (by decide)).trans (w5_v3 m ρ c)
theorem w6_v28 : W6 m ρ c (Proc.devRef .tc main_v28) = val_main_v28 (F := ID) (m ((c : Thread nD τ).loc main_arg2)) := (W6_of_ne m ρ c main_v28 (by decide)).trans (w5_v28 m ρ c)
theorem w6_arg1 : W6 m ρ c (Proc.devRef .tc main_arg1) = (m ((c : Thread nD τ).loc main_arg1)) := (W6_of_ne m ρ c main_arg1 (by decide)).trans (w5_arg1 m ρ c)
theorem w6_arg3 : W6 m ρ c (Proc.devRef .tc main_arg3) = (m ((c : Thread nD τ).loc main_arg3)) := (W6_of_ne m ρ c main_arg3 (by decide)).trans (w5_arg3 m ρ c)
theorem w6_arg4 : W6 m ρ c (Proc.devRef .tc main_arg4) = (m ((c : Thread nD τ).loc main_arg4)) := (W6_of_ne m ρ c main_arg4 (by decide)).trans (w5_arg4 m ρ c)
theorem w6_arg5 : W6 m ρ c (Proc.devRef .tc main_arg5) = (m ((c : Thread nD τ).loc main_arg5)) := (W6_of_ne m ρ c main_arg5 (by decide)).trans (w5_arg5 m ρ c)
theorem w6_arg6 : W6 m ρ c (Proc.devRef .tc main_arg6) = (m ((c : Thread nD τ).loc main_arg6)) := (W6_of_ne m ρ c main_arg6 (by decide)).trans (w5_arg6 m ρ c)
theorem w6_arg7 : W6 m ρ c (Proc.devRef .tc main_arg7) = (m ((c : Thread nD τ).loc main_arg7)) := (W6_of_ne m ρ c main_arg7 (by decide)).trans (w5_arg7 m ρ c)
theorem w6_arg8 : W6 m ρ c (Proc.devRef .tc main_arg8) = (m ((c : Thread nD τ).loc main_arg8)) := (W6_of_ne m ρ c main_arg8 (by decide)).trans (w5_arg8 m ρ c)
theorem w6_arg9 : W6 m ρ c (Proc.devRef .tc main_arg9) = (m ((c : Thread nD τ).loc main_arg9)) := (W6_of_ne m ρ c main_arg9 (by decide)).trans (w5_arg9 m ρ c)

end Cert.Gcn.KChain

end
-- ==== Proof.KFinal2.lean ====
/-
  Region 2 of the kernel program, a row-blocked matrix product, as one function of the arrays it finds:
  block t of the output holds rows 2000 t … 2000 t + 1999 of (the node matrix) x (the weight matrix).
-/
import proofs.«149262_j25185688224022_2_alg».proof.Proof.Gen.KernelIdeal.Frame
import proofs.«149262_j25185688224022_2_alg».proof.Proof.KFinalLib

noncomputable section

namespace Cert.Gcn.KFinal2

open Cert.KernelIdeal Cert.KernelIdeal.Gen Cert.Gcn Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Idealize.ShloMosaic.Ideal) ((c : Thread nD τ).loc b))

/-- The printed index maps, decided once over the 25 grid points: a row-blocked window's block t starts at row block t,
    a whole-array window's one block at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ t.val < 25 :=
  (by decide +kernel : ∀ t : Fin grid2.N, _)

/-- Row p of point t's block is row 2000 t + p of the array. -/
def grow (t : Fin cfg2.N) (p : Fin 2000) : Fin 50000 :=
  ⟨2000 * t.val + p.val, by have := (idx_facts t).2.2.2.2.2.2; omega⟩

theorem emb_0 (t : Fin cfg2.N) (p : Fin 2000) (q : Fin 512) :
    ((cfg2.win 0).blk t).view.emb (ix2 p q) = ix2 (grow t p) q := by
  obtain ⟨e0, e1, -, -, -, -, -⟩ := idx_facts t
  funext a; apply Fin.ext
  match a with
  | ⟨0, _⟩ => show win2_0.index t (0 : Fin 2) * 2000 + 1 * p.val = 2000 * t.val + p.val; omega
  | ⟨1, _⟩ => show win2_0.index t (1 : Fin 2) * 512 + 1 * q.val = q.val; omega

theorem emb_1 (t : Fin cfg2.N) (k : Fin 512) (q : Fin 512) :
    ((cfg2.win 1).blk t).view.emb (ix2 k q) = ix2 k q := by
  obtain ⟨-, -, e0, e1, -, -, -⟩ := idx_facts t
  funext a; apply Fin.ext
  match a with
  | ⟨0, _⟩ => show win2_1.index t (0 : Fin 2) * 512 + 1 * k.val = k.val; omega
  | ⟨1, _⟩ => show win2_1.index t (1 : Fin 2) * 512 + 1 * q.val = q.val; omega

theorem emb_2 (t : Fin cfg2.N) (p : Fin 2000) (q : Fin 512) :
    ((cfg2.win 2).blk t).view.emb (ix2 p q) = ix2 (grow t p) q := by
  obtain ⟨-, -, -, -, e0, e1, -⟩ := idx_facts t
  funext a; apply Fin.ext
  match a with
  | ⟨0, _⟩ => show win2_2.index t (0 : Fin 2) * 2000 + 1 * p.val = 2000 * t.val + p.val; omega
  | ⟨1, _⟩ => show win2_2.index t (1 : Fin 2) * 512 + 1 * q.val = q.val; omega

theorem read_0 (c : Dev nD) (t : Fin cfg2.N) (p : Fin 2000) :
    rowOf (iblk2 V c 0 t) p = rowOf (V c main_v54) (grow t p) := by
  funext k
  show V c main_v54 (((cfg2.win 0).blk t).view.emb (ix2 p k)) = V c main_v54 (ix2 (grow t p) k)
  rw [emb_0 t p k]

theorem read_1 (c : Dev nD) (t : Fin cfg2.N) : wtOf (iblk2 V c 1 t) = wtOf (V c main_v56) := by
  funext k q
  show V c main_v56 (((cfg2.win 1).blk t).view.emb (ix2 k q)) = V c main_v56 (ix2 k q)
  rw [emb_1 t k q]

/-- An index of the output array is in point t's block iff each coordinate is in the block's range on its axis. -/
theorem mem_blk (t : Fin cfg2.N) (i : S50000x512.Idx) :
    i ∈ ((cfg2.win 2).blk t).view.set ↔ ∀ a : Fin 2, win2_2.index t a * S2000x512.size a ≤ (i a).val ∧ (i a).val < win2_2.index t a * S2000x512.size a + S2000x512.size a := by
  show i ∈ ((View.whole main_v57).slice (win2_2.rect t)).set ↔ _
  rw [View.set_slice_whole, Rect.mem_set_unit]
  exact Iff.rfl

/-- Row n of the output lies in the block of point n / 2000: the 25 blocks of 2000 rows cover the 50000 rows. -/
theorem cover (i : S50000x512.Idx) : ∃ t : Fin cfg2.N, (cfg2.win 2).flush t = true ∧ i ∈ ((cfg2.win 2).blk t).view.set := by
  have hi0 : (i 0).val < 50000 := (i 0).isLt
  have hi1 : (i 1).val < 512 := (i 1).isLt
  have hN : cfg2.N = 25 := N_2
  have ht : (i 0).val / 2000 < cfg2.N := by rw [hN]; omega
  refine ⟨⟨(i 0).val / 2000, ht⟩, flush2_2 _, ?_⟩
  rw [mem_blk]
  obtain ⟨-, -, -, -, e0, e1, -⟩ := idx_facts ⟨(i 0).val / 2000, ht⟩
  intro a
  match a with
  | ⟨0, _⟩ =>
    show win2_2.index ⟨(i 0).val / 2000, ht⟩ (0 : Fin 2) * 2000 ≤ (i 0).val ∧ (i 0).val < win2_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_2.index ⟨(i 0).val / 2000, ht⟩ (1 : Fin 2) * 512 ≤ (i 1).val ∧ (i 1).val < win2_2.index ⟨(i 0).val / 2000, ht⟩ (1 : Fin 2) * 512 + 512
    rw [e1]; omega

section
/- What the body leaves at one entry of its output block, as a function of its input blocks (proved where the body's
   arithmetic is read). -/
variable (hpay : ∀ (x0 : Vec Idealize.ShloMosaic.Ideal S2000x512 .f32) (x1 : Vec Idealize.ShloMosaic.Ideal S512x512 .f32) (r : Fin 2000) (j : Fin 512),
      out2_2 (F := Idealize.ShloMosaic.Ideal) x0 x1 (ix2 r j) = mmRow (rowOf x0 r) (wtOf x1) j)
include hpay

/-- What point t writes back is block t of the region's whole-array function. -/
theorem flushed_eq (c : Dev nD) (t : Fin cfg2.N) :
    (dat2 V c).flushed 2 t = ((cfg2.win 2).blk t).view.read (Elt Idealize.ShloMosaic.Ideal)
      (mmMat (V c main_v54) (wtOf (V c main_v56))) := by
  show (cfg2.win 2).cut (grid2.coords t) ((dat2 V c).after 2 t) = _
  rw [after2_2]
  funext j
  obtain ⟨p, q, rfl⟩ : ∃ (p : Fin 2000) (q : Fin 512), j = ix2 p q := ⟨j 0, j 1, eq_ix2 j⟩
  show out2_2 (iblk2 V c 0 t) (iblk2 V c 1 t) (ix2 p q)
    = (mmMat (V c main_v54) (wtOf (V c main_v56))) (((cfg2.win 2).blk t).view.emb (ix2 p q))
  rw [emb_2 t p q]
  refine (hpay (iblk2 V c 0 t) (iblk2 V c 1 t) p q).trans ?_
  rw [read_0 V c t p, read_1 V c t]
  rfl

/-- Region 2's output array after the region: the product of the node matrix and the weight matrix it found. -/
theorem final (c : Dev nD) : (dat2 V c).arrAt 2 cfg2.N = mmMat (V c main_v54) (wtOf (V c main_v56)) :=
  (dat2 V c).arrAt_eq_of_cover 2 _ (fun t _ => flushed_eq V hpay c t) cover
end

end Cert.Gcn.KFinal2

end
-- ==== Proof.KFinal3.lean ====
/-
  Region 3 of the kernel program (layer normalisation and the gated mix with the previous layer's rows) as one function
  of the arrays it finds.
-/
import proofs.«149262_j25185688224022_2_alg».proof.Proof.Gen.KernelIdeal.Frame
import proofs.«149262_j25185688224022_2_alg».proof.Proof.KFinalLib

noncomputable section

namespace Cert.Gcn.KFinal3

open Cert.KernelIdeal Cert.KernelIdeal.Gen Cert.Gcn Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Idealize.ShloMosaic.Ideal) ((c : Thread nD τ).loc b))

/-- The printed index maps, decided once over the 25 grid points: a row-blocked window's block t starts at row block t,
    a whole-array window's one block at the origin. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0
    ∧ t.val < 25 :=
  (by decide +kernel : ∀ t : Fin grid3.N, _)

/-- Row p of point t's block is row 2000 t + p of the array. -/
def grow (t : Fin cfg3.N) (p : Fin 2000) : Fin 50000 :=
  ⟨2000 * t.val + p.val, by have := (idx_facts t).2.2.2.2.2.2.2.2.2.2.2.2.2.2.2.2.2.2; omega⟩

theorem emb_0 (t : Fin cfg3.N) (p : Fin 2000) (q : Fin 512) :
    ((cfg3.win 0).blk t).view.emb (ix2 p q) = ix2 (grow t p) q := by
  obtain ⟨e0, e1, -, -, -, -, -, -, -, -, -, -, -, -, -, -, -, -, -⟩ := idx_facts t
  funext a; apply Fin.ext
  match a with
  | ⟨0, _⟩ => show win3_0.index t (0 : Fin 2) * 2000 + 1 * p.val = 2000 * t.val + p.val; omega
  | ⟨1, _⟩ => show win3_0.index t (1 : Fin 2) * 512 + 1 * q.val = q.val; omega

theorem emb_1 (t : Fin cfg3.N) (q : Fin 512) :
    ((cfg3.win 1).blk t).view.emb (ix2 (0 : Fin 1) q) = ix2 (0 : Fin 1) q := by
  obtain ⟨-, -, e0, e1, -, -, -, -, -, -, -, -, -, -, -, -, -, -, -⟩ := idx_facts t
  funext a; apply Fin.ext
  match a with
  | ⟨0, _⟩ => show win3_1.index t (0 : Fin 2) * 1 + 1 * (0 : Fin 1).val = (0 : Fin 1).val; omega
  | ⟨1, _⟩ => show win3_1.index t (1 : Fin 2) * 512 + 1 * q.val = q.val; omega

theorem emb_2 (t : Fin cfg3.N) (q : Fin 512) :
    ((cfg3.win 2).blk t).view.emb (ix2 (0 : Fin 1) q) = ix2 (0 : Fin 1) q := by
  obtain ⟨-, -, -, -, e0, e1, -, -, -, -, -, -, -, -, -, -, -, -, -⟩ := idx_facts t
  funext a; apply Fin.ext
  match a with
  | ⟨0, _⟩ => show win3_2.index t (0 : Fin 2) * 1 + 1 * (0 : Fin 1).val = (0 : Fin 1).val; omega
  | ⟨1, _⟩ => show win3_2.index t (1 : Fin 2) * 512 + 1 * q.val = q.val; omega

theorem emb_3 (t : Fin cfg3.N) (q : Fin 512) :
    ((cfg3.win 3).blk t).view.emb (ix2 (0 : Fin 1) q) = ix2 (0 : Fin 1) q := by
  obtain ⟨-, -, -, -, -, -, e0, e1, -, -, -, -, -, -, -, -, -, -, -⟩ := idx_facts t
  funext a; apply Fin.ext
  match a with
  | ⟨0, _⟩ => show win3_3.index t (0 : Fin 2) * 1 + 1 * (0 : Fin 1).val = (0 : Fin 1).val; omega
  | ⟨1, _⟩ => show win3_3.index t (1 : Fin 2) * 512 + 1 * q.val = q.val; omega

theorem emb_4 (t : Fin cfg3.N) (p : Fin 2000) (q : Fin 512) :
    ((cfg3.win 4).blk t).view.emb (ix2 p q) = ix2 (grow t p) q := by
  obtain ⟨-, -, -, -, -, -, -, -, e0, e1, -, -, -, -, -, -, -, -, -⟩ := idx_facts t
  funext a; apply Fin.ext
  match a with
  | ⟨0, _⟩ => show win3_4.index t (0 : Fin 2) * 2000 + 1 * p.val = 2000 * t.val + p.val; omega
  | ⟨1, _⟩ => show win3_4.index t (1 : Fin 2) * 512 + 1 * q.val = q.val; omega

theorem emb_5 (t : Fin cfg3.N) (k : Fin 512) (q : Fin 512) :
    ((cfg3.win 5).blk t).view.emb (ix2 k q) = ix2 k q := by
  obtain ⟨-, -, -, -, -, -, -, -, -, -, e0, e1, -, -, -, -, -, -, -⟩ := idx_facts t
  funext a; apply Fin.ext
  match a with
  | ⟨0, _⟩ => show win3_5.index t (0 : Fin 2) * 512 + 1 * k.val = k.val; omega
  | ⟨1, _⟩ => show win3_5.index t (1 : Fin 2) * 512 + 1 * q.val = q.val; omega

theorem emb_6 (t : Fin cfg3.N) (k : Fin 512) (q : Fin 512) :
    ((cfg3.win 6).blk t).view.emb (ix2 k q) = ix2 k q := by
  obtain ⟨-, -, -, -, -, -, -, -, -, -, -, -, e0, e1, -, -, -, -, -⟩ := idx_facts t
  funext a; apply Fin.ext
  match a with
  | ⟨0, _⟩ => show win3_6.index t (0 : Fin 2) * 512 + 1 * k.val = k.val; omega
  | ⟨1, _⟩ => show win3_6.index t (1 : Fin 2) * 512 + 1 * q.val = q.val; omega

theorem emb_7 (t : Fin cfg3.N) (q : Fin 512) :
    ((cfg3.win 7).blk t).view.emb (ix2 (0 : Fin 1) q) = ix2 (0 : Fin 1) q := by
  obtain ⟨-, -, -, -, -, -, -, -, -, -, -, -, -, -, e0, e1, -, -, -⟩ := idx_facts t
  funext a; apply Fin.ext
  match a with
  | ⟨0, _⟩ => show win3_7.index t (0 : Fin 2) * 1 + 1 * (0 : Fin 1).val = (0 : Fin 1).val; omega
  | ⟨1, _⟩ => show win3_7.index t (1 : Fin 2) * 512 + 1 * q.val = q.val; omega

theorem emb_8 (t : Fin cfg3.N) (p : Fin 2000) (q : Fin 512) :
    ((cfg3.win 8).blk t).view.emb (ix2 p q) = ix2 (grow t p) q := by
  obtain ⟨-, -, -, -, -, -, -, -, -, -, -, -, -, -, -, -, e0, e1, -⟩ := idx_facts t
  funext a; apply Fin.ext
  match a with
  | ⟨0, _⟩ => show win3_8.index t (0 : Fin 2) * 2000 + 1 * p.val = 2000 * t.val + p.val; omega
  | ⟨1, _⟩ => show win3_8.index t (1 : Fin 2) * 512 + 1 * q.val = q.val; omega

theorem read_0 (c : Dev nD) (t : Fin cfg3.N) (p : Fin 2000) :
    rowOf (iblk3 V c 0 t) p = rowOf (V c main_v70) (grow t p) := by
  funext k
  show V c main_v70 (((cfg3.win 0).blk t).view.emb (ix2 p k)) = V c main_v70 (ix2 (grow t p) k)
  rw [emb_0 t p k]

theorem read_1 (c : Dev nD) (t : Fin cfg3.N) : row1Of (iblk3 V c 1 t) = row1Of (V c main_v77) := by
  funext q
  show V c main_v77 (((cfg3.win 1).blk t).view.emb (ix2 (0 : Fin 1) q)) = V c main_v77 (ix2 (0 : Fin 1) q)
  rw [emb_1 t q]

theorem read_2 (c : Dev nD) (t : Fin cfg3.N) : row1Of (iblk3 V c 2 t) = row1Of (V c main_v78) := by
  funext q
  show V c main_v78 (((cfg3.win 2).blk t).view.emb (ix2 (0 : Fin 1) q)) = V c main_v78 (ix2 (0 : Fin 1) q)
  rw [emb_2 t q]

theorem read_3 (c : Dev nD) (t : Fin cfg3.N) : row1Of (iblk3 V c 3 t) = row1Of (V c main_v79) := by
  funext q
  show V c main_v79 (((cfg3.win 3).blk t).view.emb (ix2 (0 : Fin 1) q)) = V c main_v79 (ix2 (0 : Fin 1) q)
  rw [emb_3 t q]

theorem read_4 (c : Dev nD) (t : Fin cfg3.N) (p : Fin 2000) :
    rowOf (iblk3 V c 4 t) p = rowOf (V c main_v54) (grow t p) := by
  funext k
  show V c main_v54 (((cfg3.win 4).blk t).view.emb (ix2 p k)) = V c main_v54 (ix2 (grow t p) k)
  rw [emb_4 t p k]

theorem read_5 (c : Dev nD) (t : Fin cfg3.N) : wtOf (iblk3 V c 5 t) = wtOf (V c main_v80) := by
  funext k q
  show V c main_v80 (((cfg3.win 5).blk t).view.emb (ix2 k q)) = V c main_v80 (ix2 k q)
  rw [emb_5 t k q]

theorem read_6 (c : Dev nD) (t : Fin cfg3.N) : wtOf (iblk3 V c 6 t) = wtOf (V c main_v81) := by
  funext k q
  show V c main_v81 (((cfg3.win 6).blk t).view.emb (ix2 k q)) = V c main_v81 (ix2 k q)
  rw [emb_6 t k q]

theorem read_7 (c : Dev nD) (t : Fin cfg3.N) : row1Of (iblk3 V c 7 t) = row1Of (V c main_v82) := by
  funext q
  show V c main_v82 (((cfg3.win 7).blk t).view.emb (ix2 (0 : Fin 1) q)) = V c main_v82 (ix2 (0 : Fin 1) q)
  rw [emb_7 t q]

/-- An index of the output array is in point t's block iff each coordinate is in the block's range on its axis. -/
theorem mem_blk (t : Fin cfg3.N) (i : S50000x512.Idx) :
    i ∈ ((cfg3.win 8).blk t).view.set ↔ ∀ a : Fin 2, win3_8.index t a * S2000x512.size a ≤ (i a).val ∧ (i a).val < win3_8.index t a * S2000x512.size a + S2000x512.size a := by
  show i ∈ ((View.whole main_v83).slice (win3_8.rect t)).set ↔ _
  rw [View.set_slice_whole, Rect.mem_set_unit]
  exact Iff.rfl

/-- Row n of the output lies in the block of point n / 2000: the 25 blocks of 2000 rows cover the 50000 rows. -/
theorem cover (i : S50000x512.Idx) : ∃ t : Fin cfg3.N, (cfg3.win 8).flush t = true ∧ i ∈ ((cfg3.win 8).blk t).view.set := by
  have hi0 : (i 0).val < 50000 := (i 0).isLt
  have hi1 : (i 1).val < 512 := (i 1).isLt
  have hN : cfg3.N = 25 := N_3
  have ht : (i 0).val / 2000 < cfg3.N := by rw [hN]; omega
  refine ⟨⟨(i 0).val / 2000, ht⟩, flush3_8 _, ?_⟩
  rw [mem_blk]
  obtain ⟨-, -, -, -, -, -, -, -, -, -, -, -, -, -, -, -, e0, e1, -⟩ := idx_facts ⟨(i 0).val / 2000, ht⟩
  intro a
  match a with
  | ⟨0, _⟩ =>
    show win3_8.index ⟨(i 0).val / 2000, ht⟩ (0 : Fin 2) * 2000 ≤ (i 0).val ∧ (i 0).val < win3_8.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_8.index ⟨(i 0).val / 2000, ht⟩ (1 : Fin 2) * 512 ≤ (i 1).val ∧ (i 1).val < win3_8.index ⟨(i 0).val / 2000, ht⟩ (1 : Fin 2) * 512 + 512
    rw [e1]; omega

section
/- What the body leaves at one entry of its output block, as a function of its input blocks (proved where the body's
   arithmetic is read). -/
variable (hpay : ∀ (x0 : Vec Idealize.ShloMosaic.Ideal S2000x512 .f32) (x1 x2 x3 : Vec Idealize.ShloMosaic.Ideal S1x512 .f32) (x4 : Vec Idealize.ShloMosaic.Ideal S2000x512 .f32) (x5 x6 : Vec Idealize.ShloMosaic.Ideal S512x512 .f32) (x7 : Vec Idealize.ShloMosaic.Ideal S1x512 .f32) (r : Fin 2000) (j : Fin 512),
      out3_8 (F := Idealize.ShloMosaic.Ideal) x0 x1 x2 x3 x4 x5 x6 x7 (ix2 r j) = gateRow (lnRow (rowOf x0 r) (row1Of x1) (row1Of x2) (row1Of x3)) (rowOf x4 r) (wtOf x5) (wtOf x6) (row1Of x7) j)
include hpay

/-- What point t writes back is block t of the region's whole-array function. -/
theorem flushed_eq (c : Dev nD) (t : Fin cfg3.N) :
    (dat3 V c).flushed 8 t = ((cfg3.win 8).blk t).view.read (Elt Idealize.ShloMosaic.Ideal)
      (gateMat (lnMat (V c main_v70) (row1Of (V c main_v77)) (row1Of (V c main_v78)) (row1Of (V c main_v79))) (V c main_v54) (wtOf (V c main_v80)) (wtOf (V c main_v81)) (row1Of (V c main_v82))) := by
  show (cfg3.win 8).cut (grid3.coords t) ((dat3 V c).after 8 t) = _
  rw [after3_8]
  funext j
  obtain ⟨p, q, rfl⟩ : ∃ (p : Fin 2000) (q : Fin 512), j = ix2 p q := ⟨j 0, j 1, eq_ix2 j⟩
  show out3_8 (iblk3 V c 0 t) (iblk3 V c 1 t) (iblk3 V c 2 t) (iblk3 V c 3 t) (iblk3 V c 4 t) (iblk3 V c 5 t) (iblk3 V c 6 t) (iblk3 V c 7 t) (ix2 p q)
    = (gateMat (lnMat (V c main_v70) (row1Of (V c main_v77)) (row1Of (V c main_v78)) (row1Of (V c main_v79))) (V c main_v54) (wtOf (V c main_v80)) (wtOf (V c main_v81)) (row1Of (V c main_v82))) (((cfg3.win 8).blk t).view.emb (ix2 p q))
  rw [emb_8 t p q]
  refine (hpay (iblk3 V c 0 t) (iblk3 V c 1 t) (iblk3 V c 2 t) (iblk3 V c 3 t) (iblk3 V c 4 t) (iblk3 V c 5 t) (iblk3 V c 6 t) (iblk3 V c 7 t) p q).trans ?_
  rw [read_0 V c t p, read_1 V c t, read_2 V c t, read_3 V c t, read_4 V c t p, read_5 V c t, read_6 V c t, read_7 V c t]
  rfl

/-- Region 3's output array after the region: every row the gated mix of the normalised new row and the old row. -/
theorem final (c : Dev nD) : (dat3 V c).arrAt 8 cfg3.N = gateMat (lnMat (V c main_v70) (row1Of (V c main_v77)) (row1Of (V c main_v78)) (row1Of (V c main_v79))) (V c main_v54) (wtOf (V c main_v80)) (wtOf (V c main_v81)) (row1Of (V c main_v82)) :=
  (dat3 V c).arrAt_eq_of_cover 8 _ (fun t _ => flushed_eq V hpay c t) cover
end

end Cert.Gcn.KFinal3

end
-- ==== Proof.KChainB.lean ====
/-
  The kernel program from the end of its second region (the first layer's bias and layer norm) to the end of its fourth
  (the second layer's layer norm and gate): the slice of the second weight matrix, the product region, the edge step
  with the slices of the bias, scale, shift and gate arrays, and the layer-norm-and-gate region.  Given the first
  layer's output H1 and the index vectors, the edge norm and the argument arrays in the buffers at the start, the
  buffer of the fourth region's output ends at the gated mix of the normalised edge step of H1 times the second weight
  matrix with H1; the index vectors, the edge norm and the arguments are carried through unchanged.
-/
import proofs.«149262_j25185688224022_2_alg».proof.Proof.Gen.KernelIdeal.Frame
import proofs.«149262_j25185688224022_2_alg».proof.Proof.ReadP
import proofs.«149262_j25185688224022_2_alg».proof.Proof.RefSemMM
import proofs.«149262_j25185688224022_2_alg».proof.Proof.KBody
import proofs.«149262_j25185688224022_2_alg».proof.Proof.KChainSteps
import proofs.«149262_j25185688224022_2_alg».proof.Proof.KLayout
import proofs.«149262_j25185688224022_2_alg».proof.Proof.KFinal2
import proofs.«149262_j25185688224022_2_alg».proof.Proof.KFinal3
set_option maxRecDepth 16384

noncomputable section

namespace Cert.Gcn.KChain

open Cert.KernelIdeal Cert.KernelIdeal.Gen Cert.Gcn Idealize.ShloMosaic Idealize.ShloMosaic.TcCoe Idealize.ShloMosaic.ValueIdx
open Idealize.ShloMosaic.StableHlo
open Cert.ReferenceIdeal.ReadP

local notation "ID" => Idealize.ShloMosaic.Ideal

/-- A buffer of a list, as a one-element set of device buffers, lies in the list's set of device buffers. -/
theorem subB_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- The buffers the stretch before the third region writes. -/
abbrev WLB2 : List (Ref sig .tc) := [main_v55, main_v56]
/-- The buffers the stretch before the fourth region writes. -/
abbrev WLB3 : List (Ref sig .tc) :=
  [main_c_10, main_v58, main_v59, main_c_11, main_v60, main_v61, main_v62, main_v63, main_v64, main_v65, main_v66, main_v67, main_cst_12, main_v68, main_v69, main_v70, main_v71, main_v72, main_v73, main_v74, main_v75, main_v76, main_v77, main_v78, main_v79, main_v80, main_v81, main_v82]

theorem hWLB2 : (hostOps2 : List (HloOp τ sig (Elt ID))).Forall fun op => op.writes ⊆ (WLB2.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes]
  repeat' apply And.intro
  all_goals exact subB_of_mem (by decide)
theorem hWLB3 : (hostOps3 : List (HloOp τ sig (Elt ID))).Forall fun op => op.writes ⊆ (WLB3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes]
  repeat' apply And.intro
  all_goals exact subB_of_mem (by decide)

variable [Cert.KernelIdeal.Facts]
variable (m : (ℓ : Loc nD τ sig) → Buf (Elt ID) ℓ) (ρ : Dev nD → PrngReg) (c : Dev nD)

/-! ## What no segment between the two boundaries writes -/

theorem cB7_v1 : W7 m ρ c (Proc.devRef .tc main_v1) = W6 m ρ c (Proc.devRef .tc main_v1) :=
  after_of_writes_sub hostOps2 (W6 m ρ c) hWLB2 (by decide)
theorem cB8_v1 : W8 m ρ c (Proc.devRef .tc main_v1) = W6 m ρ c (Proc.devRef .tc main_v1) :=
  (W8_of_ne m ρ c main_v1 (by decide)).trans (cB7_v1 m ρ c)
theorem cB9_v1 : W9 m ρ c (Proc.devRef .tc main_v1) = W6 m ρ c (Proc.devRef .tc main_v1) :=
  (after_of_writes_sub hostOps3 (W8 m ρ c) hWLB3 (by decide)).trans (cB8_v1 m ρ c)
theorem carryB_v1 : W10 m ρ c (Proc.devRef .tc main_v1) = W6 m ρ c (Proc.devRef .tc main_v1) :=
  (W10_of_ne m ρ c main_v1 (by decide)).trans (cB9_v1 m ρ c)
theorem cB7_v3 : W7 m ρ c (Proc.devRef .tc main_v3) = W6 m ρ c (Proc.devRef .tc main_v3) :=
  after_of_writes_sub hostOps2 (W6 m ρ c) hWLB2 (by decide)
theorem cB8_v3 : W8 m ρ c (Proc.devRef .tc main_v3) = W6 m ρ c (Proc.devRef .tc main_v3) :=
  (W8_of_ne m ρ c main_v3 (by decide)).trans (cB7_v3 m ρ c)
theorem cB9_v3 : W9 m ρ c (Proc.devRef .tc main_v3) = W6 m ρ c (Proc.devRef .tc main_v3) :=
  (after_of_writes_sub hostOps3 (W8 m ρ c) hWLB3 (by decide)).trans (cB8_v3 m ρ c)
theorem carryB_v3 : W10 m ρ c (Proc.devRef .tc main_v3) = W6 m ρ c (Proc.devRef .tc main_v3) :=
  (W10_of_ne m ρ c main_v3 (by decide)).trans (cB9_v3 m ρ c)
theorem cB7_v28 : W7 m ρ c (Proc.devRef .tc main_v28) = W6 m ρ c (Proc.devRef .tc main_v28) :=
  after_of_writes_sub hostOps2 (W6 m ρ c) hWLB2 (by decide)
theorem cB8_v28 : W8 m ρ c (Proc.devRef .tc main_v28) = W6 m ρ c (Proc.devRef .tc main_v28) :=
  (W8_of_ne m ρ c main_v28 (by decide)).trans (cB7_v28 m ρ c)
theorem cB9_v28 : W9 m ρ c (Proc.devRef .tc main_v28) = W6 m ρ c (Proc.devRef .tc main_v28) :=
  (after_of_writes_sub hostOps3 (W8 m ρ c) hWLB3 (by decide)).trans (cB8_v28 m ρ c)
theorem carryB_v28 : W10 m ρ c (Proc.devRef .tc main_v28) = W6 m ρ c (Proc.devRef .tc main_v28) :=
  (W10_of_ne m ρ c main_v28 (by decide)).trans (cB9_v28 m ρ c)
theorem cB7_arg1 : W7 m ρ c (Proc.devRef .tc main_arg1) = W6 m ρ c (Proc.devRef .tc main_arg1) :=
  after_of_writes_sub hostOps2 (W6 m ρ c) hWLB2 (by decide)
theorem cB8_arg1 : W8 m ρ c (Proc.devRef .tc main_arg1) = W6 m ρ c (Proc.devRef .tc main_arg1) :=
  (W8_of_ne m ρ c main_arg1 (by decide)).trans (cB7_arg1 m ρ c)
theorem cB9_arg1 : W9 m ρ c (Proc.devRef .tc main_arg1) = W6 m ρ c (Proc.devRef .tc main_arg1) :=
  (after_of_writes_sub hostOps3 (W8 m ρ c) hWLB3 (by decide)).trans (cB8_arg1 m ρ c)
theorem carryB_arg1 : W10 m ρ c (Proc.devRef .tc main_arg1) = W6 m ρ c (Proc.devRef .tc main_arg1) :=
  (W10_of_ne m ρ c main_arg1 (by decide)).trans (cB9_arg1 m ρ c)
theorem cB7_arg3 : W7 m ρ c (Proc.devRef .tc main_arg3) = W6 m ρ c (Proc.devRef .tc main_arg3) :=
  after_of_writes_sub hostOps2 (W6 m ρ c) hWLB2 (by decide)
theorem cB8_arg3 : W8 m ρ c (Proc.devRef .tc main_arg3) = W6 m ρ c (Proc.devRef .tc main_arg3) :=
  (W8_of_ne m ρ c main_arg3 (by decide)).trans (cB7_arg3 m ρ c)
theorem cB9_arg3 : W9 m ρ c (Proc.devRef .tc main_arg3) = W6 m ρ c (Proc.devRef .tc main_arg3) :=
  (after_of_writes_sub hostOps3 (W8 m ρ c) hWLB3 (by decide)).trans (cB8_arg3 m ρ c)
theorem carryB_arg3 : W10 m ρ c (Proc.devRef .tc main_arg3) = W6 m ρ c (Proc.devRef .tc main_arg3) :=
  (W10_of_ne m ρ c main_arg3 (by decide)).trans (cB9_arg3 m ρ c)
theorem cB7_arg4 : W7 m ρ c (Proc.devRef .tc main_arg4) = W6 m ρ c (Proc.devRef .tc main_arg4) :=
  after_of_writes_sub hostOps2 (W6 m ρ c) hWLB2 (by decide)
theorem cB8_arg4 : W8 m ρ c (Proc.devRef .tc main_arg4) = W6 m ρ c (Proc.devRef .tc main_arg4) :=
  (W8_of_ne m ρ c main_arg4 (by decide)).trans (cB7_arg4 m ρ c)
theorem cB9_arg4 : W9 m ρ c (Proc.devRef .tc main_arg4) = W6 m ρ c (Proc.devRef .tc main_arg4) :=
  (after_of_writes_sub hostOps3 (W8 m ρ c) hWLB3 (by decide)).trans (cB8_arg4 m ρ c)
theorem carryB_arg4 : W10 m ρ c (Proc.devRef .tc main_arg4) = W6 m ρ c (Proc.devRef .tc main_arg4) :=
  (W10_of_ne m ρ c main_arg4 (by decide)).trans (cB9_arg4 m ρ c)
theorem cB7_arg5 : W7 m ρ c (Proc.devRef .tc main_arg5) = W6 m ρ c (Proc.devRef .tc main_arg5) :=
  after_of_writes_sub hostOps2 (W6 m ρ c) hWLB2 (by decide)
theorem cB8_arg5 : W8 m ρ c (Proc.devRef .tc main_arg5) = W6 m ρ c (Proc.devRef .tc main_arg5) :=
  (W8_of_ne m ρ c main_arg5 (by decide)).trans (cB7_arg5 m ρ c)
theorem cB9_arg5 : W9 m ρ c (Proc.devRef .tc main_arg5) = W6 m ρ c (Proc.devRef .tc main_arg5) :=
  (after_of_writes_sub hostOps3 (W8 m ρ c) hWLB3 (by decide)).trans (cB8_arg5 m ρ c)
theorem carryB_arg5 : W10 m ρ c (Proc.devRef .tc main_arg5) = W6 m ρ c (Proc.devRef .tc main_arg5) :=
  (W10_of_ne m ρ c main_arg5 (by decide)).trans (cB9_arg5 m ρ c)
theorem cB7_arg6 : W7 m ρ c (Proc.devRef .tc main_arg6) = W6 m ρ c (Proc.devRef .tc main_arg6) :=
  after_of_writes_sub hostOps2 (W6 m ρ c) hWLB2 (by decide)
theorem cB8_arg6 : W8 m ρ c (Proc.devRef .tc main_arg6) = W6 m ρ c (Proc.devRef .tc main_arg6) :=
  (W8_of_ne m ρ c main_arg6 (by decide)).trans (cB7_arg6 m ρ c)
theorem cB9_arg6 : W9 m ρ c (Proc.devRef .tc main_arg6) = W6 m ρ c (Proc.devRef .tc main_arg6) :=
  (after_of_writes_sub hostOps3 (W8 m ρ c) hWLB3 (by decide)).trans (cB8_arg6 m ρ c)
theorem carryB_arg6 : W10 m ρ c (Proc.devRef .tc main_arg6) = W6 m ρ c (Proc.devRef .tc main_arg6) :=
  (W10_of_ne m ρ c main_arg6 (by decide)).trans (cB9_arg6 m ρ c)
theorem cB7_arg7 : W7 m ρ c (Proc.devRef .tc main_arg7) = W6 m ρ c (Proc.devRef .tc main_arg7) :=
  after_of_writes_sub hostOps2 (W6 m ρ c) hWLB2 (by decide)
theorem cB8_arg7 : W8 m ρ c (Proc.devRef .tc main_arg7) = W6 m ρ c (Proc.devRef .tc main_arg7) :=
  (W8_of_ne m ρ c main_arg7 (by decide)).trans (cB7_arg7 m ρ c)
theorem cB9_arg7 : W9 m ρ c (Proc.devRef .tc main_arg7) = W6 m ρ c (Proc.devRef .tc main_arg7) :=
  (after_of_writes_sub hostOps3 (W8 m ρ c) hWLB3 (by decide)).trans (cB8_arg7 m ρ c)
theorem carryB_arg7 : W10 m ρ c (Proc.devRef .tc main_arg7) = W6 m ρ c (Proc.devRef .tc main_arg7) :=
  (W10_of_ne m ρ c main_arg7 (by decide)).trans (cB9_arg7 m ρ c)
theorem cB7_arg8 : W7 m ρ c (Proc.devRef .tc main_arg8) = W6 m ρ c (Proc.devRef .tc main_arg8) :=
  after_of_writes_sub hostOps2 (W6 m ρ c) hWLB2 (by decide)
theorem cB8_arg8 : W8 m ρ c (Proc.devRef .tc main_arg8) = W6 m ρ c (Proc.devRef .tc main_arg8) :=
  (W8_of_ne m ρ c main_arg8 (by decide)).trans (cB7_arg8 m ρ c)
theorem cB9_arg8 : W9 m ρ c (Proc.devRef .tc main_arg8) = W6 m ρ c (Proc.devRef .tc main_arg8) :=
  (after_of_writes_sub hostOps3 (W8 m ρ c) hWLB3 (by decide)).trans (cB8_arg8 m ρ c)
theorem carryB_arg8 : W10 m ρ c (Proc.devRef .tc main_arg8) = W6 m ρ c (Proc.devRef .tc main_arg8) :=
  (W10_of_ne m ρ c main_arg8 (by decide)).trans (cB9_arg8 m ρ c)
theorem cB7_arg9 : W7 m ρ c (Proc.devRef .tc main_arg9) = W6 m ρ c (Proc.devRef .tc main_arg9) :=
  after_of_writes_sub hostOps2 (W6 m ρ c) hWLB2 (by decide)
theorem cB8_arg9 : W8 m ρ c (Proc.devRef .tc main_arg9) = W6 m ρ c (Proc.devRef .tc main_arg9) :=
  (W8_of_ne m ρ c main_arg9 (by decide)).trans (cB7_arg9 m ρ c)
theorem cB9_arg9 : W9 m ρ c (Proc.devRef .tc main_arg9) = W6 m ρ c (Proc.devRef .tc main_arg9) :=
  (after_of_writes_sub hostOps3 (W8 m ρ c) hWLB3 (by decide)).trans (cB8_arg9 m ρ c)
theorem carryB_arg9 : W10 m ρ c (Proc.devRef .tc main_arg9) = W6 m ρ c (Proc.devRef .tc main_arg9) :=
  (W10_of_ne m ρ c main_arg9 (by decide)).trans (cB9_arg9 m ρ c)

/-! ## The first layer's output: an input array of the third region, untouched by the stretches -/

theorem cB7_v54 : W7 m ρ c (Proc.devRef .tc main_v54) = W6 m ρ c (Proc.devRef .tc main_v54) :=
  after_of_writes_sub hostOps2 (W6 m ρ c) hWLB2 (by decide)
theorem cB8_v54 : W8 m ρ c (Proc.devRef .tc main_v54) = W6 m ρ c (Proc.devRef .tc main_v54) :=
  ((W8_arr m ρ c 0).trans (((dat2 (V7 m ρ) c).arrAt_in 0 rfl _).trans (A_eq2 (V7 m ρ) c 0))).trans (cB7_v54 m ρ c)
theorem cB9_v54 : W9 m ρ c (Proc.devRef .tc main_v54) = W6 m ρ c (Proc.devRef .tc main_v54) :=
  (after_of_writes_sub hostOps3 (W8 m ρ c) hWLB3 (by decide)).trans (cB8_v54 m ρ c)

/-! ## The third region: the product of the first layer's output and the second weight matrix -/

theorem bB8_v57 (a3 : (⟨S3x512x512, .f32⟩ : BufTy).Contents (Elt ID)) (H1 : Mat 50000)
    (f54 : W6 m ρ c (Proc.devRef .tc main_v54) = H1) (g3 : W6 m ρ c (Proc.devRef .tc main_arg3) = a3) :
    W8 m ρ c (Proc.devRef .tc main_v57) = mmMat H1 (wtOf (val_main_v79 (F := ID) a3)) := by
  have e54 : V7 m ρ c main_v54 = H1 := (cB7_v54 m ρ c).trans f54
  have e56 : V7 m ρ c main_v56 = val_main_v79 (F := ID) a3 := s2_v56 (W6 m ρ c) a3 g3
  have h := (W8_arr m ρ c 2).trans (KFinal2.final (V7 m ρ) KBody.out2_2_apply c)
  rw [e54, e56] at h
  exact h

/-! ## The fourth region: layer norm of the edge step, gated with the first layer's output -/

theorem segB (a2 : (⟨S2x160000, .i32⟩ : BufTy).Contents (Elt ID)) (a3 : (⟨S3x512x512, .f32⟩ : BufTy).Contents (Elt ID))
    (a4 a5 a6 : (⟨S3x512, .f32⟩ : BufTy).Contents (Elt ID)) (a7 : (⟨S1024x512, .f32⟩ : BufTy).Contents (Elt ID))
    (a8 : (⟨S512, .f32⟩ : BufTy).Contents (Elt ID)) (H1 : Mat 50000)
    (f54 : W6 m ρ c (Proc.devRef .tc main_v54) = H1)
    (f1 : W6 m ρ c (Proc.devRef .tc main_v1) = val_main_v1 (F := ID) a2) (f3 : W6 m ρ c (Proc.devRef .tc main_v3) = val_main_v3 (F := ID) a2)
    (f28 : W6 m ρ c (Proc.devRef .tc main_v28) = val_main_v28 (F := ID) a2)
    (g3 : W6 m ρ c (Proc.devRef .tc main_arg3) = a3) (g4 : W6 m ρ c (Proc.devRef .tc main_arg4) = a4)
    (g5 : W6 m ρ c (Proc.devRef .tc main_arg5) = a5) (g6 : W6 m ρ c (Proc.devRef .tc main_arg6) = a6)
    (g7 : W6 m ρ c (Proc.devRef .tc main_arg7) = a7) (g8 : W6 m ρ c (Proc.devRef .tc main_arg8) = a8) :
    W10 m ρ c (Proc.devRef .tc main_v83) = gateMat (lnMat (Ref.sc a2 (mmMat H1 (wtOf (val_main_v79 (F := ID) a3)))) (vecOf (val_main_v81 (F := ID) a4)) (vecOf (val_main_v100 (F := ID) a5)) (vecOf (val_main_v102 (F := ID) a6))) H1 (gateW1 a7) (gateW2 a7) (vecOf a8) := by
  have e70 : V9 m ρ c main_v70 = Ref.sc a2 (mmMat H1 (wtOf (val_main_v79 (F := ID) a3))) :=
    s3_v70 (W8 m ρ c) a2 _ ((cB8_v1 m ρ c).trans f1) ((cB8_v3 m ρ c).trans f3) ((cB8_v28 m ρ c).trans f28) (bB8_v57 m ρ c a3 H1 f54 g3)
  have e77 : V9 m ρ c main_v77 = shapeCast S1x512 (val_main_v81 (F := ID) a4) shapeCasts_S512_S1x512 := s3_v77 (W8 m ρ c) a4 ((cB8_arg4 m ρ c).trans g4)
  have e78 : V9 m ρ c main_v78 = shapeCast S1x512 (val_main_v100 (F := ID) a5) shapeCasts_S512_S1x512 := s3_v78 (W8 m ρ c) a5 ((cB8_arg5 m ρ c).trans g5)
  have e79 : V9 m ρ c main_v79 = shapeCast S1x512 (val_main_v102 (F := ID) a6) shapeCasts_S512_S1x512 := s3_v79 (W8 m ρ c) a6 ((cB8_arg6 m ρ c).trans g6)
  have e54 : V9 m ρ c main_v54 = H1 := (cB9_v54 m ρ c).trans f54
  have e80 : V9 m ρ c main_v80 = extractStridedSlice S512x512 ![0, 0] a7 slices_S1024x512_S512x512_0_0 := s3_v80 (W8 m ρ c) a7 ((cB8_arg7 m ρ c).trans g7)
  have e81 : V9 m ρ c main_v81 = extractStridedSlice S512x512 ![512, 0] a7 slices_S1024x512_S512x512_512_0 := s3_v81 (W8 m ρ c) a7 ((cB8_arg7 m ρ c).trans g7)
  have e82 : V9 m ρ c main_v82 = shapeCast S1x512 a8 shapeCasts_S512_S1x512 := s3_v82 (W8 m ρ c) a8 ((cB8_arg8 m ρ c).trans g8)
  have h := (W10_arr m ρ c 8).trans (KFinal3.final (V9 m ρ) KBody.out3_8_apply c)
  rw [e70, e77, e78, e79, e54, e80, e81, e82] at h
  rw [row1Of_cast, row1Of_cast, row1Of_cast, row1Of_cast, wtOf_slice_lo, wtOf_slice_hi] at h
  exact h

end Cert.Gcn.KChain

end
-- ==== Proof.KFinal4.lean ====
/-
  Region 4 of the kernel program, a row-blocked matrix product, as one function of the arrays it finds:
  block t of the output holds rows 2000 t … 2000 t + 1999 of (the node matrix) x (the weight matrix).
-/
import proofs.«149262_j25185688224022_2_alg».proof.Proof.Gen.KernelIdeal.Frame
import proofs.«149262_j25185688224022_2_alg».proof.Proof.KFinalLib

noncomputable section

namespace Cert.Gcn.KFinal4

open Cert.KernelIdeal Cert.KernelIdeal.Gen Cert.Gcn Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Idealize.ShloMosaic.Ideal) ((c : Thread nD τ).loc b))

/-- The printed index maps, decided once over the 25 grid points: a row-blocked window's block t starts at row block t,
    a whole-array window's one block at the origin. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ t.val < 25 :=
  (by decide +kernel : ∀ t : Fin grid4.N, _)

/-- Row p of point t's block is row 2000 t + p of the array. -/
def grow (t : Fin cfg4.N) (p : Fin 2000) : Fin 50000 :=
  ⟨2000 * t.val + p.val, by have := (idx_facts t).2.2.2.2.2.2; omega⟩

theorem emb_0 (t : Fin cfg4.N) (p : Fin 2000) (q : Fin 512) :
    ((cfg4.win 0).blk t).view.emb (ix2 p q) = ix2 (grow t p) q := by
  obtain ⟨e0, e1, -, -, -, -, -⟩ := idx_facts t
  funext a; apply Fin.ext
  match a with
  | ⟨0, _⟩ => show win4_0.index t (0 : Fin 2) * 2000 + 1 * p.val = 2000 * t.val + p.val; omega
  | ⟨1, _⟩ => show win4_0.index t (1 : Fin 2) * 512 + 1 * q.val = q.val; omega

theorem emb_1 (t : Fin cfg4.N) (k : Fin 512) (q : Fin 512) :
    ((cfg4.win 1).blk t).view.emb (ix2 k q) = ix2 k q := by
  obtain ⟨-, -, e0, e1, -, -, -⟩ := idx_facts t
  funext a; apply Fin.ext
  match a with
  | ⟨0, _⟩ => show win4_1.index t (0 : Fin 2) * 512 + 1 * k.val = k.val; omega
  | ⟨1, _⟩ => show win4_1.index t (1 : Fin 2) * 512 + 1 * q.val = q.val; omega

theorem emb_2 (t : Fin cfg4.N) (p : Fin 2000) (q : Fin 512) :
    ((cfg4.win 2).blk t).view.emb (ix2 p q) = ix2 (grow t p) q := by
  obtain ⟨-, -, -, -, e0, e1, -⟩ := idx_facts t
  funext a; apply Fin.ext
  match a with
  | ⟨0, _⟩ => show win4_2.index t (0 : Fin 2) * 2000 + 1 * p.val = 2000 * t.val + p.val; omega
  | ⟨1, _⟩ => show win4_2.index t (1 : Fin 2) * 512 + 1 * q.val = q.val; omega

theorem read_0 (c : Dev nD) (t : Fin cfg4.N) (p : Fin 2000) :
    rowOf (iblk4 V c 0 t) p = rowOf (V c main_v83) (grow t p) := by
  funext k
  show V c main_v83 (((cfg4.win 0).blk t).view.emb (ix2 p k)) = V c main_v83 (ix2 (grow t p) k)
  rw [emb_0 t p k]

theorem read_1 (c : Dev nD) (t : Fin cfg4.N) : wtOf (iblk4 V c 1 t) = wtOf (V c main_v85) := by
  funext k q
  show V c main_v85 (((cfg4.win 1).blk t).view.emb (ix2 k q)) = V c main_v85 (ix2 k q)
  rw [emb_1 t k q]

/-- An index of the output array is in point t's block iff each coordinate is in the block's range on its axis. -/
theorem mem_blk (t : Fin cfg4.N) (i : S50000x512.Idx) :
    i ∈ ((cfg4.win 2).blk t).view.set ↔ ∀ a : Fin 2, win4_2.index t a * S2000x512.size a ≤ (i a).val ∧ (i a).val < win4_2.index t a * S2000x512.size a + S2000x512.size a := by
  show i ∈ ((View.whole main_v86).slice (win4_2.rect t)).set ↔ _
  rw [View.set_slice_whole, Rect.mem_set_unit]
  exact Iff.rfl

/-- Row n of the output lies in the block of point n / 2000: the 25 blocks of 2000 rows cover the 50000 rows. -/
theorem cover (i : S50000x512.Idx) : ∃ t : Fin cfg4.N, (cfg4.win 2).flush t = true ∧ i ∈ ((cfg4.win 2).blk t).view.set := by
  have hi0 : (i 0).val < 50000 := (i 0).isLt
  have hi1 : (i 1).val < 512 := (i 1).isLt
  have hN : cfg4.N = 25 := N_4
  have ht : (i 0).val / 2000 < cfg4.N := by rw [hN]; omega
  refine ⟨⟨(i 0).val / 2000, ht⟩, flush4_2 _, ?_⟩
  rw [mem_blk]
  obtain ⟨-, -, -, -, e0, e1, -⟩ := idx_facts ⟨(i 0).val / 2000, ht⟩
  intro a
  match a with
  | ⟨0, _⟩ =>
    show win4_2.index ⟨(i 0).val / 2000, ht⟩ (0 : Fin 2) * 2000 ≤ (i 0).val ∧ (i 0).val < win4_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_2.index ⟨(i 0).val / 2000, ht⟩ (1 : Fin 2) * 512 ≤ (i 1).val ∧ (i 1).val < win4_2.index ⟨(i 0).val / 2000, ht⟩ (1 : Fin 2) * 512 + 512
    rw [e1]; omega

section
/- What the body leaves at one entry of its output block, as a function of its input blocks (proved where the body's
   arithmetic is read). -/
variable (hpay : ∀ (x0 : Vec Idealize.ShloMosaic.Ideal S2000x512 .f32) (x1 : Vec Idealize.ShloMosaic.Ideal S512x512 .f32) (r : Fin 2000) (j : Fin 512),
      out4_2 (F := Idealize.ShloMosaic.Ideal) x0 x1 (ix2 r j) = mmRow (rowOf x0 r) (wtOf x1) j)
include hpay

/-- What point t writes back is block t of the region's whole-array function. -/
theorem flushed_eq (c : Dev nD) (t : Fin cfg4.N) :
    (dat4 V c).flushed 2 t = ((cfg4.win 2).blk t).view.read (Elt Idealize.ShloMosaic.Ideal)
      (mmMat (V c main_v83) (wtOf (V c main_v85))) := by
  show (cfg4.win 2).cut (grid4.coords t) ((dat4 V c).after 2 t) = _
  rw [after4_2]
  funext j
  obtain ⟨p, q, rfl⟩ : ∃ (p : Fin 2000) (q : Fin 512), j = ix2 p q := ⟨j 0, j 1, eq_ix2 j⟩
  show out4_2 (iblk4 V c 0 t) (iblk4 V c 1 t) (ix2 p q)
    = (mmMat (V c main_v83) (wtOf (V c main_v85))) (((cfg4.win 2).blk t).view.emb (ix2 p q))
  rw [emb_2 t p q]
  refine (hpay (iblk4 V c 0 t) (iblk4 V c 1 t) p q).trans ?_
  rw [read_0 V c t p, read_1 V c t]
  rfl

/-- Region 4's output array after the region: the product of the node matrix and the weight matrix it found. -/
theorem final (c : Dev nD) : (dat4 V c).arrAt 2 cfg4.N = mmMat (V c main_v83) (wtOf (V c main_v85)) :=
  (dat4 V c).arrAt_eq_of_cover 2 _ (fun t _ => flushed_eq V hpay c t) cover
end

end Cert.Gcn.KFinal4

end
-- ==== Proof.KFinal5.lean ====
/-
  Region 5 of the kernel program (layer normalisation, the gated mix, tanh and the weighted original rows) as one
  function of the arrays it finds.
-/
import proofs.«149262_j25185688224022_2_alg».proof.Proof.Gen.KernelIdeal.Frame
import proofs.«149262_j25185688224022_2_alg».proof.Proof.KFinalLib

noncomputable section

namespace Cert.Gcn.KFinal5

open Cert.KernelIdeal Cert.KernelIdeal.Gen Cert.Gcn Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Idealize.ShloMosaic.Ideal) ((c : Thread nD τ).loc b))

/-- The printed index maps, decided once over the 25 grid points: a row-blocked window's block t starts at row block t,
    a whole-array window's one block at the origin. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0
    ∧ win5_9.index t (0 : Fin 2) = 0 ∧ win5_9.index t (1 : Fin 2) = 0
    ∧ win5_10.index t (0 : Fin 2) = t.val ∧ win5_10.index t (1 : Fin 2) = 0
    ∧ t.val < 25 :=
  (by decide +kernel : ∀ t : Fin grid5.N, _)

/-- Row p of point t's block is row 2000 t + p of the array. -/
def grow (t : Fin cfg5.N) (p : Fin 2000) : Fin 50000 :=
  ⟨2000 * t.val + p.val, by have := (idx_facts t).2.2.2.2.2.2.2.2.2.2.2.2.2.2.2.2.2.2.2.2.2.2; omega⟩

theorem emb_0 (t : Fin cfg5.N) (p : Fin 2000) (q : Fin 512) :
    ((cfg5.win 0).blk t).view.emb (ix2 p q) = ix2 (grow t p) q := by
  obtain ⟨e0, e1, -, -, -, -, -, -, -, -, -, -, -, -, -, -, -, -, -, -, -, -, -⟩ := idx_facts t
  funext a; apply Fin.ext
  match a with
  | ⟨0, _⟩ => show win5_0.index t (0 : Fin 2) * 2000 + 1 * p.val = 2000 * t.val + p.val; omega
  | ⟨1, _⟩ => show win5_0.index t (1 : Fin 2) * 512 + 1 * q.val = q.val; omega

theorem emb_1 (t : Fin cfg5.N) (q : Fin 512) :
    ((cfg5.win 1).blk t).view.emb (ix2 (0 : Fin 1) q) = ix2 (0 : Fin 1) q := by
  obtain ⟨-, -, e0, e1, -, -, -, -, -, -, -, -, -, -, -, -, -, -, -, -, -, -, -⟩ := idx_facts t
  funext a; apply Fin.ext
  match a with
  | ⟨0, _⟩ => show win5_1.index t (0 : Fin 2) * 1 + 1 * (0 : Fin 1).val = (0 : Fin 1).val; omega
  | ⟨1, _⟩ => show win5_1.index t (1 : Fin 2) * 512 + 1 * q.val = q.val; omega

theorem emb_2 (t : Fin cfg5.N) (q : Fin 512) :
    ((cfg5.win 2).blk t).view.emb (ix2 (0 : Fin 1) q) = ix2 (0 : Fin 1) q := by
  obtain ⟨-, -, -, -, e0, e1, -, -, -, -, -, -, -, -, -, -, -, -, -, -, -, -, -⟩ := idx_facts t
  funext a; apply Fin.ext
  match a with
  | ⟨0, _⟩ => show win5_2.index t (0 : Fin 2) * 1 + 1 * (0 : Fin 1).val = (0 : Fin 1).val; omega
  | ⟨1, _⟩ => show win5_2.index t (1 : Fin 2) * 512 + 1 * q.val = q.val; omega

theorem emb_3 (t : Fin cfg5.N) (q : Fin 512) :
    ((cfg5.win 3).blk t).view.emb (ix2 (0 : Fin 1) q) = ix2 (0 : Fin 1) q := by
  obtain ⟨-, -, -, -, -, -, e0, e1, -, -, -, -, -, -, -, -, -, -, -, -, -, -, -⟩ := idx_facts t
  funext a; apply Fin.ext
  match a with
  | ⟨0, _⟩ => show win5_3.index t (0 : Fin 2) * 1 + 1 * (0 : Fin 1).val = (0 : Fin 1).val; omega
  | ⟨1, _⟩ => show win5_3.index t (1 : Fin 2) * 512 + 1 * q.val = q.val; omega

theorem emb_4 (t : Fin cfg5.N) (p : Fin 2000) (q : Fin 512) :
    ((cfg5.win 4).blk t).view.emb (ix2 p q) = ix2 (grow t p) q := by
  obtain ⟨-, -, -, -, -, -, -, -, e0, e1, -, -, -, -, -, -, -, -, -, -, -, -, -⟩ := idx_facts t
  funext a; apply Fin.ext
  match a with
  | ⟨0, _⟩ => show win5_4.index t (0 : Fin 2) * 2000 + 1 * p.val = 2000 * t.val + p.val; omega
  | ⟨1, _⟩ => show win5_4.index t (1 : Fin 2) * 512 + 1 * q.val = q.val; omega

theorem emb_5 (t : Fin cfg5.N) (k : Fin 512) (q : Fin 512) :
    ((cfg5.win 5).blk t).view.emb (ix2 k q) = ix2 k q := by
  obtain ⟨-, -, -, -, -, -, -, -, -, -, e0, e1, -, -, -, -, -, -, -, -, -, -, -⟩ := idx_facts t
  funext a; apply Fin.ext
  match a with
  | ⟨0, _⟩ => show win5_5.index t (0 : Fin 2) * 512 + 1 * k.val = k.val; omega
  | ⟨1, _⟩ => show win5_5.index t (1 : Fin 2) * 512 + 1 * q.val = q.val; omega

theorem emb_6 (t : Fin cfg5.N) (k : Fin 512) (q : Fin 512) :
    ((cfg5.win 6).blk t).view.emb (ix2 k q) = ix2 k q := by
  obtain ⟨-, -, -, -, -, -, -, -, -, -, -, -, e0, e1, -, -, -, -, -, -, -, -, -⟩ := idx_facts t
  funext a; apply Fin.ext
  match a with
  | ⟨0, _⟩ => show win5_6.index t (0 : Fin 2) * 512 + 1 * k.val = k.val; omega
  | ⟨1, _⟩ => show win5_6.index t (1 : Fin 2) * 512 + 1 * q.val = q.val; omega

theorem emb_7 (t : Fin cfg5.N) (q : Fin 512) :
    ((cfg5.win 7).blk t).view.emb (ix2 (0 : Fin 1) q) = ix2 (0 : Fin 1) q := by
  obtain ⟨-, -, -, -, -, -, -, -, -, -, -, -, -, -, e0, e1, -, -, -, -, -, -, -⟩ := idx_facts t
  funext a; apply Fin.ext
  match a with
  | ⟨0, _⟩ => show win5_7.index t (0 : Fin 2) * 1 + 1 * (0 : Fin 1).val = (0 : Fin 1).val; omega
  | ⟨1, _⟩ => show win5_7.index t (1 : Fin 2) * 512 + 1 * q.val = q.val; omega

theorem emb_8 (t : Fin cfg5.N) (p : Fin 2000) (q : Fin 512) :
    ((cfg5.win 8).blk t).view.emb (ix2 p q) = ix2 (grow t p) q := by
  obtain ⟨-, -, -, -, -, -, -, -, -, -, -, -, -, -, -, -, e0, e1, -, -, -, -, -⟩ := idx_facts t
  funext a; apply Fin.ext
  match a with
  | ⟨0, _⟩ => show win5_8.index t (0 : Fin 2) * 2000 + 1 * p.val = 2000 * t.val + p.val; omega
  | ⟨1, _⟩ => show win5_8.index t (1 : Fin 2) * 512 + 1 * q.val = q.val; omega

theorem emb_9 (t : Fin cfg5.N) :
    ((cfg5.win 9).blk t).view.emb (ix2 (0 : Fin 1) (0 : Fin 1)) = ix2 (0 : Fin 1) (0 : Fin 1) := by
  obtain ⟨-, -, -, -, -, -, -, -, -, -, -, -, -, -, -, -, -, -, e0, e1, -, -, -⟩ := idx_facts t
  funext a; apply Fin.ext
  match a with
  | ⟨0, _⟩ => show win5_9.index t (0 : Fin 2) * 1 + 1 * (0 : Fin 1).val = (0 : Fin 1).val; omega
  | ⟨1, _⟩ => show win5_9.index t (1 : Fin 2) * 1 + 1 * (0 : Fin 1).val = (0 : Fin 1).val; omega

theorem emb_10 (t : Fin cfg5.N) (p : Fin 2000) (q : Fin 512) :
    ((cfg5.win 10).blk t).view.emb (ix2 p q) = ix2 (grow t p) q := by
  obtain ⟨-, -, -, -, -, -, -, -, -, -, -, -, -, -, -, -, -, -, -, -, e0, e1, -⟩ := idx_facts t
  funext a; apply Fin.ext
  match a with
  | ⟨0, _⟩ => show win5_10.index t (0 : Fin 2) * 2000 + 1 * p.val = 2000 * t.val + p.val; omega
  | ⟨1, _⟩ => show win5_10.index t (1 : Fin 2) * 512 + 1 * q.val = q.val; omega

theorem read_0 (c : Dev nD) (t : Fin cfg5.N) (p : Fin 2000) :
    rowOf (iblk5 V c 0 t) p = rowOf (V c main_v99) (grow t p) := by
  funext k
  show V c main_v99 (((cfg5.win 0).blk t).view.emb (ix2 p k)) = V c main_v99 (ix2 (grow t p) k)
  rw [emb_0 t p k]

theorem read_1 (c : Dev nD) (t : Fin cfg5.N) : row1Of (iblk5 V c 1 t) = row1Of (V c main_v106) := by
  funext q
  show V c main_v106 (((cfg5.win 1).blk t).view.emb (ix2 (0 : Fin 1) q)) = V c main_v106 (ix2 (0 : Fin 1) q)
  rw [emb_1 t q]

theorem read_2 (c : Dev nD) (t : Fin cfg5.N) : row1Of (iblk5 V c 2 t) = row1Of (V c main_v107) := by
  funext q
  show V c main_v107 (((cfg5.win 2).blk t).view.emb (ix2 (0 : Fin 1) q)) = V c main_v107 (ix2 (0 : Fin 1) q)
  rw [emb_2 t q]

theorem read_3 (c : Dev nD) (t : Fin cfg5.N) : row1Of (iblk5 V c 3 t) = row1Of (V c main_v108) := by
  funext q
  show V c main_v108 (((cfg5.win 3).blk t).view.emb (ix2 (0 : Fin 1) q)) = V c main_v108 (ix2 (0 : Fin 1) q)
  rw [emb_3 t q]

theorem read_4 (c : Dev nD) (t : Fin cfg5.N) (p : Fin 2000) :
    rowOf (iblk5 V c 4 t) p = rowOf (V c main_v83) (grow t p) := by
  funext k
  show V c main_v83 (((cfg5.win 4).blk t).view.emb (ix2 p k)) = V c main_v83 (ix2 (grow t p) k)
  rw [emb_4 t p k]

theorem read_5 (c : Dev nD) (t : Fin cfg5.N) : wtOf (iblk5 V c 5 t) = wtOf (V c main_v109) := by
  funext k q
  show V c main_v109 (((cfg5.win 5).blk t).view.emb (ix2 k q)) = V c main_v109 (ix2 k q)
  rw [emb_5 t k q]

theorem read_6 (c : Dev nD) (t : Fin cfg5.N) : wtOf (iblk5 V c 6 t) = wtOf (V c main_v110) := by
  funext k q
  show V c main_v110 (((cfg5.win 6).blk t).view.emb (ix2 k q)) = V c main_v110 (ix2 k q)
  rw [emb_6 t k q]

theorem read_7 (c : Dev nD) (t : Fin cfg5.N) : row1Of (iblk5 V c 7 t) = row1Of (V c main_v111) := by
  funext q
  show V c main_v111 (((cfg5.win 7).blk t).view.emb (ix2 (0 : Fin 1) q)) = V c main_v111 (ix2 (0 : Fin 1) q)
  rw [emb_7 t q]

theorem read_8 (c : Dev nD) (t : Fin cfg5.N) (p : Fin 2000) :
    rowOf (iblk5 V c 8 t) p = rowOf (V c main_arg1) (grow t p) := by
  funext k
  show V c main_arg1 (((cfg5.win 8).blk t).view.emb (ix2 p k)) = V c main_arg1 (ix2 (grow t p) k)
  rw [emb_8 t p k]

theorem read_9 (c : Dev nD) (t : Fin cfg5.N) :
    iblk5 V c 9 t (ix2 (0 : Fin 1) (0 : Fin 1)) = V c main_v112 (ix2 (0 : Fin 1) (0 : Fin 1)) := by
  show V c main_v112 (((cfg5.win 9).blk t).view.emb (ix2 (0 : Fin 1) (0 : Fin 1))) = V c main_v112 (ix2 (0 : Fin 1) (0 : Fin 1))
  rw [emb_9 t]

/-- An index of the output array is in point t's block iff each coordinate is in the block's range on its axis. -/
theorem mem_blk (t : Fin cfg5.N) (i : S50000x512.Idx) :
    i ∈ ((cfg5.win 10).blk t).view.set ↔ ∀ a : Fin 2, win5_10.index t a * S2000x512.size a ≤ (i a).val ∧ (i a).val < win5_10.index t a * S2000x512.size a + S2000x512.size a := by
  show i ∈ ((View.whole main_v113).slice (win5_10.rect t)).set ↔ _
  rw [View.set_slice_whole, Rect.mem_set_unit]
  exact Iff.rfl

/-- Row n of the output lies in the block of point n / 2000: the 25 blocks of 2000 rows cover the 50000 rows. -/
theorem cover (i : S50000x512.Idx) : ∃ t : Fin cfg5.N, (cfg5.win 10).flush t = true ∧ i ∈ ((cfg5.win 10).blk t).view.set := by
  have hi0 : (i 0).val < 50000 := (i 0).isLt
  have hi1 : (i 1).val < 512 := (i 1).isLt
  have hN : cfg5.N = 25 := N_5
  have ht : (i 0).val / 2000 < cfg5.N := by rw [hN]; omega
  refine ⟨⟨(i 0).val / 2000, ht⟩, flush5_10 _, ?_⟩
  rw [mem_blk]
  obtain ⟨-, -, -, -, -, -, -, -, -, -, -, -, -, -, -, -, -, -, -, -, e0, e1, -⟩ := idx_facts ⟨(i 0).val / 2000, ht⟩
  intro a
  match a with
  | ⟨0, _⟩ =>
    show win5_10.index ⟨(i 0).val / 2000, ht⟩ (0 : Fin 2) * 2000 ≤ (i 0).val ∧ (i 0).val < win5_10.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win5_10.index ⟨(i 0).val / 2000, ht⟩ (1 : Fin 2) * 512 ≤ (i 1).val ∧ (i 1).val < win5_10.index ⟨(i 0).val / 2000, ht⟩ (1 : Fin 2) * 512 + 512
    rw [e1]; omega

section
/- What the body leaves at one entry of its output block, as a function of its input blocks (proved where the body's
   arithmetic is read). -/
variable (hpay : ∀ (x0 : Vec Idealize.ShloMosaic.Ideal S2000x512 .f32) (x1 x2 x3 : Vec Idealize.ShloMosaic.Ideal S1x512 .f32) (x4 : Vec Idealize.ShloMosaic.Ideal S2000x512 .f32) (x5 x6 : Vec Idealize.ShloMosaic.Ideal S512x512 .f32) (x7 : Vec Idealize.ShloMosaic.Ideal S1x512 .f32) (x8 : Vec Idealize.ShloMosaic.Ideal S2000x512 .f32) (x9 : Vec Idealize.ShloMosaic.Ideal S1x1 .f32) (r : Fin 2000) (j : Fin 512),
      out5_10 (F := Idealize.ShloMosaic.Ideal) x0 x1 x2 x3 x4 x5 x6 x7 x8 x9 (ix2 r j) = finRow (gateRow (lnRow (rowOf x0 r) (row1Of x1) (row1Of x2) (row1Of x3)) (rowOf x4 r) (wtOf x5) (wtOf x6) (row1Of x7)) (rowOf x8 r) (x9 (ix2 (0 : Fin 1) (0 : Fin 1))) j)
include hpay

/-- What point t writes back is block t of the region's whole-array function. -/
theorem flushed_eq (c : Dev nD) (t : Fin cfg5.N) :
    (dat5 V c).flushed 10 t = ((cfg5.win 10).blk t).view.read (Elt Idealize.ShloMosaic.Ideal)
      (finMat (gateMat (lnMat (V c main_v99) (row1Of (V c main_v106)) (row1Of (V c main_v107)) (row1Of (V c main_v108))) (V c main_v83) (wtOf (V c main_v109)) (wtOf (V c main_v110)) (row1Of (V c main_v111))) (V c main_arg1) (V c main_v112 (ix2 (0 : Fin 1) (0 : Fin 1)))) := by
  show (cfg5.win 10).cut (grid5.coords t) ((dat5 V c).after 10 t) = _
  rw [after5_10]
  funext j
  obtain ⟨p, q, rfl⟩ : ∃ (p : Fin 2000) (q : Fin 512), j = ix2 p q := ⟨j 0, j 1, eq_ix2 j⟩
  show out5_10 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (ix2 p q)
    = (finMat (gateMat (lnMat (V c main_v99) (row1Of (V c main_v106)) (row1Of (V c main_v107)) (row1Of (V c main_v108))) (V c main_v83) (wtOf (V c main_v109)) (wtOf (V c main_v110)) (row1Of (V c main_v111))) (V c main_arg1) (V c main_v112 (ix2 (0 : Fin 1) (0 : Fin 1)))) (((cfg5.win 10).blk t).view.emb (ix2 p q))
  rw [emb_10 t p q]
  refine (hpay (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) p q).trans ?_
  rw [read_0 V c t p, read_1 V c t, read_2 V c t, read_3 V c t, read_4 V c t p, read_5 V c t, read_6 V c t, read_7 V c t, read_8 V c t p, read_9 V c t]
  rfl

/-- Region 5's output array after the region: tanh of the gated mix plus the residual weight times the original row. -/
theorem final (c : Dev nD) : (dat5 V c).arrAt 10 cfg5.N = finMat (gateMat (lnMat (V c main_v99) (row1Of (V c main_v106)) (row1Of (V c main_v107)) (row1Of (V c main_v108))) (V c main_v83) (wtOf (V c main_v109)) (wtOf (V c main_v110)) (row1Of (V c main_v111))) (V c main_arg1) (V c main_v112 (ix2 (0 : Fin 1) (0 : Fin 1))) :=
  (dat5 V c).arrAt_eq_of_cover 10 _ (fun t _ => flushed_eq V hpay c t) cover
end

end Cert.Gcn.KFinal5

end
-- ==== Proof.KChainC.lean ====
/-
  The last stretch of the kernel program's run, from the end of the second gated layer to the return: the third layer's
  weight slice, the product of the node matrix by it, the edge step, the layer's bias, scale and shift rows, the gate's
  two weight matrices and bias row and the residual weight, and the last region's result
      finMat (gateMat (lnMat (sc (H2 · W2)) b2 g2 be2) H2 w1 w2 bg) h rw
  as one function of the node matrix H2 the stretch finds and of the argument arrays.
-/
import proofs.«149262_j25185688224022_2_alg».proof.Proof.Gen.KernelIdeal.Frame
import proofs.«149262_j25185688224022_2_alg».proof.Proof.ReadP
import proofs.«149262_j25185688224022_2_alg».proof.Proof.RefSemMM
import proofs.«149262_j25185688224022_2_alg».proof.Proof.KBody
import proofs.«149262_j25185688224022_2_alg».proof.Proof.KChainSteps
import proofs.«149262_j25185688224022_2_alg».proof.Proof.KLayout
import proofs.«149262_j25185688224022_2_alg».proof.Proof.KFinal4
import proofs.«149262_j25185688224022_2_alg».proof.Proof.KFinal5

set_option maxRecDepth 16384

noncomputable section

namespace Cert.Gcn.KChain

open Cert.KernelIdeal Cert.KernelIdeal.Gen Cert.Gcn Idealize.ShloMosaic Idealize.ShloMosaic.TcCoe Idealize.ShloMosaic.ValueIdx
open Idealize.ShloMosaic.StableHlo
open Cert.ReferenceIdeal.ReadP

local notation "ID" => Idealize.ShloMosaic.Ideal

variable [Cert.KernelIdeal.Facts]
variable (m : (ℓ : Loc nD τ sig) → Buf (Elt ID) ℓ) (ρ : Dev nD → PrngReg) (c : Dev nD)

/-! ## What the two host stretches write -/

/-- A buffer of a list, as a one-element set of device buffers, lies in the list's set of device buffers. -/
theorem subC_of_mem {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map.mpr ⟨y, h, rfl⟩))

/-- The buffers the stretch before region 4 writes. -/
abbrev WL4 : List (Ref sig .tc) := [main_v84, main_v85]

theorem hWL4 : (hostOps4 : List (HloOp τ sig (Elt ID))).Forall fun op => op.writes ⊆ (WL4.map (Proc.devRef (τ := τ) .tc)).toFinset := by
  simp only [List.Forall, unary_writes, reshape_writes]
  repeat' apply And.intro
  all_goals exact subC_of_mem (by decide)

/-- The buffers the stretch before region 5 writes. -/
abbrev WL5 : List (Ref sig .tc) :=
  [main_c_13, main_v87, main_v88, main_c_14, main_v89, main_v90, main_v91, main_v92, main_v93, main_v94, main_v95, main_v96,
   main_cst_15, main_v97, main_v98, main_v99, main_v100, main_v101, main_v102, main_v103, main_v104, main_v105, main_v106,
   main_v107, main_v108, main_v109, main_v110, main_v111, main_v112]

theorem hWL5 : (hostOps5 : List (HloOp τ sig (Elt ID))).Forall fun op => op.writes ⊆ (WL5.map (Proc.devRef (τ := τ) .tc)).toFinset := by
  simp only [List.Forall, nullary_writes, unary_writes, binary_writes, ternary_writes, reshape_writes]
  repeat' apply And.intro
  all_goals exact subC_of_mem (by decide)

/-- A buffer the stretch before region 4 does not write keeps its contents. -/
theorem W11_carry (r : Ref sig .tc) (hr : r ∉ WL4) :
    W11 m ρ c (Proc.devRef .tc r) = W10 m ρ c (Proc.devRef .tc r) :=
  after_of_writes_sub hostOps4 (W10 m ρ c) hWL4 hr

/-- A buffer the stretch before region 5 does not write keeps its contents. -/
theorem W13_carry (r : Ref sig .tc) (hr : r ∉ WL5) :
    W13 m ρ c (Proc.devRef .tc r) = W12 m ρ c (Proc.devRef .tc r) :=
  after_of_writes_sub hostOps5 (W12 m ρ c) hWL5 hr

/-- A buffer that is none of region 4's arrays, and that the stretch before it does not write, leaves region 4 as it
    was at the end of region 3. -/
theorem W12_carry (r : Ref sig .tc) (hb : ∀ w, Pipeline.arrRef spec4 w ≠ r) (hr : r ∉ WL4) :
    W12 m ρ c (Proc.devRef .tc r) = W10 m ρ c (Proc.devRef .tc r) :=
  (W12_of_ne m ρ c r hb).trans (W11_carry m ρ c r hr)

/-! ## Region 4: the product of the node matrix by the third layer's weight matrix -/

/-- The third layer's weight matrix at region 4's entry. -/
theorem W11_v85 (a3 : (⟨S3x512x512, .f32⟩ : BufTy).Contents (Elt ID)) (g3 : W10 m ρ c (Proc.devRef .tc main_arg3) = a3) :
    W11 m ρ c (Proc.devRef .tc main_v85) = val_main_v144 (F := ID) a3 :=
  s4_v85 (W10 m ρ c) a3 g3

/-- Region 4 leaves the product of the node matrix it finds by the third layer's weight matrix. -/
theorem W12_v86 (a3 : (⟨S3x512x512, .f32⟩ : BufTy).Contents (Elt ID)) (H2 : Mat 50000) (f83 : W10 m ρ c (Proc.devRef .tc main_v83) = H2) (g3 : W10 m ρ c (Proc.devRef .tc main_arg3) = a3) :
    W12 m ρ c (Proc.devRef .tc main_v86) = mmMat H2 (wtOf (val_main_v144 (F := ID) a3)) := by
  have e83 : V11 m ρ c main_v83 = H2 := (W11_carry m ρ c main_v83 (by decide)).trans f83
  have e85 : V11 m ρ c main_v85 = val_main_v144 (F := ID) a3 := W11_v85 m ρ c a3 g3
  refine (W12_arr m ρ c 2).trans ((KFinal4.final (V11 m ρ) KBody.out4_2_apply c).trans ?_)
  rw [e83, e85]

/-- Region 4 reads the node matrix and leaves it as it was. -/
theorem W12_v83 (H2 : Mat 50000) (f83 : W10 m ρ c (Proc.devRef .tc main_v83) = H2) :
    W12 m ρ c (Proc.devRef .tc main_v83) = H2 :=
  ((W12_arr m ρ c 0).trans (((dat4 (V11 m ρ) c).arrAt_in 0 rfl _).trans (A_eq4 (V11 m ρ) c 0))).trans
    ((W11_carry m ρ c main_v83 (by decide)).trans f83)

/-! ## The stretch before region 5 -/

/-- The edge step of the product. -/
theorem W13_v99 (a2 : (⟨S2x160000, .i32⟩ : BufTy).Contents (Elt ID)) (a3 : (⟨S3x512x512, .f32⟩ : BufTy).Contents (Elt ID)) (H2 : Mat 50000) (f83 : W10 m ρ c (Proc.devRef .tc main_v83) = H2) (f1 : W10 m ρ c (Proc.devRef .tc main_v1) = val_main_v1 (F := ID) a2) (f3 : W10 m ρ c (Proc.devRef .tc main_v3) = val_main_v3 (F := ID) a2) (f28 : W10 m ρ c (Proc.devRef .tc main_v28) = val_main_v28 (F := ID) a2) (g3 : W10 m ρ c (Proc.devRef .tc main_arg3) = a3) :
    W13 m ρ c (Proc.devRef .tc main_v99) = Ref.sc a2 (mmMat H2 (wtOf (val_main_v144 (F := ID) a3))) :=
  s5_v99 (W12 m ρ c) a2 _ ((W12_carry m ρ c main_v1 (by decide) (by decide)).trans f1)
    ((W12_carry m ρ c main_v3 (by decide) (by decide)).trans f3)
    ((W12_carry m ρ c main_v28 (by decide) (by decide)).trans f28) (W12_v86 m ρ c a3 H2 f83 g3)

/-- The third layer's bias row. -/
theorem W13_v106 (a4 : (⟨S3x512, .f32⟩ : BufTy).Contents (Elt ID)) (g4 : W10 m ρ c (Proc.devRef .tc main_arg4) = a4) :
    W13 m ρ c (Proc.devRef .tc main_v106) = shapeCast S1x512 (val_main_v146 (F := ID) a4) shapeCasts_S512_S1x512 :=
  s5_v106 (W12 m ρ c) a4 ((W12_carry m ρ c main_arg4 (by decide) (by decide)).trans g4)

/-- The third layer's scale row. -/
theorem W13_v107 (a5 : (⟨S3x512, .f32⟩ : BufTy).Contents (Elt ID)) (g5 : W10 m ρ c (Proc.devRef .tc main_arg5) = a5) :
    W13 m ρ c (Proc.devRef .tc main_v107) = shapeCast S1x512 (val_main_v165 (F := ID) a5) shapeCasts_S512_S1x512 :=
  s5_v107 (W12 m ρ c) a5 ((W12_carry m ρ c main_arg5 (by decide) (by decide)).trans g5)

/-- The third layer's shift row. -/
theorem W13_v108 (a6 : (⟨S3x512, .f32⟩ : BufTy).Contents (Elt ID)) (g6 : W10 m ρ c (Proc.devRef .tc main_arg6) = a6) :
    W13 m ρ c (Proc.devRef .tc main_v108) = shapeCast S1x512 (val_main_v167 (F := ID) a6) shapeCasts_S512_S1x512 :=
  s5_v108 (W12 m ρ c) a6 ((W12_carry m ρ c main_arg6 (by decide) (by decide)).trans g6)

/-- The gate's first weight matrix. -/
theorem W13_v109 (a7 : (⟨S1024x512, .f32⟩ : BufTy).Contents (Elt ID)) (g7 : W10 m ρ c (Proc.devRef .tc main_arg7) = a7) :
    W13 m ρ c (Proc.devRef .tc main_v109) = extractStridedSlice S512x512 ![0, 0] a7 slices_S1024x512_S512x512_0_0 :=
  s5_v109 (W12 m ρ c) a7 ((W12_carry m ρ c main_arg7 (by decide) (by decide)).trans g7)

/-- The gate's second weight matrix. -/
theorem W13_v110 (a7 : (⟨S1024x512, .f32⟩ : BufTy).Contents (Elt ID)) (g7 : W10 m ρ c (Proc.devRef .tc main_arg7) = a7) :
    W13 m ρ c (Proc.devRef .tc main_v110) = extractStridedSlice S512x512 ![512, 0] a7 slices_S1024x512_S512x512_512_0 :=
  s5_v110 (W12 m ρ c) a7 ((W12_carry m ρ c main_arg7 (by decide) (by decide)).trans g7)

/-- The gate's bias row. -/
theorem W13_v111 (a8 : (⟨S512, .f32⟩ : BufTy).Contents (Elt ID)) (g8 : W10 m ρ c (Proc.devRef .tc main_arg8) = a8) :
    W13 m ρ c (Proc.devRef .tc main_v111) = shapeCast S1x512 a8 shapeCasts_S512_S1x512 :=
  s5_v111 (W12 m ρ c) a8 ((W12_carry m ρ c main_arg8 (by decide) (by decide)).trans g8)

/-- The residual weight. -/
theorem W13_v112 (a9 : (⟨S_, .f32⟩ : BufTy).Contents (Elt ID)) (g9 : W10 m ρ c (Proc.devRef .tc main_arg9) = a9) :
    W13 m ρ c (Proc.devRef .tc main_v112) = shapeCast S1x1 a9 shapeCasts_S_S1x1 :=
  s5_v112 (W12 m ρ c) a9 ((W12_carry m ρ c main_arg9 (by decide) (by decide)).trans g9)

/-- The node matrix reaches region 5 as region 4 left it. -/
theorem W13_v83 (H2 : Mat 50000) (f83 : W10 m ρ c (Proc.devRef .tc main_v83) = H2) :
    W13 m ρ c (Proc.devRef .tc main_v83) = H2 :=
  (W13_carry m ρ c main_v83 (by decide)).trans (W12_v83 m ρ c H2 f83)

/-- The network's input reaches region 5 untouched. -/
theorem W13_arg1 (a1 : (⟨S50000x512, .f32⟩ : BufTy).Contents (Elt ID)) (g1 : W10 m ρ c (Proc.devRef .tc main_arg1) = a1) :
    W13 m ρ c (Proc.devRef .tc main_arg1) = a1 :=
  (W13_carry m ρ c main_arg1 (by decide)).trans ((W12_carry m ρ c main_arg1 (by decide) (by decide)).trans g1)

/-! ## Region 5: the last layer -/

/-- From the end of region 3 to the return: the result array holds the last layer's value of the node matrix H2 found
    at the end of region 3 and of the argument arrays. -/
theorem segC (a1 : (⟨S50000x512, .f32⟩ : BufTy).Contents (Elt ID)) (a2 : (⟨S2x160000, .i32⟩ : BufTy).Contents (Elt ID)) (a3 : (⟨S3x512x512, .f32⟩ : BufTy).Contents (Elt ID))
    (a4 a5 a6 : (⟨S3x512, .f32⟩ : BufTy).Contents (Elt ID)) (a7 : (⟨S1024x512, .f32⟩ : BufTy).Contents (Elt ID)) (a8 : (⟨S512, .f32⟩ : BufTy).Contents (Elt ID)) (a9 : (⟨S_, .f32⟩ : BufTy).Contents (Elt ID)) (H2 : Mat 50000)
    (f83 : W10 m ρ c (Proc.devRef .tc main_v83) = H2)
    (f1 : W10 m ρ c (Proc.devRef .tc main_v1) = val_main_v1 (F := ID) a2) (f3 : W10 m ρ c (Proc.devRef .tc main_v3) = val_main_v3 (F := ID) a2) (f28 : W10 m ρ c (Proc.devRef .tc main_v28) = val_main_v28 (F := ID) a2)
    (g1 : W10 m ρ c (Proc.devRef .tc main_arg1) = a1) (g3 : W10 m ρ c (Proc.devRef .tc main_arg3) = a3) (g4 : W10 m ρ c (Proc.devRef .tc main_arg4) = a4) (g5 : W10 m ρ c (Proc.devRef .tc main_arg5) = a5) (g6 : W10 m ρ c (Proc.devRef .tc main_arg6) = a6) (g7 : W10 m ρ c (Proc.devRef .tc main_arg7) = a7) (g8 : W10 m ρ c (Proc.devRef .tc main_arg8) = a8) (g9 : W10 m ρ c (Proc.devRef .tc main_arg9) = a9) :
    W14 m ρ c (Proc.devRef .tc main_v113)
      = finMat (gateMat (lnMat (Ref.sc a2 (mmMat H2 (wtOf (val_main_v144 (F := ID) a3)))) (vecOf (val_main_v146 (F := ID) a4))
          (vecOf (val_main_v165 (F := ID) a5)) (vecOf (val_main_v167 (F := ID) a6))) H2 (gateW1 a7) (gateW2 a7) (vecOf a8)) a1 (a9 ix0) := by
  have e99 : V13 m ρ c main_v99 = Ref.sc a2 (mmMat H2 (wtOf (val_main_v144 (F := ID) a3))) :=
    W13_v99 m ρ c a2 a3 H2 f83 f1 f3 f28 g3
  have e106 : V13 m ρ c main_v106 = shapeCast S1x512 (val_main_v146 (F := ID) a4) shapeCasts_S512_S1x512 := W13_v106 m ρ c a4 g4
  have e107 : V13 m ρ c main_v107 = shapeCast S1x512 (val_main_v165 (F := ID) a5) shapeCasts_S512_S1x512 := W13_v107 m ρ c a5 g5
  have e108 : V13 m ρ c main_v108 = shapeCast S1x512 (val_main_v167 (F := ID) a6) shapeCasts_S512_S1x512 := W13_v108 m ρ c a6 g6
  have e83 : V13 m ρ c main_v83 = H2 := W13_v83 m ρ c H2 f83
  have e109 : V13 m ρ c main_v109 = extractStridedSlice S512x512 ![0, 0] a7 slices_S1024x512_S512x512_0_0 := W13_v109 m ρ c a7 g7
  have e110 : V13 m ρ c main_v110 = extractStridedSlice S512x512 ![512, 0] a7 slices_S1024x512_S512x512_512_0 := W13_v110 m ρ c a7 g7
  have e111 : V13 m ρ c main_v111 = shapeCast S1x512 a8 shapeCasts_S512_S1x512 := W13_v111 m ρ c a8 g8
  have e1 : V13 m ρ c main_arg1 = a1 := W13_arg1 m ρ c a1 g1
  have e112 : V13 m ρ c main_v112 = shapeCast S1x1 a9 shapeCasts_S_S1x1 := W13_v112 m ρ c a9 g9
  refine (W14_arr m ρ c 10).trans ((KFinal5.final (V13 m ρ) KBody.out5_10_apply c).trans ?_)
  rw [e99, e106, e107, e108, e83, e109, e110, e111, e1, e112]
  rw [row1Of_cast, row1Of_cast, row1Of_cast, row1Of_cast, wtOf_slice_lo, wtOf_slice_hi, cast_scalar]

end Cert.Gcn.KChain

end
-- ==== Proof.KChainRun.lean ====
/-
  The result array of the idealized kernel program after its run is the network of the argument arrays: the three
  layers' boundary facts chained, the buffers a later layer reads carried from where they were written.
-/
import proofs.«149262_j25185688224022_2_alg».proof.Proof.Gen.KernelIdeal.Frame
import proofs.«149262_j25185688224022_2_alg».proof.Proof.ReadP
import proofs.«149262_j25185688224022_2_alg».proof.Proof.RefSemMM
import proofs.«149262_j25185688224022_2_alg».proof.Proof.KChainA
import proofs.«149262_j25185688224022_2_alg».proof.Proof.KChainB
import proofs.«149262_j25185688224022_2_alg».proof.Proof.KChainC
set_option maxRecDepth 16384

noncomputable section

namespace Cert.Gcn.KChain

open Cert.KernelIdeal Cert.KernelIdeal.Gen Cert.Gcn Idealize.ShloMosaic Idealize.ShloMosaic.TcCoe Idealize.ShloMosaic.ValueIdx
open Idealize.ShloMosaic.StableHlo
open Cert.ReferenceIdeal.ReadP

local notation "ID" => Idealize.ShloMosaic.Ideal

variable [Cert.KernelIdeal.Facts]
variable (m : (ℓ : Loc nD τ sig) → Buf (Elt ID) ℓ) (ρ : Dev nD → PrngReg)

theorem kernel_value (c : Dev nD) :
    W14 m ρ c (Proc.devRef .tc main_v113) = net (Ref.sc (m ((c : Thread nD τ).loc main_arg2))) (m ((c : Thread nD τ).loc main_arg1)) (wtOf (val_main_v30 (F := ID) (m ((c : Thread nD τ).loc main_arg3)))) (wtOf (val_main_v79 (F := ID) (m ((c : Thread nD τ).loc main_arg3)))) (wtOf (val_main_v144 (F := ID) (m ((c : Thread nD τ).loc main_arg3))))
      (vecOf (val_main_v32 (F := ID) (m ((c : Thread nD τ).loc main_arg4)))) (vecOf (val_main_v51 (F := ID) (m ((c : Thread nD τ).loc main_arg5)))) (vecOf (val_main_v53 (F := ID) (m ((c : Thread nD τ).loc main_arg6))))
      (vecOf (val_main_v81 (F := ID) (m ((c : Thread nD τ).loc main_arg4)))) (vecOf (val_main_v100 (F := ID) (m ((c : Thread nD τ).loc main_arg5)))) (vecOf (val_main_v102 (F := ID) (m ((c : Thread nD τ).loc main_arg6))))
      (vecOf (val_main_v146 (F := ID) (m ((c : Thread nD τ).loc main_arg4)))) (vecOf (val_main_v165 (F := ID) (m ((c : Thread nD τ).loc main_arg5)))) (vecOf (val_main_v167 (F := ID) (m ((c : Thread nD τ).loc main_arg6))))
      (gateW1 (m ((c : Thread nD τ).loc main_arg7))) (gateW2 (m ((c : Thread nD τ).loc main_arg7))) (vecOf (m ((c : Thread nD τ).loc main_arg8))) ((m ((c : Thread nD τ).loc main_arg9)) ix0) := by
  have hB := segB m ρ c (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) _
    (w6_v54 m ρ c) (w6_v1 m ρ c) (w6_v3 m ρ c) (w6_v28 m ρ c)
    (w6_arg3 m ρ c) (w6_arg4 m ρ c) (w6_arg5 m ρ c) (w6_arg6 m ρ c) (w6_arg7 m ρ c) (w6_arg8 m ρ c)
  have hC := segC m ρ c (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) _
    hB ((carryB_v1 m ρ c).trans (w6_v1 m ρ c)) ((carryB_v3 m ρ c).trans (w6_v3 m ρ c)) ((carryB_v28 m ρ c).trans (w6_v28 m ρ c))
    ((carryB_arg1 m ρ c).trans (w6_arg1 m ρ c)) ((carryB_arg3 m ρ c).trans (w6_arg3 m ρ c)) ((carryB_arg4 m ρ c).trans (w6_arg4 m ρ c))
    ((carryB_arg5 m ρ c).trans (w6_arg5 m ρ c)) ((carryB_arg6 m ρ c).trans (w6_arg6 m ρ c)) ((carryB_arg7 m ρ c).trans (w6_arg7 m ρ c))
    ((carryB_arg8 m ρ c).trans (w6_arg8 m ρ c)) ((carryB_arg9 m ρ c).trans (w6_arg9 m ρ c))
  exact hC

end Cert.Gcn.KChain

end
-- ==== Proof.lean ====
/-
  Three programs.  The kernel program is a three-layer graph network on 50000 nodes of 512 features: per layer a
  matrix product by the layer's weights, the edge step (gather the product's rows along the edge sources, scale, add up
  at the edge targets), then bias and row normalisation with scale and shift, from the second layer on a gate mixing
  the new rows with the old ones, and at the end tanh plus the residual weight times the original rows.  The
  idealized kernel program is the same text read at the ideal values (floats are extended reals, operations exact).
  The idealized reference computes the same network in whole-array operations.

  The kernel program and its idealization run to the end and leave their argument arrays unchanged, and so does the
  reference.  At the ideal values the kernel's result array and the reference's both end at ONE function of the
  argument arrays, the network `Cert.Gcn.net` (Proof/Spec.lean): the reference by reading its operations one stage
  at a time (Proof/RefRun.lean, Proof/RefSem.lean), the kernel by following its regions' output windows and reading
  each region's body row by row (Proof/KRun.lean, Proof/KChainRun.lean).  So from memories that agree on the
  arguments the two end with equal results (Proof/Assemble.lean).
-/
import proofs.«149262_j25185688224022_2_alg».proof.Defs
import proofs.«149262_j25185688224022_2_alg».proof.Proof.Gen.Kernel
import proofs.«149262_j25185688224022_2_alg».proof.Proof.Gen.Kernel.Skeleton
import proofs.«149262_j25185688224022_2_alg».proof.Proof.Gen.Kernel.Launch
import proofs.«149262_j25185688224022_2_alg».proof.Proof.Gen.Kernel.Points
import proofs.«149262_j25185688224022_2_alg».proof.Proof.Gen.Kernel.Frame
import proofs.«149262_j25185688224022_2_alg».proof.Proof.Gen.KernelIdeal
import proofs.«149262_j25185688224022_2_alg».proof.Proof.Gen.KernelIdeal.Skeleton
import proofs.«149262_j25185688224022_2_alg».proof.Proof.Gen.KernelIdeal.Launch
import proofs.«149262_j25185688224022_2_alg».proof.Proof.Gen.KernelIdeal.Points
import proofs.«149262_j25185688224022_2_alg».proof.Proof.Gen.KernelIdeal.Frame
import proofs.«149262_j25185688224022_2_alg».proof.Proof.Gen.ReferenceIdeal
import proofs.«149262_j25185688224022_2_alg».proof.Proof.Gen.Pre_finite_inputs
import Idealize.ShloMosaic.Adequacy
import Idealize.ShloMosaic.Init
import proofs.«149262_j25185688224022_2_alg».proof.Proof.Assemble
import proofs.«149262_j25185688224022_2_alg».proof.Proof.KChainRun

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Gcn.Assemble.frame_p, Cert.Gcn.Assemble.frame_pi, Cert.Gcn.Assemble.frame_ri, Cert.Gcn.Assemble.preserves,
  Cert.Gcn.Assemble.algebraic_of fun m ρ c => @Cert.Gcn.KChain.kernel_value Cert.KernelIdeal.Gen.facts m ρ c⟩

end Cert.Proof

end
